-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x3 : Shape := ⟨2, ![2048, 3]⟩
abbrev S2048x3x3 : Shape := ⟨3, ![2048, 3, 3]⟩
abbrev S2048x16 : Shape := ⟨2, ![2048, 16]⟩
abbrev S32x16 : Shape := ⟨2, ![32, 16]⟩
abbrev S32 : Shape := ⟨1, ![32]⟩
abbrev S32x32 : Shape := ⟨2, ![32, 32]⟩
abbrev S8x3 : Shape := ⟨2, ![8, 3]⟩
abbrev S8 : Shape := ⟨1, ![8]⟩
abbrev S32x8 : Shape := ⟨2, ![32, 8]⟩
abbrev S_ : Shape := ⟨0, ![]⟩

class Facts : Prop where
  bcast_S_S2048x3 : S_.BroadcastsInDim S2048x3 (![] : Fin 0 → Fin S2048x3.rank)
  reducesTo_S2048x3_S_d0_1 : S2048x3.ReducesTo [0, 1] S_
  h_S_ : 0 < S_.numel
  bcast_S_S2048x3x3 : S_.BroadcastsInDim S2048x3x3 (![] : Fin 0 → Fin S2048x3x3.rank)
  reducesTo_S2048x3x3_S_d0_1_2 : S2048x3x3.ReducesTo [0, 1, 2] S_
  bcast_S_S2048x16 : S_.BroadcastsInDim S2048x16 (![] : Fin 0 → Fin S2048x16.rank)
  reducesTo_S2048x16_S_d0_1 : S2048x16.ReducesTo [0, 1] S_
  bcast_S_S32x16 : S_.BroadcastsInDim S32x16 (![] : Fin 0 → Fin S32x16.rank)
  reducesTo_S32x16_S_d0_1 : S32x16.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S8x3 : S_.BroadcastsInDim S8x3 (![] : Fin 0 → Fin S8x3.rank)
  reducesTo_S8x3_S_d0_1 : S8x3.ReducesTo [0, 1] S_
  bcast_S_S8 : S_.BroadcastsInDim S8 (![] : Fin 0 → Fin S8.rank)
  reducesTo_S8_S_d0 : S8.ReducesTo [0] S_
  bcast_S_S32x8 : S_.BroadcastsInDim S32x8 (![] : Fin 0 → Fin S32x8.rank)
  reducesTo_S32x8_S_d0_1 : S32x8.ReducesTo [0, 1] S_

variable [Facts]

def fn_part5 {F : FTy → Type} [FloatOps F] (main_arg18 : FVec F S32 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg18
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  main_v93

def fn_part4 {F : FTy → Type} [FloatOps F] (main_arg14 : FVec F S32 .f32) (main_arg15 : FVec F S32x32 .f32) (main_arg16 : FVec F S32 .f32) (main_arg17 : FVec F S32 .f32) (main_arg18 : FVec F S32 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x32 .f32 := Host.absf main_arg15
  let main_cst_28 : FVec F S_ .f32 := constant S_ .f32 0x7F800000#32
  let main_v75 : FVec F S32x32 .f32 := broadcastInDim S32x32 ![] bcast_S_S32x32 main_cst_28
  let main_v76 : IVec S32x32 1 := cmpf .olt main_v74 main_v75
  let main_c_29 : IVec S_ 1 := constantI S_ 1 1#1
  let main_v77 : IVec S_ 1 := (fun x v => Host.reduce IntOp.andi x v reducesTo_S32x32_S_d0_1 h_S_) main_v76 main_c_29
  let main_v78 : IVec S_ 1 := andi main_v73 main_v77
  let main_v79 : FVec F S32 .f32 := Host.absf main_arg16
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S32x8 .f32) (main_arg12 : FVec F S32 .f32) (main_arg13 : FVec F S32x32 .f32) (main_arg14 : FVec F S32 .f32) (main_arg15 : FVec F S32x32 .f32) (main_arg16 : FVec F S32 .f32) (main_arg17 : FVec F S32 .f32) (main_arg18 : FVec F S32 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S32x8 .f32 := Host.absf main_arg11
  let main_cst_20 : FVec F S_ .f32 := constant S_ .f32 0x7F800000#32
  let main_v55 : FVec F S32x8 .f32 := broadcastInDim S32x8 ![] bcast_S_S32x8 main_cst_20
  let main_v56 : IVec S32x8 1 := cmpf .olt main_v54 main_v55
  let main_c_21 : IVec S_ 1 := constantI S_ 1 1#1
  let main_v57 : IVec S_ 1 := (fun x v => Host.reduce IntOp.andi x v reducesTo_S32x8_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg13
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg14 main_arg15 main_arg16 main_arg17 main_arg18 main_v63 main_v67

def fn_part2 {F : FTy → Type} [FloatOps F] (main_arg7 : FVec F S32 .f32) (main_arg8 : FVec F S32 .f32) (main_arg9 : FVec F S8x3 .f32) (main_arg10 : FVec F S8 .f32) (main_arg11 : FVec F S32x8 .f32) (main_arg12 : FVec F S32 .f32) (main_arg13 : FVec F S32x32 .f32) (main_arg14 : FVec F S32 .f32) (main_arg15 : FVec F S32x32 .f32) (main_arg16 : FVec F S32 .f32) (main_arg17 : FVec F S32 .f32) (main_arg18 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S8x3 .f32 := Host.absf main_arg9
  let main_cst_16 : FVec F S_ .f32 := constant S_ .f32 0x7F800000#32
  let main_v45 : FVec F S8x3 .f32 := broadcastInDim S8x3 ![] bcast_S_S8x3 main_cst_16
  let main_v46 : IVec S8x3 1 := cmpf .olt main_v44 main_v45
  let main_c_17 : IVec S_ 1 := constantI S_ 1 1#1
  let main_v47 : IVec S_ 1 := (fun x v => Host.reduce IntOp.andi x v reducesTo_S8x3_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_arg13 main_arg14 main_arg15 main_arg16 main_arg17 main_arg18 main_v48 main_v49 main_v50

def fn_part1 {F : FTy → Type} [FloatOps F] (main_arg4 : FVec F S32 .f32) (main_arg5 : FVec F S32x32 .f32) (main_arg6 : FVec F S32 .f32) (main_arg7 : FVec F S32 .f32) (main_arg8 : FVec F S32 .f32) (main_arg9 : FVec F S8x3 .f32) (main_arg10 : FVec F S8 .f32) (main_arg11 : FVec F S32x8 .f32) (main_arg12 : FVec F S32 .f32) (main_arg13 : FVec F S32x32 .f32) (main_arg14 : FVec F S32 .f32) (main_arg15 : FVec F S32x32 .f32) (main_arg16 : FVec F S32 .f32) (main_arg17 : FVec F S32 .f32) (main_arg18 : FVec F S32 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S2048x3 .f32) (main_arg1 : FVec F S2048x3x3 .f32) (main_arg2 : FVec F S2048x16 .f32) (main_arg3 : FVec F S32x16 .f32) (main_arg4 : FVec F S32 .f32) (main_arg5 : FVec F S32x32 .f32) (main_arg6 : FVec F S32 .f32) (main_arg7 : FVec F S32 .f32) (main_arg8 : FVec F S32 .f32) (main_arg9 : FVec F S8x3 .f32) (main_arg10 : FVec F S8 .f32) (main_arg11 : FVec F S32x8 .f32) (main_arg12 : FVec F S32 .f32) (main_arg13 : FVec F S32x32 .f32) (main_arg14 : FVec F S32 .f32) (main_arg15 : FVec F S32x32 .f32) (main_arg16 : FVec F S32 .f32) (main_arg17 : FVec F S32 .f32) (main_arg18 : FVec F S32 .f32) : IVec S_ 1 :=
  let main_v0 : FVec F S2048x3 .f32 := Host.absf main_arg0
  let main_cst : FVec F S_ .f32 := constant S_ .f32 0x7F800000#32
  let main_v1 : FVec F S2048x3 .f32 := broadcastInDim S2048x3 ![] bcast_S_S2048x3 main_cst
  let main_v2 : IVec S2048x3 1 := cmpf .olt main_v0 main_v1
  let main_c : IVec S_ 1 := constantI S_ 1 1#1
  let main_v3 : IVec S_ 1 := (fun x v => Host.reduce IntOp.andi x v reducesTo_S2048x3_S_d0_1 h_S_) main_v2 main_c
  let main_v4 : FVec F S2048x3x3 .f32 := Host.absf main_arg1
  let main_cst_0 : FVec F S_ .f32 := constant S_ .f32 0x7F800000#32
  let main_v5 : FVec F S2048x3x3 .f32 := broadcastInDim S2048x3x3 ![] bcast_S_S2048x3x3 main_cst_0
  let main_v6 : IVec S2048x3x3 1 := cmpf .olt main_v4 main_v5
  let main_c_1 : IVec S_ 1 := constantI S_ 1 1#1
  let main_v7 : IVec S_ 1 := (fun x v => Host.reduce IntOp.andi x v reducesTo_S2048x3x3_S_d0_1_2 h_S_) main_v6 main_c_1
  let main_v8 : IVec S_ 1 := andi main_v3 main_v7
  let main_v9 : FVec F S2048x16 .f32 := Host.absf main_arg2
  let main_cst_2 : FVec F S_ .f32 := constant S_ .f32 0x7F800000#32
  let main_v10 : FVec F S2048x16 .f32 := broadcastInDim S2048x16 ![] bcast_S_S2048x16 main_cst_2
  let main_v11 : IVec S2048x16 1 := cmpf .olt main_v9 main_v10
  let main_c_3 : IVec S_ 1 := constantI S_ 1 1#1
  let main_v12 : IVec S_ 1 := (fun x v => Host.reduce IntOp.andi x v reducesTo_S2048x16_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S2048x3 : Shape := ⟨2, ![2048, 3]⟩
abbrev S2048x3x3 : Shape := ⟨3, ![2048, 3, 3]⟩
abbrev S2048x16 : Shape := ⟨2, ![2048, 16]⟩
abbrev S32x16 : Shape := ⟨2, ![32, 16]⟩
abbrev S32 : Shape := ⟨1, ![32]⟩
abbrev S32x32 : Shape := ⟨2, ![32, 32]⟩
abbrev S8x3 : Shape := ⟨2, ![8, 3]⟩
abbrev S8 : Shape := ⟨1, ![8]⟩
abbrev S32x8 : Shape := ⟨2, ![32, 8]⟩
abbrev S16x32 : Shape := ⟨2, ![16, 32]⟩
abbrev S2048x32 : Shape := ⟨2, ![2048, 32]⟩
abbrev S1x32 : Shape := ⟨2, ![1, 32]⟩
abbrev S_ : Shape := ⟨0, ![]⟩
abbrev S32x2048 : Shape := ⟨2, ![32, 2048]⟩
abbrev S4x16384 : Shape := ⟨2, ![4, 16384]⟩
abbrev S4 : Shape := ⟨1, ![4]⟩
abbrev S4x1 : Shape := ⟨2, ![4, 1]⟩
abbrev S32x1 : Shape := ⟨2, ![32, 1]⟩
abbrev S2048x9 : Shape := ⟨2, ![2048, 9]⟩
abbrev S1x8 : Shape := ⟨2, ![1, 8]⟩
abbrev S3x2048 : Shape := ⟨2, ![3, 2048]⟩
abbrev S9x2048 : Shape := ⟨2, ![9, 2048]⟩
abbrev S3x128 : Shape := ⟨2, ![3, 128]⟩
abbrev S9x128 : Shape := ⟨2, ![9, 128]⟩
abbrev S512x3 : Shape := ⟨2, ![512, 3]⟩
abbrev S512x9 : Shape := ⟨2, ![512, 9]⟩
abbrev S512x32 : Shape := ⟨2, ![512, 32]⟩
abbrev S32x128 : Shape := ⟨2, ![32, 128]⟩
abbrev S512x1 : Shape := ⟨2, ![512, 1]⟩
abbrev S1x128 : Shape := ⟨2, ![1, 128]⟩
abbrev S512x128 : Shape := ⟨2, ![512, 128]⟩
abbrev S1x1 : Shape := ⟨2, ![1, 1]⟩
abbrev S128 : Shape := ⟨1, ![128]⟩

abbrev nBuf : Space → Nat
  | .hbm => 173
  | .vmem => 17
  | .smem => 0
  | _ => 0

abbrev hbmTy0_0 (i : Nat) : BufTy := match i % 128 with
  | 0 => ⟨S2048x3, .f32⟩
  | 1 => ⟨S2048x3x3, .f32⟩
  | 2 => ⟨S2048x16, .f32⟩
  | 3 => ⟨S32x16, .f32⟩
  | 4 => ⟨S32, .f32⟩
  | 5 => ⟨S32x32, .f32⟩
  | 6 => ⟨S32, .f32⟩
  | 7 => ⟨S32, .f32⟩
  | 8 => ⟨S32, .f32⟩
  | 9 => ⟨S8x3, .f32⟩
  | 10 => ⟨S8, .f32⟩
  | 11 => ⟨S32x8, .f32⟩
  | 12 => ⟨S32, .f32⟩
  | 13 => ⟨S32x32, .f32⟩
  | 14 => ⟨S32, .f32⟩
  | 15 => ⟨S32x32, .f32⟩
  | 16 => ⟨S32, .f32⟩
  | 17 => ⟨S32, .f32⟩
  | 18 => ⟨S32, .f32⟩
  | 19 => ⟨S16x32, .f32⟩
  | 20 => ⟨S2048x32, .f32⟩
  | 21 => ⟨S1x32, .f32⟩
  | 22 => ⟨S2048x32, .f32⟩
  | 23 => ⟨S2048x32, .f32⟩
  | 24 => ⟨S_, .f32⟩
  | 25 => ⟨S2048x32, .f32⟩
  | 26 => ⟨S2048x32, .i1⟩
  | 27 => ⟨S_, .f32⟩
  | 28 => ⟨S2048x32, .f32⟩
  | 29 => ⟨S2048x32, .f32⟩
  | 30 => ⟨S2048x32, .f32⟩
  | 31 => ⟨S32x32, .f32⟩
  | 32 => ⟨S2048x32, .f32⟩
  | 33 => ⟨S1x32, .f32⟩
  | 34 => ⟨S2048x32, .f32⟩
  | 35 => ⟨S2048x32, .f32⟩
  | 36 => ⟨S_, .f32⟩
  | 37 => ⟨S2048x32, .f32⟩
  | 38 => ⟨S2048x32, .i1⟩
  | 39 => ⟨S_, .f32⟩
  | 40 => ⟨S2048x32, .f32⟩
  | 41 => ⟨S2048x32, .f32⟩
  | 42 => ⟨S2048x32, .f32⟩
  | 43 => ⟨S32x2048, .f32⟩
  | 44 => ⟨S4x16384, .f32⟩
  | 45 => ⟨S_, .f32⟩
  | 46 => ⟨S4, .f32⟩
  | 47 => ⟨S4x1, .f32⟩
  | 48 => ⟨S_, .f32⟩
  | 49 => ⟨S4x1, .f32⟩
  | 50 => ⟨S4x1, .f32⟩
  | 51 => ⟨S_, .i32⟩
  | 52 => ⟨S_, .f32⟩
  | 53 => ⟨S4, .f32⟩
  | 54 => ⟨S4x1, .f32⟩
  | 55 => ⟨S_, .f32⟩
  | 56 => ⟨S4x1, .f32⟩
  | 57 => ⟨S4x1, .f32⟩
  | 58 => ⟨S4x16384, .f32⟩
  | 59 => ⟨S4x16384, .f32⟩
  | 60 => ⟨S4x16384, .f32⟩
  | 61 => ⟨S_, .f32⟩
  | 62 => ⟨S_, .f32⟩
  | 63 => ⟨S_, .f32⟩
  | 64 => ⟨S_, .f32⟩
  | 65 => ⟨S4, .f32⟩
  | 66 => ⟨S4x1, .f32⟩
  | 67 => ⟨S4x1, .f32⟩
  | 68 => ⟨S4x1, .f32⟩
  | 69 => ⟨S_, .f32⟩
  | 70 => ⟨S_, .i1⟩
  | 71 => ⟨S_, .f32⟩
  | 72 => ⟨S_, .f32⟩
  | 73 => ⟨S4x1, .f32⟩
  | 74 => ⟨S4x1, .f32⟩
  | 75 => ⟨S4x16384, .f32⟩
  | 76 => ⟨S4x16384, .f32⟩
  | 77 => ⟨S_, .f32⟩
  | 78 => ⟨S4x1, .f32⟩
  | 79 => ⟨S4x1, .f32⟩
  | 80 => ⟨S4x1, .f32⟩
  | 81 => ⟨S4x16384, .f32⟩
  | 82 => ⟨S4x16384, .f32⟩
  | 83 => ⟨S32x2048, .f32⟩
  | 84 => ⟨S32x1, .f32⟩
  | 85 => ⟨S32x2048, .f32⟩
  | 86 => ⟨S32x2048, .f32⟩
  | 87 => ⟨S32x1, .f32⟩
  | 88 => ⟨S32x2048, .f32⟩
  | 89 => ⟨S32x2048, .f32⟩
  | 90 => ⟨S2048x32, .f32⟩
  | 91 => ⟨S_, .f32⟩
  | 92 => ⟨S2048x3, .f32⟩
  | 93 => ⟨S2048x3, .f32⟩
  | 94 => ⟨S2048x9, .f32⟩
  | 95 => ⟨S1x8, .f32⟩
  | 96 => ⟨S1x32, .f32⟩
  | 97 => ⟨S3x2048, .f32⟩
  | 98 => ⟨S9x2048, .f32⟩
  | 99 => ⟨S32x2048, .f32⟩
  | 100 => ⟨S2048x32, .f32⟩
  | 101 => ⟨S32x32, .f32⟩
  | 102 => ⟨S2048x32, .f32⟩
  | 103 => ⟨S1x32, .f32⟩
  | 104 => ⟨S2048x32, .f32⟩
  | 105 => ⟨S2048x32, .f32⟩
  | 106 => ⟨S_, .f32⟩
  | 107 => ⟨S2048x32, .f32⟩
  | 108 => ⟨S2048x32, .i1⟩
  | 109 => ⟨S_, .f32⟩
  | 110 => ⟨S2048x32, .f32⟩
  | 111 => ⟨S2048x32, .f32⟩
  | 112 => ⟨S2048x32, .f32⟩
  | 113 => ⟨S32x32, .f32⟩
  | 114 => ⟨S2048x32, .f32⟩
  | 115 => ⟨S1x32, .f32⟩
  | 116 => ⟨S2048x32, .f32⟩
  | 117 => ⟨S2048x32, .f32⟩
  | 118 => ⟨S_, .f32⟩
  | 119 => ⟨S2048x32, .f32⟩
  | 120 => ⟨S2048x32, .i1⟩
  | 121 => ⟨S_, .f32⟩
  | 122 => ⟨S2048x32, .f32⟩
  | 123 => ⟨S2048x32, .f32⟩
  | 124 => ⟨S2048x32, .f32⟩
  | 125 => ⟨S32x2048, .f32⟩
  | 126 => ⟨S4x16384, .f32⟩
  | 127 => ⟨S_, .f32⟩
  | _ => ⟨S2048x3, .f32⟩

abbrev hbmTy0_1 (i : Nat) : BufTy := match i % 128 with
  | 0 => ⟨S4, .f32⟩
  | 1 => ⟨S4x1, .f32⟩
  | 2 => ⟨S_, .f32⟩
  | 3 => ⟨S4x1, .f32⟩
  | 4 => ⟨S4x1, .f32⟩
  | 5 => ⟨S_, .i32⟩
  | 6 => ⟨S_, .f32⟩
  | 7 => ⟨S4, .f32⟩
  | 8 => ⟨S4x1, .f32⟩
  | 9 => ⟨S_, .f32⟩
  | 10 => ⟨S4x1, .f32⟩
  | 11 => ⟨S4x1, .f32⟩
  | 12 => ⟨S4x16384, .f32⟩
  | 13 => ⟨S4x16384, .f32⟩
  | 14 => ⟨S4x16384, .f32⟩
  | 15 => ⟨S_, .f32⟩
  | 16 => ⟨S_, .f32⟩
  | 17 => ⟨S_, .f32⟩
  | 18 => ⟨S_, .f32⟩
  | 19 => ⟨S4, .f32⟩
  | 20 => ⟨S4x1, .f32⟩
  | 21 => ⟨S4x1, .f32⟩
  | 22 => ⟨S4x1, .f32⟩
  | 23 => ⟨S_, .f32⟩
  | 24 => ⟨S_, .i1⟩
  | 25 => ⟨S_, .f32⟩
  | 26 => ⟨S_, .f32⟩
  | 27 => ⟨S4x1, .f32⟩
  | 28 => ⟨S4x1, .f32⟩
  | 29 => ⟨S4x16384, .f32⟩
  | 30 => ⟨S4x16384, .f32⟩
  | 31 => ⟨S_, .f32⟩
  | 32 => ⟨S4x1, .f32⟩
  | 33 => ⟨S4x1, .f32⟩
  | 34 => ⟨S4x1, .f32⟩
  | 35 => ⟨S4x16384, .f32⟩
  | 36 => ⟨S4x16384, .f32⟩
  | 37 => ⟨S32x2048, .f32⟩
  | 38 => ⟨S32x1, .f32⟩
  | 39 => ⟨S32x2048, .f32⟩
  | 40 => ⟨S32x2048, .f32⟩
  | 41 => ⟨S32x1, .f32⟩
  | 42 => ⟨S32x2048, .f32⟩
  | 43 => ⟨S32x2048, .f32⟩
  | 44 => ⟨S2048x32, .f32⟩
  | _ => ⟨S2048x3, .f32⟩

abbrev hbmTy (i : Nat) : BufTy := match i / 128 with
  | 0 => hbmTy0_0 i
  | 1 => hbmTy0_1 i
  | _ => ⟨S2048x3, .f32⟩

abbrev bufTy : (tb : Table) → Fin (tcTables nBuf tb) → BufTy
  | .hbm, ⟨i, _⟩ => hbmTy i
  | .local _ .vmem, ⟨0, _⟩ => ⟨S3x128, .f32⟩
  | .local _ .vmem, ⟨1, _⟩ => ⟨S3x128, .f32⟩
  | .local _ .vmem, ⟨2, _⟩ => ⟨S9x128, .f32⟩
  | .local _ .vmem, ⟨3, _⟩ => ⟨S9x128, .f32⟩
  | .local _ .vmem, ⟨4, _⟩ => ⟨S512x3, .f32⟩
  | .local _ .vmem, ⟨5, _⟩ => ⟨S512x3, .f32⟩
  | .local _ .vmem, ⟨6, _⟩ => ⟨S512x9, .f32⟩
  | .local _ .vmem, ⟨7, _⟩ => ⟨S512x9, .f32⟩
  | .local _ .vmem, ⟨8, _⟩ => ⟨S512x32, .f32⟩
  | .local _ .vmem, ⟨9, _⟩ => ⟨S512x32, .f32⟩
  | .local _ .vmem, ⟨10, _⟩ => ⟨S8x3, .f32⟩
  | .local _ .vmem, ⟨11, _⟩ => ⟨S1x8, .f32⟩
  | .local _ .vmem, ⟨12, _⟩ => ⟨S32x8, .f32⟩
  | .local _ .vmem, ⟨13, _⟩ => ⟨S1x32, .f32⟩
  | .local _ .vmem, ⟨14, _⟩ => ⟨S32x128, .f32⟩
  | .local _ .vmem, ⟨15, _⟩ => ⟨S32x128, .f32⟩
  | .local _ .vmem, ⟨16, _⟩ => ⟨S32x128, .f32⟩
  | _, _ => ⟨S2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_c : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_cst_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_cst_1 : Ref sig .tc := ⟨.hbm, 62, rfl⟩
abbrev main_call2_v8 : Ref sig .tc := ⟨.hbm, 63, rfl⟩
abbrev main_call2_cst_2 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_cst_3 : Ref sig .tc := ⟨.hbm, 69, rfl⟩
abbrev main_call2_v13 : Ref sig .tc := ⟨.hbm, 70, rfl⟩
abbrev main_call2_cst_4 : Ref sig .tc := ⟨.hbm, 71, rfl⟩
abbrev main_call2_call0_v0 : Ref sig .tc := ⟨.hbm, 72, rfl⟩
abbrev main_call2_call0_v1 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_cst_5 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_6 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_7 : Ref sig .tc := ⟨.hbm, 106, rfl⟩
abbrev main_v56 : Ref sig .tc := ⟨.hbm, 107, rfl⟩
abbrev main_v57 : Ref sig .tc := ⟨.hbm, 108, rfl⟩
abbrev main_cst_8 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_9 : Ref sig .tc := ⟨.hbm, 118, rfl⟩
abbrev main_v66 : Ref sig .tc := ⟨.hbm, 119, rfl⟩
abbrev main_v67 : Ref sig .tc := ⟨.hbm, 120, rfl⟩
abbrev main_cst_10 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_cst_11 : Ref sig .tc := ⟨.hbm, 127, rfl⟩
abbrev main_v73 : Ref sig .tc := ⟨.hbm, 128, rfl⟩
abbrev main_v74 : Ref sig .tc := ⟨.hbm, 129, rfl⟩
abbrev main_cst_12 : Ref sig .tc := ⟨.hbm, 130, rfl⟩
abbrev main_v75 : Ref sig .tc := ⟨.hbm, 131, rfl⟩
abbrev main_v76 : Ref sig .tc := ⟨.hbm, 132, rfl⟩
abbrev main_c_13 : Ref sig .tc := ⟨.hbm, 133, rfl⟩
abbrev main_call5_cst : Ref sig .tc := ⟨.hbm, 134, rfl⟩
abbrev main_call5_v0 : Ref sig .tc := ⟨.hbm, 135, rfl⟩
abbrev main_call5_v1 : Ref sig .tc := ⟨.hbm, 136, rfl⟩
abbrev main_call5_cst_0 : Ref sig .tc := ⟨.hbm, 137, rfl⟩
abbrev main_call5_v2 : Ref sig .tc := ⟨.hbm, 138, rfl⟩
abbrev main_call5_v3 : Ref sig .tc := ⟨.hbm, 139, rfl⟩
abbrev main_call5_v4 : Ref sig .tc := ⟨.hbm, 140, rfl⟩
abbrev main_call5_v5 : Ref sig .tc := ⟨.hbm, 141, rfl⟩
abbrev main_call5_v6 : Ref sig .tc := ⟨.hbm, 142, rfl⟩
abbrev main_call5_v7 : Ref sig .tc := ⟨.hbm, 143, rfl⟩
abbrev main_call5_cst_1 : Ref sig .tc := ⟨.hbm, 144, rfl⟩
abbrev main_call5_v8 : Ref sig .tc := ⟨.hbm, 145, rfl⟩
abbrev main_call5_cst_2 : Ref sig .tc := ⟨.hbm, 146, rfl⟩
abbrev main_call5_v9 : Ref sig .tc := ⟨.hbm, 147, rfl⟩
abbrev main_call5_v10 : Ref sig .tc := ⟨.hbm, 148, rfl⟩
abbrev main_call5_v11 : Ref sig .tc := ⟨.hbm, 149, rfl⟩
abbrev main_call5_v12 : Ref sig .tc := ⟨.hbm, 150, rfl⟩
abbrev main_call5_cst_3 : Ref sig .tc := ⟨.hbm, 151, rfl⟩
abbrev main_call5_v13 : Ref sig .tc := ⟨.hbm, 152, rfl⟩
abbrev main_call5_cst_4 : Ref sig .tc := ⟨.hbm, 153, rfl⟩
abbrev main_call5_call0_v0 : Ref sig .tc := ⟨.hbm, 154, rfl⟩
abbrev main_call5_call0_v1 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_cst_14 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v1982 : BitVec 1 := Scalar.cmpi .eq arg1 c3_i32
  let v1983 : BitVec 32 := Scalar.extui v1982
  let c0_i32_139 : BitVec 32 := 0#32
  let v1984 : BitVec 1 := Scalar.cmpi .ne v1983 c0_i32_139
  v1984

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S9x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  transposes_S32x16_S16x32_1_0 : S32x16.Transposes [1, 0] S16x32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  transposes_S32x32_S32x32_1_0 : S32x32.Transposes [1, 0] S32x32
  transposes_S2048x32_S32x2048_1_0 : S2048x32.Transposes [1, 0] S32x2048
  shapeCasts_S32x2048_S4x16384 : S32x2048.ShapeCasts S4x16384
  reducesTo_S4x16384_S4_d1 : S4x16384.ReducesTo [1] S4
  h_S_ : 0 < S_.numel
  bcast_S4_S4x1_0 : S4.BroadcastsInDim S4x1 (![0] : Fin 1 → Fin S4x1.rank)
  bcast_S_S4x1 : S_.BroadcastsInDim S4x1 (![] : Fin 0 → Fin S4x1.rank)
  bcast_S4x1_S4x16384_0_1 : S4x1.BroadcastsInDim S4x16384 (![0, 1] : Fin 2 → Fin S4x16384.rank)
  shapeCasts_S4x16384_S32x2048 : S4x16384.ShapeCasts S32x2048
  bcast_S32_S32x1_0 : S32.BroadcastsInDim S32x1 (![0] : Fin 1 → Fin S32x1.rank)
  bcast_S32x1_S32x2048_0_1 : S32x1.BroadcastsInDim S32x2048 (![0, 1] : Fin 2 → Fin S32x2048.rank)
  transposes_S32x2048_S2048x32_1_0 : S32x2048.Transposes [1, 0] S2048x32
  bcast_S_S2048x3 : S_.BroadcastsInDim S2048x3 (![] : Fin 0 → Fin S2048x3.rank)
  shapeCasts_S2048x3x3_S2048x9 : S2048x3x3.ShapeCasts S2048x9
  shapeCasts_S8_S1x8 : S8.ShapeCasts S1x8
  shapeCasts_S32_S1x32 : S32.ShapeCasts S1x32
  transposes_S2048x3_S3x2048_1_0 : S2048x3.Transposes [1, 0] S3x2048
  transposes_S2048x9_S9x2048_1_0 : S2048x9.Transposes [1, 0] S9x2048
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S9x128_S9x128_0_0 : ∀ a, (![0, 0] : Fin 2 → Nat) a + S9x128.size a ≤ S9x128.size a
  h_S9x128 : 0 < S9x128.numel
  shapeCasts_S9x128_S9x128 : S9x128.ShapeCasts S9x128
  inb_S512x3_S512x3_0_0 : ∀ a, (![0, 0] : Fin 2 → Nat) a + S512x3.size a ≤ S512x3.size a
  h_S512x3 : 0 < S512x3.numel
  shapeCasts_S512x3_S512x3 : S512x3.ShapeCasts S512x3
  inb_S512x9_S512x9_0_0 : ∀ a, (![0, 0] : Fin 2 → Nat) a + S512x9.size a ≤ S512x9.size a
  h_S512x9 : 0 < S512x9.numel
  shapeCasts_S512x9_S512x9 : S512x9.ShapeCasts S512x9
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S8x3_S8x3_0_0 : ∀ a, (![0, 0] : Fin 2 → Nat) a + S8x3.size a ≤ S8x3.size a
  h_S8x3 : 0 < S8x3.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S32x8_S32x8_0_0 : ∀ a, (![0, 0] : Fin 2 → Nat) a + S32x8.size a ≤ S32x8.size a
  h_S32x8 : 0 < S32x8.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  slices_S512x3_o0_0_S512x1 : S512x3.Slices ![0, 0] S512x1
  slices_S3x128_o0_0_S1x128 : S3x128.Slices ![0, 0] S1x128
  broadcasts_S512x1_S512x128 : S512x1.Broadcasts S512x128
  broadcasts_S1x128_S512x128 : S1x128.Broadcasts S512x128
  slices_S512x3_o0_1_S512x1 : S512x3.Slices ![0, 1] S512x1
  slices_S3x128_o1_0_S1x128 : S3x128.Slices ![1, 0] S1x128
  slices_S512x3_o0_2_S512x1 : S512x3.Slices ![0, 2] S512x1
  slices_S3x128_o2_0_S1x128 : S3x128.Slices ![2, 0] S1x128
  slices_S512x9_o0_0_S512x1 : S512x9.Slices ![0, 0] S512x1
  slices_S9x128_o0_0_S1x128 : S9x128.Slices ![0, 0] S1x128
  slices_S512x9_o0_1_S512x1 : S512x9.Slices ![0, 1] S512x1
  slices_S9x128_o1_0_S1x128 : S9x128.Slices ![1, 0] S1x128
  slices_S512x9_o0_2_S512x1 : S512x9.Slices ![0, 2] S512x1
  slices_S9x128_o2_0_S1x128 : S9x128.Slices ![2, 0] S1x128
  slices_S9x128_o3_0_S1x128 : S9x128.Slices ![3, 0] S1x128
  slices_S9x128_o4_0_S1x128 : S9x128.Slices ![4, 0] S1x128
  slices_S9x128_o5_0_S1x128 : S9x128.Slices ![5, 0] S1x128
  slices_S9x128_o6_0_S1x128 : S9x128.Slices ![6, 0] S1x128
  slices_S9x128_o7_0_S1x128 : S9x128.Slices ![7, 0] S1x128
  slices_S9x128_o8_0_S1x128 : S9x128.Slices ![8, 0] S1x128
  slices_S8x3_o0_0_S1x1 : S8x3.Slices ![0, 0] S1x1
  inpos_S1x1_p0_0 : ∀ a, (![0, 0] : Fin 2 → Nat) a < S1x1.size a
  slices_S8x3_o0_1_S1x1 : S8x3.Slices ![0, 1] S1x1
  slices_S8x3_o0_2_S1x1 : S8x3.Slices ![0, 2] S1x1
  slices_S1x8_o0_0_S1x1 : S1x8.Slices ![0, 0] S1x1
  slices_S8x3_o1_0_S1x1 : S8x3.Slices ![1, 0] S1x1
  slices_S8x3_o1_1_S1x1 : S8x3.Slices ![1, 1] S1x1
  slices_S8x3_o1_2_S1x1 : S8x3.Slices ![1, 2] S1x1
  slices_S1x8_o0_1_S1x1 : S1x8.Slices ![0, 1] S1x1
  slices_S8x3_o2_0_S1x1 : S8x3.Slices ![2, 0] S1x1
  slices_S8x3_o2_1_S1x1 : S8x3.Slices ![2, 1] S1x1
  slices_S8x3_o2_2_S1x1 : S8x3.Slices ![2, 2] S1x1
  slices_S1x8_o0_2_S1x1 : S1x8.Slices ![0, 2] S1x1
  slices_S8x3_o3_0_S1x1 : S8x3.Slices ![3, 0] S1x1
  slices_S8x3_o3_1_S1x1 : S8x3.Slices ![3, 1] S1x1
  slices_S8x3_o3_2_S1x1 : S8x3.Slices ![3, 2] S1x1
  slices_S1x8_o0_3_S1x1 : S1x8.Slices ![0, 3] S1x1
  slices_S8x3_o4_0_S1x1 : S8x3.Slices ![4, 0] S1x1
  slices_S8x3_o4_1_S1x1 : S8x3.Slices ![4, 1] S1x1
  slices_S8x3_o4_2_S1x1 : S8x3.Slices ![4, 2] S1x1
  slices_S1x8_o0_4_S1x1 : S1x8.Slices ![0, 4] S1x1
  slices_S8x3_o5_0_S1x1 : S8x3.Slices ![5, 0] S1x1
  slices_S8x3_o5_1_S1x1 : S8x3.Slices ![5, 1] S1x1
  slices_S8x3_o5_2_S1x1 : S8x3.Slices ![5, 2] S1x1
  slices_S1x8_o0_5_S1x1 : S1x8.Slices ![0, 5] S1x1
  slices_S8x3_o6_0_S1x1 : S8x3.Slices ![6, 0] S1x1
  slices_S8x3_o6_1_S1x1 : S8x3.Slices ![6, 1] S1x1
  slices_S8x3_o6_2_S1x1 : S8x3.Slices ![6, 2] S1x1
  slices_S1x8_o0_6_S1x1 : S1x8.Slices ![0, 6] S1x1
  slices_S8x3_o7_0_S1x1 : S8x3.Slices ![7, 0] S1x1
  slices_S8x3_o7_1_S1x1 : S8x3.Slices ![7, 1] S1x1
  slices_S8x3_o7_2_S1x1 : S8x3.Slices ![7, 2] S1x1
  slices_S1x8_o0_7_S1x1 : S1x8.Slices ![0, 7] S1x1
  slices_S32x8_o0_0_S1x1 : S32x8.Slices ![0, 0] S1x1
  slices_S32x8_o0_1_S1x1 : S32x8.Slices ![0, 1] S1x1
  slices_S32x8_o0_2_S1x1 : S32x8.Slices ![0, 2] S1x1
  slices_S32x8_o0_3_S1x1 : S32x8.Slices ![0, 3] S1x1
  slices_S32x8_o0_4_S1x1 : S32x8.Slices ![0, 4] S1x1
  slices_S32x8_o0_5_S1x1 : S32x8.Slices ![0, 5] S1x1
  slices_S32x8_o0_6_S1x1 : S32x8.Slices ![0, 6] S1x1
  slices_S32x8_o0_7_S1x1 : S32x8.Slices ![0, 7] S1x1
  slices_S1x32_o0_0_S1x1 : S1x32.Slices ![0, 0] S1x1
  slices_S512x32_o0_0_S512x1 : S512x32.Slices ![0, 0] S512x1
  reduces_S512x128_S128 : S512x128.Reduces [0] S128
  shapeCasts_S128_S1x128 : S128.ShapeCasts S1x128
  slices_S32x8_o1_0_S1x1 : S32x8.Slices ![1, 0] S1x1
  slices_S32x8_o1_1_S1x1 : S32x8.Slices ![1, 1] S1x1
  slices_S32x8_o1_2_S1x1 : S32x8.Slices ![1, 2] S1x1
  slices_S32x8_o1_3_S1x1 : S32x8.Slices ![1, 3] S1x1
  slices_S32x8_o1_4_S1x1 : S32x8.Slices ![1, 4] S1x1
  slices_S32x8_o1_5_S1x1 : S32x8.Slices ![1, 5] S1x1
  slices_S32x8_o1_6_S1x1 : S32x8.Slices ![1, 6] S1x1
  slices_S32x8_o1_7_S1x1 : S32x8.Slices ![1, 7] S1x1
  slices_S1x32_o0_1_S1x1 : S1x32.Slices ![0, 1] S1x1
  slices_S512x32_o0_1_S512x1 : S512x32.Slices ![0, 1] S512x1
  slices_S32x8_o2_0_S1x1 : S32x8.Slices ![2, 0] S1x1
  slices_S32x8_o2_1_S1x1 : S32x8.Slices ![2, 1] S1x1
  slices_S32x8_o2_2_S1x1 : S32x8.Slices ![2, 2] S1x1
  slices_S32x8_o2_3_S1x1 : S32x8.Slices ![2, 3] S1x1
  slices_S32x8_o2_4_S1x1 : S32x8.Slices ![2, 4] S1x1
  slices_S32x8_o2_5_S1x1 : S32x8.Slices ![2, 5] S1x1
  slices_S32x8_o2_6_S1x1 : S32x8.Slices ![2, 6] S1x1
  slices_S32x8_o2_7_S1x1 : S32x8.Slices ![2, 7] S1x1
  slices_S1x32_o0_2_S1x1 : S1x32.Slices ![0, 2] S1x1
  slices_S512x32_o0_2_S512x1 : S512x32.Slices ![0, 2] S512x1
  slices_S32x8_o3_0_S1x1 : S32x8.Slices ![3, 0] S1x1
  slices_S32x8_o3_1_S1x1 : S32x8.Slices ![3, 1] S1x1
  slices_S32x8_o3_2_S1x1 : S32x8.Slices ![3, 2] S1x1
  slices_S32x8_o3_3_S1x1 : S32x8.Slices ![3, 3] S1x1
  slices_S32x8_o3_4_S1x1 : S32x8.Slices ![3, 4] S1x1
  slices_S32x8_o3_5_S1x1 : S32x8.Slices ![3, 5] S1x1
  slices_S32x8_o3_6_S1x1 : S32x8.Slices ![3, 6] S1x1
  slices_S32x8_o3_7_S1x1 : S32x8.Slices ![3, 7] S1x1
  slices_S1x32_o0_3_S1x1 : S1x32.Slices ![0, 3] S1x1
  slices_S512x32_o0_3_S512x1 : S512x32.Slices ![0, 3] S512x1
  slices_S32x8_o4_0_S1x1 : S32x8.Slices ![4, 0] S1x1
  slices_S32x8_o4_1_S1x1 : S32x8.Slices ![4, 1] S1x1
  slices_S32x8_o4_2_S1x1 : S32x8.Slices ![4, 2] S1x1
  slices_S32x8_o4_3_S1x1 : S32x8.Slices ![4, 3] S1x1
  slices_S32x8_o4_4_S1x1 : S32x8.Slices ![4, 4] S1x1
  slices_S32x8_o4_5_S1x1 : S32x8.Slices ![4, 5] S1x1
  slices_S32x8_o4_6_S1x1 : S32x8.Slices ![4, 6] S1x1
  slices_S32x8_o4_7_S1x1 : S32x8.Slices ![4, 7] S1x1
  slices_S1x32_o0_4_S1x1 : S1x32.Slices ![0, 4] S1x1
  slices_S512x32_o0_4_S512x1 : S512x32.Slices ![0, 4] S512x1
  slices_S32x8_o5_0_S1x1 : S32x8.Slices ![5, 0] S1x1
  slices_S32x8_o5_1_S1x1 : S32x8.Slices ![5, 1] S1x1
  slices_S32x8_o5_2_S1x1 : S32x8.Slices ![5, 2] S1x1
  slices_S32x8_o5_3_S1x1 : S32x8.Slices ![5, 3] S1x1
  slices_S32x8_o5_4_S1x1 : S32x8.Slices ![5, 4] S1x1
  slices_S32x8_o5_5_S1x1 : S32x8.Slices ![5, 5] S1x1
  slices_S32x8_o5_6_S1x1 : S32x8.Slices ![5, 6] S1x1
  slices_S32x8_o5_7_S1x1 : S32x8.Slices ![5, 7] S1x1
  slices_S1x32_o0_5_S1x1 : S1x32.Slices ![0, 5] S1x1
  slices_S512x32_o0_5_S512x1 : S512x32.Slices ![0, 5] S512x1
  slices_S32x8_o6_0_S1x1 : S32x8.Slices ![6, 0] S1x1
  slices_S32x8_o6_1_S1x1 : S32x8.Slices ![6, 1] S1x1
  slices_S32x8_o6_2_S1x1 : S32x8.Slices ![6, 2] S1x1
  slices_S32x8_o6_3_S1x1 : S32x8.Slices ![6, 3] S1x1
  slices_S32x8_o6_4_S1x1 : S32x8.Slices ![6, 4] S1x1
  slices_S32x8_o6_5_S1x1 : S32x8.Slices ![6, 5] S1x1
  slices_S32x8_o6_6_S1x1 : S32x8.Slices ![6, 6] S1x1
  slices_S32x8_o6_7_S1x1 : S32x8.Slices ![6, 7] S1x1
  slices_S1x32_o0_6_S1x1 : S1x32.Slices ![0, 6] S1x1
  slices_S512x32_o0_6_S512x1 : S512x32.Slices ![0, 6] S512x1
  slices_S32x8_o7_0_S1x1 : S32x8.Slices ![7, 0] S1x1
  slices_S32x8_o7_1_S1x1 : S32x8.Slices ![7, 1] S1x1
  slices_S32x8_o7_2_S1x1 : S32x8.Slices ![7, 2] S1x1
  slices_S32x8_o7_3_S1x1 : S32x8.Slices ![7, 3] S1x1
  slices_S32x8_o7_4_S1x1 : S32x8.Slices ![7, 4] S1x1
  slices_S32x8_o7_5_S1x1 : S32x8.Slices ![7, 5] S1x1
  slices_S32x8_o7_6_S1x1 : S32x8.Slices ![7, 6] S1x1
  slices_S32x8_o7_7_S1x1 : S32x8.Slices ![7, 7] S1x1
  slices_S1x32_o0_7_S1x1 : S1x32.Slices ![0, 7] S1x1
  slices_S512x32_o0_7_S512x1 : S512x32.Slices ![0, 7] S512x1
  slices_S32x8_o8_0_S1x1 : S32x8.Slices ![8, 0] S1x1
  slices_S32x8_o8_1_S1x1 : S32x8.Slices ![8, 1] S1x1
  slices_S32x8_o8_2_S1x1 : S32x8.Slices ![8, 2] S1x1
  slices_S32x8_o8_3_S1x1 : S32x8.Slices ![8, 3] S1x1
  slices_S32x8_o8_4_S1x1 : S32x8.Slices ![8, 4] S1x1
  slices_S32x8_o8_5_S1x1 : S32x8.Slices ![8, 5] S1x1
  slices_S32x8_o8_6_S1x1 : S32x8.Slices ![8, 6] S1x1
  slices_S32x8_o8_7_S1x1 : S32x8.Slices ![8, 7] S1x1
  slices_S1x32_o0_8_S1x1 : S1x32.Slices ![0, 8] S1x1
  slices_S512x32_o0_8_S512x1 : S512x32.Slices ![0, 8] S512x1
  slices_S32x8_o9_0_S1x1 : S32x8.Slices ![9, 0] S1x1
  slices_S32x8_o9_1_S1x1 : S32x8.Slices ![9, 1] S1x1
  slices_S32x8_o9_2_S1x1 : S32x8.Slices ![9, 2] S1x1
  slices_S32x8_o9_3_S1x1 : S32x8.Slices ![9, 3] S1x1
  slices_S32x8_o9_4_S1x1 : S32x8.Slices ![9, 4] S1x1
  slices_S32x8_o9_5_S1x1 : S32x8.Slices ![9, 5] S1x1
  slices_S32x8_o9_6_S1x1 : S32x8.Slices ![9, 6] S1x1
  slices_S32x8_o9_7_S1x1 : S32x8.Slices ![9, 7] S1x1
  slices_S1x32_o0_9_S1x1 : S1x32.Slices ![0, 9] S1x1
  slices_S512x32_o0_9_S512x1 : S512x32.Slices ![0, 9] S512x1
  slices_S32x8_o10_0_S1x1 : S32x8.Slices ![10, 0] S1x1
  slices_S32x8_o10_1_S1x1 : S32x8.Slices ![10, 1] S1x1
  slices_S32x8_o10_2_S1x1 : S32x8.Slices ![10, 2] S1x1
  slices_S32x8_o10_3_S1x1 : S32x8.Slices ![10, 3] S1x1
  slices_S32x8_o10_4_S1x1 : S32x8.Slices ![10, 4] S1x1
  slices_S32x8_o10_5_S1x1 : S32x8.Slices ![10, 5] S1x1
  slices_S32x8_o10_6_S1x1 : S32x8.Slices ![10, 6] S1x1
  slices_S32x8_o10_7_S1x1 : S32x8.Slices ![10, 7] S1x1
  slices_S1x32_o0_10_S1x1 : S1x32.Slices ![0, 10] S1x1
  slices_S512x32_o0_10_S512x1 : S512x32.Slices ![0, 10] S512x1
  slices_S32x8_o11_0_S1x1 : S32x8.Slices ![11, 0] S1x1
  slices_S32x8_o11_1_S1x1 : S32x8.Slices ![11, 1] S1x1
  slices_S32x8_o11_2_S1x1 : S32x8.Slices ![11, 2] S1x1
  slices_S32x8_o11_3_S1x1 : S32x8.Slices ![11, 3] S1x1
  slices_S32x8_o11_4_S1x1 : S32x8.Slices ![11, 4] S1x1
  slices_S32x8_o11_5_S1x1 : S32x8.Slices ![11, 5] S1x1
  slices_S32x8_o11_6_S1x1 : S32x8.Slices ![11, 6] S1x1
  slices_S32x8_o11_7_S1x1 : S32x8.Slices ![11, 7] S1x1
  slices_S1x32_o0_11_S1x1 : S1x32.Slices ![0, 11] S1x1
  slices_S512x32_o0_11_S512x1 : S512x32.Slices ![0, 11] S512x1
  slices_S32x8_o12_0_S1x1 : S32x8.Slices ![12, 0] S1x1
  slices_S32x8_o12_1_S1x1 : S32x8.Slices ![12, 1] S1x1
  slices_S32x8_o12_2_S1x1 : S32x8.Slices ![12, 2] S1x1
  slices_S32x8_o12_3_S1x1 : S32x8.Slices ![12, 3] S1x1
  slices_S32x8_o12_4_S1x1 : S32x8.Slices ![12, 4] S1x1
  slices_S32x8_o12_5_S1x1 : S32x8.Slices ![12, 5] S1x1
  slices_S32x8_o12_6_S1x1 : S32x8.Slices ![12, 6] S1x1
  slices_S32x8_o12_7_S1x1 : S32x8.Slices ![12, 7] S1x1
  slices_S1x32_o0_12_S1x1 : S1x32.Slices ![0, 12] S1x1
  slices_S512x32_o0_12_S512x1 : S512x32.Slices ![0, 12] S512x1
  slices_S32x8_o13_0_S1x1 : S32x8.Slices ![13, 0] S1x1
  slices_S32x8_o13_1_S1x1 : S32x8.Slices ![13, 1] S1x1
  slices_S32x8_o13_2_S1x1 : S32x8.Slices ![13, 2] S1x1
  slices_S32x8_o13_3_S1x1 : S32x8.Slices ![13, 3] S1x1
  slices_S32x8_o13_4_S1x1 : S32x8.Slices ![13, 4] S1x1
  slices_S32x8_o13_5_S1x1 : S32x8.Slices ![13, 5] S1x1
  slices_S32x8_o13_6_S1x1 : S32x8.Slices ![13, 6] S1x1
  slices_S32x8_o13_7_S1x1 : S32x8.Slices ![13, 7] S1x1
  slices_S1x32_o0_13_S1x1 : S1x32.Slices ![0, 13] S1x1
  slices_S512x32_o0_13_S512x1 : S512x32.Slices ![0, 13] S512x1
  slices_S32x8_o14_0_S1x1 : S32x8.Slices ![14, 0] S1x1
  slices_S32x8_o14_1_S1x1 : S32x8.Slices ![14, 1] S1x1
  slices_S32x8_o14_2_S1x1 : S32x8.Slices ![14, 2] S1x1
  slices_S32x8_o14_3_S1x1 : S32x8.Slices ![14, 3] S1x1
  slices_S32x8_o14_4_S1x1 : S32x8.Slices ![14, 4] S1x1
  slices_S32x8_o14_5_S1x1 : S32x8.Slices ![14, 5] S1x1
  slices_S32x8_o14_6_S1x1 : S32x8.Slices ![14, 6] S1x1
  slices_S32x8_o14_7_S1x1 : S32x8.Slices ![14, 7] S1x1
  slices_S1x32_o0_14_S1x1 : S1x32.Slices ![0, 14] S1x1
  slices_S512x32_o0_14_S512x1 : S512x32.Slices ![0, 14] S512x1
  slices_S32x8_o15_0_S1x1 : S32x8.Slices ![15, 0] S1x1
  slices_S32x8_o15_1_S1x1 : S32x8.Slices ![15, 1] S1x1
  slices_S32x8_o15_2_S1x1 : S32x8.Slices ![15, 2] S1x1
  slices_S32x8_o15_3_S1x1 : S32x8.Slices ![15, 3] S1x1
  slices_S32x8_o15_4_S1x1 : S32x8.Slices ![15, 4] S1x1
  slices_S32x8_o15_5_S1x1 : S32x8.Slices ![15, 5] S1x1
  slices_S32x8_o15_6_S1x1 : S32x8.Slices ![15, 6] S1x1
  slices_S32x8_o15_7_S1x1 : S32x8.Slices ![15, 7] S1x1
  slices_S1x32_o0_15_S1x1 : S1x32.Slices ![0, 15] S1x1
  slices_S512x32_o0_15_S512x1 : S512x32.Slices ![0, 15] S512x1
  slices_S32x8_o16_0_S1x1 : S32x8.Slices ![16, 0] S1x1
  slices_S32x8_o16_1_S1x1 : S32x8.Slices ![16, 1] S1x1
  slices_S32x8_o16_2_S1x1 : S32x8.Slices ![16, 2] S1x1
  slices_S32x8_o16_3_S1x1 : S32x8.Slices ![16, 3] S1x1
  slices_S32x8_o16_4_S1x1 : S32x8.Slices ![16, 4] S1x1
  slices_S32x8_o16_5_S1x1 : S32x8.Slices ![16, 5] S1x1
  slices_S32x8_o16_6_S1x1 : S32x8.Slices ![16, 6] S1x1
  slices_S32x8_o16_7_S1x1 : S32x8.Slices ![16, 7] S1x1
  slices_S1x32_o0_16_S1x1 : S1x32.Slices ![0, 16] S1x1
  slices_S512x32_o0_16_S512x1 : S512x32.Slices ![0, 16] S512x1
  slices_S32x8_o17_0_S1x1 : S32x8.Slices ![17, 0] S1x1
  slices_S32x8_o17_1_S1x1 : S32x8.Slices ![17, 1] S1x1
  slices_S32x8_o17_2_S1x1 : S32x8.Slices ![17, 2] S1x1
  slices_S32x8_o17_3_S1x1 : S32x8.Slices ![17, 3] S1x1
  slices_S32x8_o17_4_S1x1 : S32x8.Slices ![17, 4] S1x1
  slices_S32x8_o17_5_S1x1 : S32x8.Slices ![17, 5] S1x1
  slices_S32x8_o17_6_S1x1 : S32x8.Slices ![17, 6] S1x1
  slices_S32x8_o17_7_S1x1 : S32x8.Slices ![17, 7] S1x1
  slices_S1x32_o0_17_S1x1 : S1x32.Slices ![0, 17] S1x1
  slices_S512x32_o0_17_S512x1 : S512x32.Slices ![0, 17] S512x1
  slices_S32x8_o18_0_S1x1 : S32x8.Slices ![18, 0] S1x1
  slices_S32x8_o18_1_S1x1 : S32x8.Slices ![18, 1] S1x1
  slices_S32x8_o18_2_S1x1 : S32x8.Slices ![18, 2] S1x1
  slices_S32x8_o18_3_S1x1 : S32x8.Slices ![18, 3] S1x1
  slices_S32x8_o18_4_S1x1 : S32x8.Slices ![18, 4] S1x1
  slices_S32x8_o18_5_S1x1 : S32x8.Slices ![18, 5] S1x1
  slices_S32x8_o18_6_S1x1 : S32x8.Slices ![18, 6] S1x1
  slices_S32x8_o18_7_S1x1 : S32x8.Slices ![18, 7] S1x1
  slices_S1x32_o0_18_S1x1 : S1x32.Slices ![0, 18] S1x1
  slices_S512x32_o0_18_S512x1 : S512x32.Slices ![0, 18] S512x1
  slices_S32x8_o19_0_S1x1 : S32x8.Slices ![19, 0] S1x1
  slices_S32x8_o19_1_S1x1 : S32x8.Slices ![19, 1] S1x1
  slices_S32x8_o19_2_S1x1 : S32x8.Slices ![19, 2] S1x1
  slices_S32x8_o19_3_S1x1 : S32x8.Slices ![19, 3] S1x1
  slices_S32x8_o19_4_S1x1 : S32x8.Slices ![19, 4] S1x1
  slices_S32x8_o19_5_S1x1 : S32x8.Slices ![19, 5] S1x1
  slices_S32x8_o19_6_S1x1 : S32x8.Slices ![19, 6] S1x1
  slices_S32x8_o19_7_S1x1 : S32x8.Slices ![19, 7] S1x1
  slices_S1x32_o0_19_S1x1 : S1x32.Slices ![0, 19] S1x1
  slices_S512x32_o0_19_S512x1 : S512x32.Slices ![0, 19] S512x1
  slices_S32x8_o20_0_S1x1 : S32x8.Slices ![20, 0] S1x1
  slices_S32x8_o20_1_S1x1 : S32x8.Slices ![20, 1] S1x1
  slices_S32x8_o20_2_S1x1 : S32x8.Slices ![20, 2] S1x1
  slices_S32x8_o20_3_S1x1 : S32x8.Slices ![20, 3] S1x1
  slices_S32x8_o20_4_S1x1 : S32x8.Slices ![20, 4] S1x1
  slices_S32x8_o20_5_S1x1 : S32x8.Slices ![20, 5] S1x1
  slices_S32x8_o20_6_S1x1 : S32x8.Slices ![20, 6] S1x1
  slices_S32x8_o20_7_S1x1 : S32x8.Slices ![20, 7] S1x1
  slices_S1x32_o0_20_S1x1 : S1x32.Slices ![0, 20] S1x1
  slices_S512x32_o0_20_S512x1 : S512x32.Slices ![0, 20] S512x1
  slices_S32x8_o21_0_S1x1 : S32x8.Slices ![21, 0] S1x1
  slices_S32x8_o21_1_S1x1 : S32x8.Slices ![21, 1] S1x1
  slices_S32x8_o21_2_S1x1 : S32x8.Slices ![21, 2] S1x1
  slices_S32x8_o21_3_S1x1 : S32x8.Slices ![21, 3] S1x1
  slices_S32x8_o21_4_S1x1 : S32x8.Slices ![21, 4] S1x1
  slices_S32x8_o21_5_S1x1 : S32x8.Slices ![21, 5] S1x1
  slices_S32x8_o21_6_S1x1 : S32x8.Slices ![21, 6] S1x1
  slices_S32x8_o21_7_S1x1 : S32x8.Slices ![21, 7] S1x1
  slices_S1x32_o0_21_S1x1 : S1x32.Slices ![0, 21] S1x1
  slices_S512x32_o0_21_S512x1 : S512x32.Slices ![0, 21] S512x1
  slices_S32x8_o22_0_S1x1 : S32x8.Slices ![22, 0] S1x1
  slices_S32x8_o22_1_S1x1 : S32x8.Slices ![22, 1] S1x1
  slices_S32x8_o22_2_S1x1 : S32x8.Slices ![22, 2] S1x1
  slices_S32x8_o22_3_S1x1 : S32x8.Slices ![22, 3] S1x1
  slices_S32x8_o22_4_S1x1 : S32x8.Slices ![22, 4] S1x1
  slices_S32x8_o22_5_S1x1 : S32x8.Slices ![22, 5] S1x1
  slices_S32x8_o22_6_S1x1 : S32x8.Slices ![22, 6] S1x1
  slices_S32x8_o22_7_S1x1 : S32x8.Slices ![22, 7] S1x1
  slices_S1x32_o0_22_S1x1 : S1x32.Slices ![0, 22] S1x1
  slices_S512x32_o0_22_S512x1 : S512x32.Slices ![0, 22] S512x1
  slices_S32x8_o23_0_S1x1 : S32x8.Slices ![23, 0] S1x1
  slices_S32x8_o23_1_S1x1 : S32x8.Slices ![23, 1] S1x1
  slices_S32x8_o23_2_S1x1 : S32x8.Slices ![23, 2] S1x1
  slices_S32x8_o23_3_S1x1 : S32x8.Slices ![23, 3] S1x1
  slices_S32x8_o23_4_S1x1 : S32x8.Slices ![23, 4] S1x1
  slices_S32x8_o23_5_S1x1 : S32x8.Slices ![23, 5] S1x1
  slices_S32x8_o23_6_S1x1 : S32x8.Slices ![23, 6] S1x1
  slices_S32x8_o23_7_S1x1 : S32x8.Slices ![23, 7] S1x1
  slices_S1x32_o0_23_S1x1 : S1x32.Slices ![0, 23] S1x1
  slices_S512x32_o0_23_S512x1 : S512x32.Slices ![0, 23] S512x1
  slices_S32x8_o24_0_S1x1 : S32x8.Slices ![24, 0] S1x1
  slices_S32x8_o24_1_S1x1 : S32x8.Slices ![24, 1] S1x1
  slices_S32x8_o24_2_S1x1 : S32x8.Slices ![24, 2] S1x1
  slices_S32x8_o24_3_S1x1 : S32x8.Slices ![24, 3] S1x1
  slices_S32x8_o24_4_S1x1 : S32x8.Slices ![24, 4] S1x1
  slices_S32x8_o24_5_S1x1 : S32x8.Slices ![24, 5] S1x1
  slices_S32x8_o24_6_S1x1 : S32x8.Slices ![24, 6] S1x1
  slices_S32x8_o24_7_S1x1 : S32x8.Slices ![24, 7] S1x1
  slices_S1x32_o0_24_S1x1 : S1x32.Slices ![0, 24] S1x1
  slices_S512x32_o0_24_S512x1 : S512x32.Slices ![0, 24] S512x1
  slices_S32x8_o25_0_S1x1 : S32x8.Slices ![25, 0] S1x1
  slices_S32x8_o25_1_S1x1 : S32x8.Slices ![25, 1] S1x1
  slices_S32x8_o25_2_S1x1 : S32x8.Slices ![25, 2] S1x1
  slices_S32x8_o25_3_S1x1 : S32x8.Slices ![25, 3] S1x1
  slices_S32x8_o25_4_S1x1 : S32x8.Slices ![25, 4] S1x1
  slices_S32x8_o25_5_S1x1 : S32x8.Slices ![25, 5] S1x1
  slices_S32x8_o25_6_S1x1 : S32x8.Slices ![25, 6] S1x1
  slices_S32x8_o25_7_S1x1 : S32x8.Slices ![25, 7] S1x1
  slices_S1x32_o0_25_S1x1 : S1x32.Slices ![0, 25] S1x1
  slices_S512x32_o0_25_S512x1 : S512x32.Slices ![0, 25] S512x1
  slices_S32x8_o26_0_S1x1 : S32x8.Slices ![26, 0] S1x1
  slices_S32x8_o26_1_S1x1 : S32x8.Slices ![26, 1] S1x1
  slices_S32x8_o26_2_S1x1 : S32x8.Slices ![26, 2] S1x1
  slices_S32x8_o26_3_S1x1 : S32x8.Slices ![26, 3] S1x1
  slices_S32x8_o26_4_S1x1 : S32x8.Slices ![26, 4] S1x1
  slices_S32x8_o26_5_S1x1 : S32x8.Slices ![26, 5] S1x1
  slices_S32x8_o26_6_S1x1 : S32x8.Slices ![26, 6] S1x1
  slices_S32x8_o26_7_S1x1 : S32x8.Slices ![26, 7] S1x1
  slices_S1x32_o0_26_S1x1 : S1x32.Slices ![0, 26] S1x1
  slices_S512x32_o0_26_S512x1 : S512x32.Slices ![0, 26] S512x1
  slices_S32x8_o27_0_S1x1 : S32x8.Slices ![27, 0] S1x1
  slices_S32x8_o27_1_S1x1 : S32x8.Slices ![27, 1] S1x1
  slices_S32x8_o27_2_S1x1 : S32x8.Slices ![27, 2] S1x1
  slices_S32x8_o27_3_S1x1 : S32x8.Slices ![27, 3] S1x1
  slices_S32x8_o27_4_S1x1 : S32x8.Slices ![27, 4] S1x1
  slices_S32x8_o27_5_S1x1 : S32x8.Slices ![27, 5] S1x1
  slices_S32x8_o27_6_S1x1 : S32x8.Slices ![27, 6] S1x1
  slices_S32x8_o27_7_S1x1 : S32x8.Slices ![27, 7] S1x1
  slices_S1x32_o0_27_S1x1 : S1x32.Slices ![0, 27] S1x1
  slices_S512x32_o0_27_S512x1 : S512x32.Slices ![0, 27] S512x1
  slices_S32x8_o28_0_S1x1 : S32x8.Slices ![28, 0] S1x1
  slices_S32x8_o28_1_S1x1 : S32x8.Slices ![28, 1] S1x1
  slices_S32x8_o28_2_S1x1 : S32x8.Slices ![28, 2] S1x1
  slices_S32x8_o28_3_S1x1 : S32x8.Slices ![28, 3] S1x1
  slices_S32x8_o28_4_S1x1 : S32x8.Slices ![28, 4] S1x1
  slices_S32x8_o28_5_S1x1 : S32x8.Slices ![28, 5] S1x1
  slices_S32x8_o28_6_S1x1 : S32x8.Slices ![28, 6] S1x1
  slices_S32x8_o28_7_S1x1 : S32x8.Slices ![28, 7] S1x1
  slices_S1x32_o0_28_S1x1 : S1x32.Slices ![0, 28] S1x1
  slices_S512x32_o0_28_S512x1 : S512x32.Slices ![0, 28] S512x1
  slices_S32x8_o29_0_S1x1 : S32x8.Slices ![29, 0] S1x1
  slices_S32x8_o29_1_S1x1 : S32x8.Slices ![29, 1] S1x1
  slices_S32x8_o29_2_S1x1 : S32x8.Slices ![29, 2] S1x1
  slices_S32x8_o29_3_S1x1 : S32x8.Slices ![29, 3] S1x1
  slices_S32x8_o29_4_S1x1 : S32x8.Slices ![29, 4] S1x1
  slices_S32x8_o29_5_S1x1 : S32x8.Slices ![29, 5] S1x1
  slices_S32x8_o29_6_S1x1 : S32x8.Slices ![29, 6] S1x1
  slices_S32x8_o29_7_S1x1 : S32x8.Slices ![29, 7] S1x1
  slices_S1x32_o0_29_S1x1 : S1x32.Slices ![0, 29] S1x1
  slices_S512x32_o0_29_S512x1 : S512x32.Slices ![0, 29] S512x1
  slices_S32x8_o30_0_S1x1 : S32x8.Slices ![30, 0] S1x1
  slices_S32x8_o30_1_S1x1 : S32x8.Slices ![30, 1] S1x1
  slices_S32x8_o30_2_S1x1 : S32x8.Slices ![30, 2] S1x1
  slices_S32x8_o30_3_S1x1 : S32x8.Slices ![30, 3] S1x1
  slices_S32x8_o30_4_S1x1 : S32x8.Slices ![30, 4] S1x1
  slices_S32x8_o30_5_S1x1 : S32x8.Slices ![30, 5] S1x1
  slices_S32x8_o30_6_S1x1 : S32x8.Slices ![30, 6] S1x1
  slices_S32x8_o30_7_S1x1 : S32x8.Slices ![30, 7] S1x1
  slices_S1x32_o0_30_S1x1 : S1x32.Slices ![0, 30] S1x1
  slices_S512x32_o0_30_S512x1 : S512x32.Slices ![0, 30] S512x1
  slices_S32x8_o31_0_S1x1 : S32x8.Slices ![31, 0] S1x1
  slices_S32x8_o31_1_S1x1 : S32x8.Slices ![31, 1] S1x1
  slices_S32x8_o31_2_S1x1 : S32x8.Slices ![31, 2] S1x1
  slices_S32x8_o31_3_S1x1 : S32x8.Slices ![31, 3] S1x1
  slices_S32x8_o31_4_S1x1 : S32x8.Slices ![31, 4] S1x1
  slices_S32x8_o31_5_S1x1 : S32x8.Slices ![31, 5] S1x1
  slices_S32x8_o31_6_S1x1 : S32x8.Slices ![31, 6] S1x1
  slices_S32x8_o31_7_S1x1 : S32x8.Slices ![31, 7] S1x1
  slices_S1x32_o0_31_S1x1 : S1x32.Slices ![0, 31] S1x1
  slices_S512x32_o0_31_S512x1 : S512x32.Slices ![0, 31] S512x1
  concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0 : Shape.Concatenates [S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S1x128] S32x128 0
  dot_S2048x16_S16x32_S2048x32_1_0_0_1_n_n_wf : DotDims.WF S2048x16 S16x32 S2048x32 [1] [0] [0] [1] [] []
  dot_S2048x32_S32x32_S2048x32_1_0_0_1_n_n_wf : DotDims.WF S2048x32 S32x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x128.size a ≤ S3x2048.size a
  hwx0_0 : ∀ i : grid0.Coords, EltTy.bits .f32 = 32 ∨ (Rect.block (s := S3x2048) S3x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S9x128.size a ≤ S9x2048.size a
  hwx0_1 : ∀ i : grid0.Coords, EltTy.bits .f32 = 32 ∨ (Rect.block (s := S9x2048) S9x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3.size a ≤ S2048x3.size a
  hwx0_2 : ∀ i : grid0.Coords, EltTy.bits .f32 = 32 ∨ (Rect.block (s := S2048x3) S512x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x9.size a ≤ S2048x9.size a
  hwx0_3 : ∀ i : grid0.Coords, EltTy.bits .f32 = 32 ∨ (Rect.block (s := S2048x9) S512x9.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x32.size a ≤ S2048x32.size a
  hwx0_4 : ∀ i : grid0.Coords, EltTy.bits .f32 = 32 ∨ (Rect.block (s := S2048x32) S512x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x3.size a ≤ S8x3.size a
  hwx0_5 : ∀ i : grid0.Coords, EltTy.bits .f32 = 32 ∨ (Rect.block (s := S8x3) S8x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x8.size a ≤ S32x8.size a
  hwx0_7 : ∀ i : grid0.Coords, EltTy.bits .f32 = 32 ∨ (Rect.block (s := S32x8) S32x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x128.size a ≤ S32x2048.size a
  hwx0_9 : ∀ i : grid0.Coords, EltTy.bits .f32 = 32 ∨ (Rect.block (s := S32x2048) S32x128.size (cc0_transform_9 i) (hinb0_9 i)).WholeWords (EltTy.packing .f32)

variable [Facts₀]

def dot_S2048x16_S16x32_S2048x32_1_0_0_1_n_n : DotDims S2048x16 S16x32 S2048x32 where
  lhsContracting := [1]
  rhsContracting := [0]
  lhsNonContracting := [0]
  rhsNonContracting := [1]
  lhsBatch := []
  rhsBatch := []
  wf := dot_S2048x16_S16x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf

abbrev win0_0 : Pipeline.Window sig grid0 :=
  Pipeline.Window.ofSpec (Memref.whole main_v47) S3x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S9x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S512x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S512x9.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41) S512x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S8x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S32x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v46) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v49) S32x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S2048x3 : Shape := ⟨2, ![2048, 3]⟩
abbrev S2048x3x3 : Shape := ⟨3, ![2048, 3, 3]⟩
abbrev S2048x16 : Shape := ⟨2, ![2048, 16]⟩
abbrev S32x16 : Shape := ⟨2, ![32, 16]⟩
abbrev S32 : Shape := ⟨1, ![32]⟩
abbrev S32x32 : Shape := ⟨2, ![32, 32]⟩
abbrev S8x3 : Shape := ⟨2, ![8, 3]⟩
abbrev S8 : Shape := ⟨1, ![8]⟩
abbrev S32x8 : Shape := ⟨2, ![32, 8]⟩
abbrev S16x32 : Shape := ⟨2, ![16, 32]⟩
abbrev S2048x32 : Shape := ⟨2, ![2048, 32]⟩
abbrev S1x32 : Shape := ⟨2, ![1, 32]⟩
abbrev S_ : Shape := ⟨0, ![]⟩
abbrev S32x2048 : Shape := ⟨2, ![32, 2048]⟩
abbrev S4x16384 : Shape := ⟨2, ![4, 16384]⟩
abbrev S4 : Shape := ⟨1, ![4]⟩
abbrev S4x1 : Shape := ⟨2, ![4, 1]⟩
abbrev S32x1 : Shape := ⟨2, ![32, 1]⟩
abbrev S2048x1x3 : Shape := ⟨3, ![2048, 1, 3]⟩
abbrev S1x2048x3 : Shape := ⟨3, ![1, 2048, 3]⟩
abbrev S2048x2048x3 : Shape := ⟨3, ![2048, 2048, 3]⟩
abbrev S2048x2048 : Shape := ⟨2, ![2048, 2048]⟩
abbrev S3x2048 : Shape := ⟨2, ![3, 2048]⟩
abbrev S2048x2048x8 : Shape := ⟨3, ![2048, 2048, 8]⟩
abbrev S1x1x8 : Shape := ⟨3, ![1, 1, 8]⟩
abbrev S2048x2048x32 : Shape := ⟨3, ![2048, 2048, 32]⟩
abbrev S1x1x32 : Shape := ⟨3, ![1, 1, 32]⟩
abbrev S2048x2048x1 : Shape := ⟨3, ![2048, 2048, 1]⟩
abbrev S1x2048x32 : Shape := ⟨3, ![1, 2048, 32]⟩

abbrev nBuf : Space → Nat
  | .hbm => 208
  | .vmem => 0
  | .smem => 0
  | _ => 0

abbrev hbmTy0_0 (i : Nat) : BufTy := match i % 128 with
  | 0 => ⟨S2048x3, .f32⟩
  | 1 => ⟨S2048x3x3, .f32⟩
  | 2 => ⟨S2048x16, .f32⟩
  | 3 => ⟨S32x16, .f32⟩
  | 4 => ⟨S32, .f32⟩
  | 5 => ⟨S32x32, .f32⟩
  | 6 => ⟨S32, .f32⟩
  | 7 => ⟨S32, .f32⟩
  | 8 => ⟨S32, .f32⟩
  | 9 => ⟨S8x3, .f32⟩
  | 10 => ⟨S8, .f32⟩
  | 11 => ⟨S32x8, .f32⟩
  | 12 => ⟨S32, .f32⟩
  | 13 => ⟨S32x32, .f32⟩
  | 14 => ⟨S32, .f32⟩
  | 15 => ⟨S32x32, .f32⟩
  | 16 => ⟨S32, .f32⟩
  | 17 => ⟨S32, .f32⟩
  | 18 => ⟨S32, .f32⟩
  | 19 => ⟨S16x32, .f32⟩
  | 20 => ⟨S2048x32, .f32⟩
  | 21 => ⟨S1x32, .f32⟩
  | 22 => ⟨S2048x32, .f32⟩
  | 23 => ⟨S2048x32, .f32⟩
  | 24 => ⟨S_, .f32⟩
  | 25 => ⟨S2048x32, .f32⟩
  | 26 => ⟨S2048x32, .i1⟩
  | 27 => ⟨S_, .f32⟩
  | 28 => ⟨S2048x32, .f32⟩
  | 29 => ⟨S2048x32, .f32⟩
  | 30 => ⟨S2048x32, .f32⟩
  | 31 => ⟨S32x32, .f32⟩
  | 32 => ⟨S2048x32, .f32⟩
  | 33 => ⟨S1x32, .f32⟩
  | 34 => ⟨S2048x32, .f32⟩
  | 35 => ⟨S2048x32, .f32⟩
  | 36 => ⟨S_, .f32⟩
  | 37 => ⟨S2048x32, .f32⟩
  | 38 => ⟨S2048x32, .i1⟩
  | 39 => ⟨S_, .f32⟩
  | 40 => ⟨S2048x32, .f32⟩
  | 41 => ⟨S2048x32, .f32⟩
  | 42 => ⟨S2048x32, .f32⟩
  | 43 => ⟨S32x2048, .f32⟩
  | 44 => ⟨S4x16384, .f32⟩
  | 45 => ⟨S_, .f32⟩
  | 46 => ⟨S4, .f32⟩
  | 47 => ⟨S4x1, .f32⟩
  | 48 => ⟨S_, .f32⟩
  | 49 => ⟨S4x1, .f32⟩
  | 50 => ⟨S4x1, .f32⟩
  | 51 => ⟨S_, .i32⟩
  | 52 => ⟨S_, .f32⟩
  | 53 => ⟨S4, .f32⟩
  | 54 => ⟨S4x1, .f32⟩
  | 55 => ⟨S_, .f32⟩
  | 56 => ⟨S4x1, .f32⟩
  | 57 => ⟨S4x1, .f32⟩
  | 58 => ⟨S4x16384, .f32⟩
  | 59 => ⟨S4x16384, .f32⟩
  | 60 => ⟨S4x16384, .f32⟩
  | 61 => ⟨S_, .f32⟩
  | 62 => ⟨S_, .f32⟩
  | 63 => ⟨S_, .f32⟩
  | 64 => ⟨S_, .f32⟩
  | 65 => ⟨S4, .f32⟩
  | 66 => ⟨S4x1, .f32⟩
  | 67 => ⟨S4x1, .f32⟩
  | 68 => ⟨S4x1, .f32⟩
  | 69 => ⟨S_, .f32⟩
  | 70 => ⟨S_, .i1⟩
  | 71 => ⟨S_, .f32⟩
  | 72 => ⟨S_, .f32⟩
  | 73 => ⟨S4x1, .f32⟩
  | 74 => ⟨S4x1, .f32⟩
  | 75 => ⟨S4x16384, .f32⟩
  | 76 => ⟨S4x16384, .f32⟩
  | 77 => ⟨S_, .f32⟩
  | 78 => ⟨S4x1, .f32⟩
  | 79 => ⟨S4x1, .f32⟩
  | 80 => ⟨S4x1, .f32⟩
  | 81 => ⟨S4x16384, .f32⟩
  | 82 => ⟨S4x16384, .f32⟩
  | 83 => ⟨S32x2048, .f32⟩
  | 84 => ⟨S32x1, .f32⟩
  | 85 => ⟨S32x2048, .f32⟩
  | 86 => ⟨S32x2048, .f32⟩
  | 87 => ⟨S32x1, .f32⟩
  | 88 => ⟨S32x2048, .f32⟩
  | 89 => ⟨S32x2048, .f32⟩
  | 90 => ⟨S2048x32, .f32⟩
  | 91 => ⟨S_, .f32⟩
  | 92 => ⟨S2048x3, .f32⟩
  | 93 => ⟨S2048x3, .f32⟩
  | 94 => ⟨S2048x1x3, .f32⟩
  | 95 => ⟨S2048x3, .f32⟩
  | 96 => ⟨S1x2048x3, .f32⟩
  | 97 => ⟨S2048x1x3, .f32⟩
  | 98 => ⟨S2048x2048x3, .f32⟩
  | 99 => ⟨S2048x2048x3, .f32⟩
  | 100 => ⟨S2048x2048x3, .f32⟩
  | 101 => ⟨S2048x2048x3, .f32⟩
  | 102 => ⟨S_, .f32⟩
  | 103 => ⟨S2048x2048, .f32⟩
  | 104 => ⟨S3x2048, .f32⟩
  | 105 => ⟨S2048x2048, .f32⟩
  | 106 => ⟨S2048x2048, .f32⟩
  | 107 => ⟨S_, .f32⟩
  | 108 => ⟨S2048x2048, .f32⟩
  | 109 => ⟨S2048x2048, .f32⟩
  | 110 => ⟨S2048x2048, .f32⟩
  | 111 => ⟨S2048x2048, .f32⟩
  | 112 => ⟨S2048x2048, .f32⟩
  | 113 => ⟨S2048x2048x3, .f32⟩
  | 114 => ⟨S2048x2048x8, .f32⟩
  | 115 => ⟨S1x1x8, .f32⟩
  | 116 => ⟨S2048x2048x8, .f32⟩
  | 117 => ⟨S2048x2048x8, .f32⟩
  | 118 => ⟨S_, .f32⟩
  | 119 => ⟨S2048x2048x8, .f32⟩
  | 120 => ⟨S2048x2048x8, .f32⟩
  | 121 => ⟨S2048x2048x32, .f32⟩
  | 122 => ⟨S1x1x32, .f32⟩
  | 123 => ⟨S2048x2048x32, .f32⟩
  | 124 => ⟨S2048x2048x32, .f32⟩
  | 125 => ⟨S_, .f32⟩
  | 126 => ⟨S2048x2048x32, .f32⟩
  | 127 => ⟨S2048x2048x32, .f32⟩
  | _ => ⟨S2048x3, .f32⟩

abbrev hbmTy0_1 (i : Nat) : BufTy := match i % 128 with
  | 0 => ⟨S2048x2048x1, .f32⟩
  | 1 => ⟨S2048x2048x32, .f32⟩
  | 2 => ⟨S2048x2048x32, .f32⟩
  | 3 => ⟨S1x2048x32, .f32⟩
  | 4 => ⟨S2048x2048x32, .f32⟩
  | 5 => ⟨S2048x2048x32, .f32⟩
  | 6 => ⟨S_, .f32⟩
  | 7 => ⟨S2048x32, .f32⟩
  | 8 => ⟨S32x32, .f32⟩
  | 9 => ⟨S2048x32, .f32⟩
  | 10 => ⟨S1x32, .f32⟩
  | 11 => ⟨S2048x32, .f32⟩
  | 12 => ⟨S2048x32, .f32⟩
  | 13 => ⟨S_, .f32⟩
  | 14 => ⟨S2048x32, .f32⟩
  | 15 => ⟨S2048x32, .i1⟩
  | 16 => ⟨S_, .f32⟩
  | 17 => ⟨S2048x32, .f32⟩
  | 18 => ⟨S2048x32, .f32⟩
  | 19 => ⟨S2048x32, .f32⟩
  | 20 => ⟨S32x32, .f32⟩
  | 21 => ⟨S2048x32, .f32⟩
  | 22 => ⟨S1x32, .f32⟩
  | 23 => ⟨S2048x32, .f32⟩
  | 24 => ⟨S2048x32, .f32⟩
  | 25 => ⟨S_, .f32⟩
  | 26 => ⟨S2048x32, .f32⟩
  | 27 => ⟨S2048x32, .i1⟩
  | 28 => ⟨S_, .f32⟩
  | 29 => ⟨S2048x32, .f32⟩
  | 30 => ⟨S2048x32, .f32⟩
  | 31 => ⟨S2048x32, .f32⟩
  | 32 => ⟨S32x2048, .f32⟩
  | 33 => ⟨S4x16384, .f32⟩
  | 34 => ⟨S_, .f32⟩
  | 35 => ⟨S4, .f32⟩
  | 36 => ⟨S4x1, .f32⟩
  | 37 => ⟨S_, .f32⟩
  | 38 => ⟨S4x1, .f32⟩
  | 39 => ⟨S4x1, .f32⟩
  | 40 => ⟨S_, .i32⟩
  | 41 => ⟨S_, .f32⟩
  | 42 => ⟨S4, .f32⟩
  | 43 => ⟨S4x1, .f32⟩
  | 44 => ⟨S_, .f32⟩
  | 45 => ⟨S4x1, .f32⟩
  | 46 => ⟨S4x1, .f32⟩
  | 47 => ⟨S4x16384, .f32⟩
  | 48 => ⟨S4x16384, .f32⟩
  | 49 => ⟨S4x16384, .f32⟩
  | 50 => ⟨S_, .f32⟩
  | 51 => ⟨S_, .f32⟩
  | 52 => ⟨S_, .f32⟩
  | 53 => ⟨S_, .f32⟩
  | 54 => ⟨S4, .f32⟩
  | 55 => ⟨S4x1, .f32⟩
  | 56 => ⟨S4x1, .f32⟩
  | 57 => ⟨S4x1, .f32⟩
  | 58 => ⟨S_, .f32⟩
  | 59 => ⟨S_, .i1⟩
  | 60 => ⟨S_, .f32⟩
  | 61 => ⟨S_, .f32⟩
  | 62 => ⟨S4x1, .f32⟩
  | 63 => ⟨S4x1, .f32⟩
  | 64 => ⟨S4x16384, .f32⟩
  | 65 => ⟨S4x16384, .f32⟩
  | 66 => ⟨S_, .f32⟩
  | 67 => ⟨S4x1, .f32⟩
  | 68 => ⟨S4x1, .f32⟩
  | 69 => ⟨S4x1, .f32⟩
  | 70 => ⟨S4x16384, .f32⟩
  | 71 => ⟨S4x16384, .f32⟩
  | 72 => ⟨S32x2048, .f32⟩
  | 73 => ⟨S32x1, .f32⟩
  | 74 => ⟨S32x2048, .f32⟩
  | 75 => ⟨S32x2048, .f32⟩
  | 76 => ⟨S32x1, .f32⟩
  | 77 => ⟨S32x2048, .f32⟩
  | 78 => ⟨S32x2048, .f32⟩
  | 79 => ⟨S2048x32, .f32⟩
  | _ => ⟨S2048x3, .f32⟩

abbrev hbmTy (i : Nat) : BufTy := match i / 128 with
  | 0 => hbmTy0_0 i
  | 1 => hbmTy0_1 i
  | _ => ⟨S2048x3, .f32⟩

abbrev bufTy : (tb : Table) → Fin (tcTables nBuf tb) → BufTy
  | .hbm, ⟨i, _⟩ => hbmTy i
  | _, _ => ⟨S2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_c : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_cst_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_cst_1 : Ref sig .tc := ⟨.hbm, 62, rfl⟩
abbrev main_call2_v8 : Ref sig .tc := ⟨.hbm, 63, rfl⟩
abbrev main_call2_cst_2 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_cst_3 : Ref sig .tc := ⟨.hbm, 69, rfl⟩
abbrev main_call2_v13 : Ref sig .tc := ⟨.hbm, 70, rfl⟩
abbrev main_call2_cst_4 : Ref sig .tc := ⟨.hbm, 71, rfl⟩
abbrev main_call2_call0_v0 : Ref sig .tc := ⟨.hbm, 72, rfl⟩
abbrev main_call2_call0_v1 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_cst_5 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_6 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_cst_7 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_8 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_call3_cst : Ref sig .tc := ⟨.hbm, 118, rfl⟩
abbrev main_call3_v0 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_call4_cst : Ref sig .tc := ⟨.hbm, 125, rfl⟩
abbrev main_call4_v0 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_cst_9 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_cst_10 : Ref sig .tc := ⟨.hbm, 141, rfl⟩
abbrev main_v84 : Ref sig .tc := ⟨.hbm, 142, rfl⟩
abbrev main_v85 : Ref sig .tc := ⟨.hbm, 143, rfl⟩
abbrev main_cst_11 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_12 : Ref sig .tc := ⟨.hbm, 153, rfl⟩
abbrev main_v94 : Ref sig .tc := ⟨.hbm, 154, rfl⟩
abbrev main_v95 : Ref sig .tc := ⟨.hbm, 155, rfl⟩
abbrev main_cst_13 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_14 : Ref sig .tc := ⟨.hbm, 162, rfl⟩
abbrev main_v101 : Ref sig .tc := ⟨.hbm, 163, rfl⟩
abbrev main_v102 : Ref sig .tc := ⟨.hbm, 164, rfl⟩
abbrev main_cst_15 : Ref sig .tc := ⟨.hbm, 165, rfl⟩
abbrev main_v103 : Ref sig .tc := ⟨.hbm, 166, rfl⟩
abbrev main_v104 : Ref sig .tc := ⟨.hbm, 167, rfl⟩
abbrev main_c_16 : Ref sig .tc := ⟨.hbm, 168, rfl⟩
abbrev main_call7_cst : Ref sig .tc := ⟨.hbm, 169, rfl⟩
abbrev main_call7_v0 : Ref sig .tc := ⟨.hbm, 170, rfl⟩
abbrev main_call7_v1 : Ref sig .tc := ⟨.hbm, 171, rfl⟩
abbrev main_call7_cst_0 : Ref sig .tc := ⟨.hbm, 172, rfl⟩
abbrev main_call7_v2 : Ref sig .tc := ⟨.hbm, 173, rfl⟩
abbrev main_call7_v3 : Ref sig .tc := ⟨.hbm, 174, rfl⟩
abbrev main_call7_v4 : Ref sig .tc := ⟨.hbm, 175, rfl⟩
abbrev main_call7_v5 : Ref sig .tc := ⟨.hbm, 176, rfl⟩
abbrev main_call7_v6 : Ref sig .tc := ⟨.hbm, 177, rfl⟩
abbrev main_call7_v7 : Ref sig .tc := ⟨.hbm, 178, rfl⟩
abbrev main_call7_cst_1 : Ref sig .tc := ⟨.hbm, 179, rfl⟩
abbrev main_call7_v8 : Ref sig .tc := ⟨.hbm, 180, rfl⟩
abbrev main_call7_cst_2 : Ref sig .tc := ⟨.hbm, 181, rfl⟩
abbrev main_call7_v9 : Ref sig .tc := ⟨.hbm, 182, rfl⟩
abbrev main_call7_v10 : Ref sig .tc := ⟨.hbm, 183, rfl⟩
abbrev main_call7_v11 : Ref sig .tc := ⟨.hbm, 184, rfl⟩
abbrev main_call7_v12 : Ref sig .tc := ⟨.hbm, 185, rfl⟩
abbrev main_call7_cst_3 : Ref sig .tc := ⟨.hbm, 186, rfl⟩
abbrev main_call7_v13 : Ref sig .tc := ⟨.hbm, 187, rfl⟩
abbrev main_call7_cst_4 : Ref sig .tc := ⟨.hbm, 188, rfl⟩
abbrev main_call7_call0_v0 : Ref sig .tc := ⟨.hbm, 189, rfl⟩
abbrev main_call7_call0_v1 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_cst_17 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩

abbrev nD : Nat := 1
abbrev τ : Topo := Topo.v7x

variable {F : FTy → Type} [FloatOps F]

class Facts₀ : Prop where
  transposes_S32x16_S16x32_1_0 : S32x16.Transposes [1, 0] S16x32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  transposes_S32x32_S32x32_1_0 : S32x32.Transposes [1, 0] S32x32
  transposes_S2048x32_S32x2048_1_0 : S2048x32.Transposes [1, 0] S32x2048
  shapeCasts_S32x2048_S4x16384 : S32x2048.ShapeCasts S4x16384
  reducesTo_S4x16384_S4_d1 : S4x16384.ReducesTo [1] S4
  h_S_ : 0 < S_.numel
  bcast_S4_S4x1_0 : S4.BroadcastsInDim S4x1 (![0] : Fin 1 → Fin S4x1.rank)
  bcast_S_S4x1 : S_.BroadcastsInDim S4x1 (![] : Fin 0 → Fin S4x1.rank)
  bcast_S4x1_S4x16384_0_1 : S4x1.BroadcastsInDim S4x16384 (![0, 1] : Fin 2 → Fin S4x16384.rank)
  shapeCasts_S4x16384_S32x2048 : S4x16384.ShapeCasts S32x2048
  bcast_S32_S32x1_0 : S32.BroadcastsInDim S32x1 (![0] : Fin 1 → Fin S32x1.rank)
  bcast_S32x1_S32x2048_0_1 : S32x1.BroadcastsInDim S32x2048 (![0, 1] : Fin 2 → Fin S32x2048.rank)
  transposes_S32x2048_S2048x32_1_0 : S32x2048.Transposes [1, 0] S2048x32
  bcast_S_S2048x3 : S_.BroadcastsInDim S2048x3 (![] : Fin 0 → Fin S2048x3.rank)
  slices_S2048x3x3_S2048x1x3_0_0_0 : S2048x3x3.Slices ![0, 0, 0] S2048x1x3
  shapeCasts_S2048x1x3_S2048x3 : S2048x1x3.ShapeCasts S2048x3
  bcast_S2048x3_S1x2048x3_1_2 : S2048x3.BroadcastsInDim S1x2048x3 (![1, 2] : Fin 2 → Fin S1x2048x3.rank)
  bcast_S2048x3_S2048x1x3_0_2 : S2048x3.BroadcastsInDim S2048x1x3 (![0, 2] : Fin 2 → Fin S2048x1x3.rank)
  bcast_S1x2048x3_S2048x2048x3_0_1_2 : S1x2048x3.BroadcastsInDim S2048x2048x3 (![0, 1, 2] : Fin 3 → Fin S2048x2048x3.rank)
  bcast_S2048x1x3_S2048x2048x3_0_1_2 : S2048x1x3.BroadcastsInDim S2048x2048x3 (![0, 1, 2] : Fin 3 → Fin S2048x2048x3.rank)
  reducesTo_S2048x2048x3_S2048x2048_d2 : S2048x2048x3.ReducesTo [2] S2048x2048
  transposes_S2048x3_S3x2048_1_0 : S2048x3.Transposes [1, 0] S3x2048
  bcast_S_S2048x2048 : S_.BroadcastsInDim S2048x2048 (![] : Fin 0 → Fin S2048x2048.rank)
  bcast_S8_S1x1x8_2 : S8.BroadcastsInDim S1x1x8 (![2] : Fin 1 → Fin S1x1x8.rank)
  bcast_S1x1x8_S2048x2048x8_0_1_2 : S1x1x8.BroadcastsInDim S2048x2048x8 (![0, 1, 2] : Fin 3 → Fin S2048x2048x8.rank)
  bcast_S_S2048x2048x8 : S_.BroadcastsInDim S2048x2048x8 (![] : Fin 0 → Fin S2048x2048x8.rank)
  bcast_S32_S1x1x32_2 : S32.BroadcastsInDim S1x1x32 (![2] : Fin 1 → Fin S1x1x32.rank)
  bcast_S1x1x32_S2048x2048x32_0_1_2 : S1x1x32.BroadcastsInDim S2048x2048x32 (![0, 1, 2] : Fin 3 → Fin S2048x2048x32.rank)
  bcast_S_S2048x2048x32 : S_.BroadcastsInDim S2048x2048x32 (![] : Fin 0 → Fin S2048x2048x32.rank)
  bcast_S2048x2048_S2048x2048x1_0_1 : S2048x2048.BroadcastsInDim S2048x2048x1 (![0, 1] : Fin 2 → Fin S2048x2048x1.rank)
  bcast_S2048x2048x1_S2048x2048x32_0_1_2 : S2048x2048x1.BroadcastsInDim S2048x2048x32 (![0, 1, 2] : Fin 3 → Fin S2048x2048x32.rank)
  bcast_S2048x32_S1x2048x32_1_2 : S2048x32.BroadcastsInDim S1x2048x32 (![1, 2] : Fin 2 → Fin S1x2048x32.rank)
  bcast_S1x2048x32_S2048x2048x32_0_1_2 : S1x2048x32.BroadcastsInDim S2048x2048x32 (![0, 1, 2] : Fin 3 → Fin S2048x2048x32.rank)
  reducesTo_S2048x2048x32_S2048x32_d1 : S2048x2048x32.ReducesTo [1] S2048x32
  dot_S2048x16_S16x32_S2048x32_1_0_0_1_n_n_wf : DotDims.WF S2048x16 S16x32 S2048x32 [1] [0] [0] [1] [] []
  dot_S2048x32_S32x32_S2048x32_1_0_0_1_n_n_wf : DotDims.WF S2048x32 S32x32 S2048x32 [1] [0] [0] [1] [] []
  dot_S2048x3_S3x2048_S2048x2048_1_0_0_1_n_n_wf : DotDims.WF S2048x3 S3x2048 S2048x2048 [1] [0] [0] [1] [] []
  dot_S2048x2048x3_S2048x3x3_S2048x2048x3_2_2_1_1_0_0_wf : DotDims.WF S2048x2048x3 S2048x3x3 S2048x2048x3 [2] [2] [1] [1] [0] [0]
  dot_S2048x2048x3_S8x3_S2048x2048x8_2_1_01_0_n_n_wf : DotDims.WF S2048x2048x3 S8x3 S2048x2048x8 [2] [1] [0, 1] [0] [] []
  dot_S2048x2048x8_S32x8_S2048x2048x32_2_1_01_0_n_n_wf : DotDims.WF S2048x2048x8 S32x8 S2048x2048x32 [2] [1] [0, 1] [0] [] []

variable [Facts₀]

def dot_S2048x16_S16x32_S2048x32_1_0_0_1_n_n : DotDims S2048x16 S16x32 S2048x32 where
  lhsContracting := [1]
  rhsContracting := [0]
  lhsNonContracting := [0]
  rhsNonContracting := [1]
  lhsBatch := []
  rhsBatch := []
  wf := dot_S2048x16_S16x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S2048x3_S3x2048_S2048x2048_1_0_0_1_n_n : DotDims S2048x3 S3x2048 S2048x2048 where
  lhsContracting := [1]
  rhsContracting := [0]
  lhsNonContracting := [0]
  rhsNonContracting := [1]
  lhsBatch := []
  rhsBatch := []
  wf := dot_S2048x3_S3x2048_S2048x2048_1_0_0_1_n_n_wf
def dot_S2048x2048x3_S2048x3x3_S2048x2048x3_2_2_1_1_0_0 : DotDims S2048x2048x3 S2048x3x3 S2048x2048x3 where
  lhsContracting := [2]
  rhsContracting := [2]
  lhsNonContracting := [1]
  rhsNonContracting := [1]
  lhsBatch := [0]
  rhsBatch := [0]
  wf := dot_S2048x2048x3_S2048x3x3_S2048x2048x3_2_2_1_1_0_0_wf
def dot_S2048x2048x3_S8x3_S2048x2048x8_2_1_01_0_n_n : DotDims S2048x2048x3 S8x3 S2048x2048x8 where
  lhsContracting := [2]
  rhsContracting := [1]
  lhsNonContracting := [0, 1]
  rhsNonContracting := [0]
  lhsBatch := []
  rhsBatch := []
  wf := dot_S2048x2048x3_S8x3_S2048x2048x8_2_1_01_0_n_n_wf
def dot_S2048x2048x8_S32x8_S2048x2048x32_2_1_01_0_n_n : DotDims S2048x2048x8 S32x8 S2048x2048x32 where
  lhsContracting := [2]
  rhsContracting := [1]
  lhsNonContracting := [0, 1]
  rhsNonContracting := [0]
  lhsBatch := []
  rhsBatch := []
  wf := dot_S2048x2048x8_S32x8_S2048x2048x32_2_1_01_0_n_n_wf

class Facts : Prop extends Facts₀ where

variable [Facts]
-- ==== Proof.K.Body.lean ====
/-
  The kernel body of the all-pairs geometric convolution, seen from the pipeline: which of its two
  conditionals a grid point takes, where its output window is idle, and the memrefs it is called with.
  The grid is 16 × 4 (query tile i, key tile j); point t has j = t mod 4. The accumulator (a scratch
  buffer of shape 32 × 128) is zeroed when j = 0, added to at every point, and copied to the output
  window's buffer when j = 3; the output window is written back only at those last points.
-/
import proofs.«170118_j14654428414389_2_alg».proof.Proof.Gen.Kernel.Launch
import proofs.«170118_j14654428414389_2_alg».proof.Proof.Gen.Kernel.Skeleton
import proofs.«170118_j14654428414389_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- The first conditional (zero the accumulator): key tile j = 0. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional (copy the accumulator out): key tile j = 3, the last. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- Input window 6 is never idle. -/
theorem liveAt0_6 : ∀ t : Fin cfg0.N, cfg0.idle 6 (grid0.coords t) = false := by decide +kernel
/-- Input window 7 is never idle. -/
theorem liveAt0_7 : ∀ t : Fin cfg0.N, cfg0.idle 7 (grid0.coords t) = false := by decide +kernel
/-- Input window 8 is never idle. -/
theorem liveAt0_8 : ∀ t : Fin cfg0.N, cfg0.idle 8 (grid0.coords t) = false := by decide +kernel
/-- Where j = 0 (case A) the output window is idle and not written back. -/
theorem idleAt0_9_A : ∀ t : Fin cfg0.N, cond0_0 (grid0.coords t) → ¬cond0_1 (grid0.coords t) → cfg0.idle 9 (grid0.coords t) = true := by decide +kernel
theorem noFlush0_9_A : ∀ t : Fin cfg0.N, cond0_0 (grid0.coords t) → ¬cond0_1 (grid0.coords t) → (cfg0.win 9).flush t = false := by decide +kernel
/-- Where j = 1, 2 (case B) likewise. -/
theorem idleAt0_9_B : ∀ t : Fin cfg0.N, ¬cond0_0 (grid0.coords t) → ¬cond0_1 (grid0.coords t) → cfg0.idle 9 (grid0.coords t) = true := by decide +kernel
theorem noFlush0_9_B : ∀ t : Fin cfg0.N, ¬cond0_0 (grid0.coords t) → ¬cond0_1 (grid0.coords t) → (cfg0.win 9).flush t = false := by decide +kernel
/-- Where j = 3 (case C) the output window is live: the body stores into it. -/
theorem liveAt0_9_C : ∀ t : Fin cfg0.N, ¬cond0_0 (grid0.coords t) → cond0_1 (grid0.coords t) → cfg0.idle 9 (grid0.coords t) = false := by decide +kernel

/-! ## The memrefs the body is called with -/

/-- One staging buffer of the output window, through which its contents are stated. -/
abbrev VO0_9 : View sig .tc .vmem S32x128 .f32 := (Memref.whole cc0_stg9_0 : Memref sig .tc .vmem S32x128 .f32).view
abbrev ms0_0 (t : Fin cfg0.N) : Memref sig .tc .vmem S3x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x9 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x3 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x8 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x128 .f32 := win0_9.stage (cfg0.slots t 9)
abbrev hs0_9 (t : Fin cfg0.N) : (ms0_9 t).IsWhole := hstage0_9 ((cfg0.slots t 9).cast nbuf0_9)
/-- The accumulator: a whole scoped buffer of the kernel's own, carried from point to point. -/
abbrev scM0_0 : Memref sig .tc .vmem S32x128 .f32 := Memref.whole cc0_scratch0
abbrev VS0_0 : View sig .tc .vmem S32x128 .f32 := scM0_0.view

/-- The region invariant of a kernel that keeps only a scratch buffer: the accumulator owned at some contents,
    and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The kernel body run once, key tile j = 0: the accumulator is zeroed first, then added to; the output window is left as found.
  The run holds each input window's staging buffer whole at its block and hands it back unchanged; what the
  stores leave in the accumulator is found as a list of written pieces.
-/
import proofs.«170118_j14654428414389_2_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) in the output buffer (`L9`) and in the accumulator (`LS0`), with the proof
    that on whole memrefs holding the input blocks `x0 … x8` the body runs to its continuation. -/
noncomputable def kernelRun0_A (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : cond0_0 i) (hc1 : ¬cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) :
    Σ' (L9 : List (View.Piece (Elt F) S32x128 .f32)), { LS0 : List (View.Piece (Elt F) S32x128 .f32) //
      ∀ (xi9 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__geo_conv_kernel i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc0__geo_conv_kernel_eq_skeleton]; unfold cc0__geo_conv_kernel_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.Kernel.Hand

end
-- ==== Proof.K.RunB.lean ====
/-
  The kernel body run once, key tiles j = 1, 2: the accumulator is added to; the output window is left as found.
  The run holds each input window's staging buffer whole at its block and hands it back unchanged; what the
  stores leave in the accumulator is found as a list of written pieces.
-/
import proofs.«170118_j14654428414389_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) in the output buffer (`L9`) and in the accumulator (`LS0`), with the proof
    that on whole memrefs holding the input blocks `x0 … x8` the body runs to its continuation. -/
noncomputable def kernelRun0_B (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : ¬cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (xs0 : Vec F S32x128 .f32) :
    Σ' (L9 : List (View.Piece (Elt F) S32x128 .f32)), { LS0 : List (View.Piece (Elt F) S32x128 .f32) //
      ∀ (xi9 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__geo_conv_kernel i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc0__geo_conv_kernel_eq_skeleton]; unfold cc0__geo_conv_kernel_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.Kernel.Hand

end
-- ==== Proof.K.RunC.lean ====
/-
  The kernel body run once, key tile j = 3: the accumulator is added to and then copied whole into the output window's buffer.
  The run holds each input window's staging buffer whole at its block and hands it back unchanged; what the
  stores leave in the accumulator and in the output buffer is found as a list of written pieces.
-/
import proofs.«170118_j14654428414389_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) in the output buffer (`L9`) and in the accumulator (`LS0`), with the proof
    that on whole memrefs holding the input blocks `x0 … x8` the body runs to its continuation. -/
noncomputable def kernelRun0_C (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (xs0 : Vec F S32x128 .f32) :
    Σ' (L9 : List (View.Piece (Elt F) S32x128 .f32)), { LS0 : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0__geo_conv_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__geo_conv_kernel_eq_skeleton]; unfold cc0__geo_conv_kernel_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; iexact HS0

end Cert.Kernel.Hand

end
-- ==== Proof.K.Host.lean ====
import proofs.«170118_j14654428414389_2_alg».proof.Proof.Gen.Kernel.Launch
import Idealize.ShloMosaic.Lib.Pipeline.FrameBody
import Idealize.ShloMosaic.Lib.Pipeline.FrameSuffix

/-!
# The host side of the program's frame

The program is seven stretches of host operations, one pipelined region, and seven more stretches. This module states
what the host operations around the region do to the buffers the frame claim speaks of: none of them writes an argument
array; none after the region writes an array the region's windows stage. From these, `main` reduces to the region
continued by the later stretches (`hmain`), each argument array is as launched when the region is entered (`V_main_argK`)
and again after the later stretches (`W_main_argK`), and the frame claim's post follows from a frame run's (`frame_of`).
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The stretches around the region -/

/-- The stretches of host operations before the region, in order. -/
abbrev preOps : List (List (HloOp τ sig (Elt F))) := [hostOps0, hostOps0_1, hostOps0_2, hostOps0_3, hostOps0_4, hostOps0_5, hostOps0_6]
/-- The stretches of host operations after the region, in order. -/
abbrev tailOps : List (List (HloOp τ sig (Elt F))) := [hostOps1, hostOps1_1, hostOps1_2, hostOps1_3, hostOps1_4, hostOps1_5, hostOps1_6]

/-- Core `c`'s TensorCore buffer contents when the region is entered, as a valuation: after the host operations before
    the region. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-! ## No host operation allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-! ## What the host operations leave alone

Each host operation writes exactly one buffer, its result. The argument arrays are results of none; the arrays the
region's windows stage are results of operations before the region only. Both are decided reference by reference. -/

/-- The program's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]
/-- The argument arrays and the arrays the region's windows stage. -/
abbrev keptRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_v47, main_v48, main_v43, main_v44, main_v41, main_v45, main_v46, main_v49]

/-- Every array a window of the region stages is among `keptRefs`. -/
theorem arr_mem_keptRefs : ∀ w, Pipeline.arrRef spec0 w ∈ keptRefs := by decide

theorem hostOps0_keeps : (hostOps0 : List (HloOp τ sig (Elt F))).Forall fun op => ∀ r ∈ argRefs, Proc.devRef .tc r ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps0_1_keeps : (hostOps0_1 : List (HloOp τ sig (Elt F))).Forall fun op => ∀ r ∈ argRefs, Proc.devRef .tc r ∉ op.writes := by
  simp only [hostOps0_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps0_2_keeps : (hostOps0_2 : List (HloOp τ sig (Elt F))).Forall fun op => ∀ r ∈ argRefs, Proc.devRef .tc r ∉ op.writes := by
  simp only [hostOps0_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps0_3_keeps : (hostOps0_3 : List (HloOp τ sig (Elt F))).Forall fun op => ∀ r ∈ argRefs, Proc.devRef .tc r ∉ op.writes := by
  simp only [hostOps0_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps0_4_keeps : (hostOps0_4 : List (HloOp τ sig (Elt F))).Forall fun op => ∀ r ∈ argRefs, Proc.devRef .tc r ∉ op.writes := by
  simp only [hostOps0_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps0_5_keeps : (hostOps0_5 : List (HloOp τ sig (Elt F))).Forall fun op => ∀ r ∈ argRefs, Proc.devRef .tc r ∉ op.writes := by
  simp only [hostOps0_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps0_6_keeps : (hostOps0_6 : List (HloOp τ sig (Elt F))).Forall fun op => ∀ r ∈ argRefs, Proc.devRef .tc r ∉ op.writes := by
  simp only [hostOps0_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps1_keeps : (hostOps1 : List (HloOp τ sig (Elt F))).Forall fun op => ∀ r ∈ keptRefs, Proc.devRef .tc r ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps1_1_keeps : (hostOps1_1 : List (HloOp τ sig (Elt F))).Forall fun op => ∀ r ∈ keptRefs, Proc.devRef .tc r ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps1_2_keeps : (hostOps1_2 : List (HloOp τ sig (Elt F))).Forall fun op => ∀ r ∈ keptRefs, Proc.devRef .tc r ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps1_3_keeps : (hostOps1_3 : List (HloOp τ sig (Elt F))).Forall fun op => ∀ r ∈ keptRefs, Proc.devRef .tc r ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps1_4_keeps : (hostOps1_4 : List (HloOp τ sig (Elt F))).Forall fun op => ∀ r ∈ keptRefs, Proc.devRef .tc r ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps1_5_keeps : (hostOps1_5 : List (HloOp τ sig (Elt F))).Forall fun op => ∀ r ∈ keptRefs, Proc.devRef .tc r ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps1_6_keeps : (hostOps1_6 : List (HloOp τ sig (Elt F))).Forall fun op => ∀ r ∈ keptRefs, Proc.devRef .tc r ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)

/-- No operation before the region writes an argument array. -/
theorem pre_keeps : ∀ op ∈ List.flatten (preOps : List (List (HloOp τ sig (Elt F)))), ∀ r ∈ argRefs, Proc.devRef .tc r ∉ op.writes := by
  intro op hop
  obtain ⟨ops, hops, hop⟩ := List.mem_flatten.mp hop
  simp only [preOps, List.mem_cons, List.mem_nil_iff, or_false] at hops
  rcases hops with rfl | rfl | rfl | rfl | rfl | rfl | rfl
  · exact (List.forall_iff_forall_mem.mp hostOps0_keeps) op hop
  · exact (List.forall_iff_forall_mem.mp hostOps0_1_keeps) op hop
  · exact (List.forall_iff_forall_mem.mp hostOps0_2_keeps) op hop
  · exact (List.forall_iff_forall_mem.mp hostOps0_3_keeps) op hop
  · exact (List.forall_iff_forall_mem.mp hostOps0_4_keeps) op hop
  · exact (List.forall_iff_forall_mem.mp hostOps0_5_keeps) op hop
  · exact (List.forall_iff_forall_mem.mp hostOps0_6_keeps) op hop

/-- No operation after the region writes an argument array or an array a window stages. -/
theorem tail_keeps : ∀ ops ∈ (tailOps : List (List (HloOp τ sig (Elt F)))), ∀ op ∈ ops, ∀ r ∈ keptRefs, Proc.devRef .tc r ∉ op.writes := by
  intro ops hops op hop
  simp only [tailOps, List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

/-! ## @main around the region -/

/-- @main around the region: the host stretches before it, the region, the host stretches after it: it reduces to the
    region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main preOps tailOps
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The stretches after the region touch the pipeline's arrays and the bypassing buffers only (each operation's buffers
    are unscoped TensorCore references, and with nothing prefetched every such reference is one or the other). -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
/-- And write no array of the pipeline (each writes only its own result buffer, which is no array). -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps ops hops op hop _ (arr_mem_keptRefs w)

/-! ## The argument arrays around the region -/

/-- An argument array is as launched when the region is entered. -/
theorem V_of_mem (c : Dev nD) (r : Ref sig .tc) (hr : r ∈ argRefs) : V m c r = m ((c : Thread nD τ).loc r) :=
  StableHlo.after_of_forall_not_mem (b := Proc.devRef .tc r) _ _ (fun op hop => pre_keeps op hop r hr)

/-- An argument array no window stages is as launched after the later stretches. -/
theorem W_of_mem (dats : (p : Fin _) → (c : Dev nD) → Dat τ (Elt F) Unit ℕ (UR sig nD τ) ℕ (cfgs p) c) (c : Dev nD)
    (r : Ref sig .tc) (hr : r ∈ argRefs) (hk : r ∈ keptRefs) (hw : ∀ w, Pipeline.arrRef spec0 w ≠ r) :
    Pipeline.afterTail₀ cfgs dats 0 (V0 m) tailOps c r = m ((c : Thread nD τ).loc r) := by
  unfold Pipeline.afterTail₀
  rw [StableHlo.after_of_forall_not_mem (b := Proc.devRef .tc r) _ _ (fun op hop => by
      obtain ⟨ops, hops, hop⟩ := List.mem_flatten.mp hop
      exact tail_keeps ops hops op hop r hk),
    Pipeline.withArrays_of_ne _ c (V0 m c) _ r hw]
  exact V_of_mem m c r hr

theorem V_main_arg0 (c : Dev nD) : V m c main_arg0 = m ((c : Thread nD τ).loc main_arg0) := V_of_mem m c main_arg0 (by decide)
theorem V_main_arg1 (c : Dev nD) : V m c main_arg1 = m ((c : Thread nD τ).loc main_arg1) := V_of_mem m c main_arg1 (by decide)
theorem V_main_arg2 (c : Dev nD) : V m c main_arg2 = m ((c : Thread nD τ).loc main_arg2) := V_of_mem m c main_arg2 (by decide)
theorem V_main_arg3 (c : Dev nD) : V m c main_arg3 = m ((c : Thread nD τ).loc main_arg3) := V_of_mem m c main_arg3 (by decide)
theorem V_main_arg4 (c : Dev nD) : V m c main_arg4 = m ((c : Thread nD τ).loc main_arg4) := V_of_mem m c main_arg4 (by decide)
theorem V_main_arg5 (c : Dev nD) : V m c main_arg5 = m ((c : Thread nD τ).loc main_arg5) := V_of_mem m c main_arg5 (by decide)
theorem V_main_arg6 (c : Dev nD) : V m c main_arg6 = m ((c : Thread nD τ).loc main_arg6) := V_of_mem m c main_arg6 (by decide)
theorem V_main_arg7 (c : Dev nD) : V m c main_arg7 = m ((c : Thread nD τ).loc main_arg7) := V_of_mem m c main_arg7 (by decide)
theorem V_main_arg8 (c : Dev nD) : V m c main_arg8 = m ((c : Thread nD τ).loc main_arg8) := V_of_mem m c main_arg8 (by decide)
theorem V_main_arg9 (c : Dev nD) : V m c main_arg9 = m ((c : Thread nD τ).loc main_arg9) := V_of_mem m c main_arg9 (by decide)
theorem V_main_arg10 (c : Dev nD) : V m c main_arg10 = m ((c : Thread nD τ).loc main_arg10) := V_of_mem m c main_arg10 (by decide)
theorem V_main_arg11 (c : Dev nD) : V m c main_arg11 = m ((c : Thread nD τ).loc main_arg11) := V_of_mem m c main_arg11 (by decide)
theorem V_main_arg12 (c : Dev nD) : V m c main_arg12 = m ((c : Thread nD τ).loc main_arg12) := V_of_mem m c main_arg12 (by decide)
theorem V_main_arg13 (c : Dev nD) : V m c main_arg13 = m ((c : Thread nD τ).loc main_arg13) := V_of_mem m c main_arg13 (by decide)
theorem V_main_arg14 (c : Dev nD) : V m c main_arg14 = m ((c : Thread nD τ).loc main_arg14) := V_of_mem m c main_arg14 (by decide)
theorem V_main_arg15 (c : Dev nD) : V m c main_arg15 = m ((c : Thread nD τ).loc main_arg15) := V_of_mem m c main_arg15 (by decide)
theorem V_main_arg16 (c : Dev nD) : V m c main_arg16 = m ((c : Thread nD τ).loc main_arg16) := V_of_mem m c main_arg16 (by decide)
theorem V_main_arg17 (c : Dev nD) : V m c main_arg17 = m ((c : Thread nD τ).loc main_arg17) := V_of_mem m c main_arg17 (by decide)
theorem V_main_arg18 (c : Dev nD) : V m c main_arg18 = m ((c : Thread nD τ).loc main_arg18) := V_of_mem m c main_arg18 (by decide)

theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  W_of_mem m dats c main_arg0 (by decide) (by decide) (by decide)
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  W_of_mem m dats c main_arg1 (by decide) (by decide) (by decide)
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  W_of_mem m dats c main_arg2 (by decide) (by decide) (by decide)
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  W_of_mem m dats c main_arg3 (by decide) (by decide) (by decide)
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  W_of_mem m dats c main_arg4 (by decide) (by decide) (by decide)
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) :=
  W_of_mem m dats c main_arg5 (by decide) (by decide) (by decide)
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) :=
  W_of_mem m dats c main_arg6 (by decide) (by decide) (by decide)
theorem W_main_arg7 (dats : (p : Fin _) → (c : Dev nD) → Dat τ (Elt F) Unit ℕ (UR sig nD τ) ℕ (cfgs p) c) (c : Dev nD) :
    Pipeline.afterTail₀ cfgs dats 0 (V0 m) tailOps c main_arg7 = m ((c : Thread nD τ).loc main_arg7) :=
  W_of_mem m dats c main_arg7 (by decide) (by decide) (by decide)
theorem W_main_arg8 (dats : (p : Fin _) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) :=
  W_of_mem m dats c main_arg8 (by decide) (by decide) (by decide)
theorem W_main_arg10 (dats : (p : Fin _) → (c : Dev nD) → Dat τ (Elt F) Unit ℕ (UR sig nD τ) ℕ (cfgs p) c) (c : Dev nD) :
    Pipeline.afterTail₀ cfgs dats 0 (V0 m) tailOps c main_arg10 = m ((c : Thread nD τ).loc main_arg10) :=
  W_of_mem m dats c main_arg10 (by decide) (by decide) (by decide)
theorem W_main_arg12 (dats : (p : Fin _) → (c : Dev nD) → Dat τ (Elt F) Unit ℕ (UR sig nD τ) ℕ (cfgs p) c) (c : Dev nD) :
    Pipeline.afterTail₀ cfgs dats 0 (V0 m) tailOps c main_arg12 = m ((c : Thread nD τ).loc main_arg12) :=
  W_of_mem m dats c main_arg12 (by decide) (by decide) (by decide)
theorem W_main_arg13 (dats : (p : Fin _) → (c : Dev nD) → Dat τ (Elt F) Unit ℕ (UR sig nD τ) ℕ (cfgs p) c) (c : Dev nD) :
    Pipeline.afterTail₀ cfgs dats 0 (V0 m) tailOps c main_arg13 = m ((c : Thread nD τ).loc main_arg13) :=
  W_of_mem m dats c main_arg13 (by decide) (by decide) (by decide)
theorem W_main_arg14 (dats : (p : Fin _) → (c : Dev nD) → Dat τ (Elt F) Unit ℕ (UR sig nD τ) ℕ (cfgs p) c) (c : Dev nD) :
    Pipeline.afterTail₀ cfgs dats 0 (V0 m) tailOps c main_arg14 = m ((c : Thread nD τ).loc main_arg14) :=
  W_of_mem m dats c main_arg14 (by decide) (by decide) (by decide)
theorem W_main_arg15 (dats : (p : Fin _) → (c : Dev nD) → Dat τ (Elt F) Unit ℕ (UR sig nD τ) ℕ (cfgs p) c) (c : Dev nD) :
    Pipeline.afterTail₀ cfgs dats 0 (V0 m) tailOps c main_arg15 = m ((c : Thread nD τ).loc main_arg15) :=
  W_of_mem m dats c main_arg15 (by decide) (by decide) (by decide)
theorem W_main_arg16 (dats : (p : Fin _) → (c : Dev nD) → Dat τ (Elt F) Unit ℕ (UR sig nD τ) ℕ (cfgs p) c) (c : Dev nD) :
    Pipeline.afterTail₀ cfgs dats 0 (V0 m) tailOps c main_arg16 = m ((c : Thread nD τ).loc main_arg16) :=
  W_of_mem m dats c main_arg16 (by decide) (by decide) (by decide)
theorem W_main_arg17 (dats : (p : Fin _) → (c : Dev nD) → Dat τ (Elt F) Unit ℕ (UR sig nD τ) ℕ (cfgs p) c) (c : Dev nD) :
    Pipeline.afterTail₀ cfgs dats 0 (V0 m) tailOps c main_arg17 = m ((c : Thread nD τ).loc main_arg17) :=
  W_of_mem m dats c main_arg17 (by decide) (by decide) (by decide)
theorem W_main_arg18 (dats : (p : Fin _) → (c : Dev nD) → Dat τ (Elt F) Unit ℕ (UR sig nD τ) ℕ (cfgs p) c) (c : Dev nD) :
    Pipeline.afterTail₀ cfgs dats 0 (V0 m) tailOps c main_arg18 = m ((c : Thread nD τ).loc main_arg18) :=
  W_of_mem m dats c main_arg18 (by decide) (by decide) (by decide)

/-! ## The frame claim's post from the frame run's -/

/-- The frame from a frame run: for any proof data whose arrays are the region-entry contents (`hA`), a run to the
    frame post read at the argument arrays — an array a window stages by `Dat.arrAt_in`, an array no window stages by
    the post's second clause, each then as launched — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).1 5).trans (((dats 0 c).arrAt_in 5 rfl _).trans ((hA c 5).trans (V_main_arg9 m c))),
    ((h c).2 main_arg10 (Pipeline.mem_restRefs_of main_arg10 (by decide) (by decide))).trans (W_main_arg10 m dats c),
    ((h c).1 7).trans (((dats 0 c).arrAt_in 7 rfl _).trans ((hA c 7).trans (V_main_arg11 m c))),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c),
    ((h c).2 main_arg16 (Pipeline.mem_restRefs_of main_arg16 (by decide) (by decide))).trans (W_main_arg16 m dats c),
    ((h c).2 main_arg17 (Pipeline.mem_restRefs_of main_arg17 (by decide) (by decide))).trans (W_main_arg17 m dats c),
    ((h c).2 main_arg18 (Pipeline.mem_restRefs_of main_arg18 (by decide) (by decide))).trans (W_main_arg18 m dats c)⟩) h

end Cert.Kernel.Hand
-- ==== Proof.K.Frame.lean ====
/-
  The frame of the word-level all-pairs geometric convolution: its run terminates without a fault and leaves the
  nineteen argument arrays as launched, with every array the pipeline stages named after the run.
  Per grid point (i, j) the body falls in one of three cases (j = 0; j = 1, 2; j = 3). What the accumulator and
  the output window's buffer hold after each point is defined by recursion on the point (`outsAt0`): the case's
  pieces read back, over what the point before left in the accumulator. The region invariant carries the
  accumulator at exactly those contents from one point to the next; the output window is idle (handed back as
  found) except at j = 3, where the body stores the whole accumulator into it and the pipeline writes it back.
-/
import proofs.«170118_j14654428414389_2_alg».proof.Proof.K.RunC
import proofs.«170118_j14654428414389_2_alg».proof.Proof.K.Host

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- Case A stores nothing into the output buffer (the window is idle there and not written back): a placeholder that
    nothing consults. -/
def out0_A_9 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : cond0_0 i) (hc1 : ¬cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) : Vec F S32x128 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).1)

/-- Case A's stores into the accumulator cover it. -/
theorem scover0_A_0 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : cond0_0 i) (hc1 : ¬cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (y : S32x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 S32x128.size (by sl_kernel_rfl) y

/-- What case A leaves in the accumulator: its pieces read back. -/
def sout0_A_0 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : cond0_0 i) (hc1 : ¬cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) : Vec F S32x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1)

/-- Case B stores nothing into the output buffer (the window is idle there and not written back): a placeholder that
    nothing consults. -/
def out0_B_9 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : ¬cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (xs0 : Vec F S32x128 .f32) : Vec F S32x128 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case B's stores into the accumulator cover it. -/
theorem scover0_B_0 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : ¬cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (xs0 : Vec F S32x128 .f32) (y : S32x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 S32x128.size (by sl_kernel_rfl) y

/-- What case B leaves in the accumulator: its pieces read back. -/
def sout0_B_0 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : ¬cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (xs0 : Vec F S32x128 .f32) : Vec F S32x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-- At the last key tile the body's one store into the output buffer covers its block. -/
theorem cover0_C_9 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (xs0 : Vec F S32x128 .f32) (y : S32x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1 S32x128.size (by sl_kernel_rfl) y

/-- What the last key tile leaves in the output buffer: its pieces read back. -/
def out0_C_9 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (xs0 : Vec F S32x128 .f32) : Vec F S32x128 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case C's stores into the accumulator cover it. -/
theorem scover0_C_0 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (xs0 : Vec F S32x128 .f32) (y : S32x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 S32x128.size (by sl_kernel_rfl) y

/-- What case C leaves in the accumulator: its pieces read back. -/
def sout0_C_0 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (xs0 : Vec F S32x128 .f32) : Vec F S32x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-! ## What the buffers hold after each point -/

/-- After the body at position `n`: the output window's buffer and the accumulator (a pair). The case is the one
    n mod 4 selects; cases B and C start from what the point before left in the accumulator. -/
def outsAt0 (c : Dev nD) : (n : ℕ) → n < cfg0.N → Vec F S32x128 .f32 × Vec F S32x128 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 4 = 0 then
      if h1 : (n + 1) % 4 = 3 then
        False.elim (by omega)
      else
        (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      if h1 : (n + 1) % 4 = 3 then
        (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2)
      else
        (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator at anything; afterwards at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- The body at any point: the inputs' memrefs hold their blocks; n mod 4 says which case the point is in; the
    invariant hands the body the accumulator at what the point before left (at anything at the very first point)
    and takes it back at this point's contents; an idle output buffer is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      rw [outsAt0_A m c t h0 h1]
      unfold sout0_A_0; (try dsimp only)
      by_cases hz : t.val = 0
      ·
        rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HS0 Hg]
        · isplitl [HS0]
          · unfold owns; iexists _; isplitr
            swap; · iexact HS0
            ipureintro; exact View.read_writes_of_cover _ _ _ _ _ (scover0_A_0 _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
      ·
        rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        iintro ⟨H0, H1, H2, H3, H4, H5, H6, H7, H8, H9, ⟨%es0, HS0⟩⟩
        isplitl [HS0 Hg]
        · isplitl [HS0]
          · unfold owns; iexists _; isplitr
            swap; · iexact HS0
            ipureintro; exact View.read_writes_of_cover _ _ _ _ _ (scover0_A_0 _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9_C t (fun h => h0 ((hcond0_0 t).mp h)) ((hcond0_1 t).mpr h1)], after0_9]
      rw [outsAt0_C m c t h0 h1]
      unfold out0_C_9 sout0_C_0; (try dsimp only)
      by_cases hz : t.val = 0
      · exfalso; omega
      ·
        rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        iintro ⟨H0, H1, H2, H3, H4, H5, H6, H7, H8, ⟨%e9, H9⟩, ⟨%es0, HS0⟩⟩
        isplitl [HS0 Hg]
        · isplitl [HS0]
          · unfold owns; iexists _; isplitr
            swap; · iexact HS0
            ipureintro; exact View.read_writes_of_cover _ _ _ _ _ (scover0_C_0 _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        unfold owns; iexists _; isplitr
        swap; · iexact H9
        ipureintro; exact View.read_writes_of_cover _ _ _ _ _ (cover0_C_9 _ _ _ _ _ _ _ _ _ _ _ _ _ _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [outsAt0_B m c t h0 h1]
      unfold sout0_B_0; (try dsimp only)
      by_cases hz : t.val = 0
      · exfalso; omega
      ·
        rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HS0 Hg]
        · isplitl [HS0]
          · unfold owns; iexists _; isplitr
            swap; · iexact HS0
            ipureintro; exact View.read_writes_of_cover _ _ _ _ _ (scover0_B_0 _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's form back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates; every final state has each array of the pipeline at what the
    proof data computes and every other unscoped buffer as the host operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the run terminates, faults nowhere, and the nineteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Hand

end
-- ==== Proof.KI.Body.lean ====
/-
  The kernel body of the all-pairs geometric convolution, seen from the pipeline: which of its two
  conditionals a grid point takes, where its output window is idle, and the memrefs it is called with.
  The grid is 16 × 4 (query tile i, key tile j); point t has j = t mod 4. The accumulator (a scratch
  buffer of shape 32 × 128) is zeroed when j = 0, added to at every point, and copied to the output
  window's buffer when j = 3; the output window is written back only at those last points.
-/
import proofs.«170118_j14654428414389_2_alg».proof.Proof.Gen.KernelIdeal.Launch
import proofs.«170118_j14654428414389_2_alg».proof.Proof.Gen.KernelIdeal.Skeleton
import proofs.«170118_j14654428414389_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- The first conditional (zero the accumulator): key tile j = 0. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional (copy the accumulator out): key tile j = 3, the last. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- Input window 6 is never idle. -/
theorem liveAt0_6 : ∀ t : Fin cfg0.N, cfg0.idle 6 (grid0.coords t) = false := by decide +kernel
/-- Input window 7 is never idle. -/
theorem liveAt0_7 : ∀ t : Fin cfg0.N, cfg0.idle 7 (grid0.coords t) = false := by decide +kernel
/-- Input window 8 is never idle. -/
theorem liveAt0_8 : ∀ t : Fin cfg0.N, cfg0.idle 8 (grid0.coords t) = false := by decide +kernel
/-- Where j = 0 (case A) the output window is idle and not written back. -/
theorem idleAt0_9_A : ∀ t : Fin cfg0.N, cond0_0 (grid0.coords t) → ¬cond0_1 (grid0.coords t) → cfg0.idle 9 (grid0.coords t) = true := by decide +kernel
theorem noFlush0_9_A : ∀ t : Fin cfg0.N, cond0_0 (grid0.coords t) → ¬cond0_1 (grid0.coords t) → (cfg0.win 9).flush t = false := by decide +kernel
/-- Where j = 1, 2 (case B) likewise. -/
theorem idleAt0_9_B : ∀ t : Fin cfg0.N, ¬cond0_0 (grid0.coords t) → ¬cond0_1 (grid0.coords t) → cfg0.idle 9 (grid0.coords t) = true := by decide +kernel
theorem noFlush0_9_B : ∀ t : Fin cfg0.N, ¬cond0_0 (grid0.coords t) → ¬cond0_1 (grid0.coords t) → (cfg0.win 9).flush t = false := by decide +kernel
/-- Where j = 3 (case C) the output window is live: the body stores into it. -/
theorem liveAt0_9_C : ∀ t : Fin cfg0.N, ¬cond0_0 (grid0.coords t) → cond0_1 (grid0.coords t) → cfg0.idle 9 (grid0.coords t) = false := by decide +kernel

/-! ## The memrefs the body is called with -/

/-- One staging buffer of the output window, through which its contents are stated. -/
abbrev VO0_9 : View sig .tc .vmem S32x128 .f32 := (Memref.whole cc0_stg9_0 : Memref sig .tc .vmem S32x128 .f32).view
abbrev ms0_0 (t : Fin cfg0.N) : Memref sig .tc .vmem S3x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x9 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x3 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x8 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x128 .f32 := win0_9.stage (cfg0.slots t 9)
abbrev hs0_9 (t : Fin cfg0.N) : (ms0_9 t).IsWhole := hstage0_9 ((cfg0.slots t 9).cast nbuf0_9)
/-- The accumulator: a whole scoped buffer of the kernel's own, carried from point to point. -/
abbrev scM0_0 : Memref sig .tc .vmem S32x128 .f32 := Memref.whole cc0_scratch0
abbrev VS0_0 : View sig .tc .vmem S32x128 .f32 := scM0_0.view

/-- The region invariant of a kernel that keeps only a scratch buffer: the accumulator owned at some contents,
    and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The kernel body run once, key tile j = 0: the accumulator is zeroed first, then added to; the output window is left as found.
  The run holds each input window's staging buffer whole at its block and hands it back unchanged; what the
  stores leave in the accumulator is found as a list of written pieces.
-/
import proofs.«170118_j14654428414389_2_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) in the output buffer (`L9`) and in the accumulator (`LS0`), with the proof
    that on whole memrefs holding the input blocks `x0 … x8` the body runs to its continuation. -/
noncomputable def kernelRun0_A (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : cond0_0 i) (hc1 : ¬cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) :
    Σ' (L9 : List (View.Piece (Elt F) S32x128 .f32)), { LS0 : List (View.Piece (Elt F) S32x128 .f32) //
      ∀ (xi9 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__geo_conv_kernel i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc0__geo_conv_kernel_eq_skeleton]; unfold cc0__geo_conv_kernel_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.KernelIdeal.Hand

end
-- ==== Proof.KI.RunB.lean ====
/-
  The kernel body run once, key tiles j = 1, 2: the accumulator is added to; the output window is left as found.
  The run holds each input window's staging buffer whole at its block and hands it back unchanged; what the
  stores leave in the accumulator is found as a list of written pieces.
-/
import proofs.«170118_j14654428414389_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) in the output buffer (`L9`) and in the accumulator (`LS0`), with the proof
    that on whole memrefs holding the input blocks `x0 … x8` the body runs to its continuation. -/
noncomputable def kernelRun0_B (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : ¬cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (xs0 : Vec F S32x128 .f32) :
    Σ' (L9 : List (View.Piece (Elt F) S32x128 .f32)), { LS0 : List (View.Piece (Elt F) S32x128 .f32) //
      ∀ (xi9 : Vec F S32x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0__geo_conv_kernel i arg2 harg2 arg3 harg3 arg4 harg4 arg5 harg5 arg6 harg6 arg7 harg7 arg8 harg8 arg9 harg9 arg10 harg10 arg11 harg11 arg12 harg12) K } := by
  refine ⟨[], ?_, fun xi9 E K => ?run⟩
  case run =>
    simp only [cc0__geo_conv_kernel_eq_skeleton]; unfold cc0__geo_conv_kernel_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.KernelIdeal.Hand

end
-- ==== Proof.KI.RunC.lean ====
/-
  The kernel body run once, key tile j = 3: the accumulator is added to and then copied whole into the output window's buffer.
  The run holds each input window's staging buffer whole at its block and hands it back unchanged; what the
  stores leave in the accumulator and in the output buffer is found as a list of written pieces.
-/
import proofs.«170118_j14654428414389_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) in the output buffer (`L9`) and in the accumulator (`LS0`), with the proof
    that on whole memrefs holding the input blocks `x0 … x8` the body runs to its continuation. -/
noncomputable def kernelRun0_C (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (xs0 : Vec F S32x128 .f32) :
    Σ' (L9 : List (View.Piece (Elt F) S32x128 .f32)), { LS0 : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0__geo_conv_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__geo_conv_kernel_eq_skeleton]; unfold cc0__geo_conv_kernel_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; iexact HS0

end Cert.KernelIdeal.Hand

end
-- ==== Proof.KI.Host.lean ====
import proofs.«170118_j14654428414389_2_alg».proof.Proof.Gen.KernelIdeal.Launch
import Idealize.ShloMosaic.Lib.Pipeline.FrameBody
import Idealize.ShloMosaic.Lib.Pipeline.FrameSuffix

/-!
# The host side of the program's frame

The program is seven stretches of host operations, one pipelined region, and seven more stretches. This module states
what the host operations around the region do to the buffers the frame claim speaks of: none of them writes an argument
array; none after the region writes an array the region's windows stage. From these, `main` reduces to the region
continued by the later stretches (`hmain`), each argument array is as launched when the region is entered (`V_main_argK`)
and again after the later stretches (`W_main_argK`), and the frame claim's post follows from a frame run's (`frame_of`).
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The stretches around the region -/

/-- The stretches of host operations before the region, in order. -/
abbrev preOps : List (List (HloOp τ sig (Elt F))) := [hostOps0, hostOps0_1, hostOps0_2, hostOps0_3, hostOps0_4, hostOps0_5, hostOps0_6]
/-- The stretches of host operations after the region, in order. -/
abbrev tailOps : List (List (HloOp τ sig (Elt F))) := [hostOps1, hostOps1_1, hostOps1_2, hostOps1_3, hostOps1_4, hostOps1_5, hostOps1_6]

/-- Core `c`'s TensorCore buffer contents when the region is entered, as a valuation: after the host operations before
    the region. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-! ## No host operation allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-! ## What the host operations leave alone

Each host operation writes exactly one buffer, its result. The argument arrays are results of none; the arrays the
region's windows stage are results of operations before the region only. Both are decided reference by reference. -/

/-- The program's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]
/-- The argument arrays and the arrays the region's windows stage. -/
abbrev keptRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_v47, main_v48, main_v43, main_v44, main_v41, main_v45, main_v46, main_v49]

/-- Every array a window of the region stages is among `keptRefs`. -/
theorem arr_mem_keptRefs : ∀ w, Pipeline.arrRef spec0 w ∈ keptRefs := by decide

theorem hostOps0_keeps : (hostOps0 : List (HloOp τ sig (Elt F))).Forall fun op => ∀ r ∈ argRefs, Proc.devRef .tc r ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps0_1_keeps : (hostOps0_1 : List (HloOp τ sig (Elt F))).Forall fun op => ∀ r ∈ argRefs, Proc.devRef .tc r ∉ op.writes := by
  simp only [hostOps0_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps0_2_keeps : (hostOps0_2 : List (HloOp τ sig (Elt F))).Forall fun op => ∀ r ∈ argRefs, Proc.devRef .tc r ∉ op.writes := by
  simp only [hostOps0_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps0_3_keeps : (hostOps0_3 : List (HloOp τ sig (Elt F))).Forall fun op => ∀ r ∈ argRefs, Proc.devRef .tc r ∉ op.writes := by
  simp only [hostOps0_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps0_4_keeps : (hostOps0_4 : List (HloOp τ sig (Elt F))).Forall fun op => ∀ r ∈ argRefs, Proc.devRef .tc r ∉ op.writes := by
  simp only [hostOps0_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps0_5_keeps : (hostOps0_5 : List (HloOp τ sig (Elt F))).Forall fun op => ∀ r ∈ argRefs, Proc.devRef .tc r ∉ op.writes := by
  simp only [hostOps0_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps0_6_keeps : (hostOps0_6 : List (HloOp τ sig (Elt F))).Forall fun op => ∀ r ∈ argRefs, Proc.devRef .tc r ∉ op.writes := by
  simp only [hostOps0_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps1_keeps : (hostOps1 : List (HloOp τ sig (Elt F))).Forall fun op => ∀ r ∈ keptRefs, Proc.devRef .tc r ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps1_1_keeps : (hostOps1_1 : List (HloOp τ sig (Elt F))).Forall fun op => ∀ r ∈ keptRefs, Proc.devRef .tc r ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps1_2_keeps : (hostOps1_2 : List (HloOp τ sig (Elt F))).Forall fun op => ∀ r ∈ keptRefs, Proc.devRef .tc r ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps1_3_keeps : (hostOps1_3 : List (HloOp τ sig (Elt F))).Forall fun op => ∀ r ∈ keptRefs, Proc.devRef .tc r ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps1_4_keeps : (hostOps1_4 : List (HloOp τ sig (Elt F))).Forall fun op => ∀ r ∈ keptRefs, Proc.devRef .tc r ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps1_5_keeps : (hostOps1_5 : List (HloOp τ sig (Elt F))).Forall fun op => ∀ r ∈ keptRefs, Proc.devRef .tc r ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
theorem hostOps1_6_keeps : (hostOps1_6 : List (HloOp τ sig (Elt F))).Forall fun op => ∀ r ∈ keptRefs, Proc.devRef .tc r ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)

/-- No operation before the region writes an argument array. -/
theorem pre_keeps : ∀ op ∈ List.flatten (preOps : List (List (HloOp τ sig (Elt F)))), ∀ r ∈ argRefs, Proc.devRef .tc r ∉ op.writes := by
  intro op hop
  obtain ⟨ops, hops, hop⟩ := List.mem_flatten.mp hop
  simp only [preOps, List.mem_cons, List.mem_nil_iff, or_false] at hops
  rcases hops with rfl | rfl | rfl | rfl | rfl | rfl | rfl
  · exact (List.forall_iff_forall_mem.mp hostOps0_keeps) op hop
  · exact (List.forall_iff_forall_mem.mp hostOps0_1_keeps) op hop
  · exact (List.forall_iff_forall_mem.mp hostOps0_2_keeps) op hop
  · exact (List.forall_iff_forall_mem.mp hostOps0_3_keeps) op hop
  · exact (List.forall_iff_forall_mem.mp hostOps0_4_keeps) op hop
  · exact (List.forall_iff_forall_mem.mp hostOps0_5_keeps) op hop
  · exact (List.forall_iff_forall_mem.mp hostOps0_6_keeps) op hop

/-- No operation after the region writes an argument array or an array a window stages. -/
theorem tail_keeps : ∀ ops ∈ (tailOps : List (List (HloOp τ sig (Elt F)))), ∀ op ∈ ops, ∀ r ∈ keptRefs, Proc.devRef .tc r ∉ op.writes := by
  intro ops hops op hop
  simp only [tailOps, List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

/-! ## @main around the region -/

/-- @main around the region: the host stretches before it, the region, the host stretches after it: it reduces to the
    region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main preOps tailOps
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The stretches after the region touch the pipeline's arrays and the bypassing buffers only (each operation's buffers
    are unscoped TensorCore references, and with nothing prefetched every such reference is one or the other). -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
/-- And write no array of the pipeline (each writes only its own result buffer, which is no array). -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps ops hops op hop _ (arr_mem_keptRefs w)

/-! ## The argument arrays around the region -/

/-- An argument array is as launched when the region is entered. -/
theorem V_of_mem (c : Dev nD) (r : Ref sig .tc) (hr : r ∈ argRefs) : V m c r = m ((c : Thread nD τ).loc r) :=
  StableHlo.after_of_forall_not_mem (b := Proc.devRef .tc r) _ _ (fun op hop => pre_keeps op hop r hr)

/-- An argument array no window stages is as launched after the later stretches. -/
theorem W_of_mem (dats : (p : Fin _) → (c : Dev nD) → Dat τ (Elt F) Unit ℕ (UR sig nD τ) ℕ (cfgs p) c) (c : Dev nD)
    (r : Ref sig .tc) (hr : r ∈ argRefs) (hk : r ∈ keptRefs) (hw : ∀ w, Pipeline.arrRef spec0 w ≠ r) :
    Pipeline.afterTail₀ cfgs dats 0 (V0 m) tailOps c r = m ((c : Thread nD τ).loc r) := by
  unfold Pipeline.afterTail₀
  rw [StableHlo.after_of_forall_not_mem (b := Proc.devRef .tc r) _ _ (fun op hop => by
      obtain ⟨ops, hops, hop⟩ := List.mem_flatten.mp hop
      exact tail_keeps ops hops op hop r hk),
    Pipeline.withArrays_of_ne _ c (V0 m c) _ r hw]
  exact V_of_mem m c r hr

theorem V_main_arg0 (c : Dev nD) : V m c main_arg0 = m ((c : Thread nD τ).loc main_arg0) := V_of_mem m c main_arg0 (by decide)
theorem V_main_arg1 (c : Dev nD) : V m c main_arg1 = m ((c : Thread nD τ).loc main_arg1) := V_of_mem m c main_arg1 (by decide)
theorem V_main_arg2 (c : Dev nD) : V m c main_arg2 = m ((c : Thread nD τ).loc main_arg2) := V_of_mem m c main_arg2 (by decide)
theorem V_main_arg3 (c : Dev nD) : V m c main_arg3 = m ((c : Thread nD τ).loc main_arg3) := V_of_mem m c main_arg3 (by decide)
theorem V_main_arg4 (c : Dev nD) : V m c main_arg4 = m ((c : Thread nD τ).loc main_arg4) := V_of_mem m c main_arg4 (by decide)
theorem V_main_arg5 (c : Dev nD) : V m c main_arg5 = m ((c : Thread nD τ).loc main_arg5) := V_of_mem m c main_arg5 (by decide)
theorem V_main_arg6 (c : Dev nD) : V m c main_arg6 = m ((c : Thread nD τ).loc main_arg6) := V_of_mem m c main_arg6 (by decide)
theorem V_main_arg7 (c : Dev nD) : V m c main_arg7 = m ((c : Thread nD τ).loc main_arg7) := V_of_mem m c main_arg7 (by decide)
theorem V_main_arg8 (c : Dev nD) : V m c main_arg8 = m ((c : Thread nD τ).loc main_arg8) := V_of_mem m c main_arg8 (by decide)
theorem V_main_arg9 (c : Dev nD) : V m c main_arg9 = m ((c : Thread nD τ).loc main_arg9) := V_of_mem m c main_arg9 (by decide)
theorem V_main_arg10 (c : Dev nD) : V m c main_arg10 = m ((c : Thread nD τ).loc main_arg10) := V_of_mem m c main_arg10 (by decide)
theorem V_main_arg11 (c : Dev nD) : V m c main_arg11 = m ((c : Thread nD τ).loc main_arg11) := V_of_mem m c main_arg11 (by decide)
theorem V_main_arg12 (c : Dev nD) : V m c main_arg12 = m ((c : Thread nD τ).loc main_arg12) := V_of_mem m c main_arg12 (by decide)
theorem V_main_arg13 (c : Dev nD) : V m c main_arg13 = m ((c : Thread nD τ).loc main_arg13) := V_of_mem m c main_arg13 (by decide)
theorem V_main_arg14 (c : Dev nD) : V m c main_arg14 = m ((c : Thread nD τ).loc main_arg14) := V_of_mem m c main_arg14 (by decide)
theorem V_main_arg15 (c : Dev nD) : V m c main_arg15 = m ((c : Thread nD τ).loc main_arg15) := V_of_mem m c main_arg15 (by decide)
theorem V_main_arg16 (c : Dev nD) : V m c main_arg16 = m ((c : Thread nD τ).loc main_arg16) := V_of_mem m c main_arg16 (by decide)
theorem V_main_arg17 (c : Dev nD) : V m c main_arg17 = m ((c : Thread nD τ).loc main_arg17) := V_of_mem m c main_arg17 (by decide)
theorem V_main_arg18 (c : Dev nD) : V m c main_arg18 = m ((c : Thread nD τ).loc main_arg18) := V_of_mem m c main_arg18 (by decide)

theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  W_of_mem m dats c main_arg0 (by decide) (by decide) (by decide)
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  W_of_mem m dats c main_arg1 (by decide) (by decide) (by decide)
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  W_of_mem m dats c main_arg2 (by decide) (by decide) (by decide)
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  W_of_mem m dats c main_arg3 (by decide) (by decide) (by decide)
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  W_of_mem m dats c main_arg4 (by decide) (by decide) (by decide)
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) :=
  W_of_mem m dats c main_arg5 (by decide) (by decide) (by decide)
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) :=
  W_of_mem m dats c main_arg6 (by decide) (by decide) (by decide)
theorem W_main_arg7 (dats : (p : Fin _) → (c : Dev nD) → Dat τ (Elt F) Unit ℕ (UR sig nD τ) ℕ (cfgs p) c) (c : Dev nD) :
    Pipeline.afterTail₀ cfgs dats 0 (V0 m) tailOps c main_arg7 = m ((c : Thread nD τ).loc main_arg7) :=
  W_of_mem m dats c main_arg7 (by decide) (by decide) (by decide)
theorem W_main_arg8 (dats : (p : Fin _) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) :=
  W_of_mem m dats c main_arg8 (by decide) (by decide) (by decide)
theorem W_main_arg10 (dats : (p : Fin _) → (c : Dev nD) → Dat τ (Elt F) Unit ℕ (UR sig nD τ) ℕ (cfgs p) c) (c : Dev nD) :
    Pipeline.afterTail₀ cfgs dats 0 (V0 m) tailOps c main_arg10 = m ((c : Thread nD τ).loc main_arg10) :=
  W_of_mem m dats c main_arg10 (by decide) (by decide) (by decide)
theorem W_main_arg12 (dats : (p : Fin _) → (c : Dev nD) → Dat τ (Elt F) Unit ℕ (UR sig nD τ) ℕ (cfgs p) c) (c : Dev nD) :
    Pipeline.afterTail₀ cfgs dats 0 (V0 m) tailOps c main_arg12 = m ((c : Thread nD τ).loc main_arg12) :=
  W_of_mem m dats c main_arg12 (by decide) (by decide) (by decide)
theorem W_main_arg13 (dats : (p : Fin _) → (c : Dev nD) → Dat τ (Elt F) Unit ℕ (UR sig nD τ) ℕ (cfgs p) c) (c : Dev nD) :
    Pipeline.afterTail₀ cfgs dats 0 (V0 m) tailOps c main_arg13 = m ((c : Thread nD τ).loc main_arg13) :=
  W_of_mem m dats c main_arg13 (by decide) (by decide) (by decide)
theorem W_main_arg14 (dats : (p : Fin _) → (c : Dev nD) → Dat τ (Elt F) Unit ℕ (UR sig nD τ) ℕ (cfgs p) c) (c : Dev nD) :
    Pipeline.afterTail₀ cfgs dats 0 (V0 m) tailOps c main_arg14 = m ((c : Thread nD τ).loc main_arg14) :=
  W_of_mem m dats c main_arg14 (by decide) (by decide) (by decide)
theorem W_main_arg15 (dats : (p : Fin _) → (c : Dev nD) → Dat τ (Elt F) Unit ℕ (UR sig nD τ) ℕ (cfgs p) c) (c : Dev nD) :
    Pipeline.afterTail₀ cfgs dats 0 (V0 m) tailOps c main_arg15 = m ((c : Thread nD τ).loc main_arg15) :=
  W_of_mem m dats c main_arg15 (by decide) (by decide) (by decide)
theorem W_main_arg16 (dats : (p : Fin _) → (c : Dev nD) → Dat τ (Elt F) Unit ℕ (UR sig nD τ) ℕ (cfgs p) c) (c : Dev nD) :
    Pipeline.afterTail₀ cfgs dats 0 (V0 m) tailOps c main_arg16 = m ((c : Thread nD τ).loc main_arg16) :=
  W_of_mem m dats c main_arg16 (by decide) (by decide) (by decide)
theorem W_main_arg17 (dats : (p : Fin _) → (c : Dev nD) → Dat τ (Elt F) Unit ℕ (UR sig nD τ) ℕ (cfgs p) c) (c : Dev nD) :
    Pipeline.afterTail₀ cfgs dats 0 (V0 m) tailOps c main_arg17 = m ((c : Thread nD τ).loc main_arg17) :=
  W_of_mem m dats c main_arg17 (by decide) (by decide) (by decide)
theorem W_main_arg18 (dats : (p : Fin _) → (c : Dev nD) → Dat τ (Elt F) Unit ℕ (UR sig nD τ) ℕ (cfgs p) c) (c : Dev nD) :
    Pipeline.afterTail₀ cfgs dats 0 (V0 m) tailOps c main_arg18 = m ((c : Thread nD τ).loc main_arg18) :=
  W_of_mem m dats c main_arg18 (by decide) (by decide) (by decide)

/-! ## The frame claim's post from the frame run's -/

/-- The frame from a frame run: for any proof data whose arrays are the region-entry contents (`hA`), a run to the
    frame post read at the argument arrays — an array a window stages by `Dat.arrAt_in`, an array no window stages by
    the post's second clause, each then as launched — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).1 5).trans (((dats 0 c).arrAt_in 5 rfl _).trans ((hA c 5).trans (V_main_arg9 m c))),
    ((h c).2 main_arg10 (Pipeline.mem_restRefs_of main_arg10 (by decide) (by decide))).trans (W_main_arg10 m dats c),
    ((h c).1 7).trans (((dats 0 c).arrAt_in 7 rfl _).trans ((hA c 7).trans (V_main_arg11 m c))),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c),
    ((h c).2 main_arg16 (Pipeline.mem_restRefs_of main_arg16 (by decide) (by decide))).trans (W_main_arg16 m dats c),
    ((h c).2 main_arg17 (Pipeline.mem_restRefs_of main_arg17 (by decide) (by decide))).trans (W_main_arg17 m dats c),
    ((h c).2 main_arg18 (Pipeline.mem_restRefs_of main_arg18 (by decide) (by decide))).trans (W_main_arg18 m dats c)⟩) h

end Cert.KernelIdeal.Hand
-- ==== Proof.KI.Frame.lean ====
/-
  The frame of the idealized all-pairs geometric convolution: its run terminates without a fault and leaves the
  nineteen argument arrays as launched, with every array the pipeline stages named after the run.
  Per grid point (i, j) the body falls in one of three cases (j = 0; j = 1, 2; j = 3). What the accumulator and
  the output window's buffer hold after each point is defined by recursion on the point (`outsAt0`): the case's
  pieces read back, over what the point before left in the accumulator. The region invariant carries the
  accumulator at exactly those contents from one point to the next; the output window is idle (handed back as
  found) except at j = 3, where the body stores the whole accumulator into it and the pipeline writes it back.
-/
import proofs.«170118_j14654428414389_2_alg».proof.Proof.KI.RunC
import proofs.«170118_j14654428414389_2_alg».proof.Proof.KI.Host

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- Case A stores nothing into the output buffer (the window is idle there and not written back): a placeholder that
    nothing consults. -/
def out0_A_9 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : cond0_0 i) (hc1 : ¬cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) : Vec F S32x128 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).1)

/-- Case A's stores into the accumulator cover it. -/
theorem scover0_A_0 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : cond0_0 i) (hc1 : ¬cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (y : S32x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 S32x128.size (by sl_kernel_rfl) y

/-- What case A leaves in the accumulator: its pieces read back. -/
def sout0_A_0 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : cond0_0 i) (hc1 : ¬cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) : Vec F S32x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1)

/-- Case B stores nothing into the output buffer (the window is idle there and not written back): a placeholder that
    nothing consults. -/
def out0_B_9 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : ¬cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (xs0 : Vec F S32x128 .f32) : Vec F S32x128 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case B's stores into the accumulator cover it. -/
theorem scover0_B_0 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : ¬cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (xs0 : Vec F S32x128 .f32) (y : S32x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 S32x128.size (by sl_kernel_rfl) y

/-- What case B leaves in the accumulator: its pieces read back. -/
def sout0_B_0 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : ¬cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (xs0 : Vec F S32x128 .f32) : Vec F S32x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-- At the last key tile the body's one store into the output buffer covers its block. -/
theorem cover0_C_9 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (xs0 : Vec F S32x128 .f32) (y : S32x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1 S32x128.size (by sl_kernel_rfl) y

/-- What the last key tile leaves in the output buffer: its pieces read back. -/
def out0_C_9 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (xs0 : Vec F S32x128 .f32) : Vec F S32x128 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)

/-- Case C's stores into the accumulator cover it. -/
theorem scover0_C_0 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (xs0 : Vec F S32x128 .f32) (y : S32x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 S32x128.size (by sl_kernel_rfl) y

/-- What case C leaves in the accumulator: its pieces read back. -/
def sout0_C_0 (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : cond0_1 i)
    (x0 : Vec F S3x128 .f32) (x1 : Vec F S9x128 .f32) (x2 : Vec F S512x3 .f32) (x3 : Vec F S512x9 .f32) (x4 : Vec F S512x32 .f32) (x5 : Vec F S8x3 .f32) (x6 : Vec F S1x8 .f32) (x7 : Vec F S32x8 .f32) (x8 : Vec F S1x32 .f32) (xs0 : Vec F S32x128 .f32) : Vec F S32x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-! ## What the buffers hold after each point -/

/-- After the body at position `n`: the output window's buffer and the accumulator (a pair). The case is the one
    n mod 4 selects; cases B and C start from what the point before left in the accumulator. -/
def outsAt0 (c : Dev nD) : (n : ℕ) → n < cfg0.N → Vec F S32x128 .f32 × Vec F S32x128 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 4 = 0 then
      if h1 : (n + 1) % 4 = 3 then
        False.elim (by omega)
      else
        (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      if h1 : (n + 1) % 4 = 3 then
        (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2)
      else
        (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator at anything; afterwards at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- The body at any point: the inputs' memrefs hold their blocks; n mod 4 says which case the point is in; the
    invariant hands the body the accumulator at what the point before left (at anything at the very first point)
    and takes it back at this point's contents; an idle output buffer is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      rw [outsAt0_A m c t h0 h1]
      unfold sout0_A_0; (try dsimp only)
      by_cases hz : t.val = 0
      ·
        rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HS0 Hg]
        · isplitl [HS0]
          · unfold owns; iexists _; isplitr
            swap; · iexact HS0
            ipureintro; exact View.read_writes_of_cover _ _ _ _ _ (scover0_A_0 _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
      ·
        rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        iintro ⟨H0, H1, H2, H3, H4, H5, H6, H7, H8, H9, ⟨%es0, HS0⟩⟩
        isplitl [HS0 Hg]
        · isplitl [HS0]
          · unfold owns; iexists _; isplitr
            swap; · iexact HS0
            ipureintro; exact View.read_writes_of_cover _ _ _ _ _ (scover0_A_0 _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9_C t (fun h => h0 ((hcond0_0 t).mp h)) ((hcond0_1 t).mpr h1)], after0_9]
      rw [outsAt0_C m c t h0 h1]
      unfold out0_C_9 sout0_C_0; (try dsimp only)
      by_cases hz : t.val = 0
      · exfalso; omega
      ·
        rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        iintro ⟨H0, H1, H2, H3, H4, H5, H6, H7, H8, ⟨%e9, H9⟩, ⟨%es0, HS0⟩⟩
        isplitl [HS0 Hg]
        · isplitl [HS0]
          · unfold owns; iexists _; isplitr
            swap; · iexact HS0
            ipureintro; exact View.read_writes_of_cover _ _ _ _ _ (scover0_C_0 _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        unfold owns; iexists _; isplitr
        swap; · iexact H9
        ipureintro; exact View.read_writes_of_cover _ _ _ _ _ (cover0_C_9 _ _ _ _ _ _ _ _ _ _ _ _ _ _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [outsAt0_B m c t h0 h1]
      unfold sout0_B_0; (try dsimp only)
      by_cases hz : t.val = 0
      · exfalso; omega
      ·
        rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HS0 Hg]
        · isplitl [HS0]
          · unfold owns; iexists _; isplitr
            swap; · iexact HS0
            ipureintro; exact View.read_writes_of_cover _ _ _ _ _ (scover0_B_0 _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's form back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates; every final state has each array of the pipeline at what the
    proof data computes and every other unscoped buffer as the host operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the run terminates, faults nowhere, and the nineteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Hand

end
-- ==== Proof.RefRun.lean ====
/- The reference program's @main as one straight line of host operations and its run.

   @main is 133 operations of its own and eight calls of outlined functions (an element-wise select, twice a variance
   over the last axis that itself ends in a select against a broadcast scalar, two rectifiers). A call executes the
   callee's body on the operands, so the callee's operations are listed in the call's place over that call's buffer
   record: 189 operations in all, in five consecutive lists. `main_eq` states @main equal to that line; `run_all` is
   then the line's run (every weakly fair execution terminates with each buffer at the fold of the operations' results
   over the launch contents), and `frame` reads it at the nineteen argument arrays, none of which any operation writes. -/
import proofs.«170118_j14654428414389_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 41 of the 189 (in `main_part0`), a callee's listed at its call over the call's buffers. -/
abbrev opsA : List (HloOp τ sig (Elt F)) :=
  [ StableHlo.unary main_arg3 main_v0 ((transpose S16x32 [1, 0] · transposes_S32x16_S16x32_1_0) : (⟨S32x16, .f32⟩ : BufTy).Contents (Elt F) → (⟨S16x32, .f32⟩ : BufTy).Contents (Elt F)),
    StableHlo.binary main_arg2 main_v0 main_v1 ((fun l r => Host.dotGeneral dot_S2048x16_S16x32_S2048x32_1_0_0_1_n_n none l r) : (⟨S2048x16, .f32⟩ : BufTy).Contents (Elt F) → (⟨S16x32, .f32⟩ : BufTy).Contents (Elt F) → (⟨S2048x32, .f32⟩ : BufTy).Contents (Elt F)),
    StableHlo.unary main_arg4 main_v2 (broadcastInDim S1x32 ![1] bcast_S32_S1x32_1 : (⟨S32, .f32⟩ : BufTy).Contents (Elt F) → (⟨S1x32, .f32⟩ : BufTy).Contents (Elt F)),
    StableHlo.unary main_v2 main_v3 (broadcastInDim S2048x32 ![0, 1] bcast_S1x32_S2048x32_0_1 : (⟨S1x32, .f32⟩ : BufTy).Contents (Elt F) → (⟨S2048x32, .f32⟩ : BufTy).Contents (Elt F)),
    StableHlo.binary main_v1 main_v3 main_v4 (addf : (⟨S2048x32, .f32⟩ : BufTy).Contents (Elt F) → (⟨S2048x32, .f32⟩ : BufTy).Contents (Elt F) → (⟨S2048x32, .f32⟩ : BufTy).Contents (Elt F)),
    StableHlo.nullary main_cst (constant S_ .f32 0x00000000#32),
    StableHlo.unary main_cst main_v5 (broadcastInDim S2048x32 ![] bcast_S_S2048x32 : (⟨S_, .f32⟩ : BufTy).Contents (Elt F) → (⟨S2048x32, .f32⟩ : BufTy).Contents (Elt F)),
    StableHlo.binary main_v4 main_v5 main_v6 (cmpf .oge : (⟨S2048x32, .f32⟩ : BufTy).Contents (Elt F) → (⟨S2048x32, .f32⟩ : BufTy).Contents (Elt F) → (⟨S2048x32, .i1⟩ : BufTy).Contents (Elt F)),
    StableHlo.nullary main_cst_0 (constant S_ .f32 0x3E4CCCCD#32),
    StableHlo.unary main_cst_0 main_v7 (broadcastInDim S2048x32 ![] bcast_S_S2048x32 : (⟨S_, .f32⟩ : BufTy).Contents (Elt F) → (⟨S2048x32, .f32⟩ : BufTy).Contents (Elt F)),
    StableHlo.binary main_v7 main_v4 main_v8 (mulf : (⟨S2048x32, .f32⟩ : BufTy).Contents (Elt F) → (⟨S2048x32, .f32⟩ : BufTy).Contents (Elt F) → (⟨S2048x32, .f32⟩ : BufTy).Contents (Elt F)),
    StableHlo.TRef.ternary (.of main_v6 : StableHlo.TRef sig ⟨S2048x32, .i1⟩) (.of main_v4 : StableHlo.TRef sig ⟨S2048x32, .f32⟩) (.of main_v8 : StableHlo.TRef sig ⟨S2048x32, .f32⟩) main_call0.v0 select,
    StableHlo.unary main_arg5 main_v10 ((transpose S32x32 [1, 0] · transposes_S32x32_S32x32_1_0) : (⟨S32x32, .f32⟩ : BufTy).Contents (Elt F) → (⟨S32x32, .f32⟩ : BufTy).Contents (Elt F)),
    StableHlo.binary main_v9 main_v10 main_v11 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.unary main_arg6 main_v12 (broadcastInDim S1x32 ![1] bcast_S32_S1x32_1 : (⟨S32, .f32⟩ : BufTy).Contents (Elt F) → (⟨S1x32, .f32⟩ : BufTy).Contents (Elt F)),
    StableHlo.unary main_v12 main_v13 (broadcastInDim S2048x32 ![0, 1] bcast_S1x32_S2048x32_0_1 : (⟨S1x32, .f32⟩ : BufTy).Contents (Elt F) → (⟨S2048x32, .f32⟩ : BufTy).Contents (Elt F)),
    StableHlo.binary main_v11 main_v13 main_v14 (addf : (⟨S2048x32, .f32⟩ : BufTy).Contents (Elt F) → (⟨S2048x32, .f32⟩ : BufTy).Contents (Elt F) → (⟨S2048x32, .f32⟩ : BufTy).Contents (Elt F)),
    StableHlo.nullary main_cst_1 (constant S_ .f32 0x00000000#32),
    StableHlo.unary main_cst_1 main_v15 (broadcastInDim S2048x32 ![] bcast_S_S2048x32 : (⟨S_, .f32⟩ : BufTy).Contents (Elt F) → (⟨S2048x32, .f32⟩ : BufTy).Contents (Elt F)),
    StableHlo.binary main_v14 main_v15 main_v16 (cmpf .oge : (⟨S2048x32, .f32⟩ : BufTy).Contents (Elt F) → (⟨S2048x32, .f32⟩ : BufTy).Contents (Elt F) → (⟨S2048x32, .i1⟩ : BufTy).Contents (Elt F)),
    StableHlo.nullary main_cst_2 (constant S_ .f32 0x3E4CCCCD#32),
    StableHlo.unary main_cst_2 main_v17 (broadcastInDim S2048x32 ![] bcast_S_S2048x32 : (⟨S_, .f32⟩ : BufTy).Contents (Elt F) → (⟨S2048x32, .f32⟩ : BufTy).Contents (Elt F)),
    StableHlo.binary main_v17 main_v14 main_v18 (mulf : (⟨S2048x32, .f32⟩ : BufTy).Contents (Elt F) → (⟨S2048x32, .f32⟩ : BufTy).Contents (Elt F) → (⟨S2048x32, .f32⟩ : BufTy).Contents (Elt F)),
    StableHlo.TRef.ternary (.of main_v16 : StableHlo.TRef sig ⟨S2048x32, .i1⟩) (.of main_v14 : StableHlo.TRef sig ⟨S2048x32, .f32⟩) (.of main_v18 : StableHlo.TRef sig ⟨S2048x32, .f32⟩) main_call1.v0 select,
    StableHlo.unary main_v19 main_v20 ((transpose S32x2048 [1, 0] · transposes_S2048x32_S32x2048_1_0) : (⟨S2048x32, .f32⟩ : BufTy).Contents (Elt F) → (⟨S32x2048, .f32⟩ : BufTy).Contents (Elt F)),
    StableHlo.reshape main_v20 main_v21 rfl shapeCasts_S32x2048_S4x16384,
    StableHlo.nullary main_cst_3 (constant S_ .f32 0x00000000#32),
    StableHlo.binary main_v21 main_cst_3 main_v22 ((fun x v => Host.reduceAdd x v reducesTo_S4x16384_S4_d1 h_S_) : (⟨S4x16384, .f32⟩ : BufTy).Contents (Elt F) → (⟨S_, .f32⟩ : BufTy).Contents (Elt F) → (⟨S4, .f32⟩ : BufTy).Contents (Elt F)),
    StableHlo.unary main_v22 main_v23 (broadcastInDim S4x1 ![0] bcast_S4_S4x1_0 : (⟨S4, .f32⟩ : BufTy).Contents (Elt F) → (⟨S4x1, .f32⟩ : BufTy).Contents (Elt F)),
    StableHlo.nullary main_cst_4 (constant S_ .f32 0x46800000#32),
    StableHlo.unary main_cst_4 main_v24 (broadcastInDim S4x1 ![] bcast_S_S4x1 : (⟨S_, .f32⟩ : BufTy).Contents (Elt F) → (⟨S4x1, .f32⟩ : BufTy).Contents (Elt F)),
    StableHlo.binary main_v23 main_v24 main_v25 (Host.divf : (⟨S4x1, .f32⟩ : BufTy).Contents (Elt F) → (⟨S4x1, .f32⟩ : BufTy).Contents (Elt F) → (⟨S4x1, .f32⟩ : BufTy).Contents (Elt F)),
    StableHlo.nullary main_c (constantI S_ 32 0#32),
    StableHlo.TRef.nullary main_call2.cst (constant S_ .f32 0x00000000#32),
    StableHlo.TRef.binary (.of main_v21 : StableHlo.TRef sig ⟨S4x16384, .f32⟩) main_call2.cst main_call2.v0 (fun x v => Host.reduceAdd x v reducesTo_S4x16384_S4_d1 h_S_),
    StableHlo.TRef.unary main_call2.v0 main_call2.v1 (broadcastInDim S4x1 ![0] bcast_S4_S4x1_0),
    StableHlo.TRef.nullary main_call2.cst_0 (constant S_ .f32 0x46800000#32),
    StableHlo.TRef.unary main_call2.cst_0 main_call2.v2 (broadcastInDim S4x1 ![] bcast_S_S4x1),
    StableHlo.TRef.binary main_call2.v1 main_call2.v2 main_call2.v3 Host.divf,
    StableHlo.TRef.unary main_call2.v3 main_call2.v4 (broadcastInDim S4x16384 ![0, 1] bcast_S4x1_S4x16384_0_1),
    StableHlo.TRef.binary (.of main_v21 : StableHlo.TRef sig ⟨S4x16384, .f32⟩) main_call2.v4 main_call2.v5 subf ]

/-- Operations 42 … 82 of the 189 (in `main_part0`), a callee's listed at its call over the call's buffers. -/
abbrev opsB : List (HloOp τ sig (Elt F)) :=
  [ StableHlo.TRef.binary main_call2.v5 main_call2.v5 main_call2.v6 mulf,
    StableHlo.TRef.unary (.of main_c : StableHlo.TRef sig ⟨S_, .i32⟩) main_call2.v7 (sitofp .f32),
    StableHlo.TRef.nullary main_call2.cst_1 (constant S_ .f32 0x46800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S4x16384_S4_d1 h_S_),
    StableHlo.TRef.unary main_call2.v9 main_call2.v10 (broadcastInDim S4x1 ![0] bcast_S4_S4x1_0),
    StableHlo.TRef.unary main_call2.v8 main_call2.v11 (broadcastInDim S4x1 ![] bcast_S_S4x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S4x1 ![] bcast_S_S4x1),
    StableHlo.TRef.ternary main_call2.v13 main_call2.v12 main_call2.call0.v1 main_call2.call0.v2 (fun p a b => select (broadcastInDim S4x1 ![] bcast_S_S4x1 p) a b),
    StableHlo.unary main_v25 main_v27 (broadcastInDim S4x16384 ![0, 1] bcast_S4x1_S4x16384_0_1 : (⟨S4x1, .f32⟩ : BufTy).Contents (Elt F) → (⟨S4x16384, .f32⟩ : BufTy).Contents (Elt F)),
    StableHlo.binary main_v21 main_v27 main_v28 (subf : (⟨S4x16384, .f32⟩ : BufTy).Contents (Elt F) → (⟨S4x16384, .f32⟩ : BufTy).Contents (Elt F) → (⟨S4x16384, .f32⟩ : BufTy).Contents (Elt F)),
    StableHlo.nullary main_cst_5 (constant S_ .f32 0x3727C5AC#32),
    StableHlo.unary main_cst_5 main_v29 (broadcastInDim S4x1 ![] bcast_S_S4x1 : (⟨S_, .f32⟩ : BufTy).Contents (Elt F) → (⟨S4x1, .f32⟩ : BufTy).Contents (Elt F)),
    StableHlo.binary main_v26 main_v29 main_v30 (addf : (⟨S4x1, .f32⟩ : BufTy).Contents (Elt F) → (⟨S4x1, .f32⟩ : BufTy).Contents (Elt F) → (⟨S4x1, .f32⟩ : BufTy).Contents (Elt F)),
    StableHlo.unary main_v30 main_v31 (Host.sqrt : (⟨S4x1, .f32⟩ : BufTy).Contents (Elt F) → (⟨S4x1, .f32⟩ : BufTy).Contents (Elt F)),
    StableHlo.unary main_v31 main_v32 (broadcastInDim S4x16384 ![0, 1] bcast_S4x1_S4x16384_0_1 : (⟨S4x1, .f32⟩ : BufTy).Contents (Elt F) → (⟨S4x16384, .f32⟩ : BufTy).Contents (Elt F)),
    StableHlo.binary main_v28 main_v32 main_v33 (Host.divf : (⟨S4x16384, .f32⟩ : BufTy).Contents (Elt F) → (⟨S4x16384, .f32⟩ : BufTy).Contents (Elt F) → (⟨S4x16384, .f32⟩ : BufTy).Contents (Elt F)),
    StableHlo.reshape main_v33 main_v34 rfl shapeCasts_S4x16384_S32x2048,
    StableHlo.unary main_arg7 main_v35 (broadcastInDim S32x1 ![0] bcast_S32_S32x1_0 : (⟨S32, .f32⟩ : BufTy).Contents (Elt F) → (⟨S32x1, .f32⟩ : BufTy).Contents (Elt F)),
    StableHlo.unary main_v35 main_v36 (broadcastInDim S32x2048 ![0, 1] bcast_S32x1_S32x2048_0_1 : (⟨S32x1, .f32⟩ : BufTy).Contents (Elt F) → (⟨S32x2048, .f32⟩ : BufTy).Contents (Elt F)),
    StableHlo.binary main_v34 main_v36 main_v37 (mulf : (⟨S32x2048, .f32⟩ : BufTy).Contents (Elt F) → (⟨S32x2048, .f32⟩ : BufTy).Contents (Elt F) → (⟨S32x2048, .f32⟩ : BufTy).Contents (Elt F)),
    StableHlo.unary main_arg8 main_v38 (broadcastInDim S32x1 ![0] bcast_S32_S32x1_0 : (⟨S32, .f32⟩ : BufTy).Contents (Elt F) → (⟨S32x1, .f32⟩ : BufTy).Contents (Elt F)),
    StableHlo.unary main_v38 main_v39 (broadcastInDim S32x2048 ![0, 1] bcast_S32x1_S32x2048_0_1 : (⟨S32x1, .f32⟩ : BufTy).Contents (Elt F) → (⟨S32x2048, .f32⟩ : BufTy).Contents (Elt F)),
    StableHlo.binary main_v37 main_v39 main_v40 (addf : (⟨S32x2048, .f32⟩ : BufTy).Contents (Elt F) → (⟨S32x2048, .f32⟩ : BufTy).Contents (Elt F) → (⟨S32x2048, .f32⟩ : BufTy).Contents (Elt F)),
    StableHlo.unary main_v40 main_v41 ((transpose S2048x32 [1, 0] · transposes_S32x2048_S2048x32_1_0) : (⟨S32x2048, .f32⟩ : BufTy).Contents (Elt F) → (⟨S2048x32, .f32⟩ : BufTy).Contents (Elt F)),
    StableHlo.nullary main_cst_6 (constant S_ .f32 0x414BA592#32),
    StableHlo.unary main_cst_6 main_v42 (broadcastInDim S2048x3 ![] bcast_S_S2048x3 : (⟨S_, .f32⟩ : BufTy).Contents (Elt F) → (⟨S2048x3, .f32⟩ : BufTy).Contents (Elt F)),
    StableHlo.binary main_arg0 main_v42 main_v43 (Host.divf : (⟨S2048x3, .f32⟩ : BufTy).Contents (Elt F) → (⟨S2048x3, .f32⟩ : BufTy).Contents (Elt F) → (⟨S2048x3, .f32⟩ : BufTy).Contents (Elt F)),
    StableHlo.unary main_arg1 main_v44 ((extractStridedSlice S2048x1x3 ![0, 0, 0] · slices_S2048x3x3_S2048x1x3_0_0_0) : (⟨S2048x3x3, .f32⟩ : BufTy).Contents (Elt F) → (⟨S2048x1x3, .f32⟩ : BufTy).Contents (Elt F)),
    StableHlo.reshape main_v44 main_v45 rfl shapeCasts_S2048x1x3_S2048x3,
    StableHlo.unary main_v43 main_v46 (broadcastInDim S1x2048x3 ![1, 2] bcast_S2048x3_S1x2048x3_1_2 : (⟨S2048x3, .f32⟩ : BufTy).Contents (Elt F) → (⟨S1x2048x3, .f32⟩ : BufTy).Contents (Elt F)),
    StableHlo.unary main_v43 main_v47 (broadcastInDim S2048x1x3 ![0, 2] bcast_S2048x3_S2048x1x3_0_2 : (⟨S2048x3, .f32⟩ : BufTy).Contents (Elt F) → (⟨S2048x1x3, .f32⟩ : BufTy).Contents (Elt F)),
    StableHlo.unary main_v46 main_v48 (broadcastInDim S2048x2048x3 ![0, 1, 2] bcast_S1x2048x3_S2048x2048x3_0_1_2 : (⟨S1x2048x3, .f32⟩ : BufTy).Contents (Elt F) → (⟨S2048x2048x3, .f32⟩ : BufTy).Contents (Elt F)),
    StableHlo.unary main_v47 main_v49 (broadcastInDim S2048x2048x3 ![0, 1, 2] bcast_S2048x1x3_S2048x2048x3_0_1_2 : (⟨S2048x1x3, .f32⟩ : BufTy).Contents (Elt F) → (⟨S2048x2048x3, .f32⟩ : BufTy).Contents (Elt F)),
    StableHlo.binary main_v48 main_v49 main_v50 (subf : (⟨S2048x2048x3, .f32⟩ : BufTy).Contents (Elt F) → (⟨S2048x2048x3, .f32⟩ : BufTy).Contents (Elt F) → (⟨S2048x2048x3, .f32⟩ : BufTy).Contents (Elt F)) ]

/-- Operations 83 … 114 of the 189 (in `main_part1`), a callee's listed at its call over the call's buffers. -/
abbrev opsC : List (HloOp τ sig (Elt F)) :=
  [ StableHlo.binary main_v50 main_v50 main_v51 (mulf : (⟨S2048x2048x3, .f32⟩ : BufTy).Contents (Elt F) → (⟨S2048x2048x3, .f32⟩ : BufTy).Contents (Elt F) → (⟨S2048x2048x3, .f32⟩ : BufTy).Contents (Elt F)),
    StableHlo.nullary main_cst_7 (constant S_ .f32 0x00000000#32),
    StableHlo.binary main_v51 main_cst_7 main_v52 ((fun x v => Host.reduceAdd x v reducesTo_S2048x2048x3_S2048x2048_d2 h_S_) : (⟨S2048x2048x3, .f32⟩ : BufTy).Contents (Elt F) → (⟨S_, .f32⟩ : BufTy).Contents (Elt F) → (⟨S2048x2048, .f32⟩ : BufTy).Contents (Elt F)),
    StableHlo.unary main_v45 main_v53 ((transpose S3x2048 [1, 0] · transposes_S2048x3_S3x2048_1_0) : (⟨S2048x3, .f32⟩ : BufTy).Contents (Elt F) → (⟨S3x2048, .f32⟩ : BufTy).Contents (Elt F)),
    StableHlo.binary main_v45 main_v53 main_v54 ((fun l r => Host.dotGeneral dot_S2048x3_S3x2048_S2048x2048_1_0_0_1_n_n none l r) : (⟨S2048x3, .f32⟩ : BufTy).Contents (Elt F) → (⟨S3x2048, .f32⟩ : BufTy).Contents (Elt F) → (⟨S2048x2048, .f32⟩ : BufTy).Contents (Elt F)),
    StableHlo.unary main_v52 main_v55 (Host.negf : (⟨S2048x2048, .f32⟩ : BufTy).Contents (Elt F) → (⟨S2048x2048, .f32⟩ : BufTy).Contents (Elt F)),
    StableHlo.nullary main_cst_8 (constant S_ .f32 0x40000000#32),
    StableHlo.unary main_cst_8 main_v56 (broadcastInDim S2048x2048 ![] bcast_S_S2048x2048 : (⟨S_, .f32⟩ : BufTy).Contents (Elt F) → (⟨S2048x2048, .f32⟩ : BufTy).Contents (Elt F)),
    StableHlo.binary main_v56 main_v54 main_v57 (subf : (⟨S2048x2048, .f32⟩ : BufTy).Contents (Elt F) → (⟨S2048x2048, .f32⟩ : BufTy).Contents (Elt F) → (⟨S2048x2048, .f32⟩ : BufTy).Contents (Elt F)),
    StableHlo.binary main_v57 main_v57 main_v58 (mulf : (⟨S2048x2048, .f32⟩ : BufTy).Contents (Elt F) → (⟨S2048x2048, .f32⟩ : BufTy).Contents (Elt F) → (⟨S2048x2048, .f32⟩ : BufTy).Contents (Elt F)),
    StableHlo.binary main_v55 main_v58 main_v59 (mulf : (⟨S2048x2048, .f32⟩ : BufTy).Contents (Elt F) → (⟨S2048x2048, .f32⟩ : BufTy).Contents (Elt F) → (⟨S2048x2048, .f32⟩ : BufTy).Contents (Elt F)),
    StableHlo.unary main_v59 main_v60 (Host.exp : (⟨S2048x2048, .f32⟩ : BufTy).Contents (Elt F) → (⟨S2048x2048, .f32⟩ : BufTy).Contents (Elt F)),
    StableHlo.binary main_v50 main_arg1 main_v61 ((fun l r => Host.dotGeneral dot_S2048x2048x3_S2048x3x3_S2048x2048x3_2_2_1_1_0_0 none l r) : (⟨S2048x2048x3, .f32⟩ : BufTy).Contents (Elt F) → (⟨S2048x3x3, .f32⟩ : BufTy).Contents (Elt F) → (⟨S2048x2048x3, .f32⟩ : BufTy).Contents (Elt F)),
    StableHlo.binary main_v61 main_arg9 main_v62 ((fun l r => Host.dotGeneral dot_S2048x2048x3_S8x3_S2048x2048x8_2_1_01_0_n_n none l r) : (⟨S2048x2048x3, .f32⟩ : BufTy).Contents (Elt F) → (⟨S8x3, .f32⟩ : BufTy).Contents (Elt F) → (⟨S2048x2048x8, .f32⟩ : BufTy).Contents (Elt F)),
    StableHlo.unary main_arg10 main_v63 (broadcastInDim S1x1x8 ![2] bcast_S8_S1x1x8_2 : (⟨S8, .f32⟩ : BufTy).Contents (Elt F) → (⟨S1x1x8, .f32⟩ : BufTy).Contents (Elt F)),
    StableHlo.unary main_v63 main_v64 (broadcastInDim S2048x2048x8 ![0, 1, 2] bcast_S1x1x8_S2048x2048x8_0_1_2 : (⟨S1x1x8, .f32⟩ : BufTy).Contents (Elt F) → (⟨S2048x2048x8, .f32⟩ : BufTy).Contents (Elt F)),
    StableHlo.binary main_v62 main_v64 main_v65 (addf : (⟨S2048x2048x8, .f32⟩ : BufTy).Contents (Elt F) → (⟨S2048x2048x8, .f32⟩ : BufTy).Contents (Elt F) → (⟨S2048x2048x8, .f32⟩ : BufTy).Contents (Elt F)),
    StableHlo.TRef.nullary main_call3.cst (constant S_ .f32 0x00000000#32),
    StableHlo.TRef.unary main_call3.cst main_call3.v0 (broadcastInDim S2048x2048x8 ![] bcast_S_S2048x2048x8),
    StableHlo.TRef.binary (.of main_v65 : StableHlo.TRef sig ⟨S2048x2048x8, .f32⟩) main_call3.v0 main_call3.v1 maximumf,
    StableHlo.binary main_v66 main_arg11 main_v67 ((fun l r => Host.dotGeneral dot_S2048x2048x8_S32x8_S2048x2048x32_2_1_01_0_n_n none l r) : (⟨S2048x2048x8, .f32⟩ : BufTy).Contents (Elt F) → (⟨S32x8, .f32⟩ : BufTy).Contents (Elt F) → (⟨S2048x2048x32, .f32⟩ : BufTy).Contents (Elt F)),
    StableHlo.unary main_arg12 main_v68 (broadcastInDim S1x1x32 ![2] bcast_S32_S1x1x32_2 : (⟨S32, .f32⟩ : BufTy).Contents (Elt F) → (⟨S1x1x32, .f32⟩ : BufTy).Contents (Elt F)),
    StableHlo.unary main_v68 main_v69 (broadcastInDim S2048x2048x32 ![0, 1, 2] bcast_S1x1x32_S2048x2048x32_0_1_2 : (⟨S1x1x32, .f32⟩ : BufTy).Contents (Elt F) → (⟨S2048x2048x32, .f32⟩ : BufTy).Contents (Elt F)),
    StableHlo.binary main_v67 main_v69 main_v70 (addf : (⟨S2048x2048x32, .f32⟩ : BufTy).Contents (Elt F) → (⟨S2048x2048x32, .f32⟩ : BufTy).Contents (Elt F) → (⟨S2048x2048x32, .f32⟩ : BufTy).Contents (Elt F)),
    StableHlo.TRef.nullary main_call4.cst (constant S_ .f32 0x00000000#32),
    StableHlo.TRef.unary main_call4.cst main_call4.v0 (broadcastInDim S2048x2048x32 ![] bcast_S_S2048x2048x32),
    StableHlo.TRef.binary (.of main_v70 : StableHlo.TRef sig ⟨S2048x2048x32, .f32⟩) main_call4.v0 main_call4.v1 maximumf,
    StableHlo.unary main_v60 main_v72 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v72 main_v73 (broadcastInDim S2048x2048x32 ![0, 1, 2] bcast_S2048x2048x1_S2048x2048x32_0_1_2 : (⟨S2048x2048x1, .f32⟩ : BufTy).Contents (Elt F) → (⟨S2048x2048x32, .f32⟩ : BufTy).Contents (Elt F)),
    StableHlo.binary main_v73 main_v71 main_v74 (mulf : (⟨S2048x2048x32, .f32⟩ : BufTy).Contents (Elt F) → (⟨S2048x2048x32, .f32⟩ : BufTy).Contents (Elt F) → (⟨S2048x2048x32, .f32⟩ : BufTy).Contents (Elt F)),
    StableHlo.unary main_v41 main_v75 (broadcastInDim S1x2048x32 ![1, 2] bcast_S2048x32_S1x2048x32_1_2 : (⟨S2048x32, .f32⟩ : BufTy).Contents (Elt F) → (⟨S1x2048x32, .f32⟩ : BufTy).Contents (Elt F)),
    StableHlo.unary main_v75 main_v76 (broadcastInDim S2048x2048x32 ![0, 1, 2] bcast_S1x2048x32_S2048x2048x32_0_1_2 : (⟨S1x2048x32, .f32⟩ : BufTy).Contents (Elt F) → (⟨S2048x2048x32, .f32⟩ : BufTy).Contents (Elt F)) ]

/-- Operations 115 … 146 of the 189 (in `main_part1`), a callee's listed at its call over the call's buffers. -/
abbrev opsD : List (HloOp τ sig (Elt F)) :=
  [ StableHlo.binary main_v74 main_v76 main_v77 (mulf : (⟨S2048x2048x32, .f32⟩ : BufTy).Contents (Elt F) → (⟨S2048x2048x32, .f32⟩ : BufTy).Contents (Elt F) → (⟨S2048x2048x32, .f32⟩ : BufTy).Contents (Elt F)),
    StableHlo.nullary main_cst_9 (constant S_ .f32 0x00000000#32),
    StableHlo.binary main_v77 main_cst_9 main_v78 ((fun x v => Host.reduceAdd x v reducesTo_S2048x2048x32_S2048x32_d1 h_S_) : (⟨S2048x2048x32, .f32⟩ : BufTy).Contents (Elt F) → (⟨S_, .f32⟩ : BufTy).Contents (Elt F) → (⟨S2048x32, .f32⟩ : BufTy).Contents (Elt F)),
    StableHlo.unary main_arg13 main_v79 ((transpose S32x32 [1, 0] · transposes_S32x32_S32x32_1_0) : (⟨S32x32, .f32⟩ : BufTy).Contents (Elt F) → (⟨S32x32, .f32⟩ : BufTy).Contents (Elt F)),
    StableHlo.binary main_v78 main_v79 main_v80 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.unary main_arg14 main_v81 (broadcastInDim S1x32 ![1] bcast_S32_S1x32_1 : (⟨S32, .f32⟩ : BufTy).Contents (Elt F) → (⟨S1x32, .f32⟩ : BufTy).Contents (Elt F)),
    StableHlo.unary main_v81 main_v82 (broadcastInDim S2048x32 ![0, 1] bcast_S1x32_S2048x32_0_1 : (⟨S1x32, .f32⟩ : BufTy).Contents (Elt F) → (⟨S2048x32, .f32⟩ : BufTy).Contents (Elt F)),
    StableHlo.binary main_v80 main_v82 main_v83 (addf : (⟨S2048x32, .f32⟩ : BufTy).Contents (Elt F) → (⟨S2048x32, .f32⟩ : BufTy).Contents (Elt F) → (⟨S2048x32, .f32⟩ : BufTy).Contents (Elt F)),
    StableHlo.nullary main_cst_10 (constant S_ .f32 0x00000000#32),
    StableHlo.unary main_cst_10 main_v84 (broadcastInDim S2048x32 ![] bcast_S_S2048x32 : (⟨S_, .f32⟩ : BufTy).Contents (Elt F) → (⟨S2048x32, .f32⟩ : BufTy).Contents (Elt F)),
    StableHlo.binary main_v83 main_v84 main_v85 (cmpf .oge : (⟨S2048x32, .f32⟩ : BufTy).Contents (Elt F) → (⟨S2048x32, .f32⟩ : BufTy).Contents (Elt F) → (⟨S2048x32, .i1⟩ : BufTy).Contents (Elt F)),
    StableHlo.nullary main_cst_11 (constant S_ .f32 0x3E4CCCCD#32),
    StableHlo.unary main_cst_11 main_v86 (broadcastInDim S2048x32 ![] bcast_S_S2048x32 : (⟨S_, .f32⟩ : BufTy).Contents (Elt F) → (⟨S2048x32, .f32⟩ : BufTy).Contents (Elt F)),
    StableHlo.binary main_v86 main_v83 main_v87 (mulf : (⟨S2048x32, .f32⟩ : BufTy).Contents (Elt F) → (⟨S2048x32, .f32⟩ : BufTy).Contents (Elt F) → (⟨S2048x32, .f32⟩ : BufTy).Contents (Elt F)),
    StableHlo.TRef.ternary (.of main_v85 : StableHlo.TRef sig ⟨S2048x32, .i1⟩) (.of main_v83 : StableHlo.TRef sig ⟨S2048x32, .f32⟩) (.of main_v87 : StableHlo.TRef sig ⟨S2048x32, .f32⟩) main_call5.v0 select,
    StableHlo.unary main_arg15 main_v89 ((transpose S32x32 [1, 0] · transposes_S32x32_S32x32_1_0) : (⟨S32x32, .f32⟩ : BufTy).Contents (Elt F) → (⟨S32x32, .f32⟩ : BufTy).Contents (Elt F)),
    StableHlo.binary main_v88 main_v89 main_v90 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.unary main_arg16 main_v91 (broadcastInDim S1x32 ![1] bcast_S32_S1x32_1 : (⟨S32, .f32⟩ : BufTy).Contents (Elt F) → (⟨S1x32, .f32⟩ : BufTy).Contents (Elt F)),
    StableHlo.unary main_v91 main_v92 (broadcastInDim S2048x32 ![0, 1] bcast_S1x32_S2048x32_0_1 : (⟨S1x32, .f32⟩ : BufTy).Contents (Elt F) → (⟨S2048x32, .f32⟩ : BufTy).Contents (Elt F)),
    StableHlo.binary main_v90 main_v92 main_v93 (addf : (⟨S2048x32, .f32⟩ : BufTy).Contents (Elt F) → (⟨S2048x32, .f32⟩ : BufTy).Contents (Elt F) → (⟨S2048x32, .f32⟩ : BufTy).Contents (Elt F)),
    StableHlo.nullary main_cst_12 (constant S_ .f32 0x00000000#32),
    StableHlo.unary main_cst_12 main_v94 (broadcastInDim S2048x32 ![] bcast_S_S2048x32 : (⟨S_, .f32⟩ : BufTy).Contents (Elt F) → (⟨S2048x32, .f32⟩ : BufTy).Contents (Elt F)),
    StableHlo.binary main_v93 main_v94 main_v95 (cmpf .oge : (⟨S2048x32, .f32⟩ : BufTy).Contents (Elt F) → (⟨S2048x32, .f32⟩ : BufTy).Contents (Elt F) → (⟨S2048x32, .i1⟩ : BufTy).Contents (Elt F)),
    StableHlo.nullary main_cst_13 (constant S_ .f32 0x3E4CCCCD#32),
    StableHlo.unary main_cst_13 main_v96 (broadcastInDim S2048x32 ![] bcast_S_S2048x32 : (⟨S_, .f32⟩ : BufTy).Contents (Elt F) → (⟨S2048x32, .f32⟩ : BufTy).Contents (Elt F)),
    StableHlo.binary main_v96 main_v93 main_v97 (mulf : (⟨S2048x32, .f32⟩ : BufTy).Contents (Elt F) → (⟨S2048x32, .f32⟩ : BufTy).Contents (Elt F) → (⟨S2048x32, .f32⟩ : BufTy).Contents (Elt F)),
    StableHlo.TRef.ternary (.of main_v95 : StableHlo.TRef sig ⟨S2048x32, .i1⟩) (.of main_v93 : StableHlo.TRef sig ⟨S2048x32, .f32⟩) (.of main_v97 : StableHlo.TRef sig ⟨S2048x32, .f32⟩) main_call6.v0 select,
    StableHlo.unary main_v98 main_v99 ((transpose S32x2048 [1, 0] · transposes_S2048x32_S32x2048_1_0) : (⟨S2048x32, .f32⟩ : BufTy).Contents (Elt F) → (⟨S32x2048, .f32⟩ : BufTy).Contents (Elt F)),
    StableHlo.reshape main_v99 main_v100 rfl shapeCasts_S32x2048_S4x16384,
    StableHlo.nullary main_cst_14 (constant S_ .f32 0x00000000#32),
    StableHlo.binary main_v100 main_cst_14 main_v101 ((fun x v => Host.reduceAdd x v reducesTo_S4x16384_S4_d1 h_S_) : (⟨S4x16384, .f32⟩ : BufTy).Contents (Elt F) → (⟨S_, .f32⟩ : BufTy).Contents (Elt F) → (⟨S4, .f32⟩ : BufTy).Contents (Elt F)),
    StableHlo.unary main_v101 main_v102 (broadcastInDim S4x1 ![0] bcast_S4_S4x1_0 : (⟨S4, .f32⟩ : BufTy).Contents (Elt F) → (⟨S4x1, .f32⟩ : BufTy).Contents (Elt F)) ]

/-- Operations 147 … 189 of the 189 (in `main_part2`), a callee's listed at its call over the call's buffers. -/
abbrev opsE : List (HloOp τ sig (Elt F)) :=
  [ StableHlo.nullary main_cst_15 (constant S_ .f32 0x46800000#32),
    StableHlo.unary main_cst_15 main_v103 (broadcastInDim S4x1 ![] bcast_S_S4x1 : (⟨S_, .f32⟩ : BufTy).Contents (Elt F) → (⟨S4x1, .f32⟩ : BufTy).Contents (Elt F)),
    StableHlo.binary main_v102 main_v103 main_v104 (Host.divf : (⟨S4x1, .f32⟩ : BufTy).Contents (Elt F) → (⟨S4x1, .f32⟩ : BufTy).Contents (Elt F) → (⟨S4x1, .f32⟩ : BufTy).Contents (Elt F)),
    StableHlo.nullary main_c_16 (constantI S_ 32 0#32),
    StableHlo.TRef.nullary main_call7.cst (constant S_ .f32 0x00000000#32),
    StableHlo.TRef.binary (.of main_v100 : StableHlo.TRef sig ⟨S4x16384, .f32⟩) main_call7.cst main_call7.v0 (fun x v => Host.reduceAdd x v reducesTo_S4x16384_S4_d1 h_S_),
    StableHlo.TRef.unary main_call7.v0 main_call7.v1 (broadcastInDim S4x1 ![0] bcast_S4_S4x1_0),
    StableHlo.TRef.nullary main_call7.cst_0 (constant S_ .f32 0x46800000#32),
    StableHlo.TRef.unary main_call7.cst_0 main_call7.v2 (broadcastInDim S4x1 ![] bcast_S_S4x1),
    StableHlo.TRef.binary main_call7.v1 main_call7.v2 main_call7.v3 Host.divf,
    StableHlo.TRef.unary main_call7.v3 main_call7.v4 (broadcastInDim S4x16384 ![0, 1] bcast_S4x1_S4x16384_0_1),
    StableHlo.TRef.binary (.of main_v100 : StableHlo.TRef sig ⟨S4x16384, .f32⟩) main_call7.v4 main_call7.v5 subf,
    StableHlo.TRef.binary main_call7.v5 main_call7.v5 main_call7.v6 mulf,
    StableHlo.TRef.unary (.of main_c_16 : StableHlo.TRef sig ⟨S_, .i32⟩) main_call7.v7 (sitofp .f32),
    StableHlo.TRef.nullary main_call7.cst_1 (constant S_ .f32 0x46800000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S4x16384_S4_d1 h_S_),
    StableHlo.TRef.unary main_call7.v9 main_call7.v10 (broadcastInDim S4x1 ![0] bcast_S4_S4x1_0),
    StableHlo.TRef.unary main_call7.v8 main_call7.v11 (broadcastInDim S4x1 ![] bcast_S_S4x1),
    StableHlo.TRef.binary main_call7.v10 main_call7.v11 main_call7.v12 Host.divf,
    StableHlo.TRef.nullary main_call7.cst_3 (constant S_ .f32 0x00000000#32),
    StableHlo.TRef.binary main_call7.v8 main_call7.cst_3 main_call7.v13 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S4x1 ![] bcast_S_S4x1),
    StableHlo.TRef.ternary main_call7.v13 main_call7.v12 main_call7.call0.v1 main_call7.call0.v2 (fun p a b => select (broadcastInDim S4x1 ![] bcast_S_S4x1 p) a b),
    StableHlo.unary main_v104 main_v106 (broadcastInDim S4x16384 ![0, 1] bcast_S4x1_S4x16384_0_1 : (⟨S4x1, .f32⟩ : BufTy).Contents (Elt F) → (⟨S4x16384, .f32⟩ : BufTy).Contents (Elt F)),
    StableHlo.binary main_v100 main_v106 main_v107 (subf : (⟨S4x16384, .f32⟩ : BufTy).Contents (Elt F) → (⟨S4x16384, .f32⟩ : BufTy).Contents (Elt F) → (⟨S4x16384, .f32⟩ : BufTy).Contents (Elt F)),
    StableHlo.nullary main_cst_17 (constant S_ .f32 0x3727C5AC#32),
    StableHlo.unary main_cst_17 main_v108 (broadcastInDim S4x1 ![] bcast_S_S4x1 : (⟨S_, .f32⟩ : BufTy).Contents (Elt F) → (⟨S4x1, .f32⟩ : BufTy).Contents (Elt F)),
    StableHlo.binary main_v105 main_v108 main_v109 (addf : (⟨S4x1, .f32⟩ : BufTy).Contents (Elt F) → (⟨S4x1, .f32⟩ : BufTy).Contents (Elt F) → (⟨S4x1, .f32⟩ : BufTy).Contents (Elt F)),
    StableHlo.unary main_v109 main_v110 (Host.sqrt : (⟨S4x1, .f32⟩ : BufTy).Contents (Elt F) → (⟨S4x1, .f32⟩ : BufTy).Contents (Elt F)),
    StableHlo.unary main_v110 main_v111 (broadcastInDim S4x16384 ![0, 1] bcast_S4x1_S4x16384_0_1 : (⟨S4x1, .f32⟩ : BufTy).Contents (Elt F) → (⟨S4x16384, .f32⟩ : BufTy).Contents (Elt F)),
    StableHlo.binary main_v107 main_v111 main_v112 (Host.divf : (⟨S4x16384, .f32⟩ : BufTy).Contents (Elt F) → (⟨S4x16384, .f32⟩ : BufTy).Contents (Elt F) → (⟨S4x16384, .f32⟩ : BufTy).Contents (Elt F)),
    StableHlo.reshape main_v112 main_v113 rfl shapeCasts_S4x16384_S32x2048,
    StableHlo.unary main_arg17 main_v114 (broadcastInDim S32x1 ![0] bcast_S32_S32x1_0 : (⟨S32, .f32⟩ : BufTy).Contents (Elt F) → (⟨S32x1, .f32⟩ : BufTy).Contents (Elt F)),
    StableHlo.unary main_v114 main_v115 (broadcastInDim S32x2048 ![0, 1] bcast_S32x1_S32x2048_0_1 : (⟨S32x1, .f32⟩ : BufTy).Contents (Elt F) → (⟨S32x2048, .f32⟩ : BufTy).Contents (Elt F)),
    StableHlo.binary main_v113 main_v115 main_v116 (mulf : (⟨S32x2048, .f32⟩ : BufTy).Contents (Elt F) → (⟨S32x2048, .f32⟩ : BufTy).Contents (Elt F) → (⟨S32x2048, .f32⟩ : BufTy).Contents (Elt F)),
    StableHlo.unary main_arg18 main_v117 (broadcastInDim S32x1 ![0] bcast_S32_S32x1_0 : (⟨S32, .f32⟩ : BufTy).Contents (Elt F) → (⟨S32x1, .f32⟩ : BufTy).Contents (Elt F)),
    StableHlo.unary main_v117 main_v118 (broadcastInDim S32x2048 ![0, 1] bcast_S32x1_S32x2048_0_1 : (⟨S32x1, .f32⟩ : BufTy).Contents (Elt F) → (⟨S32x2048, .f32⟩ : BufTy).Contents (Elt F)),
    StableHlo.binary main_v116 main_v118 main_v119 (addf : (⟨S32x2048, .f32⟩ : BufTy).Contents (Elt F) → (⟨S32x2048, .f32⟩ : BufTy).Contents (Elt F) → (⟨S32x2048, .f32⟩ : BufTy).Contents (Elt F)),
    StableHlo.unary main_v119 main_v120 ((transpose S2048x32 [1, 0] · transposes_S32x2048_S2048x32_1_0) : (⟨S32x2048, .f32⟩ : BufTy).Contents (Elt F) → (⟨S2048x32, .f32⟩ : BufTy).Contents (Elt F)) ]

/-- @main's 189 operations, in order, the outlined functions' at their call sites. -/
abbrev ops : List (HloOp τ sig (Elt F)) :=
  opsA ++ (opsB ++ (opsC ++ (opsD ++ opsE)))

set_option maxRecDepth 8192 in
set_option maxHeartbeats 4000000 in
/-- Window `main_part0` is its operations' line: the callees' definitions unfolded at their calls, both sides are one chain
    of `hlo` steps once sequencing is reassociated. -/
theorem main_part0_eq (c : Dev nD) : main_part0 (F := F) c = seq (opsA ++ opsB) := by
  simp only [main_part0, fn_where.body, fn_where_0.body, fn_var.body, fn_relu.body, fn_relu_1.body, opsA, opsB, seq_append, seq, bind_assoc, pure_bind]
  rfl

set_option maxRecDepth 8192 in
set_option maxHeartbeats 4000000 in
/-- Window `main_part1` is its operations' line: the callees' definitions unfolded at their calls, both sides are one chain
    of `hlo` steps once sequencing is reassociated. -/
theorem main_part1_eq (c : Dev nD) : main_part1 (F := F) c = seq (opsC ++ opsD) := by
  simp only [main_part1, fn_where.body, fn_where_0.body, fn_var.body, fn_relu.body, fn_relu_1.body, opsC, opsD, seq_append, seq, bind_assoc, pure_bind]
  rfl

set_option maxRecDepth 8192 in
set_option maxHeartbeats 4000000 in
/-- Window `main_part2` is its operations' line: it ends in the return, as the line does, so once the callee's definition
    is unfolded at its call and sequencing reassociated the two sides are the same chain of `hlo` steps. -/
theorem main_part2_eq (c : Dev nD) : main_part2 (F := F) c = seq opsE := by
  simp only [main_part2, fn_where.body, fn_where_0.body, fn_var.body, fn_relu.body, fn_relu_1.body, opsE, seq, bind_assoc, pure_bind]

/-- @main is the whole line: its three windows in order are the five lists in order. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub ..⟩

set_option maxRecDepth 8192 in
theorem opsB_sub : (opsB : List (HloOp τ sig (Elt F))).Forall fun op => op.bufs ⊆ tcRefs τ sig :=
  ⟨binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., reshape_bufs_sub .., unary_bufs_sub .., unary_bufs_sub .., binary_bufs_sub .., unary_bufs_sub .., unary_bufs_sub .., binary_bufs_sub .., unary_bufs_sub .., nullary_bufs_sub .., unary_bufs_sub .., binary_bufs_sub .., unary_bufs_sub .., reshape_bufs_sub .., unary_bufs_sub .., unary_bufs_sub .., unary_bufs_sub .., unary_bufs_sub .., binary_bufs_sub ..⟩

set_option maxRecDepth 8192 in
theorem opsC_sub : (opsC : List (HloOp τ sig (Elt F))).Forall fun op => op.bufs ⊆ tcRefs τ sig :=
  ⟨binary_bufs_sub .., nullary_bufs_sub .., binary_bufs_sub .., unary_bufs_sub .., binary_bufs_sub .., unary_bufs_sub .., nullary_bufs_sub .., unary_bufs_sub .., binary_bufs_sub .., binary_bufs_sub .., binary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub ..⟩

set_option maxRecDepth 8192 in
theorem opsD_sub : (opsD : List (HloOp τ sig (Elt F))).Forall fun op => op.bufs ⊆ tcRefs τ sig :=
  ⟨binary_bufs_sub .., nullary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., reshape_bufs_sub .., nullary_bufs_sub .., binary_bufs_sub .., unary_bufs_sub ..⟩

set_option maxRecDepth 8192 in
theorem opsE_sub : (opsE : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., reshape_bufs_sub .., unary_bufs_sub .., unary_bufs_sub .., binary_bufs_sub .., unary_bufs_sub .., unary_bufs_sub .., binary_bufs_sub .., unary_bufs_sub ..⟩

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp opsA_sub op h, List.forall_iff_forall_mem.mp opsB_sub op h, List.forall_iff_forall_mem.mp opsC_sub op h, List.forall_iff_forall_mem.mp opsD_sub op h, List.forall_iff_forall_mem.mp opsE_sub op h]

/-- The references `opsA`'s operations write, in order. -/
abbrev opsA_W : List (Ref sig .tc) := [main_v0, main_v1, main_v2, main_v3, main_v4, main_cst, main_v5, main_v6, main_cst_0, main_v7, main_v8, main_v9, main_v10, main_v11, main_v12, main_v13, main_v14, main_cst_1, main_v15, main_v16, main_cst_2, main_v17, main_v18, main_v19, main_v20, main_v21, main_cst_3, main_v22, main_v23, main_cst_4, main_v24, main_v25, main_c, main_call2_cst, main_call2_v0, main_call2_v1, main_call2_cst_0, main_call2_v2, main_call2_v3, main_call2_v4, main_call2_v5]
set_option maxRecDepth 8192 in
/-- Each operation of `opsA` writes its one result reference, which is in the list. -/
theorem opsA_writes : (opsA : List (HloOp τ sig (Elt F))).Forall fun op => op.writes ⊆ (opsA_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The references `opsB`'s operations write, in order. -/
abbrev opsB_W : List (Ref sig .tc) := [main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v26, main_v27, main_v28, main_cst_5, main_v29, main_v30, main_v31, main_v32, main_v33, main_v34, main_v35, main_v36, main_v37, main_v38, main_v39, main_v40, main_v41, main_cst_6, main_v42, main_v43, main_v44, main_v45, main_v46, main_v47, main_v48, main_v49, main_v50]
set_option maxRecDepth 8192 in
/-- Each operation of `opsB` writes its one result reference, which is in the list. -/
theorem opsB_writes : (opsB : List (HloOp τ sig (Elt F))).Forall fun op => op.writes ⊆ (opsB_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The references `opsC`'s operations write, in order. -/
abbrev opsC_W : List (Ref sig .tc) := [main_v51, main_cst_7, main_v52, main_v53, main_v54, main_v55, main_cst_8, main_v56, main_v57, main_v58, main_v59, main_v60, main_v61, main_v62, main_v63, main_v64, main_v65, main_call3_cst, main_call3_v0, main_v66, main_v67, main_v68, main_v69, main_v70, main_call4_cst, main_call4_v0, main_v71, main_v72, main_v73, main_v74, main_v75, main_v76]
set_option maxRecDepth 8192 in
/-- Each operation of `opsC` writes its one result reference, which is in the list. -/
theorem opsC_writes : (opsC : List (HloOp τ sig (Elt F))).Forall fun op => op.writes ⊆ (opsC_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The references `opsD`'s operations write, in order. -/
abbrev opsD_W : List (Ref sig .tc) := [main_v77, main_cst_9, main_v78, main_v79, main_v80, main_v81, main_v82, main_v83, main_cst_10, main_v84, main_v85, main_cst_11, main_v86, main_v87, main_v88, main_v89, main_v90, main_v91, main_v92, main_v93, main_cst_12, main_v94, main_v95, main_cst_13, main_v96, main_v97, main_v98, main_v99, main_v100, main_cst_14, main_v101, main_v102]
set_option maxRecDepth 8192 in
/-- Each operation of `opsD` writes its one result reference, which is in the list. -/
theorem opsD_writes : (opsD : List (HloOp τ sig (Elt F))).Forall fun op => op.writes ⊆ (opsD_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The references `opsE`'s operations write, in order. -/
abbrev opsE_W : List (Ref sig .tc) := [main_cst_15, main_v103, main_v104, main_c_16, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v105, main_v106, main_v107, main_cst_17, main_v108, main_v109, main_v110, main_v111, main_v112, main_v113, main_v114, main_v115, main_v116, main_v117, main_v118, main_v119, main_v120]
set_option maxRecDepth 8192 in
/-- Each operation of `opsE` writes its one result reference, which is in the list. -/
theorem opsE_writes : (opsE : List (HloOp τ sig (Elt F))).Forall fun op => op.writes ⊆ (opsE_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A reference none of the five lists writes keeps its contents through the whole line. -/
theorem ops_keep (V : Valuation τ sig (Elt F)) (r : Ref sig .tc)
    (hA : r ∉ opsA_W) (hB : r ∉ opsB_W) (hC : r ∉ opsC_W) (hD : r ∉ opsD_W) (hE : r ∉ opsE_W) :
    after ops V (Proc.devRef .tc r) = V (Proc.devRef .tc r) := by
  show after (opsA ++ (opsB ++ (opsC ++ (opsD ++ opsE)))) V (Proc.devRef .tc r) = V (Proc.devRef .tc r)
  rw [after_append, after_append, after_append, after_append,
    after_of_writes_sub opsE _ opsE_writes hE, after_of_writes_sub opsD _ opsD_writes hD,
    after_of_writes_sub opsC _ opsC_writes hC, after_of_writes_sub opsB _ opsB_writes hB,
    after_of_writes_sub opsA _ opsA_writes hA]

/-- On every device, for any float values, from any memory with zero counters: every weakly fair execution of @main
    terminates, and every final state has each TensorCore buffer at the fold of the 189 operations' results over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- An argument array is written by no operation: after the line it holds its launch contents. -/
theorem arg_keep (m : (ℓ : Loc nD τ sig) → Buf (Elt F) ℓ) (c : Dev nD) (r : Ref sig .tc)
    (hA : r ∉ opsA_W) (hB : r ∉ opsB_W) (hC : r ∉ opsC_W) (hD : r ∉ opsD_W) (hE : r ∉ opsE_W) :
    after ops (launchContents m c) (Proc.devRef .tc r) = m ((c.tc : Thread nD τ).loc r) :=
  ops_keep (launchContents m c) r hA hB hC hD hE

/-- The run leaves the nineteen argument arrays as the launch dealt them. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_arg0).trans (arg_keep m c main_arg0 (by decide) (by decide) (by decide) (by decide) (by decide)),
      (h c main_arg1).trans (arg_keep m c main_arg1 (by decide) (by decide) (by decide) (by decide) (by decide)),
      (h c main_arg2).trans (arg_keep m c main_arg2 (by decide) (by decide) (by decide) (by decide) (by decide)),
      (h c main_arg3).trans (arg_keep m c main_arg3 (by decide) (by decide) (by decide) (by decide) (by decide)),
      (h c main_arg4).trans (arg_keep m c main_arg4 (by decide) (by decide) (by decide) (by decide) (by decide)),
      (h c main_arg5).trans (arg_keep m c main_arg5 (by decide) (by decide) (by decide) (by decide) (by decide)),
      (h c main_arg6).trans (arg_keep m c main_arg6 (by decide) (by decide) (by decide) (by decide) (by decide)),
      (h c main_arg7).trans (arg_keep m c main_arg7 (by decide) (by decide) (by decide) (by decide) (by decide)),
      (h c main_arg8).trans (arg_keep m c main_arg8 (by decide) (by decide) (by decide) (by decide) (by decide)),
      (h c main_arg9).trans (arg_keep m c main_arg9 (by decide) (by decide) (by decide) (by decide) (by decide)),
      (h c main_arg10).trans (arg_keep m c main_arg10 (by decide) (by decide) (by decide) (by decide) (by decide)),
      (h c main_arg11).trans (arg_keep m c main_arg11 (by decide) (by decide) (by decide) (by decide) (by decide)),
      (h c main_arg12).trans (arg_keep m c main_arg12 (by decide) (by decide) (by decide) (by decide) (by decide)),
      (h c main_arg13).trans (arg_keep m c main_arg13 (by decide) (by decide) (by decide) (by decide) (by decide)),
      (h c main_arg14).trans (arg_keep m c main_arg14 (by decide) (by decide) (by decide) (by decide) (by decide)),
      (h c main_arg15).trans (arg_keep m c main_arg15 (by decide) (by decide) (by decide) (by decide) (by decide)),
      (h c main_arg16).trans (arg_keep m c main_arg16 (by decide) (by decide) (by decide) (by decide) (by decide)),
      (h c main_arg17).trans (arg_keep m c main_arg17 (by decide) (by decide) (by decide) (by decide) (by decide)),
      (h c main_arg18).trans (arg_keep m c main_arg18 (by decide) (by decide) (by decide) (by decide) (by decide))⟩)
    (run_all m ρ)

end Cert.ReferenceIdeal.RefRun

end
-- ==== Proof.Spec.lean ====
/-
  The all-pairs geometric convolution as one function of its arrays, on the extended reals.

  For a query point i and a key point j: the offset diff = x_j − x_i (scaled coordinates), its squared length,
  the product of the two unit normals, the Gaussian window exp(−|diff|² · (2 − n_i·n_j)²), the offset in the
  query point's local frame X_a = Σ_c nuv_i[a,c] · diff_c, and two small layers with a rectifier,
  Xc1_k = max(Σ_a X_a · A1[k,a] + B1[k], 0), Xc2_h = max(Σ_k Xc1_k · A2[h,k] + B2[h], 0). The pair contributes
  window · Xc2_h · f_j[h] to channel h of query point i, and the result sums the contributions over all keys j.
  Everything is stated per PAIR of points first (`pair`), as a function of the two points' own vectors, so that a
  tile of keys and the whole key axis are sums of the same term.
-/
import Idealize.ShloMosaic.PureOps.Ideal

noncomputable section

namespace Cert.GeoSpec

open Idealize.ShloMosaic

/-- Position of entry (a, c) of a 3 × 3 frame in its row-major flattening to nine. -/
def n9 (a c : Fin 3) : Fin 9 := ⟨3 * a.val + c.val, by omega⟩

/-- The literal 2.0 of the window, as its binary word denotes it. -/
def two : EReal := Ideal.ofBits .f32 0x40000000#32

section Pair
variable (pI : Fin 3 → EReal) (nI : Fin 9 → EReal) (pJ : Fin 3 → EReal) (nJ : Fin 9 → EReal) (fJ : Fin 32 → EReal)
  (A1 : Fin 8 → Fin 3 → EReal) (B1 : Fin 8 → EReal) (A2 : Fin 32 → Fin 8 → EReal) (B2 : Fin 32 → EReal)

/-- x_j − x_i, coordinate c. -/
def diff (c : Fin 3) : EReal := pJ c - pI c
/-- |x_j − x_i|². -/
def sqd : EReal := ∑ c : Fin 3, diff pI pJ c * diff pI pJ c
/-- n_i · n_j (the normals are the first rows of the two frames). -/
def dotnn : EReal := ∑ c : Fin 3, nI (n9 0 c) * nJ (n9 0 c)
/-- The Gaussian window of the pair. -/
def window : EReal := Ideal.exp (-(sqd pI pJ) * ((two - dotnn nI nJ) * (two - dotnn nI nJ)))
/-- The offset in the query point's local frame. -/
def X (a : Fin 3) : EReal := ∑ c : Fin 3, nI (n9 a c) * diff pI pJ c
/-- First layer with its rectifier. -/
def xc1 (k : Fin 8) : EReal := max (∑ a : Fin 3, X pI nI pJ a * A1 k a + B1 k) 0
/-- Second layer with its rectifier. -/
def xc2 (h : Fin 32) : EReal := max (∑ k : Fin 8, xc1 pI nI pJ A1 B1 k * A2 h k + B2 h) 0
/-- What the pair (i, j) contributes to channel h of query point i. -/
def pair (h : Fin 32) : EReal := window pI nI pJ nJ * xc2 pI nI pJ A1 B1 A2 B2 h * fJ h
end Pair

/-- The aggregated feature of query point i, channel h: the sum of the pair terms over all 2048 keys. -/
def agg (pts : Fin 2048 → Fin 3 → EReal) (nuv : Fin 2048 → Fin 9 → EReal) (f : Fin 2048 → Fin 32 → EReal)
    (A1 : Fin 8 → Fin 3 → EReal) (B1 : Fin 8 → EReal) (A2 : Fin 32 → Fin 8 → EReal) (B2 : Fin 32 → EReal)
    (i : Fin 2048) (h : Fin 32) : EReal :=
  ∑ j : Fin 2048, pair (pts i) (nuv i) (pts j) (nuv j) (f j) A1 B1 A2 B2 h

end Cert.GeoSpec

end
-- ==== Proof.KI.HostValue.lean ====
import proofs.«170118_j14654428414389_2_alg».proof.Proof.KI.Host
import proofs.«170118_j14654428414389_2_alg».proof.Proof.Spec
import Idealize.ShloMosaic.Lib.StableHlo.Run
import Idealize.ShloMosaic.Lib.ValueIdx
import Idealize.ShloMosaic.Lib.ValueLayout

/-!
# The window arrays the host operations wrote, at the extended reals

What the region finds in the seven window arrays that host operations before it wrote — here the six that are layout
operations (or a division by a constant) of an argument array: the scaled points and their transpose, the flattened
frames and their transpose, the two biases as rows.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo (after_cons after_nil)
open Idealize.SL Idealize.SL.Sem
open Idealize.ShloMosaic.Pipeline (Dat Cfg Window)

variable (m : (ℓ : Loc nD τ sig) → Buf (Elt Ideal) ℓ)

/-! ## What the region finds in the window arrays host operations wrote

Each of these arrays is the result of one or two layout operations on an argument array (or, for the scaled points, a
division by a constant), so its contents at the region's entry are read off the operations' results. -/

/-- Reads the fold of the host operations before the region at one buffer: the operations' results, outermost first. -/
local macro "pre_results" : tactic =>
  `(tactic| (dsimp only [V, V0]
             simp only [hostOps0, hostOps0_1, hostOps0_2, hostOps0_3, hostOps0_4, hostOps0_5, hostOps0_6, List.flatten_cons, List.flatten_nil, List.append_nil, List.cons_append, List.nil_append]
             (open Idealize.ShloMosaic.StableHlo in after_results_simp) <;> rfl))

/-- The scaled points: the first argument divided by the constant, entry by entry. -/
theorem V_main_v43_eq (c : Dev nD) :
    (V m c main_v43 : S2048x3.Idx → EReal) = Host.divf (F := Ideal) (m ((c : Thread nD τ).loc main_arg0))
      (broadcastInDim S2048x3 ![] bcast_S_S2048x3 (constant (F := Ideal) S_ .f32 0x414BA592#32)) := by
  pre_results

/-- The frames, each 3 × 3 frame flattened to nine. -/
theorem V_main_v44_eq (c : Dev nD) :
    (V m c main_v44 : S2048x9.Idx → EReal)
      = shapeCast S2048x9 (m ((c : Thread nD τ).loc main_arg1) : S2048x3x3.Idx → EReal) shapeCasts_S2048x3x3_S2048x9 := by
  pre_results

/-- The first layer's bias as a row. -/
theorem V_main_v45_eq (c : Dev nD) :
    (V m c main_v45 : S1x8.Idx → EReal)
      = shapeCast S1x8 (m ((c : Thread nD τ).loc main_arg10) : S8.Idx → EReal) shapeCasts_S8_S1x8 := by
  pre_results

/-- The second layer's bias as a row. -/
theorem V_main_v46_eq (c : Dev nD) :
    (V m c main_v46 : S1x32.Idx → EReal)
      = shapeCast S1x32 (m ((c : Thread nD τ).loc main_arg12) : S32.Idx → EReal) shapeCasts_S32_S1x32 := by
  pre_results

/-- The scaled points, transposed. -/
theorem V_main_v47_eq (c : Dev nD) :
    (V m c main_v47 : S3x2048.Idx → EReal)
      = transpose S3x2048 [1, 0] (V m c main_v43 : S2048x3.Idx → EReal) transposes_S2048x3_S3x2048_1_0 := by
  rw [V_main_v43_eq]
  pre_results

/-- The flattened frames, transposed. -/
theorem V_main_v48_eq (c : Dev nD) :
    (V m c main_v48 : S9x2048.Idx → EReal)
      = transpose S9x2048 [1, 0] (V m c main_v44 : S2048x9.Idx → EReal) transposes_S2048x9_S9x2048_1_0 := by
  rw [V_main_v44_eq]
  pre_results

/-- A stack of 3 × 3 frames flattened to rows of nine reads, at (j, 3a + b), the operand at (j, a, b). -/
theorem shapeCast_frames_apply {α : Type} (x : S2048x3x3.Idx → α) (h : S2048x3x3.ShapeCasts S2048x9) (j : Fin 2048) (a b : Fin 3) :
    shapeCast S2048x9 x h (ix2 j (Cert.GeoSpec.n9 a b)) = x (ix3 j a b) :=
  shapeCast_apply x h _ _ (by
    rw [Shape.rowMajor_val_three, Shape.rowMajor_val_two]
    show (j.val * 3 + a.val) * 3 + b.val = j.val * 9 + (3 * a.val + b.val)
    omega)

/-- Entry (a, b) of point j's frame sits at position 3a + b of its flattening. -/
theorem V_main_v44_apply (c : Dev nD) (j : Fin 2048) (a b : Fin 3) :
    (V m c main_v44 : S2048x9.Idx → EReal) (ix2 j (Cert.GeoSpec.n9 a b))
      = (m ((c : Thread nD τ).loc main_arg1) : S2048x3x3.Idx → EReal) (ix3 j a b) := by
  rw [V_main_v44_eq]
  exact shapeCast_frames_apply _ _ j a b

theorem V_main_v45_apply (c : Dev nD) (k : Fin 8) :
    (V m c main_v45 : S1x8.Idx → EReal) (ix2 (0 : Fin 1) k) = (m ((c : Thread nD τ).loc main_arg10) : S8.Idx → EReal) (ix1 k) := by
  rw [V_main_v45_eq]
  exact shapeCast_a_1a_apply _ _ 0 k

theorem V_main_v46_apply (c : Dev nD) (h : Fin 32) :
    (V m c main_v46 : S1x32.Idx → EReal) (ix2 (0 : Fin 1) h) = (m ((c : Thread nD τ).loc main_arg12) : S32.Idx → EReal) (ix1 h) := by
  rw [V_main_v46_eq]
  exact shapeCast_a_1a_apply _ _ 0 h

theorem V_main_v47_apply (c : Dev nD) (a : Fin 3) (n : Fin 2048) :
    (V m c main_v47 : S3x2048.Idx → EReal) (ix2 a n) = (V m c main_v43 : S2048x3.Idx → EReal) (ix2 n a) := by
  rw [V_main_v47_eq]
  exact transpose_ix2_apply _ _ a n

theorem V_main_v48_apply (c : Dev nD) (k : Fin 9) (n : Fin 2048) :
    (V m c main_v48 : S9x2048.Idx → EReal) (ix2 k n) = (V m c main_v44 : S2048x9.Idx → EReal) (ix2 n k) := by
  rw [V_main_v48_eq]
  exact transpose_ix2_apply _ _ k n

end Cert.KernelIdeal.Hand

end
-- ==== Proof.KI.HostTail.lean ====
import proofs.«170118_j14654428414389_2_alg».proof.Proof.KI.Host
import proofs.«170118_j14654428414389_2_alg».proof.Proof.Spec
import Idealize.ShloMosaic.Lib.StableHlo.Run
import Idealize.ShloMosaic.Lib.ValueIdx
import Idealize.ShloMosaic.Lib.ValueLayout

/-!
# The host operations after the region, at the extended reals

The program's result is the region's output array, transposed to one row per point, then sent through the host
operations that follow: `tailK` is their composition, and `tail_eq` says the program's last buffer holds it.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo (after_cons after_nil)
open Idealize.SL Idealize.SL.Sem
open Idealize.ShloMosaic.Pipeline (Dat Cfg Window)

variable (m : (ℓ : Loc nD τ sig) → Buf (Elt Ideal) ℓ)

/-- The result from what the region leaves, one row per point: two dense layers with a leaky rectifier, then the group
    normalisation over four groups of eight channels with its affine map, transposed back to one row per point. The
    program's host operations after the region's output is transposed, composed in printed order. -/
def tailK (x : FVec Ideal S2048x32 .f32) (a13 : FVec Ideal S32x32 .f32) (a14 : FVec Ideal S32 .f32) (a15 : FVec Ideal S32x32 .f32) (a16 : FVec Ideal S32 .f32) (a17 : FVec Ideal S32 .f32) (a18 : FVec Ideal S32 .f32) :
    FVec Ideal S2048x32 .f32 :=
  let v51 : FVec Ideal S32x32 .f32 := ((transpose S32x32 [1, 0] · transposes_S32x32_S32x32_1_0) : FVec Ideal S32x32 .f32 → FVec Ideal S32x32 .f32) a13
  let v52 : FVec Ideal S2048x32 .f32 := ((fun l r => Host.dotGeneral (F := Ideal) dot_S2048x32_S32x32_S2048x32_1_0_0_1_n_n none l r) : FVec Ideal S2048x32 .f32 → FVec Ideal S32x32 .f32 → FVec Ideal S2048x32 .f32) x v51
  let v53 : FVec Ideal S1x32 .f32 := (broadcastInDim S1x32 ![1] bcast_S32_S1x32_1 : FVec Ideal S32 .f32 → FVec Ideal S1x32 .f32) a14
  let v54 : FVec Ideal S2048x32 .f32 := (broadcastInDim S2048x32 ![0, 1] bcast_S1x32_S2048x32_0_1 : FVec Ideal S1x32 .f32 → FVec Ideal S2048x32 .f32) v53
  let v55 : FVec Ideal S2048x32 .f32 := (addf (F := Ideal) : FVec Ideal S2048x32 .f32 → FVec Ideal S2048x32 .f32 → FVec Ideal S2048x32 .f32) v52 v54
  let cst_7 : FVec Ideal S_ .f32 := constant (F := Ideal) S_ .f32 0x00000000#32
  let v56 : FVec Ideal S2048x32 .f32 := (broadcastInDim S2048x32 ![] bcast_S_S2048x32 : FVec Ideal S_ .f32 → FVec Ideal S2048x32 .f32) cst_7
  let v57 : IVec S2048x32 1 := (cmpf (F := Ideal) .oge : FVec Ideal S2048x32 .f32 → FVec Ideal S2048x32 .f32 → IVec S2048x32 1) v55 v56
  let cst_8 : FVec Ideal S_ .f32 := constant (F := Ideal) S_ .f32 0x3E4CCCCD#32
  let v58 : FVec Ideal S2048x32 .f32 := (broadcastInDim S2048x32 ![] bcast_S_S2048x32 : FVec Ideal S_ .f32 → FVec Ideal S2048x32 .f32) cst_8
  let v59 : FVec Ideal S2048x32 .f32 := (mulf (F := Ideal) : FVec Ideal S2048x32 .f32 → FVec Ideal S2048x32 .f32 → FVec Ideal S2048x32 .f32) v58 v55
  let v60 : FVec Ideal S2048x32 .f32 := select v57 v55 v59
  let v61 : FVec Ideal S32x32 .f32 := ((transpose S32x32 [1, 0] · transposes_S32x32_S32x32_1_0) : FVec Ideal S32x32 .f32 → FVec Ideal S32x32 .f32) a15
  let v62 : FVec Ideal S2048x32 .f32 := ((fun l r => Host.dotGeneral (F := Ideal) dot_S2048x32_S32x32_S2048x32_1_0_0_1_n_n none l r) : FVec Ideal S2048x32 .f32 → FVec Ideal S32x32 .f32 → FVec Ideal S2048x32 .f32) v60 v61
  let v63 : FVec Ideal S1x32 .f32 := (broadcastInDim S1x32 ![1] bcast_S32_S1x32_1 : FVec Ideal S32 .f32 → FVec Ideal S1x32 .f32) a16
  let v64 : FVec Ideal S2048x32 .f32 := (broadcastInDim S2048x32 ![0, 1] bcast_S1x32_S2048x32_0_1 : FVec Ideal S1x32 .f32 → FVec Ideal S2048x32 .f32) v63
  let v65 : FVec Ideal S2048x32 .f32 := (addf (F := Ideal) : FVec Ideal S2048x32 .f32 → FVec Ideal S2048x32 .f32 → FVec Ideal S2048x32 .f32) v62 v64
  let cst_9 : FVec Ideal S_ .f32 := constant (F := Ideal) S_ .f32 0x00000000#32
  let v66 : FVec Ideal S2048x32 .f32 := (broadcastInDim S2048x32 ![] bcast_S_S2048x32 : FVec Ideal S_ .f32 → FVec Ideal S2048x32 .f32) cst_9
  let v67 : IVec S2048x32 1 := (cmpf (F := Ideal) .oge : FVec Ideal S2048x32 .f32 → FVec Ideal S2048x32 .f32 → IVec S2048x32 1) v65 v66
  let cst_10 : FVec Ideal S_ .f32 := constant (F := Ideal) S_ .f32 0x3E4CCCCD#32
  let v68 : FVec Ideal S2048x32 .f32 := (broadcastInDim S2048x32 ![] bcast_S_S2048x32 : FVec Ideal S_ .f32 → FVec Ideal S2048x32 .f32) cst_10
  let v69 : FVec Ideal S2048x32 .f32 := (mulf (F := Ideal) : FVec Ideal S2048x32 .f32 → FVec Ideal S2048x32 .f32 → FVec Ideal S2048x32 .f32) v68 v65
  let v70 : FVec Ideal S2048x32 .f32 := select v67 v65 v69
  let v71 : FVec Ideal S32x2048 .f32 := ((transpose S32x2048 [1, 0] · transposes_S2048x32_S32x2048_1_0) : FVec Ideal S2048x32 .f32 → FVec Ideal S32x2048 .f32) v70
  let v72 : FVec Ideal S4x16384 .f32 := shapeCast S4x16384 v71 shapeCasts_S32x2048_S4x16384
  let cst_11 : FVec Ideal S_ .f32 := constant (F := Ideal) S_ .f32 0x00000000#32
  let v73 : FVec Ideal S4 .f32 := ((fun x v => Host.reduceAdd (F := Ideal) x v reducesTo_S4x16384_S4_d1 h_S_) : FVec Ideal S4x16384 .f32 → FVec Ideal S_ .f32 → FVec Ideal S4 .f32) v72 cst_11
  let v74 : FVec Ideal S4x1 .f32 := (broadcastInDim S4x1 ![0] bcast_S4_S4x1_0 : FVec Ideal S4 .f32 → FVec Ideal S4x1 .f32) v73
  let cst_12 : FVec Ideal S_ .f32 := constant (F := Ideal) S_ .f32 0x46800000#32
  let v75 : FVec Ideal S4x1 .f32 := (broadcastInDim S4x1 ![] bcast_S_S4x1 : FVec Ideal S_ .f32 → FVec Ideal S4x1 .f32) cst_12
  let v76 : FVec Ideal S4x1 .f32 := (Host.divf (F := Ideal) : FVec Ideal S4x1 .f32 → FVec Ideal S4x1 .f32 → FVec Ideal S4x1 .f32) v74 v75
  let c_13 : IVec S_ 32 := constantI S_ 32 0#32
  let call5_cst : FVec Ideal S_ .f32 := constant (F := Ideal) S_ .f32 0x00000000#32
  let call5_v0 : FVec Ideal S4 .f32 := (fun x v => Host.reduceAdd (F := Ideal) x v reducesTo_S4x16384_S4_d1 h_S_) v72 call5_cst
  let call5_v1 : FVec Ideal S4x1 .f32 := (broadcastInDim S4x1 ![0] bcast_S4_S4x1_0) call5_v0
  let call5_cst_0 : FVec Ideal S_ .f32 := constant (F := Ideal) S_ .f32 0x46800000#32
  let call5_v2 : FVec Ideal S4x1 .f32 := (broadcastInDim S4x1 ![] bcast_S_S4x1) call5_cst_0
  let call5_v3 : FVec Ideal S4x1 .f32 := (Host.divf (F := Ideal)) call5_v1 call5_v2
  let call5_v4 : FVec Ideal S4x16384 .f32 := (broadcastInDim S4x16384 ![0, 1] bcast_S4x1_S4x16384_0_1) call5_v3
  let call5_v5 : FVec Ideal S4x16384 .f32 := (subf (F := Ideal)) v72 call5_v4
  let call5_v6 : FVec Ideal S4x16384 .f32 := (mulf (F := Ideal)) call5_v5 call5_v5
  let call5_v7 : FVec Ideal S_ .f32 := (sitofp (F := Ideal) .f32) c_13
  let call5_cst_1 : FVec Ideal S_ .f32 := constant (F := Ideal) S_ .f32 0x46800000#32
  let call5_v8 : FVec Ideal S_ .f32 := (subf (F := Ideal)) call5_cst_1 call5_v7
  let call5_cst_2 : FVec Ideal S_ .f32 := constant (F := Ideal) S_ .f32 0x00000000#32
  let call5_v9 : FVec Ideal S4 .f32 := (fun x v => Host.reduceAdd (F := Ideal) x v reducesTo_S4x16384_S4_d1 h_S_) call5_v6 call5_cst_2
  let call5_v10 : FVec Ideal S4x1 .f32 := (broadcastInDim S4x1 ![0] bcast_S4_S4x1_0) call5_v9
  let call5_v11 : FVec Ideal S4x1 .f32 := (broadcastInDim S4x1 ![] bcast_S_S4x1) call5_v8
  let call5_v12 : FVec Ideal S4x1 .f32 := (Host.divf (F := Ideal)) call5_v10 call5_v11
  let call5_cst_3 : FVec Ideal S_ .f32 := constant (F := Ideal) S_ .f32 0x00000000#32
  let call5_v13 : IVec S_ 1 := (cmpf (F := Ideal) .ogt) call5_v8 call5_cst_3
  let call5_cst_4 : FVec Ideal S_ .f32 := constant (F := Ideal) S_ .f32 0x7FC00000#32
  let call5_call0_v0 : FVec Ideal S_ .f32 := id call5_cst_4
  let call5_call0_v1 : FVec Ideal S4x1 .f32 := (broadcastInDim S4x1 ![] bcast_S_S4x1) call5_call0_v0
  let v77 : FVec Ideal S4x1 .f32 := (fun p a b => select (broadcastInDim S4x1 ![] bcast_S_S4x1 p) a b) call5_v13 call5_v12 call5_call0_v1
  let v78 : FVec Ideal S4x16384 .f32 := (broadcastInDim S4x16384 ![0, 1] bcast_S4x1_S4x16384_0_1 : FVec Ideal S4x1 .f32 → FVec Ideal S4x16384 .f32) v76
  let v79 : FVec Ideal S4x16384 .f32 := (subf (F := Ideal) : FVec Ideal S4x16384 .f32 → FVec Ideal S4x16384 .f32 → FVec Ideal S4x16384 .f32) v72 v78
  let cst_14 : FVec Ideal S_ .f32 := constant (F := Ideal) S_ .f32 0x3727C5AC#32
  let v80 : FVec Ideal S4x1 .f32 := (broadcastInDim S4x1 ![] bcast_S_S4x1 : FVec Ideal S_ .f32 → FVec Ideal S4x1 .f32) cst_14
  let v81 : FVec Ideal S4x1 .f32 := (addf (F := Ideal) : FVec Ideal S4x1 .f32 → FVec Ideal S4x1 .f32 → FVec Ideal S4x1 .f32) v77 v80
  let v82 : FVec Ideal S4x1 .f32 := (Host.sqrt (F := Ideal) : FVec Ideal S4x1 .f32 → FVec Ideal S4x1 .f32) v81
  let v83 : FVec Ideal S4x16384 .f32 := (broadcastInDim S4x16384 ![0, 1] bcast_S4x1_S4x16384_0_1 : FVec Ideal S4x1 .f32 → FVec Ideal S4x16384 .f32) v82
  let v84 : FVec Ideal S4x16384 .f32 := (Host.divf (F := Ideal) : FVec Ideal S4x16384 .f32 → FVec Ideal S4x16384 .f32 → FVec Ideal S4x16384 .f32) v79 v83
  let v85 : FVec Ideal S32x2048 .f32 := shapeCast S32x2048 v84 shapeCasts_S4x16384_S32x2048
  let v86 : FVec Ideal S32x1 .f32 := (broadcastInDim S32x1 ![0] bcast_S32_S32x1_0 : FVec Ideal S32 .f32 → FVec Ideal S32x1 .f32) a17
  let v87 : FVec Ideal S32x2048 .f32 := (broadcastInDim S32x2048 ![0, 1] bcast_S32x1_S32x2048_0_1 : FVec Ideal S32x1 .f32 → FVec Ideal S32x2048 .f32) v86
  let v88 : FVec Ideal S32x2048 .f32 := (mulf (F := Ideal) : FVec Ideal S32x2048 .f32 → FVec Ideal S32x2048 .f32 → FVec Ideal S32x2048 .f32) v85 v87
  let v89 : FVec Ideal S32x1 .f32 := (broadcastInDim S32x1 ![0] bcast_S32_S32x1_0 : FVec Ideal S32 .f32 → FVec Ideal S32x1 .f32) a18
  let v90 : FVec Ideal S32x2048 .f32 := (broadcastInDim S32x2048 ![0, 1] bcast_S32x1_S32x2048_0_1 : FVec Ideal S32x1 .f32 → FVec Ideal S32x2048 .f32) v89
  let v91 : FVec Ideal S32x2048 .f32 := (addf (F := Ideal) : FVec Ideal S32x2048 .f32 → FVec Ideal S32x2048 .f32 → FVec Ideal S32x2048 .f32) v88 v90
  let v92 : FVec Ideal S2048x32 .f32 := ((transpose S2048x32 [1, 0] · transposes_S32x2048_S2048x32_1_0) : FVec Ideal S32x2048 .f32 → FVec Ideal S2048x32 .f32) v91
  v92

/-- The fold of the operations after the region, read at the result's buffer: their composition over what the fold
    starts from at the region's output array and at the six argument arrays they read. -/
theorem tail_fold (W : Valuation τ sig (Elt Ideal)) :
    StableHlo.after (List.flatten (tailOps : List (List (HloOp τ sig (Elt Ideal))))) W (Proc.devRef .tc main_v92)
      = tailK (transpose S2048x32 [1, 0] (W (Proc.devRef .tc main_v49)) transposes_S32x2048_S2048x32_1_0)
          (W (Proc.devRef .tc main_arg13)) (W (Proc.devRef .tc main_arg14)) (W (Proc.devRef .tc main_arg15)) (W (Proc.devRef .tc main_arg16)) (W (Proc.devRef .tc main_arg17)) (W (Proc.devRef .tc main_arg18)) := by
  simp only [tailOps, hostOps1, hostOps1_1, hostOps1_2, hostOps1_3, hostOps1_4, hostOps1_5, hostOps1_6, List.flatten_cons, List.flatten_nil, List.append_nil, List.cons_append, List.nil_append]
  (open Idealize.ShloMosaic.StableHlo in after_results_simp) <;> rfl

/-- The same with the seven buffers' contents named. -/
theorem tail_fold_of (W : Valuation τ sig (Elt Ideal)) (y : FVec Ideal S32x2048 .f32)
    (b13 : FVec Ideal S32x32 .f32) (b14 : FVec Ideal S32 .f32) (b15 : FVec Ideal S32x32 .f32) (b16 : FVec Ideal S32 .f32) (b17 : FVec Ideal S32 .f32) (b18 : FVec Ideal S32 .f32)
    (hy : W (Proc.devRef .tc main_v49) = y) (h13 : W (Proc.devRef .tc main_arg13) = b13) (h14 : W (Proc.devRef .tc main_arg14) = b14) (h15 : W (Proc.devRef .tc main_arg15) = b15) (h16 : W (Proc.devRef .tc main_arg16) = b16) (h17 : W (Proc.devRef .tc main_arg17) = b17) (h18 : W (Proc.devRef .tc main_arg18) = b18) :
    StableHlo.after (List.flatten (tailOps : List (List (HloOp τ sig (Elt Ideal))))) W (Proc.devRef .tc main_v92)
      = tailK (transpose S2048x32 [1, 0] y transposes_S32x2048_S2048x32_1_0) b13 b14 b15 b16 b17 b18 := by
  rw [tail_fold, hy, h13, h14, h15, h16, h17, h18]

/-- The program's last buffer after the stretches that follow the region, for any proof data: the composition of those
    operations over the region's output array at its last write-back, transposed, and the six argument arrays as launched. -/
theorem tail_eq (dats : (p : Fin 1) → (c : Dev nD) → Dat τ (Elt Ideal) Unit ℕ (UR sig nD τ) ℕ (cfgs p) c) (c : Dev nD) :
    (Pipeline.afterTail₀ cfgs dats 0 (V0 m) tailOps c main_v92 : S2048x32.Idx → EReal)
      = tailK (transpose S2048x32 [1, 0] ((dats 0 c).arrAt 9 cfg0.N : S32x2048.Idx → EReal) transposes_S32x2048_S2048x32_1_0)
          (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  unfold Pipeline.afterTail₀
  exact tail_fold_of _ _ _ _ _ _ _ _
    (Pipeline.withArrays_arr spec0 launch0.win.arr_inj c _ _ 9)
    ((Pipeline.withArrays_of_ne _ c (V0 m c) _ main_arg13 (by decide)).trans (V_main_arg13 m c))
    ((Pipeline.withArrays_of_ne _ c (V0 m c) _ main_arg14 (by decide)).trans (V_main_arg14 m c))
    ((Pipeline.withArrays_of_ne _ c (V0 m c) _ main_arg15 (by decide)).trans (V_main_arg15 m c))
    ((Pipeline.withArrays_of_ne _ c (V0 m c) _ main_arg16 (by decide)).trans (V_main_arg16 m c))
    ((Pipeline.withArrays_of_ne _ c (V0 m c) _ main_arg17 (by decide)).trans (V_main_arg17 m c))
    ((Pipeline.withArrays_of_ne _ c (V0 m c) _ main_arg18 (by decide)).trans (V_main_arg18 m c))

end Cert.KernelIdeal.Hand

end
-- ==== Proof.KI.HostPreK.lean ====
import proofs.«170118_j14654428414389_2_alg».proof.Proof.KI.Host
import proofs.«170118_j14654428414389_2_alg».proof.Proof.Spec
import Idealize.ShloMosaic.Lib.StableHlo.Run
import Idealize.ShloMosaic.Lib.ValueIdx
import Idealize.ShloMosaic.Lib.ValueLayout

/-!
# The features the region finds, at the extended reals

The fifth window's array is written by the host operations before the region: `preK` is their composition, and
`V_main_v41_eq` says the array holds it when the region is entered.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo (after_cons after_nil)
open Idealize.SL Idealize.SL.Sem
open Idealize.ShloMosaic.Pipeline (Dat Cfg Window)

variable (m : (ℓ : Loc nD τ sig) → Buf (Elt Ideal) ℓ)

/-- The features as the region finds them: two dense layers with a leaky rectifier, then the group normalisation over
    four groups of eight channels with its affine map, transposed back to one row per point. The program's host
    operations before the region that the features depend on, composed in printed order. -/
def preK (a2 : FVec Ideal S2048x16 .f32) (a3 : FVec Ideal S32x16 .f32) (a4 : FVec Ideal S32 .f32) (a5 : FVec Ideal S32x32 .f32) (a6 : FVec Ideal S32 .f32) (a7 : FVec Ideal S32 .f32) (a8 : FVec Ideal S32 .f32) :
    FVec Ideal S2048x32 .f32 :=
  let v0 : FVec Ideal S16x32 .f32 := ((transpose S16x32 [1, 0] · transposes_S32x16_S16x32_1_0) : FVec Ideal S32x16 .f32 → FVec Ideal S16x32 .f32) a3
  let v1 : FVec Ideal S2048x32 .f32 := ((fun l r => Host.dotGeneral (F := Ideal) dot_S2048x16_S16x32_S2048x32_1_0_0_1_n_n none l r) : FVec Ideal S2048x16 .f32 → FVec Ideal S16x32 .f32 → FVec Ideal S2048x32 .f32) a2 v0
  let v2 : FVec Ideal S1x32 .f32 := (broadcastInDim S1x32 ![1] bcast_S32_S1x32_1 : FVec Ideal S32 .f32 → FVec Ideal S1x32 .f32) a4
  let v3 : FVec Ideal S2048x32 .f32 := (broadcastInDim S2048x32 ![0, 1] bcast_S1x32_S2048x32_0_1 : FVec Ideal S1x32 .f32 → FVec Ideal S2048x32 .f32) v2
  let v4 : FVec Ideal S2048x32 .f32 := (addf (F := Ideal) : FVec Ideal S2048x32 .f32 → FVec Ideal S2048x32 .f32 → FVec Ideal S2048x32 .f32) v1 v3
  let cst : FVec Ideal S_ .f32 := constant (F := Ideal) S_ .f32 0x00000000#32
  let v5 : FVec Ideal S2048x32 .f32 := (broadcastInDim S2048x32 ![] bcast_S_S2048x32 : FVec Ideal S_ .f32 → FVec Ideal S2048x32 .f32) cst
  let v6 : IVec S2048x32 1 := (cmpf (F := Ideal) .oge : FVec Ideal S2048x32 .f32 → FVec Ideal S2048x32 .f32 → IVec S2048x32 1) v4 v5
  let cst_0 : FVec Ideal S_ .f32 := constant (F := Ideal) S_ .f32 0x3E4CCCCD#32
  let v7 : FVec Ideal S2048x32 .f32 := (broadcastInDim S2048x32 ![] bcast_S_S2048x32 : FVec Ideal S_ .f32 → FVec Ideal S2048x32 .f32) cst_0
  let v8 : FVec Ideal S2048x32 .f32 := (mulf (F := Ideal) : FVec Ideal S2048x32 .f32 → FVec Ideal S2048x32 .f32 → FVec Ideal S2048x32 .f32) v7 v4
  let v9 : FVec Ideal S2048x32 .f32 := select v6 v4 v8
  let v10 : FVec Ideal S32x32 .f32 := ((transpose S32x32 [1, 0] · transposes_S32x32_S32x32_1_0) : FVec Ideal S32x32 .f32 → FVec Ideal S32x32 .f32) a5
  let v11 : FVec Ideal S2048x32 .f32 := ((fun l r => Host.dotGeneral (F := Ideal) dot_S2048x32_S32x32_S2048x32_1_0_0_1_n_n none l r) : FVec Ideal S2048x32 .f32 → FVec Ideal S32x32 .f32 → FVec Ideal S2048x32 .f32) v9 v10
  let v12 : FVec Ideal S1x32 .f32 := (broadcastInDim S1x32 ![1] bcast_S32_S1x32_1 : FVec Ideal S32 .f32 → FVec Ideal S1x32 .f32) a6
  let v13 : FVec Ideal S2048x32 .f32 := (broadcastInDim S2048x32 ![0, 1] bcast_S1x32_S2048x32_0_1 : FVec Ideal S1x32 .f32 → FVec Ideal S2048x32 .f32) v12
  let v14 : FVec Ideal S2048x32 .f32 := (addf (F := Ideal) : FVec Ideal S2048x32 .f32 → FVec Ideal S2048x32 .f32 → FVec Ideal S2048x32 .f32) v11 v13
  let cst_1 : FVec Ideal S_ .f32 := constant (F := Ideal) S_ .f32 0x00000000#32
  let v15 : FVec Ideal S2048x32 .f32 := (broadcastInDim S2048x32 ![] bcast_S_S2048x32 : FVec Ideal S_ .f32 → FVec Ideal S2048x32 .f32) cst_1
  let v16 : IVec S2048x32 1 := (cmpf (F := Ideal) .oge : FVec Ideal S2048x32 .f32 → FVec Ideal S2048x32 .f32 → IVec S2048x32 1) v14 v15
  let cst_2 : FVec Ideal S_ .f32 := constant (F := Ideal) S_ .f32 0x3E4CCCCD#32
  let v17 : FVec Ideal S2048x32 .f32 := (broadcastInDim S2048x32 ![] bcast_S_S2048x32 : FVec Ideal S_ .f32 → FVec Ideal S2048x32 .f32) cst_2
  let v18 : FVec Ideal S2048x32 .f32 := (mulf (F := Ideal) : FVec Ideal S2048x32 .f32 → FVec Ideal S2048x32 .f32 → FVec Ideal S2048x32 .f32) v17 v14
  let v19 : FVec Ideal S2048x32 .f32 := select v16 v14 v18
  let v20 : FVec Ideal S32x2048 .f32 := ((transpose S32x2048 [1, 0] · transposes_S2048x32_S32x2048_1_0) : FVec Ideal S2048x32 .f32 → FVec Ideal S32x2048 .f32) v19
  let v21 : FVec Ideal S4x16384 .f32 := shapeCast S4x16384 v20 shapeCasts_S32x2048_S4x16384
  let cst_3 : FVec Ideal S_ .f32 := constant (F := Ideal) S_ .f32 0x00000000#32
  let v22 : FVec Ideal S4 .f32 := ((fun x v => Host.reduceAdd (F := Ideal) x v reducesTo_S4x16384_S4_d1 h_S_) : FVec Ideal S4x16384 .f32 → FVec Ideal S_ .f32 → FVec Ideal S4 .f32) v21 cst_3
  let v23 : FVec Ideal S4x1 .f32 := (broadcastInDim S4x1 ![0] bcast_S4_S4x1_0 : FVec Ideal S4 .f32 → FVec Ideal S4x1 .f32) v22
  let cst_4 : FVec Ideal S_ .f32 := constant (F := Ideal) S_ .f32 0x46800000#32
  let v24 : FVec Ideal S4x1 .f32 := (broadcastInDim S4x1 ![] bcast_S_S4x1 : FVec Ideal S_ .f32 → FVec Ideal S4x1 .f32) cst_4
  let v25 : FVec Ideal S4x1 .f32 := (Host.divf (F := Ideal) : FVec Ideal S4x1 .f32 → FVec Ideal S4x1 .f32 → FVec Ideal S4x1 .f32) v23 v24
  let c_0 : IVec S_ 32 := constantI S_ 32 0#32
  let call2_cst : FVec Ideal S_ .f32 := constant (F := Ideal) S_ .f32 0x00000000#32
  let call2_v0 : FVec Ideal S4 .f32 := (fun x v => Host.reduceAdd (F := Ideal) x v reducesTo_S4x16384_S4_d1 h_S_) v21 call2_cst
  let call2_v1 : FVec Ideal S4x1 .f32 := (broadcastInDim S4x1 ![0] bcast_S4_S4x1_0) call2_v0
  let call2_cst_0 : FVec Ideal S_ .f32 := constant (F := Ideal) S_ .f32 0x46800000#32
  let call2_v2 : FVec Ideal S4x1 .f32 := (broadcastInDim S4x1 ![] bcast_S_S4x1) call2_cst_0
  let call2_v3 : FVec Ideal S4x1 .f32 := (Host.divf (F := Ideal)) call2_v1 call2_v2
  let call2_v4 : FVec Ideal S4x16384 .f32 := (broadcastInDim S4x16384 ![0, 1] bcast_S4x1_S4x16384_0_1) call2_v3
  let call2_v5 : FVec Ideal S4x16384 .f32 := (subf (F := Ideal)) v21 call2_v4
  let call2_v6 : FVec Ideal S4x16384 .f32 := (mulf (F := Ideal)) call2_v5 call2_v5
  let call2_v7 : FVec Ideal S_ .f32 := (sitofp (F := Ideal) .f32) c_0
  let call2_cst_1 : FVec Ideal S_ .f32 := constant (F := Ideal) S_ .f32 0x46800000#32
  let call2_v8 : FVec Ideal S_ .f32 := (subf (F := Ideal)) call2_cst_1 call2_v7
  let call2_cst_2 : FVec Ideal S_ .f32 := constant (F := Ideal) S_ .f32 0x00000000#32
  let call2_v9 : FVec Ideal S4 .f32 := (fun x v => Host.reduceAdd (F := Ideal) x v reducesTo_S4x16384_S4_d1 h_S_) call2_v6 call2_cst_2
  let call2_v10 : FVec Ideal S4x1 .f32 := (broadcastInDim S4x1 ![0] bcast_S4_S4x1_0) call2_v9
  let call2_v11 : FVec Ideal S4x1 .f32 := (broadcastInDim S4x1 ![] bcast_S_S4x1) call2_v8
  let call2_v12 : FVec Ideal S4x1 .f32 := (Host.divf (F := Ideal)) call2_v10 call2_v11
  let call2_cst_3 : FVec Ideal S_ .f32 := constant (F := Ideal) S_ .f32 0x00000000#32
  let call2_v13 : IVec S_ 1 := (cmpf (F := Ideal) .ogt) call2_v8 call2_cst_3
  let call2_cst_4 : FVec Ideal S_ .f32 := constant (F := Ideal) S_ .f32 0x7FC00000#32
  let call2_call0_v0 : FVec Ideal S_ .f32 := id call2_cst_4
  let call2_call0_v1 : FVec Ideal S4x1 .f32 := (broadcastInDim S4x1 ![] bcast_S_S4x1) call2_call0_v0
  let v26 : FVec Ideal S4x1 .f32 := (fun p a b => select (broadcastInDim S4x1 ![] bcast_S_S4x1 p) a b) call2_v13 call2_v12 call2_call0_v1
  let v27 : FVec Ideal S4x16384 .f32 := (broadcastInDim S4x16384 ![0, 1] bcast_S4x1_S4x16384_0_1 : FVec Ideal S4x1 .f32 → FVec Ideal S4x16384 .f32) v25
  let v28 : FVec Ideal S4x16384 .f32 := (subf (F := Ideal) : FVec Ideal S4x16384 .f32 → FVec Ideal S4x16384 .f32 → FVec Ideal S4x16384 .f32) v21 v27
  let cst_5 : FVec Ideal S_ .f32 := constant (F := Ideal) S_ .f32 0x3727C5AC#32
  let v29 : FVec Ideal S4x1 .f32 := (broadcastInDim S4x1 ![] bcast_S_S4x1 : FVec Ideal S_ .f32 → FVec Ideal S4x1 .f32) cst_5
  let v30 : FVec Ideal S4x1 .f32 := (addf (F := Ideal) : FVec Ideal S4x1 .f32 → FVec Ideal S4x1 .f32 → FVec Ideal S4x1 .f32) v26 v29
  let v31 : FVec Ideal S4x1 .f32 := (Host.sqrt (F := Ideal) : FVec Ideal S4x1 .f32 → FVec Ideal S4x1 .f32) v30
  let v32 : FVec Ideal S4x16384 .f32 := (broadcastInDim S4x16384 ![0, 1] bcast_S4x1_S4x16384_0_1 : FVec Ideal S4x1 .f32 → FVec Ideal S4x16384 .f32) v31
  let v33 : FVec Ideal S4x16384 .f32 := (Host.divf (F := Ideal) : FVec Ideal S4x16384 .f32 → FVec Ideal S4x16384 .f32 → FVec Ideal S4x16384 .f32) v28 v32
  let v34 : FVec Ideal S32x2048 .f32 := shapeCast S32x2048 v33 shapeCasts_S4x16384_S32x2048
  let v35 : FVec Ideal S32x1 .f32 := (broadcastInDim S32x1 ![0] bcast_S32_S32x1_0 : FVec Ideal S32 .f32 → FVec Ideal S32x1 .f32) a7
  let v36 : FVec Ideal S32x2048 .f32 := (broadcastInDim S32x2048 ![0, 1] bcast_S32x1_S32x2048_0_1 : FVec Ideal S32x1 .f32 → FVec Ideal S32x2048 .f32) v35
  let v37 : FVec Ideal S32x2048 .f32 := (mulf (F := Ideal) : FVec Ideal S32x2048 .f32 → FVec Ideal S32x2048 .f32 → FVec Ideal S32x2048 .f32) v34 v36
  let v38 : FVec Ideal S32x1 .f32 := (broadcastInDim S32x1 ![0] bcast_S32_S32x1_0 : FVec Ideal S32 .f32 → FVec Ideal S32x1 .f32) a8
  let v39 : FVec Ideal S32x2048 .f32 := (broadcastInDim S32x2048 ![0, 1] bcast_S32x1_S32x2048_0_1 : FVec Ideal S32x1 .f32 → FVec Ideal S32x2048 .f32) v38
  let v40 : FVec Ideal S32x2048 .f32 := (addf (F := Ideal) : FVec Ideal S32x2048 .f32 → FVec Ideal S32x2048 .f32 → FVec Ideal S32x2048 .f32) v37 v39
  let v41 : FVec Ideal S2048x32 .f32 := ((transpose S2048x32 [1, 0] · transposes_S32x2048_S2048x32_1_0) : FVec Ideal S32x2048 .f32 → FVec Ideal S2048x32 .f32) v40
  v41

/-- The fold of the operations before the region, read at the features' buffer: their composition over what the fold
    starts from at the seven argument arrays they read. -/
theorem pre_fold (W : Valuation τ sig (Elt Ideal)) :
    StableHlo.after (List.flatten (preOps : List (List (HloOp τ sig (Elt Ideal))))) W (Proc.devRef .tc main_v41)
      = preK (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  simp only [preOps, hostOps0, hostOps0_1, hostOps0_2, hostOps0_3, hostOps0_4, hostOps0_5, hostOps0_6, List.flatten_cons, List.flatten_nil, List.append_nil, List.cons_append, List.nil_append]
  (open Idealize.ShloMosaic.StableHlo in after_results_simp) <;> rfl

/-- The features' array as the region finds it. -/
theorem V_main_v41_eq (c : Dev nD) :
    (V m c main_v41 : S2048x32.Idx → EReal) = preK (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  pre_fold (fun b => m (c, b))

end Cert.KernelIdeal.Hand

end
-- ==== Proof.Algebraic.lean ====
import proofs.«170118_j14654428414389_2_alg».proof.Defs
import proofs.«170118_j14654428414389_2_alg».proof.Proof.Gen.KernelIdeal
import proofs.«170118_j14654428414389_2_alg».proof.Proof.Gen.ReferenceIdeal
import proofs.«170118_j14654428414389_2_alg».proof.Proof.Gen.Pre_finite_inputs
import proofs.«170118_j14654428414389_2_alg».proof.Proof.KI.Frame
import proofs.«170118_j14654428414389_2_alg».proof.Proof.KI.HostValue
import proofs.«170118_j14654428414389_2_alg».proof.Proof.KI.HostTail
import proofs.«170118_j14654428414389_2_alg».proof.Proof.KI.HostPreK
import proofs.«170118_j14654428414389_2_alg».proof.Proof.RefRun
import proofs.«170118_j14654428414389_2_alg».proof.Proof.Spec

/-!
# The two programs compute the same array

Both programs end with the same host operations applied to an aggregate over all key points, and both aggregates are
the specification's `agg` of the same seven arrays: the scaled points, the frames, the normalised features, and the
two small layers' weights and biases. This module assembles that argument from its pieces: what the kernel's region
leaves in its output array (`hK`), what the reference's sum over the keys holds (`hR`), how each program's result is
the shared tail of its aggregate (`tail_eq`, `hRes`), and the agreement of the seven arrays, each read off its
program's host operations and the launch memories' agreement on the arguments.
-/

set_option maxRecDepth 16384

noncomputable section

namespace Cert.Proof

open Idealize.ShloMosaic Idealize.ShloMosaic.TcCoe Idealize.ShloMosaic.ValueIdx
open Idealize.SL Idealize.SL.Sem
open Idealize.ShloMosaic.Pipeline (Dat Cfg Window)

/-- The aggregate depends on its seven arrays only. -/
theorem agg_congr {p p' : Fin 2048 → Fin 3 → EReal} {u u' : Fin 2048 → Fin 9 → EReal} {f f' : Fin 2048 → Fin 32 → EReal}
    {A1 A1' : Fin 8 → Fin 3 → EReal} {B1 B1' : Fin 8 → EReal} {A2 A2' : Fin 32 → Fin 8 → EReal} {B2 B2' : Fin 32 → EReal}
    (hp : p = p') (hu : u = u') (hf : f = f') (hA1 : A1 = A1') (hB1 : B1 = B1') (hA2 : A2 = A2') (hB2 : B2 = B2')
    (i : Fin 2048) (h : Fin 32) :
    Cert.GeoSpec.agg p u f A1 B1 A2 B2 i h = Cert.GeoSpec.agg p' u' f' A1' B1' A2' B2' i h := by
  subst hp hu hf hA1 hB1 hA2 hB2; rfl

/-- Every position of a flattened frame is the position of an entry (a, b). -/
theorem exists_n9 (k : Fin 9) : ∃ a b : Fin 3, k = Cert.GeoSpec.n9 a b :=
  ⟨⟨k.val / 3, by omega⟩, ⟨k.val % 3, by omega⟩, Fin.ext (by show k.val = 3 * (k.val / 3) + k.val % 3; omega)⟩

/-- The kernel program's nineteen argument arrays after a frame run: an array a window stages by the post's first
    clause and `Dat.arrAt_in`, any other by its second clause, each then as launched. -/
theorem args_of_post (m : (ℓ : Loc Cert.KernelIdeal.nD Cert.KernelIdeal.τ Cert.KernelIdeal.sig) → Buf (Elt Ideal) ℓ)
    (dats : (p : Fin 1) → (c : Dev Cert.KernelIdeal.nD) → Dat Cert.KernelIdeal.τ (Elt Ideal) Unit ℕ (UR Cert.KernelIdeal.sig Cert.KernelIdeal.nD Cert.KernelIdeal.τ) ℕ (Cert.KernelIdeal.cfgs p) c)
    (hA : ∀ c w, (dats 0 c).A w = Cert.KernelIdeal.Hand.V m c (Pipeline.arrRef Cert.KernelIdeal.spec0 w))
    (r : PUnit × MemSt Cert.KernelIdeal.nD Cert.KernelIdeal.τ Cert.KernelIdeal.sig (Elt Ideal))
    (h : Pipeline.FramePost Cert.KernelIdeal.cfgs dats 0 (Pipeline.afterTail₀ Cert.KernelIdeal.cfgs dats 0 (Cert.KernelIdeal.Hand.V0 m) Cert.KernelIdeal.Hand.tailOps) r) (c : Dev Cert.KernelIdeal.nD) :
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18) :=
  ⟨((h c).2 Cert.KernelIdeal.main_arg0 (Pipeline.mem_restRefs_of Cert.KernelIdeal.main_arg0 (by decide) (by decide))).trans (Cert.KernelIdeal.Hand.W_main_arg0 m dats c),
    ((h c).2 Cert.KernelIdeal.main_arg1 (Pipeline.mem_restRefs_of Cert.KernelIdeal.main_arg1 (by decide) (by decide))).trans (Cert.KernelIdeal.Hand.W_main_arg1 m dats c),
    ((h c).2 Cert.KernelIdeal.main_arg2 (Pipeline.mem_restRefs_of Cert.KernelIdeal.main_arg2 (by decide) (by decide))).trans (Cert.KernelIdeal.Hand.W_main_arg2 m dats c),
    ((h c).2 Cert.KernelIdeal.main_arg3 (Pipeline.mem_restRefs_of Cert.KernelIdeal.main_arg3 (by decide) (by decide))).trans (Cert.KernelIdeal.Hand.W_main_arg3 m dats c),
    ((h c).2 Cert.KernelIdeal.main_arg4 (Pipeline.mem_restRefs_of Cert.KernelIdeal.main_arg4 (by decide) (by decide))).trans (Cert.KernelIdeal.Hand.W_main_arg4 m dats c),
    ((h c).2 Cert.KernelIdeal.main_arg5 (Pipeline.mem_restRefs_of Cert.KernelIdeal.main_arg5 (by decide) (by decide))).trans (Cert.KernelIdeal.Hand.W_main_arg5 m dats c),
    ((h c).2 Cert.KernelIdeal.main_arg6 (Pipeline.mem_restRefs_of Cert.KernelIdeal.main_arg6 (by decide) (by decide))).trans (Cert.KernelIdeal.Hand.W_main_arg6 m dats c),
    ((h c).2 Cert.KernelIdeal.main_arg7 (Pipeline.mem_restRefs_of Cert.KernelIdeal.main_arg7 (by decide) (by decide))).trans (Cert.KernelIdeal.Hand.W_main_arg7 m dats c),
    ((h c).2 Cert.KernelIdeal.main_arg8 (Pipeline.mem_restRefs_of Cert.KernelIdeal.main_arg8 (by decide) (by decide))).trans (Cert.KernelIdeal.Hand.W_main_arg8 m dats c),
    ((h c).1 5).trans (((dats 0 c).arrAt_in 5 rfl _).trans ((hA c 5).trans (Cert.KernelIdeal.Hand.V_main_arg9 m c))),
    ((h c).2 Cert.KernelIdeal.main_arg10 (Pipeline.mem_restRefs_of Cert.KernelIdeal.main_arg10 (by decide) (by decide))).trans (Cert.KernelIdeal.Hand.W_main_arg10 m dats c),
    ((h c).1 7).trans (((dats 0 c).arrAt_in 7 rfl _).trans ((hA c 7).trans (Cert.KernelIdeal.Hand.V_main_arg11 m c))),
    ((h c).2 Cert.KernelIdeal.main_arg12 (Pipeline.mem_restRefs_of Cert.KernelIdeal.main_arg12 (by decide) (by decide))).trans (Cert.KernelIdeal.Hand.W_main_arg12 m dats c),
    ((h c).2 Cert.KernelIdeal.main_arg13 (Pipeline.mem_restRefs_of Cert.KernelIdeal.main_arg13 (by decide) (by decide))).trans (Cert.KernelIdeal.Hand.W_main_arg13 m dats c),
    ((h c).2 Cert.KernelIdeal.main_arg14 (Pipeline.mem_restRefs_of Cert.KernelIdeal.main_arg14 (by decide) (by decide))).trans (Cert.KernelIdeal.Hand.W_main_arg14 m dats c),
    ((h c).2 Cert.KernelIdeal.main_arg15 (Pipeline.mem_restRefs_of Cert.KernelIdeal.main_arg15 (by decide) (by decide))).trans (Cert.KernelIdeal.Hand.W_main_arg15 m dats c),
    ((h c).2 Cert.KernelIdeal.main_arg16 (Pipeline.mem_restRefs_of Cert.KernelIdeal.main_arg16 (by decide) (by decide))).trans (Cert.KernelIdeal.Hand.W_main_arg16 m dats c),
    ((h c).2 Cert.KernelIdeal.main_arg17 (Pipeline.mem_restRefs_of Cert.KernelIdeal.main_arg17 (by decide) (by decide))).trans (Cert.KernelIdeal.Hand.W_main_arg17 m dats c),
    ((h c).2 Cert.KernelIdeal.main_arg18 (Pipeline.mem_restRefs_of Cert.KernelIdeal.main_arg18 (by decide) (by decide))).trans (Cert.KernelIdeal.Hand.W_main_arg18 m dats c)⟩

/-- The reference's aggregate is the kernel's output array, transposed: both are the specification's aggregate of the
    same seven arrays. -/
theorem agg_R_eq_K (preR : FVec Ideal Cert.KernelIdeal.S2048x16 .f32 → FVec Ideal Cert.KernelIdeal.S32x16 .f32 → FVec Ideal Cert.KernelIdeal.S32 .f32 → FVec Ideal Cert.KernelIdeal.S32x32 .f32 → FVec Ideal Cert.KernelIdeal.S32 .f32 → FVec Ideal Cert.KernelIdeal.S32 .f32 → FVec Ideal Cert.KernelIdeal.S32 .f32 → FVec Ideal Cert.KernelIdeal.S2048x32 .f32) (nuvR : FVec Ideal Cert.KernelIdeal.S2048x3x3 .f32 → Fin 2048 → Fin 9 → EReal) (hPre : preR = Cert.KernelIdeal.Hand.preK)
    (hNuv : ∀ (a1 : FVec Ideal Cert.KernelIdeal.S2048x3x3 .f32) (j : Fin 2048) (a b : Fin 3), nuvR a1 j (Cert.GeoSpec.n9 a b) = a1 (ix3 j a b))
    (hK : ∀ (m : (ℓ : Loc Cert.KernelIdeal.nD Cert.KernelIdeal.τ Cert.KernelIdeal.sig) → Buf (Elt Ideal) ℓ) (c : Dev Cert.KernelIdeal.nD)
      (hT47 : ∀ (c' : Fin 3) (n : Fin 2048), (Cert.KernelIdeal.Hand.V m c Cert.KernelIdeal.main_v47 : Cert.KernelIdeal.S3x2048.Idx → EReal) (ix2 c' n) = (Cert.KernelIdeal.Hand.V m c Cert.KernelIdeal.main_v43 : Cert.KernelIdeal.S2048x3.Idx → EReal) (ix2 n c'))
      (hT48 : ∀ (k : Fin 9) (n : Fin 2048), (Cert.KernelIdeal.Hand.V m c Cert.KernelIdeal.main_v48 : Cert.KernelIdeal.S9x2048.Idx → EReal) (ix2 k n) = (Cert.KernelIdeal.Hand.V m c Cert.KernelIdeal.main_v44 : Cert.KernelIdeal.S2048x9.Idx → EReal) (ix2 n k))
      (h : Fin 32) (n : Fin 2048),
      ((Cert.KernelIdeal.Hand.dats m 0 c).arrAt 9 Cert.KernelIdeal.cfg0.N : Cert.KernelIdeal.S32x2048.Idx → EReal) (ix2 h n)
        = Cert.GeoSpec.agg (fun j c' => (Cert.KernelIdeal.Hand.V m c Cert.KernelIdeal.main_v43 : Cert.KernelIdeal.S2048x3.Idx → EReal) (ix2 j c'))
            (fun j k => (Cert.KernelIdeal.Hand.V m c Cert.KernelIdeal.main_v44 : Cert.KernelIdeal.S2048x9.Idx → EReal) (ix2 j k))
            (fun j h' => (Cert.KernelIdeal.Hand.V m c Cert.KernelIdeal.main_v41 : Cert.KernelIdeal.S2048x32.Idx → EReal) (ix2 j h'))
            (fun k a => (Cert.KernelIdeal.Hand.V m c Cert.KernelIdeal.main_arg9 : Cert.KernelIdeal.S8x3.Idx → EReal) (ix2 k a))
            (fun k => (Cert.KernelIdeal.Hand.V m c Cert.KernelIdeal.main_v45 : Cert.KernelIdeal.S1x8.Idx → EReal) (ix2 (0 : Fin 1) k))
            (fun h' k => (Cert.KernelIdeal.Hand.V m c Cert.KernelIdeal.main_arg11 : Cert.KernelIdeal.S32x8.Idx → EReal) (ix2 h' k))
            (fun h' => (Cert.KernelIdeal.Hand.V m c Cert.KernelIdeal.main_v46 : Cert.KernelIdeal.S1x32.Idx → EReal) (ix2 (0 : Fin 1) h')) n h)
    (hR : ∀ (m' : (ℓ : Loc Cert.ReferenceIdeal.nD Cert.ReferenceIdeal.τ Cert.ReferenceIdeal.sig) → Buf (Elt Ideal) ℓ) (c : Dev Cert.ReferenceIdeal.nD) (n : Fin 2048) (h : Fin 32),
      (StableHlo.after (Cert.ReferenceIdeal.RefRun.ops (F := Ideal)) (StableHlo.launchContents m' c) (Proc.devRef .tc Cert.ReferenceIdeal.main_v78) : FVec Ideal Cert.KernelIdeal.S2048x32 .f32) (ix2 n h)
        = Cert.GeoSpec.agg (fun j d => (StableHlo.after (Cert.ReferenceIdeal.RefRun.ops (F := Ideal)) (StableHlo.launchContents m' c) (Proc.devRef .tc Cert.ReferenceIdeal.main_v43) : FVec Ideal Cert.KernelIdeal.S2048x3 .f32) (ix2 j d))
            (nuvR (m' ((c.tc : Thread Cert.ReferenceIdeal.nD Cert.ReferenceIdeal.τ).loc Cert.ReferenceIdeal.main_arg1)))
            (fun j k => (StableHlo.after (Cert.ReferenceIdeal.RefRun.ops (F := Ideal)) (StableHlo.launchContents m' c) (Proc.devRef .tc Cert.ReferenceIdeal.main_v41) : FVec Ideal Cert.KernelIdeal.S2048x32 .f32) (ix2 j k))
            (fun k a => (m' ((c.tc : Thread Cert.ReferenceIdeal.nD Cert.ReferenceIdeal.τ).loc Cert.ReferenceIdeal.main_arg9) : FVec Ideal Cert.KernelIdeal.S8x3 .f32) (ix2 k a))
            (fun k => (m' ((c.tc : Thread Cert.ReferenceIdeal.nD Cert.ReferenceIdeal.τ).loc Cert.ReferenceIdeal.main_arg10) : FVec Ideal Cert.KernelIdeal.S8 .f32) (ix1 k))
            (fun k a => (m' ((c.tc : Thread Cert.ReferenceIdeal.nD Cert.ReferenceIdeal.τ).loc Cert.ReferenceIdeal.main_arg11) : FVec Ideal Cert.KernelIdeal.S32x8 .f32) (ix2 k a))
            (fun k => (m' ((c.tc : Thread Cert.ReferenceIdeal.nD Cert.ReferenceIdeal.τ).loc Cert.ReferenceIdeal.main_arg12) : FVec Ideal Cert.KernelIdeal.S32 .f32) (ix1 k)) n h)
    (hPts : ∀ V : Valuation Cert.ReferenceIdeal.τ Cert.ReferenceIdeal.sig (Elt Ideal),
      (StableHlo.after (Cert.ReferenceIdeal.RefRun.ops (F := Ideal)) V (Proc.devRef .tc Cert.ReferenceIdeal.main_v43) : FVec Ideal Cert.KernelIdeal.S2048x3 .f32)
        = Host.divf (F := Ideal) (V (Proc.devRef .tc Cert.ReferenceIdeal.main_arg0) : FVec Ideal Cert.KernelIdeal.S2048x3 .f32)
            (broadcastInDim Cert.KernelIdeal.S2048x3 ![] Cert.KernelIdeal.Gen.bcast_S_S2048x3 (constant (F := Ideal) Cert.KernelIdeal.S_ .f32 0x414BA592#32)))
    (hFeat : ∀ V : Valuation Cert.ReferenceIdeal.τ Cert.ReferenceIdeal.sig (Elt Ideal),
      (StableHlo.after (Cert.ReferenceIdeal.RefRun.ops (F := Ideal)) V (Proc.devRef .tc Cert.ReferenceIdeal.main_v41) : FVec Ideal Cert.KernelIdeal.S2048x32 .f32)
        = preR (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)))
    (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (e0 : StableHlo.launchContents m' c (Proc.devRef .tc Cert.ReferenceIdeal.main_arg0) = m ((c.tc : Thread Cert.KernelIdeal.nD Cert.KernelIdeal.τ).loc Cert.KernelIdeal.main_arg0))
    (e1 : StableHlo.launchContents m' c (Proc.devRef .tc Cert.ReferenceIdeal.main_arg1) = m ((c.tc : Thread Cert.KernelIdeal.nD Cert.KernelIdeal.τ).loc Cert.KernelIdeal.main_arg1))
    (e2 : StableHlo.launchContents m' c (Proc.devRef .tc Cert.ReferenceIdeal.main_arg2) = m ((c.tc : Thread Cert.KernelIdeal.nD Cert.KernelIdeal.τ).loc Cert.KernelIdeal.main_arg2))
    (e3 : StableHlo.launchContents m' c (Proc.devRef .tc Cert.ReferenceIdeal.main_arg3) = m ((c.tc : Thread Cert.KernelIdeal.nD Cert.KernelIdeal.τ).loc Cert.KernelIdeal.main_arg3))
    (e4 : StableHlo.launchContents m' c (Proc.devRef .tc Cert.ReferenceIdeal.main_arg4) = m ((c.tc : Thread Cert.KernelIdeal.nD Cert.KernelIdeal.τ).loc Cert.KernelIdeal.main_arg4))
    (e5 : StableHlo.launchContents m' c (Proc.devRef .tc Cert.ReferenceIdeal.main_arg5) = m ((c.tc : Thread Cert.KernelIdeal.nD Cert.KernelIdeal.τ).loc Cert.KernelIdeal.main_arg5))
    (e6 : StableHlo.launchContents m' c (Proc.devRef .tc Cert.ReferenceIdeal.main_arg6) = m ((c.tc : Thread Cert.KernelIdeal.nD Cert.KernelIdeal.τ).loc Cert.KernelIdeal.main_arg6))
    (e7 : StableHlo.launchContents m' c (Proc.devRef .tc Cert.ReferenceIdeal.main_arg7) = m ((c.tc : Thread Cert.KernelIdeal.nD Cert.KernelIdeal.τ).loc Cert.KernelIdeal.main_arg7))
    (e8 : StableHlo.launchContents m' c (Proc.devRef .tc Cert.ReferenceIdeal.main_arg8) = m ((c.tc : Thread Cert.KernelIdeal.nD Cert.KernelIdeal.τ).loc Cert.KernelIdeal.main_arg8))
    (e9 : StableHlo.launchContents m' c (Proc.devRef .tc Cert.ReferenceIdeal.main_arg9) = m ((c.tc : Thread Cert.KernelIdeal.nD Cert.KernelIdeal.τ).loc Cert.KernelIdeal.main_arg9))
    (e10 : StableHlo.launchContents m' c (Proc.devRef .tc Cert.ReferenceIdeal.main_arg10) = m ((c.tc : Thread Cert.KernelIdeal.nD Cert.KernelIdeal.τ).loc Cert.KernelIdeal.main_arg10))
    (e11 : StableHlo.launchContents m' c (Proc.devRef .tc Cert.ReferenceIdeal.main_arg11) = m ((c.tc : Thread Cert.KernelIdeal.nD Cert.KernelIdeal.τ).loc Cert.KernelIdeal.main_arg11))
    (e12 : StableHlo.launchContents m' c (Proc.devRef .tc Cert.ReferenceIdeal.main_arg12) = m ((c.tc : Thread Cert.KernelIdeal.nD Cert.KernelIdeal.τ).loc Cert.KernelIdeal.main_arg12)) :
    (StableHlo.after (Cert.ReferenceIdeal.RefRun.ops (F := Ideal)) (StableHlo.launchContents m' c) (Proc.devRef .tc Cert.ReferenceIdeal.main_v78) : FVec Ideal Cert.KernelIdeal.S2048x32 .f32)
      = transpose Cert.KernelIdeal.S2048x32 [1, 0] ((Cert.KernelIdeal.Hand.dats m 0 c).arrAt 9 Cert.KernelIdeal.cfg0.N : FVec Ideal Cert.KernelIdeal.S32x2048 .f32) Cert.KernelIdeal.Gen.transposes_S32x2048_S2048x32_1_0 := by
  funext idx
  obtain ⟨n, h, rfl⟩ : ∃ (n : Fin 2048) (h : Fin 32), idx = ix2 n h := ⟨idx 0, idx 1, eq_ix2 idx⟩
  refine Eq.trans ?_ (transpose_ix2_apply _ _ n h).symm
  refine Eq.trans ?_ (hK m c (Cert.KernelIdeal.Hand.V_main_v47_apply m c) (Cert.KernelIdeal.Hand.V_main_v48_apply m c) h n).symm
  refine (hR m' c n h).trans ?_
  refine agg_congr ?_ ?_ ?_ ?_ ?_ ?_ ?_ n h
  · -- the scaled points
    have e : (StableHlo.after (Cert.ReferenceIdeal.RefRun.ops (F := Ideal)) (StableHlo.launchContents m' c) (Proc.devRef .tc Cert.ReferenceIdeal.main_v43) : FVec Ideal Cert.KernelIdeal.S2048x3 .f32) = (Cert.KernelIdeal.Hand.V m c Cert.KernelIdeal.main_v43 : Cert.KernelIdeal.S2048x3.Idx → EReal) := by
      refine ((hPts _).trans ?_).trans (Cert.KernelIdeal.Hand.V_main_v43_eq m c).symm
      rw [e0]
    rw [e]
  · -- the frames
    funext j k
    obtain ⟨a, b, rfl⟩ := exists_n9 k
    rw [hNuv]
    refine Eq.trans ?_ (Cert.KernelIdeal.Hand.V_main_v44_apply m c j a b).symm
    exact congrFun e1 _
  · -- the features
    have e : (StableHlo.after (Cert.ReferenceIdeal.RefRun.ops (F := Ideal)) (StableHlo.launchContents m' c) (Proc.devRef .tc Cert.ReferenceIdeal.main_v41) : FVec Ideal Cert.KernelIdeal.S2048x32 .f32) = (Cert.KernelIdeal.Hand.V m c Cert.KernelIdeal.main_v41 : Cert.KernelIdeal.S2048x32.Idx → EReal) := by
      refine ((hFeat _).trans ?_).trans (Cert.KernelIdeal.Hand.V_main_v41_eq m c).symm
      rw [hPre, e2, e3, e4, e5, e6, e7, e8]
    rw [e]
  · funext k a
    exact (congrFun e9 _).trans (congrFun (Cert.KernelIdeal.Hand.V_main_arg9 m c).symm _)
  · funext k
    exact (congrFun e10 _).trans (Cert.KernelIdeal.Hand.V_main_v45_apply m c k).symm
  · funext k a
    exact (congrFun e11 _).trans (congrFun (Cert.KernelIdeal.Hand.V_main_arg11 m c).symm _)
  · funext k
    exact (congrFun e12 _).trans (Cert.KernelIdeal.Hand.V_main_v46_apply m c k).symm

/-- The reference's result is the kernel's: the shared tail of equal aggregates and equal weights. -/
theorem res_R_eq_K (tailR : FVec Ideal Cert.KernelIdeal.S2048x32 .f32 → FVec Ideal Cert.KernelIdeal.S32x32 .f32 → FVec Ideal Cert.KernelIdeal.S32 .f32 → FVec Ideal Cert.KernelIdeal.S32x32 .f32 → FVec Ideal Cert.KernelIdeal.S32 .f32 → FVec Ideal Cert.KernelIdeal.S32 .f32 → FVec Ideal Cert.KernelIdeal.S32 .f32 → FVec Ideal Cert.KernelIdeal.S2048x32 .f32) (hTail : tailR = Cert.KernelIdeal.Hand.tailK)
    (hRes : ∀ V : Valuation Cert.ReferenceIdeal.τ Cert.ReferenceIdeal.sig (Elt Ideal),
      (StableHlo.after (Cert.ReferenceIdeal.RefRun.ops (F := Ideal)) V (Proc.devRef .tc Cert.ReferenceIdeal.main_v120) : FVec Ideal Cert.KernelIdeal.S2048x32 .f32)
        = tailR (StableHlo.after (Cert.ReferenceIdeal.RefRun.ops (F := Ideal)) V (Proc.devRef .tc Cert.ReferenceIdeal.main_v78)) (V (Proc.devRef .tc Cert.ReferenceIdeal.main_arg13)) (V (Proc.devRef .tc Cert.ReferenceIdeal.main_arg14)) (V (Proc.devRef .tc Cert.ReferenceIdeal.main_arg15)) (V (Proc.devRef .tc Cert.ReferenceIdeal.main_arg16)) (V (Proc.devRef .tc Cert.ReferenceIdeal.main_arg17)) (V (Proc.devRef .tc Cert.ReferenceIdeal.main_arg18)))
    (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hx : (StableHlo.after (Cert.ReferenceIdeal.RefRun.ops (F := Ideal)) (StableHlo.launchContents m' c) (Proc.devRef .tc Cert.ReferenceIdeal.main_v78) : FVec Ideal Cert.KernelIdeal.S2048x32 .f32)
      = transpose Cert.KernelIdeal.S2048x32 [1, 0] ((Cert.KernelIdeal.Hand.dats m 0 c).arrAt 9 Cert.KernelIdeal.cfg0.N : FVec Ideal Cert.KernelIdeal.S32x2048 .f32) Cert.KernelIdeal.Gen.transposes_S32x2048_S2048x32_1_0)
    (e13 : StableHlo.launchContents m' c (Proc.devRef .tc Cert.ReferenceIdeal.main_arg13) = m ((c.tc : Thread Cert.KernelIdeal.nD Cert.KernelIdeal.τ).loc Cert.KernelIdeal.main_arg13))
    (e14 : StableHlo.launchContents m' c (Proc.devRef .tc Cert.ReferenceIdeal.main_arg14) = m ((c.tc : Thread Cert.KernelIdeal.nD Cert.KernelIdeal.τ).loc Cert.KernelIdeal.main_arg14))
    (e15 : StableHlo.launchContents m' c (Proc.devRef .tc Cert.ReferenceIdeal.main_arg15) = m ((c.tc : Thread Cert.KernelIdeal.nD Cert.KernelIdeal.τ).loc Cert.KernelIdeal.main_arg15))
    (e16 : StableHlo.launchContents m' c (Proc.devRef .tc Cert.ReferenceIdeal.main_arg16) = m ((c.tc : Thread Cert.KernelIdeal.nD Cert.KernelIdeal.τ).loc Cert.KernelIdeal.main_arg16))
    (e17 : StableHlo.launchContents m' c (Proc.devRef .tc Cert.ReferenceIdeal.main_arg17) = m ((c.tc : Thread Cert.KernelIdeal.nD Cert.KernelIdeal.τ).loc Cert.KernelIdeal.main_arg17))
    (e18 : StableHlo.launchContents m' c (Proc.devRef .tc Cert.ReferenceIdeal.main_arg18) = m ((c.tc : Thread Cert.KernelIdeal.nD Cert.KernelIdeal.τ).loc Cert.KernelIdeal.main_arg18)) :
    (StableHlo.after (Cert.ReferenceIdeal.RefRun.ops (F := Ideal)) (StableHlo.launchContents m' c) (Proc.devRef .tc Cert.ReferenceIdeal.main_v120) : FVec Ideal Cert.KernelIdeal.S2048x32 .f32)
      = (Pipeline.afterTail₀ Cert.KernelIdeal.cfgs (Cert.KernelIdeal.Hand.dats m) 0 (Cert.KernelIdeal.Hand.V0 m) Cert.KernelIdeal.Hand.tailOps c Cert.KernelIdeal.main_v92 : Cert.KernelIdeal.S2048x32.Idx → EReal) := by
  refine ((hRes _).trans ?_).trans (Cert.KernelIdeal.Hand.tail_eq m (Cert.KernelIdeal.Hand.dats m) c).symm
  rw [hTail, hx, e13, e14, e15, e16, e17, e18]

/-- THE VALUE CONJUNCT from its pieces. `tailR`, `preR` and `nuvR` are the reference side's names for the shared tail, the
    shared feature chain and the flattened frames; `hK` is the kernel's output array at an index, `hR` the reference's
    aggregate at an index, `hRes`, `hPts`, `hFeat` the reference's result, scaled points and features as functions of
    its launch contents. -/
theorem algebraic_of (tailR : FVec Ideal Cert.KernelIdeal.S2048x32 .f32 → FVec Ideal Cert.KernelIdeal.S32x32 .f32 → FVec Ideal Cert.KernelIdeal.S32 .f32 → FVec Ideal Cert.KernelIdeal.S32x32 .f32 → FVec Ideal Cert.KernelIdeal.S32 .f32 → FVec Ideal Cert.KernelIdeal.S32 .f32 → FVec Ideal Cert.KernelIdeal.S32 .f32 → FVec Ideal Cert.KernelIdeal.S2048x32 .f32)
    (preR : FVec Ideal Cert.KernelIdeal.S2048x16 .f32 → FVec Ideal Cert.KernelIdeal.S32x16 .f32 → FVec Ideal Cert.KernelIdeal.S32 .f32 → FVec Ideal Cert.KernelIdeal.S32x32 .f32 → FVec Ideal Cert.KernelIdeal.S32 .f32 → FVec Ideal Cert.KernelIdeal.S32 .f32 → FVec Ideal Cert.KernelIdeal.S32 .f32 → FVec Ideal Cert.KernelIdeal.S2048x32 .f32)
    (nuvR : FVec Ideal Cert.KernelIdeal.S2048x3x3 .f32 → Fin 2048 → Fin 9 → EReal)
    (hTail : tailR = Cert.KernelIdeal.Hand.tailK) (hPre : preR = Cert.KernelIdeal.Hand.preK)
    (hNuv : ∀ (a1 : FVec Ideal Cert.KernelIdeal.S2048x3x3 .f32) (j : Fin 2048) (a b : Fin 3), nuvR a1 j (Cert.GeoSpec.n9 a b) = a1 (ix3 j a b))
    (hK : ∀ (m : (ℓ : Loc Cert.KernelIdeal.nD Cert.KernelIdeal.τ Cert.KernelIdeal.sig) → Buf (Elt Ideal) ℓ) (c : Dev Cert.KernelIdeal.nD)
      (hT47 : ∀ (c' : Fin 3) (n : Fin 2048), (Cert.KernelIdeal.Hand.V m c Cert.KernelIdeal.main_v47 : Cert.KernelIdeal.S3x2048.Idx → EReal) (ix2 c' n) = (Cert.KernelIdeal.Hand.V m c Cert.KernelIdeal.main_v43 : Cert.KernelIdeal.S2048x3.Idx → EReal) (ix2 n c'))
      (hT48 : ∀ (k : Fin 9) (n : Fin 2048), (Cert.KernelIdeal.Hand.V m c Cert.KernelIdeal.main_v48 : Cert.KernelIdeal.S9x2048.Idx → EReal) (ix2 k n) = (Cert.KernelIdeal.Hand.V m c Cert.KernelIdeal.main_v44 : Cert.KernelIdeal.S2048x9.Idx → EReal) (ix2 n k))
      (h : Fin 32) (n : Fin 2048),
      ((Cert.KernelIdeal.Hand.dats m 0 c).arrAt 9 Cert.KernelIdeal.cfg0.N : Cert.KernelIdeal.S32x2048.Idx → EReal) (ix2 h n)
        = Cert.GeoSpec.agg (fun j c' => (Cert.KernelIdeal.Hand.V m c Cert.KernelIdeal.main_v43 : Cert.KernelIdeal.S2048x3.Idx → EReal) (ix2 j c'))
            (fun j k => (Cert.KernelIdeal.Hand.V m c Cert.KernelIdeal.main_v44 : Cert.KernelIdeal.S2048x9.Idx → EReal) (ix2 j k))
            (fun j h' => (Cert.KernelIdeal.Hand.V m c Cert.KernelIdeal.main_v41 : Cert.KernelIdeal.S2048x32.Idx → EReal) (ix2 j h'))
            (fun k a => (Cert.KernelIdeal.Hand.V m c Cert.KernelIdeal.main_arg9 : Cert.KernelIdeal.S8x3.Idx → EReal) (ix2 k a))
            (fun k => (Cert.KernelIdeal.Hand.V m c Cert.KernelIdeal.main_v45 : Cert.KernelIdeal.S1x8.Idx → EReal) (ix2 (0 : Fin 1) k))
            (fun h' k => (Cert.KernelIdeal.Hand.V m c Cert.KernelIdeal.main_arg11 : Cert.KernelIdeal.S32x8.Idx → EReal) (ix2 h' k))
            (fun h' => (Cert.KernelIdeal.Hand.V m c Cert.KernelIdeal.main_v46 : Cert.KernelIdeal.S1x32.Idx → EReal) (ix2 (0 : Fin 1) h')) n h)
    (hR : ∀ (m' : (ℓ : Loc Cert.ReferenceIdeal.nD Cert.ReferenceIdeal.τ Cert.ReferenceIdeal.sig) → Buf (Elt Ideal) ℓ) (c : Dev Cert.ReferenceIdeal.nD) (n : Fin 2048) (h : Fin 32),
      (StableHlo.after (Cert.ReferenceIdeal.RefRun.ops (F := Ideal)) (StableHlo.launchContents m' c) (Proc.devRef .tc Cert.ReferenceIdeal.main_v78) : FVec Ideal Cert.KernelIdeal.S2048x32 .f32) (ix2 n h)
        = Cert.GeoSpec.agg (fun j d => (StableHlo.after (Cert.ReferenceIdeal.RefRun.ops (F := Ideal)) (StableHlo.launchContents m' c) (Proc.devRef .tc Cert.ReferenceIdeal.main_v43) : FVec Ideal Cert.KernelIdeal.S2048x3 .f32) (ix2 j d))
            (nuvR (m' ((c.tc : Thread Cert.ReferenceIdeal.nD Cert.ReferenceIdeal.τ).loc Cert.ReferenceIdeal.main_arg1)))
            (fun j k => (StableHlo.after (Cert.ReferenceIdeal.RefRun.ops (F := Ideal)) (StableHlo.launchContents m' c) (Proc.devRef .tc Cert.ReferenceIdeal.main_v41) : FVec Ideal Cert.KernelIdeal.S2048x32 .f32) (ix2 j k))
            (fun k a => (m' ((c.tc : Thread Cert.ReferenceIdeal.nD Cert.ReferenceIdeal.τ).loc Cert.ReferenceIdeal.main_arg9) : FVec Ideal Cert.KernelIdeal.S8x3 .f32) (ix2 k a))
            (fun k => (m' ((c.tc : Thread Cert.ReferenceIdeal.nD Cert.ReferenceIdeal.τ).loc Cert.ReferenceIdeal.main_arg10) : FVec Ideal Cert.KernelIdeal.S8 .f32) (ix1 k))
            (fun k a => (m' ((c.tc : Thread Cert.ReferenceIdeal.nD Cert.ReferenceIdeal.τ).loc Cert.ReferenceIdeal.main_arg11) : FVec Ideal Cert.KernelIdeal.S32x8 .f32) (ix2 k a))
            (fun k => (m' ((c.tc : Thread Cert.ReferenceIdeal.nD Cert.ReferenceIdeal.τ).loc Cert.ReferenceIdeal.main_arg12) : FVec Ideal Cert.KernelIdeal.S32 .f32) (ix1 k)) n h)
    (hRes : ∀ V : Valuation Cert.ReferenceIdeal.τ Cert.ReferenceIdeal.sig (Elt Ideal),
      (StableHlo.after (Cert.ReferenceIdeal.RefRun.ops (F := Ideal)) V (Proc.devRef .tc Cert.ReferenceIdeal.main_v120) : FVec Ideal Cert.KernelIdeal.S2048x32 .f32)
        = tailR (StableHlo.after (Cert.ReferenceIdeal.RefRun.ops (F := Ideal)) V (Proc.devRef .tc Cert.ReferenceIdeal.main_v78)) (V (Proc.devRef .tc Cert.ReferenceIdeal.main_arg13)) (V (Proc.devRef .tc Cert.ReferenceIdeal.main_arg14)) (V (Proc.devRef .tc Cert.ReferenceIdeal.main_arg15)) (V (Proc.devRef .tc Cert.ReferenceIdeal.main_arg16)) (V (Proc.devRef .tc Cert.ReferenceIdeal.main_arg17)) (V (Proc.devRef .tc Cert.ReferenceIdeal.main_arg18)))
    (hPts : ∀ V : Valuation Cert.ReferenceIdeal.τ Cert.ReferenceIdeal.sig (Elt Ideal),
      (StableHlo.after (Cert.ReferenceIdeal.RefRun.ops (F := Ideal)) V (Proc.devRef .tc Cert.ReferenceIdeal.main_v43) : FVec Ideal Cert.KernelIdeal.S2048x3 .f32)
        = Host.divf (F := Ideal) (V (Proc.devRef .tc Cert.ReferenceIdeal.main_arg0) : FVec Ideal Cert.KernelIdeal.S2048x3 .f32)
            (broadcastInDim Cert.KernelIdeal.S2048x3 ![] Cert.KernelIdeal.Gen.bcast_S_S2048x3 (constant (F := Ideal) Cert.KernelIdeal.S_ .f32 0x414BA592#32)))
    (hFeat : ∀ V : Valuation Cert.ReferenceIdeal.τ Cert.ReferenceIdeal.sig (Elt Ideal),
      (StableHlo.after (Cert.ReferenceIdeal.RefRun.ops (F := Ideal)) V (Proc.devRef .tc Cert.ReferenceIdeal.main_v41) : FVec Ideal Cert.KernelIdeal.S2048x32 .f32)
        = preR (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8))) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' _ hagree
  have key : ∀ c : Dev Cert.KernelIdeal.nD, (StableHlo.after (Cert.ReferenceIdeal.RefRun.ops (F := Ideal)) (StableHlo.launchContents m' c) (Proc.devRef .tc Cert.ReferenceIdeal.main_v120) : FVec Ideal Cert.KernelIdeal.S2048x32 .f32)
      = (Pipeline.afterTail₀ Cert.KernelIdeal.cfgs (Cert.KernelIdeal.Hand.dats m) 0 (Cert.KernelIdeal.Hand.V0 m) Cert.KernelIdeal.Hand.tailOps c Cert.KernelIdeal.main_v92 : Cert.KernelIdeal.S2048x32.Idx → EReal) := by
    intro c
    obtain ⟨e0, e1, e2, e3, e4, e5, e6, e7, e8, e9, e10, e11, e12, e13, e14, e15, e16, e17, e18⟩ := hagree c
    exact res_R_eq_K tailR hTail hRes m m' c
      (agg_R_eq_K preR nuvR hPre hNuv hK hR hPts hFeat m m' c e0 e1 e2 e3 e4 e5 e6 e7 e8 e9 e10 e11 e12)
      e13 e14 e15 e16 e17 e18
  refine ⟨fun c => Pipeline.afterTail₀ Cert.KernelIdeal.cfgs (Cert.KernelIdeal.Hand.dats m) 0 (Cert.KernelIdeal.Hand.V0 m) Cert.KernelIdeal.Hand.tailOps c Cert.KernelIdeal.main_v92, ?_, ?_⟩
  · exact (θ_run Cert.KernelIdeal.defs _ _).mono (fun r h c =>
      ⟨(h c).2 Cert.KernelIdeal.main_v92 (Pipeline.mem_restRefs_of Cert.KernelIdeal.main_v92 (by decide) (by decide)),
        args_of_post m (Cert.KernelIdeal.Hand.dats m) (Cert.KernelIdeal.Hand.A_eq m) r h c⟩) (Cert.KernelIdeal.Hand.run_main (F := Ideal) m ρ)
  · exact (θ_run Cert.ReferenceIdeal.defs _ _).mono (fun r h c =>
      ⟨(h c Cert.ReferenceIdeal.main_v120).trans (key c),
        (h c Cert.ReferenceIdeal.main_arg0).trans (Cert.ReferenceIdeal.RefRun.arg_keep m' c Cert.ReferenceIdeal.main_arg0 (by decide) (by decide) (by decide) (by decide) (by decide)),
        (h c Cert.ReferenceIdeal.main_arg1).trans (Cert.ReferenceIdeal.RefRun.arg_keep m' c Cert.ReferenceIdeal.main_arg1 (by decide) (by decide) (by decide) (by decide) (by decide)),
        (h c Cert.ReferenceIdeal.main_arg2).trans (Cert.ReferenceIdeal.RefRun.arg_keep m' c Cert.ReferenceIdeal.main_arg2 (by decide) (by decide) (by decide) (by decide) (by decide)),
        (h c Cert.ReferenceIdeal.main_arg3).trans (Cert.ReferenceIdeal.RefRun.arg_keep m' c Cert.ReferenceIdeal.main_arg3 (by decide) (by decide) (by decide) (by decide) (by decide)),
        (h c Cert.ReferenceIdeal.main_arg4).trans (Cert.ReferenceIdeal.RefRun.arg_keep m' c Cert.ReferenceIdeal.main_arg4 (by decide) (by decide) (by decide) (by decide) (by decide)),
        (h c Cert.ReferenceIdeal.main_arg5).trans (Cert.ReferenceIdeal.RefRun.arg_keep m' c Cert.ReferenceIdeal.main_arg5 (by decide) (by decide) (by decide) (by decide) (by decide)),
        (h c Cert.ReferenceIdeal.main_arg6).trans (Cert.ReferenceIdeal.RefRun.arg_keep m' c Cert.ReferenceIdeal.main_arg6 (by decide) (by decide) (by decide) (by decide) (by decide)),
        (h c Cert.ReferenceIdeal.main_arg7).trans (Cert.ReferenceIdeal.RefRun.arg_keep m' c Cert.ReferenceIdeal.main_arg7 (by decide) (by decide) (by decide) (by decide) (by decide)),
        (h c Cert.ReferenceIdeal.main_arg8).trans (Cert.ReferenceIdeal.RefRun.arg_keep m' c Cert.ReferenceIdeal.main_arg8 (by decide) (by decide) (by decide) (by decide) (by decide)),
        (h c Cert.ReferenceIdeal.main_arg9).trans (Cert.ReferenceIdeal.RefRun.arg_keep m' c Cert.ReferenceIdeal.main_arg9 (by decide) (by decide) (by decide) (by decide) (by decide)),
        (h c Cert.ReferenceIdeal.main_arg10).trans (Cert.ReferenceIdeal.RefRun.arg_keep m' c Cert.ReferenceIdeal.main_arg10 (by decide) (by decide) (by decide) (by decide) (by decide)),
        (h c Cert.ReferenceIdeal.main_arg11).trans (Cert.ReferenceIdeal.RefRun.arg_keep m' c Cert.ReferenceIdeal.main_arg11 (by decide) (by decide) (by decide) (by decide) (by decide)),
        (h c Cert.ReferenceIdeal.main_arg12).trans (Cert.ReferenceIdeal.RefRun.arg_keep m' c Cert.ReferenceIdeal.main_arg12 (by decide) (by decide) (by decide) (by decide) (by decide)),
        (h c Cert.ReferenceIdeal.main_arg13).trans (Cert.ReferenceIdeal.RefRun.arg_keep m' c Cert.ReferenceIdeal.main_arg13 (by decide) (by decide) (by decide) (by decide) (by decide)),
        (h c Cert.ReferenceIdeal.main_arg14).trans (Cert.ReferenceIdeal.RefRun.arg_keep m' c Cert.ReferenceIdeal.main_arg14 (by decide) (by decide) (by decide) (by decide) (by decide)),
        (h c Cert.ReferenceIdeal.main_arg15).trans (Cert.ReferenceIdeal.RefRun.arg_keep m' c Cert.ReferenceIdeal.main_arg15 (by decide) (by decide) (by decide) (by decide) (by decide)),
        (h c Cert.ReferenceIdeal.main_arg16).trans (Cert.ReferenceIdeal.RefRun.arg_keep m' c Cert.ReferenceIdeal.main_arg16 (by decide) (by decide) (by decide) (by decide) (by decide)),
        (h c Cert.ReferenceIdeal.main_arg17).trans (Cert.ReferenceIdeal.RefRun.arg_keep m' c Cert.ReferenceIdeal.main_arg17 (by decide) (by decide) (by decide) (by decide) (by decide)),
        (h c Cert.ReferenceIdeal.main_arg18).trans (Cert.ReferenceIdeal.RefRun.arg_keep m' c Cert.ReferenceIdeal.main_arg18 (by decide) (by decide) (by decide) (by decide) (by decide))⟩)
      (Cert.ReferenceIdeal.RefRun.run_all (F := Ideal) m' ρ')

end Cert.Proof

end
-- ==== Proof.RefMid.lean ====
/- The middle of the reference, as pure functions of array contents on the extended reals, read at an index.

   Each stage is the composition of the printed operations that compute it, and its lemma says what one element is:
   the offsets between all pairs of points, their squared lengths, the products of the unit normals, the Gaussian
   window, the offsets in the query point's frame, the two small layers with their rectifiers, the weighted product
   with the key point's features, and the sum over the keys. -/
import proofs.«170118_j14654428414389_2_alg».proof.Proof.Gen.ReferenceIdeal
import proofs.«170118_j14654428414389_2_alg».proof.Proof.Spec
import Idealize.ShloMosaic.Lib.Pipeline.Value
import Idealize.ShloMosaic.Lib.IdealHost
import Idealize.ShloMosaic.Lib.ValueIdx
import Idealize.ShloMosaic.PureOps.Ideal.Laws

noncomputable section

namespace Cert.ReferenceIdeal.RefMid

open Cert.ReferenceIdeal Cert.ReferenceIdeal.Gen Idealize.ShloMosaic Idealize.ShloMosaic.ValueIdx
open scoped BigOperators

/-! ## Two general readings -/

/-- A host sum over one axis from the zero word, at a result index: the sum over that axis's coordinates. -/
theorem reduceAdd_zero_apply {s t : Shape} {a : Fin s.rank} (x : FVec Ideal s .f32) (h' : s.ReducesTo [a] t)
    (h : s.Reduces [a] t) (hu : 0 < (⟨0, ![]⟩ : Shape).numel) (j : t.Idx) :
    Host.reduceAdd x (constant (F := Ideal) ⟨0, ![]⟩ .f32 0x00000000#32) h' hu j = ∑ k : Fin (s.size a), x (h.lift j k) := by
  rw [hostReduceAdd_apply, Ideal.hostReduceAdd_single h' h, constant_apply, Ideal.ofBits_zero_f32, zero_add]

/-- A host product contracting one axis of extent `n`, at a result index: the sum over that axis's coordinates of the
    operands' products, the operands read at whatever the proof names them to be there. -/
theorem dot_apply {sl sr so : Shape} (D : DotDims sl sr so) (n : Nat) (hr : D.contr.rank = 1)
    (hs : D.contr.size ⟨0, by omega⟩ = n) (lhs : FVec Ideal sl .f32) (rhs : FVec Ideal sr .f32) (j : so.Idx)
    (L R : Fin n → EReal)
    (hl : ∀ k : Fin n, lhs (D.lhsIdx j ((contrEquiv1 D n hr hs).symm k)) = L k)
    (hr' : ∀ k : Fin n, rhs (D.rhsIdx j ((contrEquiv1 D n hr hs).symm k)) = R k) :
    Host.dotGeneral (F := Ideal) D none lhs rhs j = ∑ k : Fin n, L k * R k := by
  show FloatOps.dotGeneral D none .single lhs rhs j = _
  rw [Ideal.dotGeneral_apply, ← Equiv.sum_comp (contrEquiv1 D n hr hs).symm]
  exact Finset.sum_congr rfl fun k _ => by rw [hl k, hr' k]

/-! ## The offsets between all pairs of points -/

/-- x_j − x_i for every pair (i, j): the points laid along the keys' axis and along the queries' axis, subtracted. -/
def diffV (P : FVec Ideal S2048x3 .f32) : FVec Ideal S2048x2048x3 .f32 :=
  subf (broadcastInDim S2048x2048x3 ![0, 1, 2] bcast_S1x2048x3_S2048x2048x3_0_1_2 (broadcastInDim S1x2048x3 ![1, 2] bcast_S2048x3_S1x2048x3_1_2 P))
    (broadcastInDim S2048x2048x3 ![0, 1, 2] bcast_S2048x1x3_S2048x2048x3_0_1_2 (broadcastInDim S2048x1x3 ![0, 2] bcast_S2048x3_S2048x1x3_0_2 P))

theorem diffV_apply (P : FVec Ideal S2048x3 .f32) (i j : Fin 2048) (c : Fin 3) :
    diffV P (ix3 i j c) = P (ix2 j c) - P (ix2 i c) := by
  unfold diffV
  rw [subf_apply,
    broadcastInDim_apply _ _ _ (ix3 i j c) (ix3 (0 : Fin 1) j c) (fun a => by
      match a with | ⟨0, _⟩ => rfl | ⟨1, _⟩ => rfl | ⟨2, _⟩ => rfl),
    broadcastInDim_apply _ _ P (ix3 (0 : Fin 1) j c) (ix2 j c) (fun a => by
      match a with | ⟨0, _⟩ => rfl | ⟨1, _⟩ => rfl),
    broadcastInDim_apply _ _ _ (ix3 i j c) (ix3 i (0 : Fin 1) c) (fun a => by
      match a with | ⟨0, _⟩ => rfl | ⟨1, _⟩ => rfl | ⟨2, _⟩ => rfl),
    broadcastInDim_apply _ _ P (ix3 i (0 : Fin 1) c) (ix2 i c) (fun a => by
      match a with | ⟨0, _⟩ => rfl | ⟨1, _⟩ => rfl)]

/-! ## Their squared lengths -/

/-- |x_j − x_i|² for every pair: the offsets squared and summed over the coordinate. -/
def sqdV (D : FVec Ideal S2048x2048x3 .f32) : FVec Ideal S2048x2048 .f32 :=
  Host.reduceAdd (mulf D D) (constant (F := Ideal) S_ .f32 0x00000000#32) reducesTo_S2048x2048x3_S2048x2048_d2 h_S_

theorem sqdV_apply (D : FVec Ideal S2048x2048x3 .f32) (i j : Fin 2048) :
    sqdV D (ix2 i j) = ∑ c : Fin 3, D (ix3 i j c) * D (ix3 i j c) := by
  unfold sqdV
  rw [reduceAdd_zero_apply (mulf D D) reducesTo_S2048x2048x3_S2048x2048_d2 (by decide) h_S_ (ix2 i j)]
  refine Finset.sum_congr rfl fun c _ => ?_
  rw [mulf_apply]
  have e : Shape.Reduces.lift (by decide : S2048x2048x3.Reduces [2] S2048x2048) (ix2 i j) c = ix3 i j c := by
    funext a
    match a with
    | ⟨0, _⟩ => exact Fin.ext rfl
    | ⟨1, _⟩ => exact Fin.ext rfl
    | ⟨2, _⟩ => exact Fin.ext rfl
  rw [e]
  try rfl

/-! ## The unit normals and their products -/

/-- The first row of every frame: the slice of row 0, its unit axis dropped. -/
def nrmV (a1 : FVec Ideal S2048x3x3 .f32) : FVec Ideal S2048x3 .f32 :=
  shapeCast S2048x3 (extractStridedSlice S2048x1x3 ![0, 0, 0] a1 slices_S2048x3x3_S2048x1x3_0_0_0) shapeCasts_S2048x1x3_S2048x3

theorem nrmV_apply (a1 : FVec Ideal S2048x3x3 .f32) (i : Fin 2048) (c : Fin 3) :
    nrmV a1 (ix2 i c) = a1 (ix3 i (0 : Fin 3) c) := by
  unfold nrmV
  rw [shapeCast_apply _ _ (ix2 i c) (ix3 i (0 : Fin 1) c) (by
      rw [Shape.rowMajor_val_three, Shape.rowMajor_val_two]
      show (i.val * 1 + 0) * 3 + c.val = i.val * 3 + c.val
      omega),
    extractStridedSlice_apply _ a1 _ (ix3 i (0 : Fin 1) c) (ix3 i (0 : Fin 3) c) (fun a => by
      match a with
      | ⟨0, _⟩ => show i.val = 0 + i.val; omega
      | ⟨1, _⟩ => rfl
      | ⟨2, _⟩ => show c.val = 0 + c.val; omega)]

/-- n_i · n_j for every pair: the normals times their transpose. -/
def dotnnV (N : FVec Ideal S2048x3 .f32) : FVec Ideal S2048x2048 .f32 :=
  Host.dotGeneral (F := Ideal) dot_S2048x3_S3x2048_S2048x2048_1_0_0_1_n_n none N
    (transpose S3x2048 [1, 0] N transposes_S2048x3_S3x2048_1_0)

theorem dotnnV_apply (N : FVec Ideal S2048x3 .f32) (i j : Fin 2048) :
    dotnnV N (ix2 i j) = ∑ c : Fin 3, N (ix2 i c) * N (ix2 j c) := by
  unfold dotnnV
  refine dot_apply dot_S2048x3_S3x2048_S2048x2048_1_0_0_1_n_n 3 rfl rfl N _ (ix2 i j) _ _ (fun c => ?_) (fun c => ?_)
  · refine congrArg N (funext fun a => Fin.ext ?_)
    match a with
    | ⟨0, _⟩ => rfl
    | ⟨1, _⟩ => rfl
  · rw [transpose_apply _ N _ _ (ix2 j c) (fun b => by
      match b with
      | ⟨0, _⟩ => rfl
      | ⟨1, _⟩ => rfl)]

/-! ## The Gaussian window -/

/-- exp(−|x_j − x_i|² · (2 − n_i·n_j)²) for every pair. -/
def winV (SQ DOT : FVec Ideal S2048x2048 .f32) : FVec Ideal S2048x2048 .f32 :=
  Host.exp (mulf (Host.negf SQ)
    (mulf (subf (broadcastInDim S2048x2048 ![] bcast_S_S2048x2048 (constant (F := Ideal) S_ .f32 0x40000000#32)) DOT)
      (subf (broadcastInDim S2048x2048 ![] bcast_S_S2048x2048 (constant (F := Ideal) S_ .f32 0x40000000#32)) DOT)))

theorem winV_apply (SQ DOT : FVec Ideal S2048x2048 .f32) (i j : Fin 2048) :
    winV SQ DOT (ix2 i j)
      = Ideal.exp (-(SQ (ix2 i j)) * ((Cert.GeoSpec.two - DOT (ix2 i j)) * (Cert.GeoSpec.two - DOT (ix2 i j)))) := by
  unfold winV
  show Ideal.exp (mulf (Host.negf SQ) _ (ix2 i j)) = _
  rw [mulf_apply, mulf_apply, subf_apply, broadcastInDim_scalar_apply, constant_apply]
  rfl

/-! ## The offsets in the query point's frame -/

/-- X_a = Σ_c (x_j − x_i)_c · nuv_i[a, c] for every pair: the offsets times each query point's own frame. -/
def xV (D : FVec Ideal S2048x2048x3 .f32) (a1 : FVec Ideal S2048x3x3 .f32) : FVec Ideal S2048x2048x3 .f32 :=
  Host.dotGeneral (F := Ideal) dot_S2048x2048x3_S2048x3x3_S2048x2048x3_2_2_1_1_0_0 none D a1

theorem xV_apply (D : FVec Ideal S2048x2048x3 .f32) (a1 : FVec Ideal S2048x3x3 .f32) (i j : Fin 2048) (a : Fin 3) :
    xV D a1 (ix3 i j a) = ∑ c : Fin 3, a1 (ix3 i a c) * D (ix3 i j c) := by
  unfold xV
  rw [dot_apply dot_S2048x2048x3_S2048x3x3_S2048x2048x3_2_2_1_1_0_0 3 rfl rfl D a1 (ix3 i j a)
      (fun c => D (ix3 i j c)) (fun c => a1 (ix3 i a c))
      (fun c => congrArg D (funext fun b => Fin.ext (by
        match b with | ⟨0, _⟩ => rfl | ⟨1, _⟩ => rfl | ⟨2, _⟩ => rfl)))
      (fun c => congrArg a1 (funext fun b => Fin.ext (by
        match b with | ⟨0, _⟩ => rfl | ⟨1, _⟩ => rfl | ⟨2, _⟩ => rfl)))]
  exact Finset.sum_congr rfl fun c _ => mul_comm _ _

/-! ## The two small layers -/

/-- max(Σ_a X_a · A1[k, a] + B1[k], 0) for every pair. -/
def layer8 (X : FVec Ideal S2048x2048x3 .f32) (a9 : FVec Ideal S8x3 .f32) (a10 : FVec Ideal S8 .f32) :
    FVec Ideal S2048x2048x8 .f32 :=
  maximumf
    (addf (Host.dotGeneral (F := Ideal) dot_S2048x2048x3_S8x3_S2048x2048x8_2_1_01_0_n_n none X a9)
      (broadcastInDim S2048x2048x8 ![0, 1, 2] bcast_S1x1x8_S2048x2048x8_0_1_2 (broadcastInDim S1x1x8 ![2] bcast_S8_S1x1x8_2 a10)))
    (broadcastInDim S2048x2048x8 ![] bcast_S_S2048x2048x8 (constant (F := Ideal) S_ .f32 0x00000000#32))

theorem layer8_apply (X : FVec Ideal S2048x2048x3 .f32) (a9 : FVec Ideal S8x3 .f32) (a10 : FVec Ideal S8 .f32)
    (i j : Fin 2048) (k : Fin 8) :
    layer8 X a9 a10 (ix3 i j k) = max (∑ a : Fin 3, X (ix3 i j a) * a9 (ix2 k a) + a10 (ix1 k)) 0 := by
  unfold layer8
  rw [maximumf_apply, addf_apply, broadcastInDim_scalar_apply, constant_apply, Ideal.ofBits_zero_f32,
    broadcastInDim_apply _ _ _ (ix3 i j k) (ix3 (0 : Fin 1) (0 : Fin 1) k) (fun a => by
      match a with | ⟨0, _⟩ => rfl | ⟨1, _⟩ => rfl | ⟨2, _⟩ => rfl),
    broadcastInDim_apply _ _ a10 (ix3 (0 : Fin 1) (0 : Fin 1) k) (ix1 k) (fun a => by
      match a with | ⟨0, _⟩ => rfl),
    dot_apply dot_S2048x2048x3_S8x3_S2048x2048x8_2_1_01_0_n_n 3 rfl rfl X a9 (ix3 i j k)
      (fun a => X (ix3 i j a)) (fun a => a9 (ix2 k a))
      (fun a => congrArg X (funext fun b => Fin.ext (by
        match b with | ⟨0, _⟩ => rfl | ⟨1, _⟩ => rfl | ⟨2, _⟩ => rfl)))
      (fun a => congrArg a9 (funext fun b => Fin.ext (by
        match b with | ⟨0, _⟩ => rfl | ⟨1, _⟩ => rfl)))]

/-- max(Σ_k Y_k · A2[h, k] + B2[h], 0) for every pair. -/
def layer32 (Y : FVec Ideal S2048x2048x8 .f32) (a11 : FVec Ideal S32x8 .f32) (a12 : FVec Ideal S32 .f32) :
    FVec Ideal S2048x2048x32 .f32 :=
  maximumf
    (addf (Host.dotGeneral (F := Ideal) dot_S2048x2048x8_S32x8_S2048x2048x32_2_1_01_0_n_n none Y a11)
      (broadcastInDim S2048x2048x32 ![0, 1, 2] bcast_S1x1x32_S2048x2048x32_0_1_2 (broadcastInDim S1x1x32 ![2] bcast_S32_S1x1x32_2 a12)))
    (broadcastInDim S2048x2048x32 ![] bcast_S_S2048x2048x32 (constant (F := Ideal) S_ .f32 0x00000000#32))

theorem layer32_apply (Y : FVec Ideal S2048x2048x8 .f32) (a11 : FVec Ideal S32x8 .f32) (a12 : FVec Ideal S32 .f32)
    (i j : Fin 2048) (h : Fin 32) :
    layer32 Y a11 a12 (ix3 i j h) = max (∑ k : Fin 8, Y (ix3 i j k) * a11 (ix2 h k) + a12 (ix1 h)) 0 := by
  unfold layer32
  rw [maximumf_apply, addf_apply, broadcastInDim_scalar_apply, constant_apply, Ideal.ofBits_zero_f32,
    broadcastInDim_apply _ _ _ (ix3 i j h) (ix3 (0 : Fin 1) (0 : Fin 1) h) (fun a => by
      match a with | ⟨0, _⟩ => rfl | ⟨1, _⟩ => rfl | ⟨2, _⟩ => rfl),
    broadcastInDim_apply _ _ a12 (ix3 (0 : Fin 1) (0 : Fin 1) h) (ix1 h) (fun a => by
      match a with | ⟨0, _⟩ => rfl),
    dot_apply dot_S2048x2048x8_S32x8_S2048x2048x32_2_1_01_0_n_n 8 rfl rfl Y a11 (ix3 i j h)
      (fun k => Y (ix3 i j k)) (fun k => a11 (ix2 h k))
      (fun k => congrArg Y (funext fun b => Fin.ext (by
        match b with | ⟨0, _⟩ => rfl | ⟨1, _⟩ => rfl | ⟨2, _⟩ => rfl)))
      (fun k => congrArg a11 (funext fun b => Fin.ext (by
        match b with | ⟨0, _⟩ => rfl | ⟨1, _⟩ => rfl)))]

/-! ## The weighted product and its sum over the keys -/

/-- window · Z_h · f_j[h] for every pair and channel. -/
def prodV (W : FVec Ideal S2048x2048 .f32) (Z : FVec Ideal S2048x2048x32 .f32) (Fn : FVec Ideal S2048x32 .f32) :
    FVec Ideal S2048x2048x32 .f32 :=
  mulf
    (mulf (broadcastInDim S2048x2048x32 ![0, 1, 2] bcast_S2048x2048x1_S2048x2048x32_0_1_2
        (broadcastInDim S2048x2048x1 ![0, 1] bcast_S2048x2048_S2048x2048x1_0_1 W)) Z)
    (broadcastInDim S2048x2048x32 ![0, 1, 2] bcast_S1x2048x32_S2048x2048x32_0_1_2
      (broadcastInDim S1x2048x32 ![1, 2] bcast_S2048x32_S1x2048x32_1_2 Fn))

theorem prodV_apply (W : FVec Ideal S2048x2048 .f32) (Z : FVec Ideal S2048x2048x32 .f32) (Fn : FVec Ideal S2048x32 .f32)
    (i j : Fin 2048) (h : Fin 32) :
    prodV W Z Fn (ix3 i j h) = W (ix2 i j) * Z (ix3 i j h) * Fn (ix2 j h) := by
  unfold prodV
  rw [mulf_apply, mulf_apply,
    broadcastInDim_apply _ _ _ (ix3 i j h) (ix3 i j (0 : Fin 1)) (fun a => by
      match a with | ⟨0, _⟩ => rfl | ⟨1, _⟩ => rfl | ⟨2, _⟩ => rfl),
    broadcastInDim_apply _ _ W (ix3 i j (0 : Fin 1)) (ix2 i j) (fun a => by
      match a with | ⟨0, _⟩ => rfl | ⟨1, _⟩ => rfl),
    broadcastInDim_apply _ _ _ (ix3 i j h) (ix3 (0 : Fin 1) j h) (fun a => by
      match a with | ⟨0, _⟩ => rfl | ⟨1, _⟩ => rfl | ⟨2, _⟩ => rfl),
    broadcastInDim_apply _ _ Fn (ix3 (0 : Fin 1) j h) (ix2 j h) (fun a => by
      match a with | ⟨0, _⟩ => rfl | ⟨1, _⟩ => rfl)]

/-- The sum over the keys. -/
def aggV (PR : FVec Ideal S2048x2048x32 .f32) : FVec Ideal S2048x32 .f32 :=
  Host.reduceAdd PR (constant (F := Ideal) S_ .f32 0x00000000#32) reducesTo_S2048x2048x32_S2048x32_d1 h_S_

theorem aggV_apply (PR : FVec Ideal S2048x2048x32 .f32) (i : Fin 2048) (h : Fin 32) :
    aggV PR (ix2 i h) = ∑ j : Fin 2048, PR (ix3 i j h) := by
  unfold aggV
  rw [reduceAdd_zero_apply PR reducesTo_S2048x2048x32_S2048x32_d1 (by decide) h_S_ (ix2 i h)]
  refine Finset.sum_congr rfl fun j _ => ?_
  have e : Shape.Reduces.lift (by decide : S2048x2048x32.Reduces [1] S2048x32) (ix2 i h) j = ix3 i j h := by
    funext a
    match a with
    | ⟨0, _⟩ => exact Fin.ext rfl
    | ⟨1, _⟩ => exact Fin.ext rfl
    | ⟨2, _⟩ => exact Fin.ext rfl
  rw [e]
  try rfl

/-! ## The whole middle, and what it is -/

/-- The middle of the program as one function of its operands: the printed operations in printed order, each bound once. -/
def midR (P : FVec Ideal S2048x3 .f32) (Fn : FVec Ideal S2048x32 .f32) (a1 : FVec Ideal S2048x3x3 .f32)
    (a9 : FVec Ideal S8x3 .f32) (a10 : FVec Ideal S8 .f32) (a11 : FVec Ideal S32x8 .f32) (a12 : FVec Ideal S32 .f32) :
    FVec Ideal S2048x32 .f32 :=
  let v44 := extractStridedSlice S2048x1x3 ![0, 0, 0] a1 slices_S2048x3x3_S2048x1x3_0_0_0
  let v45 := shapeCast S2048x3 v44 shapeCasts_S2048x1x3_S2048x3
  let v46 := broadcastInDim S1x2048x3 ![1, 2] bcast_S2048x3_S1x2048x3_1_2 P
  let v47 := broadcastInDim S2048x1x3 ![0, 2] bcast_S2048x3_S2048x1x3_0_2 P
  let v48 := broadcastInDim S2048x2048x3 ![0, 1, 2] bcast_S1x2048x3_S2048x2048x3_0_1_2 v46
  let v49 := broadcastInDim S2048x2048x3 ![0, 1, 2] bcast_S2048x1x3_S2048x2048x3_0_1_2 v47
  let v50 := subf v48 v49
  let v51 := mulf v50 v50
  let cst_7 := constant (F := Ideal) S_ .f32 0x00000000#32
  let v52 := Host.reduceAdd v51 cst_7 reducesTo_S2048x2048x3_S2048x2048_d2 h_S_
  let v53 := transpose S3x2048 [1, 0] v45 transposes_S2048x3_S3x2048_1_0
  let v54 := Host.dotGeneral (F := Ideal) dot_S2048x3_S3x2048_S2048x2048_1_0_0_1_n_n none v45 v53
  let v55 := Host.negf v52
  let cst_8 := constant (F := Ideal) S_ .f32 0x40000000#32
  let v56 := broadcastInDim S2048x2048 ![] bcast_S_S2048x2048 cst_8
  let v57 := subf v56 v54
  let v58 := mulf v57 v57
  let v59 := mulf v55 v58
  let v60 := Host.exp v59
  let v61 := Host.dotGeneral (F := Ideal) dot_S2048x2048x3_S2048x3x3_S2048x2048x3_2_2_1_1_0_0 none v50 a1
  let v62 := Host.dotGeneral (F := Ideal) dot_S2048x2048x3_S8x3_S2048x2048x8_2_1_01_0_n_n none v61 a9
  let v63 := broadcastInDim S1x1x8 ![2] bcast_S8_S1x1x8_2 a10
  let v64 := broadcastInDim S2048x2048x8 ![0, 1, 2] bcast_S1x1x8_S2048x2048x8_0_1_2 v63
  let v65 := addf v62 v64
  let call3_cst := constant (F := Ideal) S_ .f32 0x00000000#32
  let call3_v0 := broadcastInDim S2048x2048x8 ![] bcast_S_S2048x2048x8 call3_cst
  let v66 := maximumf v65 call3_v0
  let v67 := Host.dotGeneral (F := Ideal) dot_S2048x2048x8_S32x8_S2048x2048x32_2_1_01_0_n_n none v66 a11
  let v68 := broadcastInDim S1x1x32 ![2] bcast_S32_S1x1x32_2 a12
  let v69 := broadcastInDim S2048x2048x32 ![0, 1, 2] bcast_S1x1x32_S2048x2048x32_0_1_2 v68
  let v70 := addf v67 v69
  let call4_cst := constant (F := Ideal) S_ .f32 0x00000000#32
  let call4_v0 := broadcastInDim S2048x2048x32 ![] bcast_S_S2048x2048x32 call4_cst
  let v71 := maximumf v70 call4_v0
  let v72 := broadcastInDim S2048x2048x1 ![0, 1] bcast_S2048x2048_S2048x2048x1_0_1 v60
  let v73 := broadcastInDim S2048x2048x32 ![0, 1, 2] bcast_S2048x2048x1_S2048x2048x32_0_1_2 v72
  let v74 := mulf v73 v71
  let v75 := broadcastInDim S1x2048x32 ![1, 2] bcast_S2048x32_S1x2048x32_1_2 Fn
  let v76 := broadcastInDim S2048x2048x32 ![0, 1, 2] bcast_S1x2048x32_S2048x2048x32_0_1_2 v75
  let v77 := mulf v74 v76
  let cst_9 := constant (F := Ideal) S_ .f32 0x00000000#32
  Host.reduceAdd v77 cst_9 reducesTo_S2048x2048x32_S2048x32_d1 h_S_

/-- The same function as the composition of its stages. -/
theorem midR_eq (P : FVec Ideal S2048x3 .f32) (Fn : FVec Ideal S2048x32 .f32) (a1 : FVec Ideal S2048x3x3 .f32)
    (a9 : FVec Ideal S8x3 .f32) (a10 : FVec Ideal S8 .f32) (a11 : FVec Ideal S32x8 .f32) (a12 : FVec Ideal S32 .f32) :
    midR P Fn a1 a9 a10 a11 a12
      = aggV (prodV (winV (sqdV (diffV P)) (dotnnV (nrmV a1))) (layer32 (layer8 (xV (diffV P) a1) a9 a10) a11 a12) Fn) := rfl

/-- The frames flattened row-major to nine entries each, as the specification reads them. -/
def nuvOf (a1 : FVec Ideal S2048x3x3 .f32) (j : Fin 2048) (k : Fin 9) : EReal :=
  a1 (ix3 j (⟨k.val / 3, by omega⟩ : Fin 3) (⟨k.val % 3, by omega⟩ : Fin 3))

theorem nuvOf_n9 (a1 : FVec Ideal S2048x3x3 .f32) (j : Fin 2048) (a c : Fin 3) :
    nuvOf a1 j (Cert.GeoSpec.n9 a c) = a1 (ix3 j a c) := by
  have ea : (⟨(Cert.GeoSpec.n9 a c).val / 3, by have := (Cert.GeoSpec.n9 a c).isLt; omega⟩ : Fin 3) = a :=
    Fin.ext (by show (3 * a.val + c.val) / 3 = a.val; omega)
  have ec : (⟨(Cert.GeoSpec.n9 a c).val % 3, by omega⟩ : Fin 3) = c :=
    Fin.ext (by show (3 * a.val + c.val) % 3 = c.val; omega)
  unfold nuvOf
  rw [ea, ec]

/-- THE MIDDLE AT AN INDEX: channel h of query point n is the specification's aggregate of the pair terms over all
    keys, of the scaled points, the frames, the normalized features and the two layers' weights. -/
theorem midR_apply (P : FVec Ideal S2048x3 .f32) (Fn : FVec Ideal S2048x32 .f32) (a1 : FVec Ideal S2048x3x3 .f32)
    (a9 : FVec Ideal S8x3 .f32) (a10 : FVec Ideal S8 .f32) (a11 : FVec Ideal S32x8 .f32) (a12 : FVec Ideal S32 .f32)
    (n : Fin 2048) (h : Fin 32) :
    midR P Fn a1 a9 a10 a11 a12 (ix2 n h)
      = Cert.GeoSpec.agg (fun j c => P (ix2 j c)) (nuvOf a1) (fun j h => Fn (ix2 j h)) (fun k a => a9 (ix2 k a))
          (fun k => a10 (ix1 k)) (fun h k => a11 (ix2 h k)) (fun h => a12 (ix1 h)) n h := by
  rw [midR_eq, aggV_apply]
  unfold Cert.GeoSpec.agg
  refine Finset.sum_congr rfl fun j _ => ?_
  unfold Cert.GeoSpec.pair Cert.GeoSpec.window Cert.GeoSpec.xc2 Cert.GeoSpec.xc1 Cert.GeoSpec.X Cert.GeoSpec.sqd
    Cert.GeoSpec.dotnn Cert.GeoSpec.diff
  simp only [prodV_apply, winV_apply, sqdV_apply, dotnnV_apply, layer32_apply, layer8_apply, xV_apply, diffV_apply,
    nrmV_apply, nuvOf_n9]

end Cert.ReferenceIdeal.RefMid

end
-- ==== Proof.RefValue.lean ====
/- The reference's result buffers as functions of its arguments, on the extended reals.

   The 189 operations are cut at two buffers: the 75 before the all-pairs stage (the two small networks on the
   features, the first normalization, the scaled points), the 42 of the all-pairs stage, which read the scaled points,
   the normalized features, the frames and the two layers' weights and end in the sum over the keys, and the 72 after it
   (the output network and the second normalization). Every buffer is written once, so what a stage leaves in its
   result buffer is still there at the end, and what it reads is what the earlier stage left. -/
import proofs.«170118_j14654428414389_2_alg».proof.Proof.RefRun
import proofs.«170118_j14654428414389_2_alg».proof.Proof.RefMid

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx

variable {F : FTy → Type} [FloatOps F]

/-- The 75 operations before the all-pairs stage. -/
abbrev preOps : List (HloOp τ sig (Elt F)) :=
  [ StableHlo.unary main_arg3 main_v0 ((transpose S16x32 [1, 0] · transposes_S32x16_S16x32_1_0) : (⟨S32x16, .f32⟩ : BufTy).Contents (Elt F) → (⟨S16x32, .f32⟩ : BufTy).Contents (Elt F)),
    StableHlo.binary main_arg2 main_v0 main_v1 ((fun l r => Host.dotGeneral dot_S2048x16_S16x32_S2048x32_1_0_0_1_n_n none l r) : (⟨S2048x16, .f32⟩ : BufTy).Contents (Elt F) → (⟨S16x32, .f32⟩ : BufTy).Contents (Elt F) → (⟨S2048x32, .f32⟩ : BufTy).Contents (Elt F)),
    StableHlo.unary main_arg4 main_v2 (broadcastInDim S1x32 ![1] bcast_S32_S1x32_1 : (⟨S32, .f32⟩ : BufTy).Contents (Elt F) → (⟨S1x32, .f32⟩ : BufTy).Contents (Elt F)),
    StableHlo.unary main_v2 main_v3 (broadcastInDim S2048x32 ![0, 1] bcast_S1x32_S2048x32_0_1 : (⟨S1x32, .f32⟩ : BufTy).Contents (Elt F) → (⟨S2048x32, .f32⟩ : BufTy).Contents (Elt F)),
    StableHlo.binary main_v1 main_v3 main_v4 (addf : (⟨S2048x32, .f32⟩ : BufTy).Contents (Elt F) → (⟨S2048x32, .f32⟩ : BufTy).Contents (Elt F) → (⟨S2048x32, .f32⟩ : BufTy).Contents (Elt F)),
    StableHlo.nullary main_cst (constant S_ .f32 0x00000000#32),
    StableHlo.unary main_cst main_v5 (broadcastInDim S2048x32 ![] bcast_S_S2048x32 : (⟨S_, .f32⟩ : BufTy).Contents (Elt F) → (⟨S2048x32, .f32⟩ : BufTy).Contents (Elt F)),
    StableHlo.binary main_v4 main_v5 main_v6 (cmpf .oge : (⟨S2048x32, .f32⟩ : BufTy).Contents (Elt F) → (⟨S2048x32, .f32⟩ : BufTy).Contents (Elt F) → (⟨S2048x32, .i1⟩ : BufTy).Contents (Elt F)),
    StableHlo.nullary main_cst_0 (constant S_ .f32 0x3E4CCCCD#32),
    StableHlo.unary main_cst_0 main_v7 (broadcastInDim S2048x32 ![] bcast_S_S2048x32 : (⟨S_, .f32⟩ : BufTy).Contents (Elt F) → (⟨S2048x32, .f32⟩ : BufTy).Contents (Elt F)),
    StableHlo.binary main_v7 main_v4 main_v8 (mulf : (⟨S2048x32, .f32⟩ : BufTy).Contents (Elt F) → (⟨S2048x32, .f32⟩ : BufTy).Contents (Elt F) → (⟨S2048x32, .f32⟩ : BufTy).Contents (Elt F)),
    StableHlo.TRef.ternary (.of main_v6 : StableHlo.TRef sig ⟨S2048x32, .i1⟩) (.of main_v4 : StableHlo.TRef sig ⟨S2048x32, .f32⟩) (.of main_v8 : StableHlo.TRef sig ⟨S2048x32, .f32⟩) main_call0.v0 select,
    StableHlo.unary main_arg5 main_v10 ((transpose S32x32 [1, 0] · transposes_S32x32_S32x32_1_0) : (⟨S32x32, .f32⟩ : BufTy).Contents (Elt F) → (⟨S32x32, .f32⟩ : BufTy).Contents (Elt F)),
    StableHlo.binary main_v9 main_v10 main_v11 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.unary main_arg6 main_v12 (broadcastInDim S1x32 ![1] bcast_S32_S1x32_1 : (⟨S32, .f32⟩ : BufTy).Contents (Elt F) → (⟨S1x32, .f32⟩ : BufTy).Contents (Elt F)),
    StableHlo.unary main_v12 main_v13 (broadcastInDim S2048x32 ![0, 1] bcast_S1x32_S2048x32_0_1 : (⟨S1x32, .f32⟩ : BufTy).Contents (Elt F) → (⟨S2048x32, .f32⟩ : BufTy).Contents (Elt F)),
    StableHlo.binary main_v11 main_v13 main_v14 (addf : (⟨S2048x32, .f32⟩ : BufTy).Contents (Elt F) → (⟨S2048x32, .f32⟩ : BufTy).Contents (Elt F) → (⟨S2048x32, .f32⟩ : BufTy).Contents (Elt F)),
    StableHlo.nullary main_cst_1 (constant S_ .f32 0x00000000#32),
    StableHlo.unary main_cst_1 main_v15 (broadcastInDim S2048x32 ![] bcast_S_S2048x32 : (⟨S_, .f32⟩ : BufTy).Contents (Elt F) → (⟨S2048x32, .f32⟩ : BufTy).Contents (Elt F)),
    StableHlo.binary main_v14 main_v15 main_v16 (cmpf .oge : (⟨S2048x32, .f32⟩ : BufTy).Contents (Elt F) → (⟨S2048x32, .f32⟩ : BufTy).Contents (Elt F) → (⟨S2048x32, .i1⟩ : BufTy).Contents (Elt F)),
    StableHlo.nullary main_cst_2 (constant S_ .f32 0x3E4CCCCD#32),
    StableHlo.unary main_cst_2 main_v17 (broadcastInDim S2048x32 ![] bcast_S_S2048x32 : (⟨S_, .f32⟩ : BufTy).Contents (Elt F) → (⟨S2048x32, .f32⟩ : BufTy).Contents (Elt F)),
    StableHlo.binary main_v17 main_v14 main_v18 (mulf : (⟨S2048x32, .f32⟩ : BufTy).Contents (Elt F) → (⟨S2048x32, .f32⟩ : BufTy).Contents (Elt F) → (⟨S2048x32, .f32⟩ : BufTy).Contents (Elt F)),
    StableHlo.TRef.ternary (.of main_v16 : StableHlo.TRef sig ⟨S2048x32, .i1⟩) (.of main_v14 : StableHlo.TRef sig ⟨S2048x32, .f32⟩) (.of main_v18 : StableHlo.TRef sig ⟨S2048x32, .f32⟩) main_call1.v0 select,
    StableHlo.unary main_v19 main_v20 ((transpose S32x2048 [1, 0] · transposes_S2048x32_S32x2048_1_0) : (⟨S2048x32, .f32⟩ : BufTy).Contents (Elt F) → (⟨S32x2048, .f32⟩ : BufTy).Contents (Elt F)),
    StableHlo.reshape main_v20 main_v21 rfl shapeCasts_S32x2048_S4x16384,
    StableHlo.nullary main_cst_3 (constant S_ .f32 0x00000000#32),
    StableHlo.binary main_v21 main_cst_3 main_v22 ((fun x v => Host.reduceAdd x v reducesTo_S4x16384_S4_d1 h_S_) : (⟨S4x16384, .f32⟩ : BufTy).Contents (Elt F) → (⟨S_, .f32⟩ : BufTy).Contents (Elt F) → (⟨S4, .f32⟩ : BufTy).Contents (Elt F)),
    StableHlo.unary main_v22 main_v23 (broadcastInDim S4x1 ![0] bcast_S4_S4x1_0 : (⟨S4, .f32⟩ : BufTy).Contents (Elt F) → (⟨S4x1, .f32⟩ : BufTy).Contents (Elt F)),
    StableHlo.nullary main_cst_4 (constant S_ .f32 0x46800000#32),
    StableHlo.unary main_cst_4 main_v24 (broadcastInDim S4x1 ![] bcast_S_S4x1 : (⟨S_, .f32⟩ : BufTy).Contents (Elt F) → (⟨S4x1, .f32⟩ : BufTy).Contents (Elt F)),
    StableHlo.binary main_v23 main_v24 main_v25 (Host.divf : (⟨S4x1, .f32⟩ : BufTy).Contents (Elt F) → (⟨S4x1, .f32⟩ : BufTy).Contents (Elt F) → (⟨S4x1, .f32⟩ : BufTy).Contents (Elt F)),
    StableHlo.nullary main_c (constantI S_ 32 0#32),
    StableHlo.TRef.nullary main_call2.cst (constant S_ .f32 0x00000000#32),
    StableHlo.TRef.binary (.of main_v21 : StableHlo.TRef sig ⟨S4x16384, .f32⟩) main_call2.cst main_call2.v0 (fun x v => Host.reduceAdd x v reducesTo_S4x16384_S4_d1 h_S_),
    StableHlo.TRef.unary main_call2.v0 main_call2.v1 (broadcastInDim S4x1 ![0] bcast_S4_S4x1_0),
    StableHlo.TRef.nullary main_call2.cst_0 (constant S_ .f32 0x46800000#32),
    StableHlo.TRef.unary main_call2.cst_0 main_call2.v2 (broadcastInDim S4x1 ![] bcast_S_S4x1),
    StableHlo.TRef.binary main_call2.v1 main_call2.v2 main_call2.v3 Host.divf,
    StableHlo.TRef.unary main_call2.v3 main_call2.v4 (broadcastInDim S4x16384 ![0, 1] bcast_S4x1_S4x16384_0_1),
    StableHlo.TRef.binary (.of main_v21 : StableHlo.TRef sig ⟨S4x16384, .f32⟩) main_call2.v4 main_call2.v5 subf,
    StableHlo.TRef.binary main_call2.v5 main_call2.v5 main_call2.v6 mulf,
    StableHlo.TRef.unary (.of main_c : StableHlo.TRef sig ⟨S_, .i32⟩) main_call2.v7 (sitofp .f32),
    StableHlo.TRef.nullary main_call2.cst_1 (constant S_ .f32 0x46800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S4x16384_S4_d1 h_S_),
    StableHlo.TRef.unary main_call2.v9 main_call2.v10 (broadcastInDim S4x1 ![0] bcast_S4_S4x1_0),
    StableHlo.TRef.unary main_call2.v8 main_call2.v11 (broadcastInDim S4x1 ![] bcast_S_S4x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S4x1 ![] bcast_S_S4x1),
    StableHlo.TRef.ternary main_call2.v13 main_call2.v12 main_call2.call0.v1 main_call2.call0.v2 (fun p a b => select (broadcastInDim S4x1 ![] bcast_S_S4x1 p) a b),
    StableHlo.unary main_v25 main_v27 (broadcastInDim S4x16384 ![0, 1] bcast_S4x1_S4x16384_0_1 : (⟨S4x1, .f32⟩ : BufTy).Contents (Elt F) → (⟨S4x16384, .f32⟩ : BufTy).Contents (Elt F)),
    StableHlo.binary main_v21 main_v27 main_v28 (subf : (⟨S4x16384, .f32⟩ : BufTy).Contents (Elt F) → (⟨S4x16384, .f32⟩ : BufTy).Contents (Elt F) → (⟨S4x16384, .f32⟩ : BufTy).Contents (Elt F)),
    StableHlo.nullary main_cst_5 (constant S_ .f32 0x3727C5AC#32),
    StableHlo.unary main_cst_5 main_v29 (broadcastInDim S4x1 ![] bcast_S_S4x1 : (⟨S_, .f32⟩ : BufTy).Contents (Elt F) → (⟨S4x1, .f32⟩ : BufTy).Contents (Elt F)),
    StableHlo.binary main_v26 main_v29 main_v30 (addf : (⟨S4x1, .f32⟩ : BufTy).Contents (Elt F) → (⟨S4x1, .f32⟩ : BufTy).Contents (Elt F) → (⟨S4x1, .f32⟩ : BufTy).Contents (Elt F)),
    StableHlo.unary main_v30 main_v31 (Host.sqrt : (⟨S4x1, .f32⟩ : BufTy).Contents (Elt F) → (⟨S4x1, .f32⟩ : BufTy).Contents (Elt F)),
    StableHlo.unary main_v31 main_v32 (broadcastInDim S4x16384 ![0, 1] bcast_S4x1_S4x16384_0_1 : (⟨S4x1, .f32⟩ : BufTy).Contents (Elt F) → (⟨S4x16384, .f32⟩ : BufTy).Contents (Elt F)),
    StableHlo.binary main_v28 main_v32 main_v33 (Host.divf : (⟨S4x16384, .f32⟩ : BufTy).Contents (Elt F) → (⟨S4x16384, .f32⟩ : BufTy).Contents (Elt F) → (⟨S4x16384, .f32⟩ : BufTy).Contents (Elt F)),
    StableHlo.reshape main_v33 main_v34 rfl shapeCasts_S4x16384_S32x2048,
    StableHlo.unary main_arg7 main_v35 (broadcastInDim S32x1 ![0] bcast_S32_S32x1_0 : (⟨S32, .f32⟩ : BufTy).Contents (Elt F) → (⟨S32x1, .f32⟩ : BufTy).Contents (Elt F)),
    StableHlo.unary main_v35 main_v36 (broadcastInDim S32x2048 ![0, 1] bcast_S32x1_S32x2048_0_1 : (⟨S32x1, .f32⟩ : BufTy).Contents (Elt F) → (⟨S32x2048, .f32⟩ : BufTy).Contents (Elt F)),
    StableHlo.binary main_v34 main_v36 main_v37 (mulf : (⟨S32x2048, .f32⟩ : BufTy).Contents (Elt F) → (⟨S32x2048, .f32⟩ : BufTy).Contents (Elt F) → (⟨S32x2048, .f32⟩ : BufTy).Contents (Elt F)),
    StableHlo.unary main_arg8 main_v38 (broadcastInDim S32x1 ![0] bcast_S32_S32x1_0 : (⟨S32, .f32⟩ : BufTy).Contents (Elt F) → (⟨S32x1, .f32⟩ : BufTy).Contents (Elt F)),
    StableHlo.unary main_v38 main_v39 (broadcastInDim S32x2048 ![0, 1] bcast_S32x1_S32x2048_0_1 : (⟨S32x1, .f32⟩ : BufTy).Contents (Elt F) → (⟨S32x2048, .f32⟩ : BufTy).Contents (Elt F)),
    StableHlo.binary main_v37 main_v39 main_v40 (addf : (⟨S32x2048, .f32⟩ : BufTy).Contents (Elt F) → (⟨S32x2048, .f32⟩ : BufTy).Contents (Elt F) → (⟨S32x2048, .f32⟩ : BufTy).Contents (Elt F)),
    StableHlo.unary main_v40 main_v41 ((transpose S2048x32 [1, 0] · transposes_S32x2048_S2048x32_1_0) : (⟨S32x2048, .f32⟩ : BufTy).Contents (Elt F) → (⟨S2048x32, .f32⟩ : BufTy).Contents (Elt F)),
    StableHlo.nullary main_cst_6 (constant S_ .f32 0x414BA592#32),
    StableHlo.unary main_cst_6 main_v42 (broadcastInDim S2048x3 ![] bcast_S_S2048x3 : (⟨S_, .f32⟩ : BufTy).Contents (Elt F) → (⟨S2048x3, .f32⟩ : BufTy).Contents (Elt F)),
    StableHlo.binary main_arg0 main_v42 main_v43 (Host.divf : (⟨S2048x3, .f32⟩ : BufTy).Contents (Elt F) → (⟨S2048x3, .f32⟩ : BufTy).Contents (Elt F) → (⟨S2048x3, .f32⟩ : BufTy).Contents (Elt F)) ]

/-- The 42 operations of the all-pairs stage, the slice of the normals to the sum over the keys. -/
abbrev midOps : List (HloOp τ sig (Elt F)) :=
  [ StableHlo.unary main_arg1 main_v44 ((extractStridedSlice S2048x1x3 ![0, 0, 0] · slices_S2048x3x3_S2048x1x3_0_0_0) : (⟨S2048x3x3, .f32⟩ : BufTy).Contents (Elt F) → (⟨S2048x1x3, .f32⟩ : BufTy).Contents (Elt F)),
    StableHlo.reshape main_v44 main_v45 rfl shapeCasts_S2048x1x3_S2048x3,
    StableHlo.unary main_v43 main_v46 (broadcastInDim S1x2048x3 ![1, 2] bcast_S2048x3_S1x2048x3_1_2 : (⟨S2048x3, .f32⟩ : BufTy).Contents (Elt F) → (⟨S1x2048x3, .f32⟩ : BufTy).Contents (Elt F)),
    StableHlo.unary main_v43 main_v47 (broadcastInDim S2048x1x3 ![0, 2] bcast_S2048x3_S2048x1x3_0_2 : (⟨S2048x3, .f32⟩ : BufTy).Contents (Elt F) → (⟨S2048x1x3, .f32⟩ : BufTy).Contents (Elt F)),
    StableHlo.unary main_v46 main_v48 (broadcastInDim S2048x2048x3 ![0, 1, 2] bcast_S1x2048x3_S2048x2048x3_0_1_2 : (⟨S1x2048x3, .f32⟩ : BufTy).Contents (Elt F) → (⟨S2048x2048x3, .f32⟩ : BufTy).Contents (Elt F)),
    StableHlo.unary main_v47 main_v49 (broadcastInDim S2048x2048x3 ![0, 1, 2] bcast_S2048x1x3_S2048x2048x3_0_1_2 : (⟨S2048x1x3, .f32⟩ : BufTy).Contents (Elt F) → (⟨S2048x2048x3, .f32⟩ : BufTy).Contents (Elt F)),
    StableHlo.binary main_v48 main_v49 main_v50 (subf : (⟨S2048x2048x3, .f32⟩ : BufTy).Contents (Elt F) → (⟨S2048x2048x3, .f32⟩ : BufTy).Contents (Elt F) → (⟨S2048x2048x3, .f32⟩ : BufTy).Contents (Elt F)),
    StableHlo.binary main_v50 main_v50 main_v51 (mulf : (⟨S2048x2048x3, .f32⟩ : BufTy).Contents (Elt F) → (⟨S2048x2048x3, .f32⟩ : BufTy).Contents (Elt F) → (⟨S2048x2048x3, .f32⟩ : BufTy).Contents (Elt F)),
    StableHlo.nullary main_cst_7 (constant S_ .f32 0x00000000#32),
    StableHlo.binary main_v51 main_cst_7 main_v52 ((fun x v => Host.reduceAdd x v reducesTo_S2048x2048x3_S2048x2048_d2 h_S_) : (⟨S2048x2048x3, .f32⟩ : BufTy).Contents (Elt F) → (⟨S_, .f32⟩ : BufTy).Contents (Elt F) → (⟨S2048x2048, .f32⟩ : BufTy).Contents (Elt F)),
    StableHlo.unary main_v45 main_v53 ((transpose S3x2048 [1, 0] · transposes_S2048x3_S3x2048_1_0) : (⟨S2048x3, .f32⟩ : BufTy).Contents (Elt F) → (⟨S3x2048, .f32⟩ : BufTy).Contents (Elt F)),
    StableHlo.binary main_v45 main_v53 main_v54 ((fun l r => Host.dotGeneral dot_S2048x3_S3x2048_S2048x2048_1_0_0_1_n_n none l r) : (⟨S2048x3, .f32⟩ : BufTy).Contents (Elt F) → (⟨S3x2048, .f32⟩ : BufTy).Contents (Elt F) → (⟨S2048x2048, .f32⟩ : BufTy).Contents (Elt F)),
    StableHlo.unary main_v52 main_v55 (Host.negf : (⟨S2048x2048, .f32⟩ : BufTy).Contents (Elt F) → (⟨S2048x2048, .f32⟩ : BufTy).Contents (Elt F)),
    StableHlo.nullary main_cst_8 (constant S_ .f32 0x40000000#32),
    StableHlo.unary main_cst_8 main_v56 (broadcastInDim S2048x2048 ![] bcast_S_S2048x2048 : (⟨S_, .f32⟩ : BufTy).Contents (Elt F) → (⟨S2048x2048, .f32⟩ : BufTy).Contents (Elt F)),
    StableHlo.binary main_v56 main_v54 main_v57 (subf : (⟨S2048x2048, .f32⟩ : BufTy).Contents (Elt F) → (⟨S2048x2048, .f32⟩ : BufTy).Contents (Elt F) → (⟨S2048x2048, .f32⟩ : BufTy).Contents (Elt F)),
    StableHlo.binary main_v57 main_v57 main_v58 (mulf : (⟨S2048x2048, .f32⟩ : BufTy).Contents (Elt F) → (⟨S2048x2048, .f32⟩ : BufTy).Contents (Elt F) → (⟨S2048x2048, .f32⟩ : BufTy).Contents (Elt F)),
    StableHlo.binary main_v55 main_v58 main_v59 (mulf : (⟨S2048x2048, .f32⟩ : BufTy).Contents (Elt F) → (⟨S2048x2048, .f32⟩ : BufTy).Contents (Elt F) → (⟨S2048x2048, .f32⟩ : BufTy).Contents (Elt F)),
    StableHlo.unary main_v59 main_v60 (Host.exp : (⟨S2048x2048, .f32⟩ : BufTy).Contents (Elt F) → (⟨S2048x2048, .f32⟩ : BufTy).Contents (Elt F)),
    StableHlo.binary main_v50 main_arg1 main_v61 ((fun l r => Host.dotGeneral dot_S2048x2048x3_S2048x3x3_S2048x2048x3_2_2_1_1_0_0 none l r) : (⟨S2048x2048x3, .f32⟩ : BufTy).Contents (Elt F) → (⟨S2048x3x3, .f32⟩ : BufTy).Contents (Elt F) → (⟨S2048x2048x3, .f32⟩ : BufTy).Contents (Elt F)),
    StableHlo.binary main_v61 main_arg9 main_v62 ((fun l r => Host.dotGeneral dot_S2048x2048x3_S8x3_S2048x2048x8_2_1_01_0_n_n none l r) : (⟨S2048x2048x3, .f32⟩ : BufTy).Contents (Elt F) → (⟨S8x3, .f32⟩ : BufTy).Contents (Elt F) → (⟨S2048x2048x8, .f32⟩ : BufTy).Contents (Elt F)),
    StableHlo.unary main_arg10 main_v63 (broadcastInDim S1x1x8 ![2] bcast_S8_S1x1x8_2 : (⟨S8, .f32⟩ : BufTy).Contents (Elt F) → (⟨S1x1x8, .f32⟩ : BufTy).Contents (Elt F)),
    StableHlo.unary main_v63 main_v64 (broadcastInDim S2048x2048x8 ![0, 1, 2] bcast_S1x1x8_S2048x2048x8_0_1_2 : (⟨S1x1x8, .f32⟩ : BufTy).Contents (Elt F) → (⟨S2048x2048x8, .f32⟩ : BufTy).Contents (Elt F)),
    StableHlo.binary main_v62 main_v64 main_v65 (addf : (⟨S2048x2048x8, .f32⟩ : BufTy).Contents (Elt F) → (⟨S2048x2048x8, .f32⟩ : BufTy).Contents (Elt F) → (⟨S2048x2048x8, .f32⟩ : BufTy).Contents (Elt F)),
    StableHlo.TRef.nullary main_call3.cst (constant S_ .f32 0x00000000#32),
    StableHlo.TRef.unary main_call3.cst main_call3.v0 (broadcastInDim S2048x2048x8 ![] bcast_S_S2048x2048x8),
    StableHlo.TRef.binary (.of main_v65 : StableHlo.TRef sig ⟨S2048x2048x8, .f32⟩) main_call3.v0 main_call3.v1 maximumf,
    StableHlo.binary main_v66 main_arg11 main_v67 ((fun l r => Host.dotGeneral dot_S2048x2048x8_S32x8_S2048x2048x32_2_1_01_0_n_n none l r) : (⟨S2048x2048x8, .f32⟩ : BufTy).Contents (Elt F) → (⟨S32x8, .f32⟩ : BufTy).Contents (Elt F) → (⟨S2048x2048x32, .f32⟩ : BufTy).Contents (Elt F)),
    StableHlo.unary main_arg12 main_v68 (broadcastInDim S1x1x32 ![2] bcast_S32_S1x1x32_2 : (⟨S32, .f32⟩ : BufTy).Contents (Elt F) → (⟨S1x1x32, .f32⟩ : BufTy).Contents (Elt F)),
    StableHlo.unary main_v68 main_v69 (broadcastInDim S2048x2048x32 ![0, 1, 2] bcast_S1x1x32_S2048x2048x32_0_1_2 : (⟨S1x1x32, .f32⟩ : BufTy).Contents (Elt F) → (⟨S2048x2048x32, .f32⟩ : BufTy).Contents (Elt F)),
    StableHlo.binary main_v67 main_v69 main_v70 (addf : (⟨S2048x2048x32, .f32⟩ : BufTy).Contents (Elt F) → (⟨S2048x2048x32, .f32⟩ : BufTy).Contents (Elt F) → (⟨S2048x2048x32, .f32⟩ : BufTy).Contents (Elt F)),
    StableHlo.TRef.nullary main_call4.cst (constant S_ .f32 0x00000000#32),
    StableHlo.TRef.unary main_call4.cst main_call4.v0 (broadcastInDim S2048x2048x32 ![] bcast_S_S2048x2048x32),
    StableHlo.TRef.binary (.of main_v70 : StableHlo.TRef sig ⟨S2048x2048x32, .f32⟩) main_call4.v0 main_call4.v1 maximumf,
    StableHlo.unary main_v60 main_v72 (broadcastInDim S2048x2048x1 ![0, 1] bcast_S2048x2048_S2048x2048x1_0_1 : (⟨S2048x2048, .f32⟩ : BufTy).Contents (Elt F) → (⟨S2048x2048x1, .f32⟩ : BufTy).Contents (Elt F)),
    StableHlo.unary main_v72 main_v73 (broadcastInDim S2048x2048x32 ![0, 1, 2] bcast_S2048x2048x1_S2048x2048x32_0_1_2 : (⟨S2048x2048x1, .f32⟩ : BufTy).Contents (Elt F) → (⟨S2048x2048x32, .f32⟩ : BufTy).Contents (Elt F)),
    StableHlo.binary main_v73 main_v71 main_v74 (mulf : (⟨S2048x2048x32, .f32⟩ : BufTy).Contents (Elt F) → (⟨S2048x2048x32, .f32⟩ : BufTy).Contents (Elt F) → (⟨S2048x2048x32, .f32⟩ : BufTy).Contents (Elt F)),
    StableHlo.unary main_v41 main_v75 (broadcastInDim S1x2048x32 ![1, 2] bcast_S2048x32_S1x2048x32_1_2 : (⟨S2048x32, .f32⟩ : BufTy).Contents (Elt F) → (⟨S1x2048x32, .f32⟩ : BufTy).Contents (Elt F)),
    StableHlo.unary main_v75 main_v76 (broadcastInDim S2048x2048x32 ![0, 1, 2] bcast_S1x2048x32_S2048x2048x32_0_1_2 : (⟨S1x2048x32, .f32⟩ : BufTy).Contents (Elt F) → (⟨S2048x2048x32, .f32⟩ : BufTy).Contents (Elt F)),
    StableHlo.binary main_v74 main_v76 main_v77 (mulf : (⟨S2048x2048x32, .f32⟩ : BufTy).Contents (Elt F) → (⟨S2048x2048x32, .f32⟩ : BufTy).Contents (Elt F) → (⟨S2048x2048x32, .f32⟩ : BufTy).Contents (Elt F)),
    StableHlo.nullary main_cst_9 (constant S_ .f32 0x00000000#32),
    StableHlo.binary main_v77 main_cst_9 main_v78 ((fun x v => Host.reduceAdd x v reducesTo_S2048x2048x32_S2048x32_d1 h_S_) : (⟨S2048x2048x32, .f32⟩ : BufTy).Contents (Elt F) → (⟨S_, .f32⟩ : BufTy).Contents (Elt F) → (⟨S2048x32, .f32⟩ : BufTy).Contents (Elt F)) ]

/-- The 72 operations after the all-pairs stage. -/
abbrev postOps : List (HloOp τ sig (Elt F)) :=
  [ StableHlo.unary main_arg13 main_v79 ((transpose S32x32 [1, 0] · transposes_S32x32_S32x32_1_0) : (⟨S32x32, .f32⟩ : BufTy).Contents (Elt F) → (⟨S32x32, .f32⟩ : BufTy).Contents (Elt F)),
    StableHlo.binary main_v78 main_v79 main_v80 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.unary main_arg14 main_v81 (broadcastInDim S1x32 ![1] bcast_S32_S1x32_1 : (⟨S32, .f32⟩ : BufTy).Contents (Elt F) → (⟨S1x32, .f32⟩ : BufTy).Contents (Elt F)),
    StableHlo.unary main_v81 main_v82 (broadcastInDim S2048x32 ![0, 1] bcast_S1x32_S2048x32_0_1 : (⟨S1x32, .f32⟩ : BufTy).Contents (Elt F) → (⟨S2048x32, .f32⟩ : BufTy).Contents (Elt F)),
    StableHlo.binary main_v80 main_v82 main_v83 (addf : (⟨S2048x32, .f32⟩ : BufTy).Contents (Elt F) → (⟨S2048x32, .f32⟩ : BufTy).Contents (Elt F) → (⟨S2048x32, .f32⟩ : BufTy).Contents (Elt F)),
    StableHlo.nullary main_cst_10 (constant S_ .f32 0x00000000#32),
    StableHlo.unary main_cst_10 main_v84 (broadcastInDim S2048x32 ![] bcast_S_S2048x32 : (⟨S_, .f32⟩ : BufTy).Contents (Elt F) → (⟨S2048x32, .f32⟩ : BufTy).Contents (Elt F)),
    StableHlo.binary main_v83 main_v84 main_v85 (cmpf .oge : (⟨S2048x32, .f32⟩ : BufTy).Contents (Elt F) → (⟨S2048x32, .f32⟩ : BufTy).Contents (Elt F) → (⟨S2048x32, .i1⟩ : BufTy).Contents (Elt F)),
    StableHlo.nullary main_cst_11 (constant S_ .f32 0x3E4CCCCD#32),
    StableHlo.unary main_cst_11 main_v86 (broadcastInDim S2048x32 ![] bcast_S_S2048x32 : (⟨S_, .f32⟩ : BufTy).Contents (Elt F) → (⟨S2048x32, .f32⟩ : BufTy).Contents (Elt F)),
    StableHlo.binary main_v86 main_v83 main_v87 (mulf : (⟨S2048x32, .f32⟩ : BufTy).Contents (Elt F) → (⟨S2048x32, .f32⟩ : BufTy).Contents (Elt F) → (⟨S2048x32, .f32⟩ : BufTy).Contents (Elt F)),
    StableHlo.TRef.ternary (.of main_v85 : StableHlo.TRef sig ⟨S2048x32, .i1⟩) (.of main_v83 : StableHlo.TRef sig ⟨S2048x32, .f32⟩) (.of main_v87 : StableHlo.TRef sig ⟨S2048x32, .f32⟩) main_call5.v0 select,
    StableHlo.unary main_arg15 main_v89 ((transpose S32x32 [1, 0] · transposes_S32x32_S32x32_1_0) : (⟨S32x32, .f32⟩ : BufTy).Contents (Elt F) → (⟨S32x32, .f32⟩ : BufTy).Contents (Elt F)),
    StableHlo.binary main_v88 main_v89 main_v90 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.unary main_arg16 main_v91 (broadcastInDim S1x32 ![1] bcast_S32_S1x32_1 : (⟨S32, .f32⟩ : BufTy).Contents (Elt F) → (⟨S1x32, .f32⟩ : BufTy).Contents (Elt F)),
    StableHlo.unary main_v91 main_v92 (broadcastInDim S2048x32 ![0, 1] bcast_S1x32_S2048x32_0_1 : (⟨S1x32, .f32⟩ : BufTy).Contents (Elt F) → (⟨S2048x32, .f32⟩ : BufTy).Contents (Elt F)),
    StableHlo.binary main_v90 main_v92 main_v93 (addf : (⟨S2048x32, .f32⟩ : BufTy).Contents (Elt F) → (⟨S2048x32, .f32⟩ : BufTy).Contents (Elt F) → (⟨S2048x32, .f32⟩ : BufTy).Contents (Elt F)),
    StableHlo.nullary main_cst_12 (constant S_ .f32 0x00000000#32),
    StableHlo.unary main_cst_12 main_v94 (broadcastInDim S2048x32 ![] bcast_S_S2048x32 : (⟨S_, .f32⟩ : BufTy).Contents (Elt F) → (⟨S2048x32, .f32⟩ : BufTy).Contents (Elt F)),
    StableHlo.binary main_v93 main_v94 main_v95 (cmpf .oge : (⟨S2048x32, .f32⟩ : BufTy).Contents (Elt F) → (⟨S2048x32, .f32⟩ : BufTy).Contents (Elt F) → (⟨S2048x32, .i1⟩ : BufTy).Contents (Elt F)),
    StableHlo.nullary main_cst_13 (constant S_ .f32 0x3E4CCCCD#32),
    StableHlo.unary main_cst_13 main_v96 (broadcastInDim S2048x32 ![] bcast_S_S2048x32 : (⟨S_, .f32⟩ : BufTy).Contents (Elt F) → (⟨S2048x32, .f32⟩ : BufTy).Contents (Elt F)),
    StableHlo.binary main_v96 main_v93 main_v97 (mulf : (⟨S2048x32, .f32⟩ : BufTy).Contents (Elt F) → (⟨S2048x32, .f32⟩ : BufTy).Contents (Elt F) → (⟨S2048x32, .f32⟩ : BufTy).Contents (Elt F)),
    StableHlo.TRef.ternary (.of main_v95 : StableHlo.TRef sig ⟨S2048x32, .i1⟩) (.of main_v93 : StableHlo.TRef sig ⟨S2048x32, .f32⟩) (.of main_v97 : StableHlo.TRef sig ⟨S2048x32, .f32⟩) main_call6.v0 select,
    StableHlo.unary main_v98 main_v99 ((transpose S32x2048 [1, 0] · transposes_S2048x32_S32x2048_1_0) : (⟨S2048x32, .f32⟩ : BufTy).Contents (Elt F) → (⟨S32x2048, .f32⟩ : BufTy).Contents (Elt F)),
    StableHlo.reshape main_v99 main_v100 rfl shapeCasts_S32x2048_S4x16384,
    StableHlo.nullary main_cst_14 (constant S_ .f32 0x00000000#32),
    StableHlo.binary main_v100 main_cst_14 main_v101 ((fun x v => Host.reduceAdd x v reducesTo_S4x16384_S4_d1 h_S_) : (⟨S4x16384, .f32⟩ : BufTy).Contents (Elt F) → (⟨S_, .f32⟩ : BufTy).Contents (Elt F) → (⟨S4, .f32⟩ : BufTy).Contents (Elt F)),
    StableHlo.unary main_v101 main_v102 (broadcastInDim S4x1 ![0] bcast_S4_S4x1_0 : (⟨S4, .f32⟩ : BufTy).Contents (Elt F) → (⟨S4x1, .f32⟩ : BufTy).Contents (Elt F)),
    StableHlo.nullary main_cst_15 (constant S_ .f32 0x46800000#32),
    StableHlo.unary main_cst_15 main_v103 (broadcastInDim S4x1 ![] bcast_S_S4x1 : (⟨S_, .f32⟩ : BufTy).Contents (Elt F) → (⟨S4x1, .f32⟩ : BufTy).Contents (Elt F)),
    StableHlo.binary main_v102 main_v103 main_v104 (Host.divf : (⟨S4x1, .f32⟩ : BufTy).Contents (Elt F) → (⟨S4x1, .f32⟩ : BufTy).Contents (Elt F) → (⟨S4x1, .f32⟩ : BufTy).Contents (Elt F)),
    StableHlo.nullary main_c_16 (constantI S_ 32 0#32),
    StableHlo.TRef.nullary main_call7.cst (constant S_ .f32 0x00000000#32),
    StableHlo.TRef.binary (.of main_v100 : StableHlo.TRef sig ⟨S4x16384, .f32⟩) main_call7.cst main_call7.v0 (fun x v => Host.reduceAdd x v reducesTo_S4x16384_S4_d1 h_S_),
    StableHlo.TRef.unary main_call7.v0 main_call7.v1 (broadcastInDim S4x1 ![0] bcast_S4_S4x1_0),
    StableHlo.TRef.nullary main_call7.cst_0 (constant S_ .f32 0x46800000#32),
    StableHlo.TRef.unary main_call7.cst_0 main_call7.v2 (broadcastInDim S4x1 ![] bcast_S_S4x1),
    StableHlo.TRef.binary main_call7.v1 main_call7.v2 main_call7.v3 Host.divf,
    StableHlo.TRef.unary main_call7.v3 main_call7.v4 (broadcastInDim S4x16384 ![0, 1] bcast_S4x1_S4x16384_0_1),
    StableHlo.TRef.binary (.of main_v100 : StableHlo.TRef sig ⟨S4x16384, .f32⟩) main_call7.v4 main_call7.v5 subf,
    StableHlo.TRef.binary main_call7.v5 main_call7.v5 main_call7.v6 mulf,
    StableHlo.TRef.unary (.of main_c_16 : StableHlo.TRef sig ⟨S_, .i32⟩) main_call7.v7 (sitofp .f32),
    StableHlo.TRef.nullary main_call7.cst_1 (constant S_ .f32 0x46800000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S4x16384_S4_d1 h_S_),
    StableHlo.TRef.unary main_call7.v9 main_call7.v10 (broadcastInDim S4x1 ![0] bcast_S4_S4x1_0),
    StableHlo.TRef.unary main_call7.v8 main_call7.v11 (broadcastInDim S4x1 ![] bcast_S_S4x1),
    StableHlo.TRef.binary main_call7.v10 main_call7.v11 main_call7.v12 Host.divf,
    StableHlo.TRef.nullary main_call7.cst_3 (constant S_ .f32 0x00000000#32),
    StableHlo.TRef.binary main_call7.v8 main_call7.cst_3 main_call7.v13 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S4x1 ![] bcast_S_S4x1),
    StableHlo.TRef.ternary main_call7.v13 main_call7.v12 main_call7.call0.v1 main_call7.call0.v2 (fun p a b => select (broadcastInDim S4x1 ![] bcast_S_S4x1 p) a b),
    StableHlo.unary main_v104 main_v106 (broadcastInDim S4x16384 ![0, 1] bcast_S4x1_S4x16384_0_1 : (⟨S4x1, .f32⟩ : BufTy).Contents (Elt F) → (⟨S4x16384, .f32⟩ : BufTy).Contents (Elt F)),
    StableHlo.binary main_v100 main_v106 main_v107 (subf : (⟨S4x16384, .f32⟩ : BufTy).Contents (Elt F) → (⟨S4x16384, .f32⟩ : BufTy).Contents (Elt F) → (⟨S4x16384, .f32⟩ : BufTy).Contents (Elt F)),
    StableHlo.nullary main_cst_17 (constant S_ .f32 0x3727C5AC#32),
    StableHlo.unary main_cst_17 main_v108 (broadcastInDim S4x1 ![] bcast_S_S4x1 : (⟨S_, .f32⟩ : BufTy).Contents (Elt F) → (⟨S4x1, .f32⟩ : BufTy).Contents (Elt F)),
    StableHlo.binary main_v105 main_v108 main_v109 (addf : (⟨S4x1, .f32⟩ : BufTy).Contents (Elt F) → (⟨S4x1, .f32⟩ : BufTy).Contents (Elt F) → (⟨S4x1, .f32⟩ : BufTy).Contents (Elt F)),
    StableHlo.unary main_v109 main_v110 (Host.sqrt : (⟨S4x1, .f32⟩ : BufTy).Contents (Elt F) → (⟨S4x1, .f32⟩ : BufTy).Contents (Elt F)),
    StableHlo.unary main_v110 main_v111 (broadcastInDim S4x16384 ![0, 1] bcast_S4x1_S4x16384_0_1 : (⟨S4x1, .f32⟩ : BufTy).Contents (Elt F) → (⟨S4x16384, .f32⟩ : BufTy).Contents (Elt F)),
    StableHlo.binary main_v107 main_v111 main_v112 (Host.divf : (⟨S4x16384, .f32⟩ : BufTy).Contents (Elt F) → (⟨S4x16384, .f32⟩ : BufTy).Contents (Elt F) → (⟨S4x16384, .f32⟩ : BufTy).Contents (Elt F)),
    StableHlo.reshape main_v112 main_v113 rfl shapeCasts_S4x16384_S32x2048,
    StableHlo.unary main_arg17 main_v114 (broadcastInDim S32x1 ![0] bcast_S32_S32x1_0 : (⟨S32, .f32⟩ : BufTy).Contents (Elt F) → (⟨S32x1, .f32⟩ : BufTy).Contents (Elt F)),
    StableHlo.unary main_v114 main_v115 (broadcastInDim S32x2048 ![0, 1] bcast_S32x1_S32x2048_0_1 : (⟨S32x1, .f32⟩ : BufTy).Contents (Elt F) → (⟨S32x2048, .f32⟩ : BufTy).Contents (Elt F)),
    StableHlo.binary main_v113 main_v115 main_v116 (mulf : (⟨S32x2048, .f32⟩ : BufTy).Contents (Elt F) → (⟨S32x2048, .f32⟩ : BufTy).Contents (Elt F) → (⟨S32x2048, .f32⟩ : BufTy).Contents (Elt F)),
    StableHlo.unary main_arg18 main_v117 (broadcastInDim S32x1 ![0] bcast_S32_S32x1_0 : (⟨S32, .f32⟩ : BufTy).Contents (Elt F) → (⟨S32x1, .f32⟩ : BufTy).Contents (Elt F)),
    StableHlo.unary main_v117 main_v118 (broadcastInDim S32x2048 ![0, 1] bcast_S32x1_S32x2048_0_1 : (⟨S32x1, .f32⟩ : BufTy).Contents (Elt F) → (⟨S32x2048, .f32⟩ : BufTy).Contents (Elt F)),
    StableHlo.binary main_v116 main_v118 main_v119 (addf : (⟨S32x2048, .f32⟩ : BufTy).Contents (Elt F) → (⟨S32x2048, .f32⟩ : BufTy).Contents (Elt F) → (⟨S32x2048, .f32⟩ : BufTy).Contents (Elt F)),
    StableHlo.unary main_v119 main_v120 ((transpose S2048x32 [1, 0] · transposes_S32x2048_S2048x32_1_0) : (⟨S32x2048, .f32⟩ : BufTy).Contents (Elt F) → (⟨S2048x32, .f32⟩ : BufTy).Contents (Elt F)) ]

set_option maxRecDepth 8192 in
/-- The line is the three stages in order. -/
theorem ops_cut : (ops : List (HloOp τ sig (Elt F))) = preOps ++ (midOps ++ postOps) := rfl

/-- The references `preOps`'s operations write, in order. -/
abbrev preOps_W : List (Ref sig .tc) := [main_v0, main_v1, main_v2, main_v3, main_v4, main_cst, main_v5, main_v6, main_cst_0, main_v7, main_v8, main_v9, main_v10, main_v11, main_v12, main_v13, main_v14, main_cst_1, main_v15, main_v16, main_cst_2, main_v17, main_v18, main_v19, main_v20, main_v21, main_cst_3, main_v22, main_v23, main_cst_4, main_v24, main_v25, main_c, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v26, main_v27, main_v28, main_cst_5, main_v29, main_v30, main_v31, main_v32, main_v33, main_v34, main_v35, main_v36, main_v37, main_v38, main_v39, main_v40, main_v41, main_cst_6, main_v42, main_v43]
set_option maxRecDepth 8192 in
theorem preOps_writes : (preOps : List (HloOp τ sig (Elt F))).Forall fun op => op.writes ⊆ (preOps_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The references `midOps`'s operations write, in order. -/
abbrev midOps_W : List (Ref sig .tc) := [main_v44, main_v45, main_v46, main_v47, main_v48, main_v49, main_v50, main_v51, main_cst_7, main_v52, main_v53, main_v54, main_v55, main_cst_8, main_v56, main_v57, main_v58, main_v59, main_v60, main_v61, main_v62, main_v63, main_v64, main_v65, main_call3_cst, main_call3_v0, main_v66, main_v67, main_v68, main_v69, main_v70, main_call4_cst, main_call4_v0, main_v71, main_v72, main_v73, main_v74, main_v75, main_v76, main_v77, main_cst_9, main_v78]
set_option maxRecDepth 8192 in
theorem midOps_writes : (midOps : List (HloOp τ sig (Elt F))).Forall fun op => op.writes ⊆ (midOps_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The references `postOps`'s operations write, in order. -/
abbrev postOps_W : List (Ref sig .tc) := [main_v79, main_v80, main_v81, main_v82, main_v83, main_cst_10, main_v84, main_v85, main_cst_11, main_v86, main_v87, main_v88, main_v89, main_v90, main_v91, main_v92, main_v93, main_cst_12, main_v94, main_v95, main_cst_13, main_v96, main_v97, main_v98, main_v99, main_v100, main_cst_14, main_v101, main_v102, main_cst_15, main_v103, main_v104, main_c_16, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v105, main_v106, main_v107, main_cst_17, main_v108, main_v109, main_v110, main_v111, main_v112, main_v113, main_v114, main_v115, main_v116, main_v117, main_v118, main_v119, main_v120]
set_option maxRecDepth 8192 in
theorem postOps_writes : (postOps : List (HloOp τ sig (Elt F))).Forall fun op => op.writes ⊆ (postOps_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A reference the last stage does not write holds at the end what the first two stages left. -/
theorem keep_post (V : Valuation τ sig (Elt F)) (r : Ref sig .tc) (h : r ∉ postOps_W) :
    after ops V (Proc.devRef .tc r) = after midOps (after preOps V) (Proc.devRef .tc r) := by
  rw [ops_cut, after_append, after_append, after_of_writes_sub postOps _ postOps_writes h]

/-- A reference the last two stages do not write holds at the end what the first stage left. -/
theorem keep_midpost (V : Valuation τ sig (Elt F)) (r : Ref sig .tc) (h₁ : r ∉ midOps_W) (h₂ : r ∉ postOps_W) :
    after ops V (Proc.devRef .tc r) = after preOps V (Proc.devRef .tc r) := by
  rw [keep_post V r h₂, after_of_writes_sub midOps _ midOps_writes h₁]

/-- A reference the first stage does not write holds after it what it held before. -/
theorem keep_pre (V : Valuation τ sig (Elt F)) (r : Ref sig .tc) (h : r ∉ preOps_W) :
    after preOps V (Proc.devRef .tc r) = V (Proc.devRef .tc r) :=
  after_of_writes_sub preOps V preOps_writes h

/-- A reference the all-pairs stage does not write holds after it what it held before. -/
theorem keep_mid (V : Valuation τ sig (Elt F)) (r : Ref sig .tc) (h : r ∉ midOps_W) :
    after midOps V (Proc.devRef .tc r) = V (Proc.devRef .tc r) :=
  after_of_writes_sub midOps V midOps_writes h

/-! ## The all-pairs stage -/

set_option maxRecDepth 8192 in
set_option maxHeartbeats 4000000 in
/-- From any contents, the all-pairs stage leaves in its last buffer the middle function of what it reads. -/
theorem mid_window (U : Valuation τ sig (Elt Ideal)) :
    after (midOps (F := Ideal)) U (Proc.devRef .tc main_v78)
      = RefMid.midR (U (Proc.devRef .tc main_v43)) (U (Proc.devRef .tc main_v41)) (U (Proc.devRef .tc main_arg1))
          (U (Proc.devRef .tc main_arg9)) (U (Proc.devRef .tc main_arg10)) (U (Proc.devRef .tc main_arg11))
          (U (Proc.devRef .tc main_arg12)) := by
  after_results_simp
  rfl

/-- At the end of the line the buffer of the sum over the keys is the middle function of the final scaled points and
    normalized features and of the launch's frames and layer weights. -/
theorem mid_eq (V : Valuation τ sig (Elt Ideal)) :
    after (ops (F := Ideal)) V (Proc.devRef .tc main_v78)
      = RefMid.midR (after (ops (F := Ideal)) V (Proc.devRef .tc main_v43)) (after (ops (F := Ideal)) V (Proc.devRef .tc main_v41))
          (V (Proc.devRef .tc main_arg1)) (V (Proc.devRef .tc main_arg9)) (V (Proc.devRef .tc main_arg10))
          (V (Proc.devRef .tc main_arg11)) (V (Proc.devRef .tc main_arg12)) := by
  rw [keep_post V main_v78 (by decide), mid_window,
    keep_midpost V main_v43 (by decide) (by decide), keep_midpost V main_v41 (by decide) (by decide),
    keep_pre V main_arg1 (by decide), keep_pre V main_arg9 (by decide), keep_pre V main_arg10 (by decide),
    keep_pre V main_arg11 (by decide), keep_pre V main_arg12 (by decide)]

/-- THE AGGREGATE AT AN INDEX: after the run, channel h of query point n of the buffer that holds the sum over the keys
    (`main_v78`) is the specification's aggregate, of the final scaled points (`main_v43`) and normalized features
    (`main_v41`), the launch's frames (argument 1, entry (a, c) of point j at position 3a + c) and the two layers'
    weights and biases (arguments 9 to 12). -/
theorem agg_apply (m : (ℓ : Loc nD τ sig) → Buf (Elt Ideal) ℓ) (c : Dev nD) (n : Fin 2048) (h : Fin 32) :
    (after (ops (F := Ideal)) (launchContents m c) (Proc.devRef .tc main_v78) : FVec Ideal S2048x32 .f32) (ix2 n h)
      = Cert.GeoSpec.agg
          (fun j d => (after (ops (F := Ideal)) (launchContents m c) (Proc.devRef .tc main_v43) : FVec Ideal S2048x3 .f32) (ix2 j d))
          (RefMid.nuvOf (m ((c.tc : Thread nD τ).loc main_arg1)))
          (fun j k => (after (ops (F := Ideal)) (launchContents m c) (Proc.devRef .tc main_v41) : FVec Ideal S2048x32 .f32) (ix2 j k))
          (fun k a => (m ((c.tc : Thread nD τ).loc main_arg9) : FVec Ideal S8x3 .f32) (ix2 k a))
          (fun k => (m ((c.tc : Thread nD τ).loc main_arg10) : FVec Ideal S8 .f32) (ix1 k))
          (fun k a => (m ((c.tc : Thread nD τ).loc main_arg11) : FVec Ideal S32x8 .f32) (ix2 k a))
          (fun k => (m ((c.tc : Thread nD τ).loc main_arg12) : FVec Ideal S32 .f32) (ix1 k)) n h := by
  rw [mid_eq]
  exact RefMid.midR_apply _ _ _ _ _ _ _ n h

end Cert.ReferenceIdeal.RefValue

end
-- ==== Proof.RefEndsK.lean ====
import proofs.«170118_j14654428414389_2_alg».proof.Proof.RefValue
import proofs.«170118_j14654428414389_2_alg».proof.Proof.KI.HostPreK
import proofs.«170118_j14654428414389_2_alg».proof.Proof.KI.HostTail

/-!
# The reference's two long ends

The reference program's first stage computes the normalised features by the same operations as the kernel program's
host operations before its region, and its last stage sends the sum over the keys through the same operations as the
kernel program's host operations after its region. Each stage's fold is therefore the kernel side's composed function
(`preK`, `tailK`) of what the stage reads; after the whole line the two buffers hold them at the launch's arguments.
-/

set_option maxRecDepth 16384

noncomputable section

namespace Cert.ReferenceIdeal.RefEndsK

open Cert.ReferenceIdeal Cert.ReferenceIdeal.Gen Cert.ReferenceIdeal.RefRun Cert.ReferenceIdeal.RefValue Idealize.ShloMosaic Idealize.ShloMosaic.TcCoe
  Idealize.SL.Sem Idealize.ShloMosaic.StableHlo Idealize.ShloMosaic.ValueIdx

/-! ## The first stage -/

/-- From any contents, the first stage leaves the composed feature function of the seven arrays it reads in the
    normalised features' buffer. -/
theorem pre_window_feat (U : Valuation τ sig (Elt Ideal)) :
    after (preOps (F := Ideal)) U (Proc.devRef .tc main_v41)
      = Cert.KernelIdeal.Hand.preK (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) := by
  after_results_simp <;> rfl

/-- After the whole line the normalised features are the composed feature function of the launch's arrays and weights. -/
theorem feat_eq (V : Valuation τ sig (Elt Ideal)) :
    after (ops (F := Ideal)) V (Proc.devRef .tc main_v41)
      = Cert.KernelIdeal.Hand.preK (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [keep_midpost V main_v41 (by decide) (by decide), pre_window_feat]

/-- From any contents, the first stage leaves the points divided by the scale in the scaled points' buffer. -/
theorem pre_window_pts (U : Valuation τ sig (Elt Ideal)) :
    after (preOps (F := Ideal)) U (Proc.devRef .tc main_v43)
      = Host.divf (F := Ideal) (U (Proc.devRef .tc main_arg0) : FVec Ideal S2048x3 .f32)
          (broadcastInDim S2048x3 ![] bcast_S_S2048x3 (constant (F := Ideal) S_ .f32 0x414BA592#32)) := by
  after_results_simp <;> rfl

/-- After the whole line the scaled points are the launch's points divided by the scale. -/
theorem pts_eq (V : Valuation τ sig (Elt Ideal)) :
    after (ops (F := Ideal)) V (Proc.devRef .tc main_v43)
      = Host.divf (F := Ideal) (V (Proc.devRef .tc main_arg0) : FVec Ideal S2048x3 .f32)
          (broadcastInDim S2048x3 ![] bcast_S_S2048x3 (constant (F := Ideal) S_ .f32 0x414BA592#32)) := by
  rw [keep_midpost V main_v43 (by decide) (by decide), pre_window_pts]

/-! ## The last stage -/

/-- From any contents, the last stage leaves the composed tail function of the sum over the keys and the six arrays it
    reads in the result buffer. -/
theorem post_window (U : Valuation τ sig (Elt Ideal)) :
    after (postOps (F := Ideal)) U (Proc.devRef .tc main_v120)
      = Cert.KernelIdeal.Hand.tailK (U (Proc.devRef .tc main_v78)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  after_results_simp <;> rfl

/-- The line's last stage runs from what the first two left. -/
theorem after_ops_post (V : Valuation τ sig (Elt Ideal)) :
    after (ops (F := Ideal)) V = after postOps (after midOps (after preOps V)) := by
  rw [ops_cut, after_append, after_append]

/-- After the whole line the result buffer is the composed tail function of the final sum over the keys and the
    launch's output weights. -/
theorem result_eq (V : Valuation τ sig (Elt Ideal)) :
    after (ops (F := Ideal)) V (Proc.devRef .tc main_v120)
      = Cert.KernelIdeal.Hand.tailK (after (ops (F := Ideal)) V (Proc.devRef .tc main_v78)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  rw [keep_post V main_v78 (by decide)]
  rw [after_ops_post, post_window,
    keep_mid _ main_arg13 (by decide), keep_pre V main_arg13 (by decide),
    keep_mid _ main_arg14 (by decide), keep_pre V main_arg14 (by decide),
    keep_mid _ main_arg15 (by decide), keep_pre V main_arg15 (by decide),
    keep_mid _ main_arg16 (by decide), keep_pre V main_arg16 (by decide),
    keep_mid _ main_arg17 (by decide), keep_pre V main_arg17 (by decide),
    keep_mid _ main_arg18 (by decide), keep_pre V main_arg18 (by decide)]

end Cert.ReferenceIdeal.RefEndsK

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.KI.PayShared.lean ====
/-
  The values every row of the body shares, read at one (key, query) pair of a tile: the three offset coordinates,
  the Gaussian window, the offset in the query's local frame, and the eight first-layer activations — each is the
  specification's term of the pair's own vectors.
-/
import proofs.«170118_j14654428414389_2_alg».proof.Proof.KI.Frame
import proofs.«170118_j14654428414389_2_alg».proof.Proof.Spec
import proofs.«170118_j14654428414389_2_alg».proof.Proof.LibVecIx2
set_option maxRecDepth 16384
noncomputable section
namespace Cert.KernelIdeal.Hand
open Cert.KernelIdeal Cert.KernelIdeal.Gen
open Idealize.ShloMosaic Idealize.ShloMosaic.TcCoe Idealize.ShloMosaic.ValueIdx
open Cert.Lib.VecIx2 Cert.GeoSpec

section Shared
variable (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (jj : Fin 512) (q : Fin 128)

local notation "pI" => (fun c' : Fin 3 => x0 (ix2 c' q))
local notation "nI" => (fun k : Fin 9 => x1 (ix2 k q))
local notation "pJ" => (fun c' : Fin 3 => x2 (ix2 jj c'))
local notation "nJ" => (fun k : Fin 9 => x3 (ix2 jj k))
local notation "fJ" => (fun h' : Fin 32 => x4 (ix2 jj h'))
local notation "cA1" => (fun (k : Fin 8) (a : Fin 3) => x5 (ix2 k a))
local notation "cB1" => (fun k : Fin 8 => x6 (ix2 (0 : Fin 1) k))
local notation "cA2" => (fun (h' : Fin 32) (k : Fin 8) => x7 (ix2 h' k))
local notation "cB2" => (fun h' : Fin 32 => x8 (ix2 (0 : Fin 1) h'))

local notation "P4" => k0_pay4 x1
local notation "P8" => k0_pay8 x6
local notation "P10" => k0_pay10 x0 x2
local notation "P11" => k0_pay11 x0 x2
local notation "P12" => k0_pay12 x0 x2
local notation "P13" => k0_pay13 x0 x2
local notation "Z0" => (FloatOps.ofBits (F := Ideal) FTy.f32 0#32)
local notation "PW" => k0_pay14 P4 (k0_pay6 x3) P12 P13
local notation "PX0" => k0_pay15 P4 P10 P11 P12
local notation "PX1" => k0_pay16 P4 P10 P11 P12
local notation "PX2" => k0_pay17 P4 P10 P11 P12 Z0

local notation "PC0" => k0_pay18 P4 x5 P8 P10 P11 P12 PX0 PX1 Z0
local notation "PC1" => k0_pay21 (k0_pay19 P4 x5 P8 P10 P11 P12 PX0 PX1 Z0) k0_pay20
local notation "PC2" => k0_pay22 x5 P8 PX0 PX1 PX2
local notation "PC3" => k0_pay23 x5 P8 PX0 PX1 PX2
local notation "PC4" => k0_pay26 x5 P8 PX2 (k0_pay24 x5 PX0) (k0_pay25 x5 PX1)
local notation "PC5" => k0_pay27 x5 P8 PX0 PX1 PX2
local notation "PC6" => k0_pay30 (k0_pay28 x5 P8 PX0 PX1 PX2) k0_pay29
local notation "PC7" => k0_pay31 x5 P8 PX0 PX1 PX2

theorem vexp_apply {s : Shape} {φ : FTy} (x : FVec Ideal s φ) (i : s.Idx) : Idealize.ShloMosaic.exp x i = Ideal.exp (x i) := rfl

theorem dotnn_comm (a b : Fin 9 → EReal) : dotnn a b = ∑ c : Fin 3, b (n9 0 c) * a (n9 0 c) := by
  unfold dotnn; exact Finset.sum_congr rfl fun c _ => mul_comm _ _

theorem d0_apply : P10 (ix2 jj q) = diff pI pJ 0 := by
  simp only [k0_pay10, k0_pay5, k0_pay3, shapeCast_self, mulf_apply, addf_apply, subf_apply, maximumf_apply, broadcast_apply, slice_col, slice_row, slice_11, extractAt_11, bcast_col, broadcastTo_1b_ab_apply, vexp_apply, Ideal.ofBits_def, Ideal.ofBits_zero_f32, zero_add]
  rfl
theorem d1_apply : P11 (ix2 jj q) = diff pI pJ 1 := by
  simp only [k0_pay11, k0_pay5, k0_pay3, shapeCast_self, mulf_apply, addf_apply, subf_apply, maximumf_apply, broadcast_apply, slice_col, slice_row, slice_11, extractAt_11, bcast_col, broadcastTo_1b_ab_apply, vexp_apply, Ideal.ofBits_def, Ideal.ofBits_zero_f32, zero_add]
  rfl
theorem d2_apply : P12 (ix2 jj q) = diff pI pJ 2 := by
  simp only [k0_pay12, k0_pay5, k0_pay3, shapeCast_self, mulf_apply, addf_apply, subf_apply, maximumf_apply, broadcast_apply, slice_col, slice_row, slice_11, extractAt_11, bcast_col, broadcastTo_1b_ab_apply, vexp_apply, Ideal.ofBits_def, Ideal.ofBits_zero_f32, zero_add]
  rfl

theorem w_apply : PW (ix2 jj q) = window pI nI pJ nJ := by
  simp only [k0_pay14, k0_pay13, k0_pay12, k0_pay11, k0_pay10, k0_pay6, k0_pay5, k0_pay4, k0_pay3, shapeCast_self, mulf_apply, addf_apply, subf_apply, maximumf_apply, broadcast_apply, slice_col, slice_row, slice_11, extractAt_11, bcast_col, broadcastTo_1b_ab_apply, vexp_apply, Ideal.ofBits_def, Ideal.ofBits_zero_f32, zero_add]
  rw [window, dotnn_comm]
  simp only [sqd, diff, two, Fin.sum_univ_three]
  rw [sub_eq_add_neg (0 : EReal), zero_add]
  rfl

theorem x0_apply : PX0 (ix2 jj q) = X pI nI pJ 0 := by
  simp only [k0_pay15, k0_pay4, d0_apply, d1_apply, d2_apply, shapeCast_self, mulf_apply, addf_apply, subf_apply, maximumf_apply, broadcast_apply, slice_col, slice_row, slice_11, extractAt_11, bcast_col, broadcastTo_1b_ab_apply, vexp_apply, Ideal.ofBits_def, Ideal.ofBits_zero_f32, zero_add]
  simp only [X, Fin.sum_univ_three]
  rfl
theorem x1_apply : PX1 (ix2 jj q) = X pI nI pJ 1 := by
  simp only [k0_pay16, k0_pay4, d0_apply, d1_apply, d2_apply, shapeCast_self, mulf_apply, addf_apply, subf_apply, maximumf_apply, broadcast_apply, slice_col, slice_row, slice_11, extractAt_11, bcast_col, broadcastTo_1b_ab_apply, vexp_apply, Ideal.ofBits_def, Ideal.ofBits_zero_f32, zero_add]
  simp only [X, Fin.sum_univ_three]
  rfl
theorem x2_apply' : k0_pay17 P4 P10 P11 P12 (0 : Ideal FTy.f32) (ix2 jj q) = X pI nI pJ 2 := by
  simp only [k0_pay17, k0_pay4, d0_apply, d1_apply, d2_apply, shapeCast_self, mulf_apply, addf_apply, subf_apply, maximumf_apply, broadcast_apply, slice_col, slice_row, slice_11, extractAt_11, bcast_col, broadcastTo_1b_ab_apply, vexp_apply, Ideal.ofBits_def, Ideal.ofBits_zero_f32, zero_add]
  simp only [X, Fin.sum_univ_three]
  rfl
theorem x2_apply : PX2 (ix2 jj q) = X pI nI pJ 2 := by
  simp only [k0_pay17, k0_pay4, d0_apply, d1_apply, d2_apply, shapeCast_self, mulf_apply, addf_apply, subf_apply, maximumf_apply, broadcast_apply, slice_col, slice_row, slice_11, extractAt_11, bcast_col, broadcastTo_1b_ab_apply, vexp_apply, Ideal.ofBits_def, Ideal.ofBits_zero_f32, zero_add]
  simp only [X, Fin.sum_univ_three]
  rfl

theorem c0_apply : PC0 (ix2 jj q) = xc1 pI nI pJ cA1 cB1 0 := by
  simp only [k0_pay18, k0_pay19, k0_pay20, k0_pay21, k0_pay22, k0_pay23, k0_pay24, k0_pay25, k0_pay26, k0_pay27, k0_pay28, k0_pay29, k0_pay30, k0_pay31, k0_pay8, x0_apply, x1_apply, x2_apply, x2_apply', shapeCast_self, mulf_apply, addf_apply, subf_apply, maximumf_apply, broadcast_apply, slice_col, slice_row, slice_11, extractAt_11, bcast_col, broadcastTo_1b_ab_apply, vexp_apply, Ideal.ofBits_def, Ideal.ofBits_zero_f32, zero_add]
  simp only [xc1, Fin.sum_univ_three]
  rfl
theorem c1_apply : PC1 (ix2 jj q) = xc1 pI nI pJ cA1 cB1 1 := by
  simp only [k0_pay18, k0_pay19, k0_pay20, k0_pay21, k0_pay22, k0_pay23, k0_pay24, k0_pay25, k0_pay26, k0_pay27, k0_pay28, k0_pay29, k0_pay30, k0_pay31, k0_pay8, x0_apply, x1_apply, x2_apply, x2_apply', shapeCast_self, mulf_apply, addf_apply, subf_apply, maximumf_apply, broadcast_apply, slice_col, slice_row, slice_11, extractAt_11, bcast_col, broadcastTo_1b_ab_apply, vexp_apply, Ideal.ofBits_def, Ideal.ofBits_zero_f32, zero_add]
  simp only [xc1, Fin.sum_univ_three]
  rfl
theorem c2_apply : PC2 (ix2 jj q) = xc1 pI nI pJ cA1 cB1 2 := by
  simp only [k0_pay18, k0_pay19, k0_pay20, k0_pay21, k0_pay22, k0_pay23, k0_pay24, k0_pay25, k0_pay26, k0_pay27, k0_pay28, k0_pay29, k0_pay30, k0_pay31, k0_pay8, x0_apply, x1_apply, x2_apply, x2_apply', shapeCast_self, mulf_apply, addf_apply, subf_apply, maximumf_apply, broadcast_apply, slice_col, slice_row, slice_11, extractAt_11, bcast_col, broadcastTo_1b_ab_apply, vexp_apply, Ideal.ofBits_def, Ideal.ofBits_zero_f32, zero_add]
  simp only [xc1, Fin.sum_univ_three]
  rfl
theorem c3_apply : PC3 (ix2 jj q) = xc1 pI nI pJ cA1 cB1 3 := by
  simp only [k0_pay18, k0_pay19, k0_pay20, k0_pay21, k0_pay22, k0_pay23, k0_pay24, k0_pay25, k0_pay26, k0_pay27, k0_pay28, k0_pay29, k0_pay30, k0_pay31, k0_pay8, x0_apply, x1_apply, x2_apply, x2_apply', shapeCast_self, mulf_apply, addf_apply, subf_apply, maximumf_apply, broadcast_apply, slice_col, slice_row, slice_11, extractAt_11, bcast_col, broadcastTo_1b_ab_apply, vexp_apply, Ideal.ofBits_def, Ideal.ofBits_zero_f32, zero_add]
  simp only [xc1, Fin.sum_univ_three]
  rfl
theorem c4_apply : PC4 (ix2 jj q) = xc1 pI nI pJ cA1 cB1 4 := by
  simp only [k0_pay18, k0_pay19, k0_pay20, k0_pay21, k0_pay22, k0_pay23, k0_pay24, k0_pay25, k0_pay26, k0_pay27, k0_pay28, k0_pay29, k0_pay30, k0_pay31, k0_pay8, x0_apply, x1_apply, x2_apply, x2_apply', shapeCast_self, mulf_apply, addf_apply, subf_apply, maximumf_apply, broadcast_apply, slice_col, slice_row, slice_11, extractAt_11, bcast_col, broadcastTo_1b_ab_apply, vexp_apply, Ideal.ofBits_def, Ideal.ofBits_zero_f32, zero_add]
  simp only [xc1, Fin.sum_univ_three]
  rfl
theorem c5_apply : PC5 (ix2 jj q) = xc1 pI nI pJ cA1 cB1 5 := by
  simp only [k0_pay18, k0_pay19, k0_pay20, k0_pay21, k0_pay22, k0_pay23, k0_pay24, k0_pay25, k0_pay26, k0_pay27, k0_pay28, k0_pay29, k0_pay30, k0_pay31, k0_pay8, x0_apply, x1_apply, x2_apply, x2_apply', shapeCast_self, mulf_apply, addf_apply, subf_apply, maximumf_apply, broadcast_apply, slice_col, slice_row, slice_11, extractAt_11, bcast_col, broadcastTo_1b_ab_apply, vexp_apply, Ideal.ofBits_def, Ideal.ofBits_zero_f32, zero_add]
  simp only [xc1, Fin.sum_univ_three]
  rfl
theorem c6_apply : PC6 (ix2 jj q) = xc1 pI nI pJ cA1 cB1 6 := by
  simp only [k0_pay18, k0_pay19, k0_pay20, k0_pay21, k0_pay22, k0_pay23, k0_pay24, k0_pay25, k0_pay26, k0_pay27, k0_pay28, k0_pay29, k0_pay30, k0_pay31, k0_pay8, x0_apply, x1_apply, x2_apply, x2_apply', shapeCast_self, mulf_apply, addf_apply, subf_apply, maximumf_apply, broadcast_apply, slice_col, slice_row, slice_11, extractAt_11, bcast_col, broadcastTo_1b_ab_apply, vexp_apply, Ideal.ofBits_def, Ideal.ofBits_zero_f32, zero_add]
  simp only [xc1, Fin.sum_univ_three]
  rfl
theorem c7_apply : PC7 (ix2 jj q) = xc1 pI nI pJ cA1 cB1 7 := by
  simp only [k0_pay18, k0_pay19, k0_pay20, k0_pay21, k0_pay22, k0_pay23, k0_pay24, k0_pay25, k0_pay26, k0_pay27, k0_pay28, k0_pay29, k0_pay30, k0_pay31, k0_pay8, x0_apply, x1_apply, x2_apply, x2_apply', shapeCast_self, mulf_apply, addf_apply, subf_apply, maximumf_apply, broadcast_apply, slice_col, slice_row, slice_11, extractAt_11, bcast_col, broadcastTo_1b_ab_apply, vexp_apply, Ideal.ofBits_def, Ideal.ofBits_zero_f32, zero_add]
  simp only [xc1, Fin.sum_univ_three]
  rfl

end Shared
end Cert.KernelIdeal.Hand
end
-- ==== Proof.KI.TileSum.lean ====
/-
  One key tile's contribution to a channel of a query lane: the pair terms summed over the tile's 512 keys.
-/
import proofs.«170118_j14654428414389_2_alg».proof.Proof.Spec
import proofs.«170118_j14654428414389_2_alg».proof.Proof.Gen.KernelIdeal
import Idealize.ShloMosaic.Lib.ValueIdx
noncomputable section
namespace Cert.KernelIdeal.Hand
open Cert.KernelIdeal
open Idealize.ShloMosaic Idealize.ShloMosaic.ValueIdx

/-- One key tile's contribution to channel h of lane q of the query tile: the pair terms summed over the tile's 512 keys,
    the query point's vectors read off the transposed query blocks (column q), the key's off the key blocks (row jj). -/
def tileSum (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (h : Fin 32) (q : Fin 128) : EReal :=
  ∑ jj : Fin 512, Cert.GeoSpec.pair (fun c' => x0 (ix2 c' q)) (fun k => x1 (ix2 k q)) (fun c' => x2 (ix2 jj c')) (fun k => x3 (ix2 jj k))
    (fun h' => x4 (ix2 jj h')) (fun k a => x5 (ix2 k a)) (fun k => x6 (ix2 0 k)) (fun h' k => x7 (ix2 h' k)) (fun h' => x8 (ix2 0 h')) h

end Cert.KernelIdeal.Hand

end
-- ==== Proof.KI.PayRows0.lean ====
/-
  The thirty-two rows the body concatenates, one per channel: row h, read at query lane q, is the sum over the
  tile's 512 keys of window · rectified second layer (channel h) · feature (channel h) — the specification's tile sum.
  Rows 0–7.
-/
import proofs.«170118_j14654428414389_2_alg».proof.Proof.KI.PayShared
import proofs.«170118_j14654428414389_2_alg».proof.Proof.KI.TileSum
set_option maxRecDepth 16384
noncomputable section
namespace Cert.KernelIdeal.Hand
open Cert.KernelIdeal Cert.KernelIdeal.Gen
open Idealize.ShloMosaic Idealize.ShloMosaic.TcCoe Idealize.ShloMosaic.Tactic Idealize.ShloMosaic.ValueIdx
open Idealize.SL Idealize.SL.Sem
open Cert.Lib.VecIx2 Cert.GeoSpec

theorem hz : (![0, 0] : Fin 2 → Nat) = fun _ => 0 := funext fun a => by fin_cases a <;> rfl

set_option maxHeartbeats 2000000 in
/-- Row 0 of the tile's sums is the specification's tile sum for channel 0. -/
theorem rowsB_0 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (0 : Fin 32) q) = tileSum x0 x1 x2 x3 x4 x5 x6 x7 x8 0 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (concatenate_apply_piece (0 : Fin 2) _ _ (ix2 (0 : Fin 32) q) 0 ?hk S1x128 _ rfl rfl 0 rfl (ix2 (0 : Fin 1) q) ?hi ?ha) ?_
  case hk => exact (by decide : (0 : ℕ) < 32)
  case hi =>
    intro b hb
    match b with
    | ⟨0, _⟩ => exact absurd rfl hb
    | ⟨1, _⟩ => rfl
  case ha => rfl
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 2000000 in
/-- Row 1 of the tile's sums is the specification's tile sum for channel 1. -/
theorem rowsB_1 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (1 : Fin 32) q) = tileSum x0 x1 x2 x3 x4 x5 x6 x7 x8 1 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (concatenate_apply_piece (0 : Fin 2) _ _ (ix2 (1 : Fin 32) q) 1 ?hk S1x128 _ rfl rfl 1 rfl (ix2 (0 : Fin 1) q) ?hi ?ha) ?_
  case hk => exact (by decide : (1 : ℕ) < 32)
  case hi =>
    intro b hb
    match b with
    | ⟨0, _⟩ => exact absurd rfl hb
    | ⟨1, _⟩ => rfl
  case ha => rfl
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 2000000 in
/-- Row 2 of the tile's sums is the specification's tile sum for channel 2. -/
theorem rowsB_2 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (2 : Fin 32) q) = tileSum x0 x1 x2 x3 x4 x5 x6 x7 x8 2 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (concatenate_apply_piece (0 : Fin 2) _ _ (ix2 (2 : Fin 32) q) 2 ?hk S1x128 _ rfl rfl 2 rfl (ix2 (0 : Fin 1) q) ?hi ?ha) ?_
  case hk => exact (by decide : (2 : ℕ) < 32)
  case hi =>
    intro b hb
    match b with
    | ⟨0, _⟩ => exact absurd rfl hb
    | ⟨1, _⟩ => rfl
  case ha => rfl
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 2000000 in
/-- Row 3 of the tile's sums is the specification's tile sum for channel 3. -/
theorem rowsB_3 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (3 : Fin 32) q) = tileSum x0 x1 x2 x3 x4 x5 x6 x7 x8 3 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (concatenate_apply_piece (0 : Fin 2) _ _ (ix2 (3 : Fin 32) q) 3 ?hk S1x128 _ rfl rfl 3 rfl (ix2 (0 : Fin 1) q) ?hi ?ha) ?_
  case hk => exact (by decide : (3 : ℕ) < 32)
  case hi =>
    intro b hb
    match b with
    | ⟨0, _⟩ => exact absurd rfl hb
    | ⟨1, _⟩ => rfl
  case ha => rfl
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 2000000 in
/-- Row 4 of the tile's sums is the specification's tile sum for channel 4. -/
theorem rowsB_4 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (4 : Fin 32) q) = tileSum x0 x1 x2 x3 x4 x5 x6 x7 x8 4 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (concatenate_apply_piece (0 : Fin 2) _ _ (ix2 (4 : Fin 32) q) 4 ?hk S1x128 _ rfl rfl 4 rfl (ix2 (0 : Fin 1) q) ?hi ?ha) ?_
  case hk => exact (by decide : (4 : ℕ) < 32)
  case hi =>
    intro b hb
    match b with
    | ⟨0, _⟩ => exact absurd rfl hb
    | ⟨1, _⟩ => rfl
  case ha => rfl
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 2000000 in
/-- Row 5 of the tile's sums is the specification's tile sum for channel 5. -/
theorem rowsB_5 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (5 : Fin 32) q) = tileSum x0 x1 x2 x3 x4 x5 x6 x7 x8 5 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (concatenate_apply_piece (0 : Fin 2) _ _ (ix2 (5 : Fin 32) q) 5 ?hk S1x128 _ rfl rfl 5 rfl (ix2 (0 : Fin 1) q) ?hi ?ha) ?_
  case hk => exact (by decide : (5 : ℕ) < 32)
  case hi =>
    intro b hb
    match b with
    | ⟨0, _⟩ => exact absurd rfl hb
    | ⟨1, _⟩ => rfl
  case ha => rfl
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 2000000 in
/-- Row 6 of the tile's sums is the specification's tile sum for channel 6. -/
theorem rowsB_6 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (6 : Fin 32) q) = tileSum x0 x1 x2 x3 x4 x5 x6 x7 x8 6 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (concatenate_apply_piece (0 : Fin 2) _ _ (ix2 (6 : Fin 32) q) 6 ?hk S1x128 _ rfl rfl 6 rfl (ix2 (0 : Fin 1) q) ?hi ?ha) ?_
  case hk => exact (by decide : (6 : ℕ) < 32)
  case hi =>
    intro b hb
    match b with
    | ⟨0, _⟩ => exact absurd rfl hb
    | ⟨1, _⟩ => rfl
  case ha => rfl
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 2000000 in
/-- Row 7 of the tile's sums is the specification's tile sum for channel 7. -/
theorem rowsB_7 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (7 : Fin 32) q) = tileSum x0 x1 x2 x3 x4 x5 x6 x7 x8 7 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (concatenate_apply_piece (0 : Fin 2) _ _ (ix2 (7 : Fin 32) q) 7 ?hk S1x128 _ rfl rfl 7 rfl (ix2 (0 : Fin 1) q) ?hi ?ha) ?_
  case hk => exact (by decide : (7 : ℕ) < 32)
  case hi =>
    intro b hb
    match b with
    | ⟨0, _⟩ => exact absurd rfl hb
    | ⟨1, _⟩ => rfl
  case ha => rfl
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

end Cert.KernelIdeal.Hand

end
-- ==== Proof.KI.PayRows1.lean ====
/-
  The thirty-two rows the body concatenates, one per channel: row h, read at query lane q, is the sum over the
  tile's 512 keys of window · rectified second layer (channel h) · feature (channel h) — the specification's tile sum.
  Rows 8–15.
-/
import proofs.«170118_j14654428414389_2_alg».proof.Proof.KI.PayShared
import proofs.«170118_j14654428414389_2_alg».proof.Proof.KI.TileSum
set_option maxRecDepth 16384
noncomputable section
namespace Cert.KernelIdeal.Hand
open Cert.KernelIdeal Cert.KernelIdeal.Gen
open Idealize.ShloMosaic Idealize.ShloMosaic.TcCoe Idealize.ShloMosaic.Tactic Idealize.ShloMosaic.ValueIdx
open Idealize.SL Idealize.SL.Sem
open Cert.Lib.VecIx2 Cert.GeoSpec

private theorem hz : (![0, 0] : Fin 2 → Nat) = fun _ => 0 := funext fun a => by fin_cases a <;> rfl

set_option maxHeartbeats 2000000 in
/-- Row 8 of the tile's sums is the specification's tile sum for channel 8. -/
theorem rowsB_8 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (8 : Fin 32) q) = tileSum x0 x1 x2 x3 x4 x5 x6 x7 x8 8 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (concatenate_apply_piece (0 : Fin 2) _ _ (ix2 (8 : Fin 32) q) 8 ?hk S1x128 _ rfl rfl 8 rfl (ix2 (0 : Fin 1) q) ?hi ?ha) ?_
  case hk => exact (by decide : (8 : ℕ) < 32)
  case hi =>
    intro b hb
    match b with
    | ⟨0, _⟩ => exact absurd rfl hb
    | ⟨1, _⟩ => rfl
  case ha => rfl
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 2000000 in
/-- Row 9 of the tile's sums is the specification's tile sum for channel 9. -/
theorem rowsB_9 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (9 : Fin 32) q) = tileSum x0 x1 x2 x3 x4 x5 x6 x7 x8 9 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (concatenate_apply_piece (0 : Fin 2) _ _ (ix2 (9 : Fin 32) q) 9 ?hk S1x128 _ rfl rfl 9 rfl (ix2 (0 : Fin 1) q) ?hi ?ha) ?_
  case hk => exact (by decide : (9 : ℕ) < 32)
  case hi =>
    intro b hb
    match b with
    | ⟨0, _⟩ => exact absurd rfl hb
    | ⟨1, _⟩ => rfl
  case ha => rfl
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 2000000 in
/-- Row 10 of the tile's sums is the specification's tile sum for channel 10. -/
theorem rowsB_10 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (10 : Fin 32) q) = tileSum x0 x1 x2 x3 x4 x5 x6 x7 x8 10 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (concatenate_apply_piece (0 : Fin 2) _ _ (ix2 (10 : Fin 32) q) 10 ?hk S1x128 _ rfl rfl 10 rfl (ix2 (0 : Fin 1) q) ?hi ?ha) ?_
  case hk => exact (by decide : (10 : ℕ) < 32)
  case hi =>
    intro b hb
    match b with
    | ⟨0, _⟩ => exact absurd rfl hb
    | ⟨1, _⟩ => rfl
  case ha => rfl
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 2000000 in
/-- Row 11 of the tile's sums is the specification's tile sum for channel 11. -/
theorem rowsB_11 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (11 : Fin 32) q) = tileSum x0 x1 x2 x3 x4 x5 x6 x7 x8 11 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (concatenate_apply_piece (0 : Fin 2) _ _ (ix2 (11 : Fin 32) q) 11 ?hk S1x128 _ rfl rfl 11 rfl (ix2 (0 : Fin 1) q) ?hi ?ha) ?_
  case hk => exact (by decide : (11 : ℕ) < 32)
  case hi =>
    intro b hb
    match b with
    | ⟨0, _⟩ => exact absurd rfl hb
    | ⟨1, _⟩ => rfl
  case ha => rfl
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 2000000 in
/-- Row 12 of the tile's sums is the specification's tile sum for channel 12. -/
theorem rowsB_12 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (12 : Fin 32) q) = tileSum x0 x1 x2 x3 x4 x5 x6 x7 x8 12 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (concatenate_apply_piece (0 : Fin 2) _ _ (ix2 (12 : Fin 32) q) 12 ?hk S1x128 _ rfl rfl 12 rfl (ix2 (0 : Fin 1) q) ?hi ?ha) ?_
  case hk => exact (by decide : (12 : ℕ) < 32)
  case hi =>
    intro b hb
    match b with
    | ⟨0, _⟩ => exact absurd rfl hb
    | ⟨1, _⟩ => rfl
  case ha => rfl
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 2000000 in
/-- Row 13 of the tile's sums is the specification's tile sum for channel 13. -/
theorem rowsB_13 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (13 : Fin 32) q) = tileSum x0 x1 x2 x3 x4 x5 x6 x7 x8 13 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (concatenate_apply_piece (0 : Fin 2) _ _ (ix2 (13 : Fin 32) q) 13 ?hk S1x128 _ rfl rfl 13 rfl (ix2 (0 : Fin 1) q) ?hi ?ha) ?_
  case hk => exact (by decide : (13 : ℕ) < 32)
  case hi =>
    intro b hb
    match b with
    | ⟨0, _⟩ => exact absurd rfl hb
    | ⟨1, _⟩ => rfl
  case ha => rfl
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 2000000 in
/-- Row 14 of the tile's sums is the specification's tile sum for channel 14. -/
theorem rowsB_14 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (14 : Fin 32) q) = tileSum x0 x1 x2 x3 x4 x5 x6 x7 x8 14 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (concatenate_apply_piece (0 : Fin 2) _ _ (ix2 (14 : Fin 32) q) 14 ?hk S1x128 _ rfl rfl 14 rfl (ix2 (0 : Fin 1) q) ?hi ?ha) ?_
  case hk => exact (by decide : (14 : ℕ) < 32)
  case hi =>
    intro b hb
    match b with
    | ⟨0, _⟩ => exact absurd rfl hb
    | ⟨1, _⟩ => rfl
  case ha => rfl
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 2000000 in
/-- Row 15 of the tile's sums is the specification's tile sum for channel 15. -/
theorem rowsB_15 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (15 : Fin 32) q) = tileSum x0 x1 x2 x3 x4 x5 x6 x7 x8 15 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (concatenate_apply_piece (0 : Fin 2) _ _ (ix2 (15 : Fin 32) q) 15 ?hk S1x128 _ rfl rfl 15 rfl (ix2 (0 : Fin 1) q) ?hi ?ha) ?_
  case hk => exact (by decide : (15 : ℕ) < 32)
  case hi =>
    intro b hb
    match b with
    | ⟨0, _⟩ => exact absurd rfl hb
    | ⟨1, _⟩ => rfl
  case ha => rfl
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

end Cert.KernelIdeal.Hand

end
-- ==== Proof.LibConcat32.lean ====
/-
  A concatenation of thirty-two one-row pieces along the rows, read at row k: it is piece k read at its one row.
  Stated piece by piece over variables, so that applying it to large pieces never has to look inside them.
-/
import Idealize.ShloMosaic.Lib.Pipeline.Value
import Idealize.ShloMosaic.Lib.ValueIdx
set_option maxRecDepth 16384
noncomputable section
namespace Cert.Lib.Concat32
open Idealize.ShloMosaic Idealize.ShloMosaic.ValueIdx
variable {α : Type} {b : ℕ}

theorem row0 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (0 : Fin 32) q) = r0 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (0 : Fin 32) q) (0 : Fin 32) rfl (ix2 (0 : Fin 1) q)
    (fun c hc => by
      match c with
      | ⟨0, _⟩ => exact absurd rfl hc
      | ⟨1, _⟩ => rfl)

theorem row1 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (1 : Fin 32) q) = r1 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (1 : Fin 32) q) (1 : Fin 32) rfl (ix2 (0 : Fin 1) q)
    (fun c hc => by
      match c with
      | ⟨0, _⟩ => exact absurd rfl hc
      | ⟨1, _⟩ => rfl)

theorem row2 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (2 : Fin 32) q) = r2 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (2 : Fin 32) q) (2 : Fin 32) rfl (ix2 (0 : Fin 1) q)
    (fun c hc => by
      match c with
      | ⟨0, _⟩ => exact absurd rfl hc
      | ⟨1, _⟩ => rfl)

theorem row3 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (3 : Fin 32) q) = r3 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (3 : Fin 32) q) (3 : Fin 32) rfl (ix2 (0 : Fin 1) q)
    (fun c hc => by
      match c with
      | ⟨0, _⟩ => exact absurd rfl hc
      | ⟨1, _⟩ => rfl)

theorem row4 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (4 : Fin 32) q) = r4 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (4 : Fin 32) q) (4 : Fin 32) rfl (ix2 (0 : Fin 1) q)
    (fun c hc => by
      match c with
      | ⟨0, _⟩ => exact absurd rfl hc
      | ⟨1, _⟩ => rfl)

theorem row5 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (5 : Fin 32) q) = r5 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (5 : Fin 32) q) (5 : Fin 32) rfl (ix2 (0 : Fin 1) q)
    (fun c hc => by
      match c with
      | ⟨0, _⟩ => exact absurd rfl hc
      | ⟨1, _⟩ => rfl)

theorem row6 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (6 : Fin 32) q) = r6 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (6 : Fin 32) q) (6 : Fin 32) rfl (ix2 (0 : Fin 1) q)
    (fun c hc => by
      match c with
      | ⟨0, _⟩ => exact absurd rfl hc
      | ⟨1, _⟩ => rfl)

theorem row7 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (7 : Fin 32) q) = r7 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (7 : Fin 32) q) (7 : Fin 32) rfl (ix2 (0 : Fin 1) q)
    (fun c hc => by
      match c with
      | ⟨0, _⟩ => exact absurd rfl hc
      | ⟨1, _⟩ => rfl)

theorem row8 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (8 : Fin 32) q) = r8 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (8 : Fin 32) q) (8 : Fin 32) rfl (ix2 (0 : Fin 1) q)
    (fun c hc => by
      match c with
      | ⟨0, _⟩ => exact absurd rfl hc
      | ⟨1, _⟩ => rfl)

theorem row9 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (9 : Fin 32) q) = r9 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (9 : Fin 32) q) (9 : Fin 32) rfl (ix2 (0 : Fin 1) q)
    (fun c hc => by
      match c with
      | ⟨0, _⟩ => exact absurd rfl hc
      | ⟨1, _⟩ => rfl)

theorem row10 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (10 : Fin 32) q) = r10 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (10 : Fin 32) q) (10 : Fin 32) rfl (ix2 (0 : Fin 1) q)
    (fun c hc => by
      match c with
      | ⟨0, _⟩ => exact absurd rfl hc
      | ⟨1, _⟩ => rfl)

theorem row11 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (11 : Fin 32) q) = r11 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (11 : Fin 32) q) (11 : Fin 32) rfl (ix2 (0 : Fin 1) q)
    (fun c hc => by
      match c with
      | ⟨0, _⟩ => exact absurd rfl hc
      | ⟨1, _⟩ => rfl)

theorem row12 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (12 : Fin 32) q) = r12 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (12 : Fin 32) q) (12 : Fin 32) rfl (ix2 (0 : Fin 1) q)
    (fun c hc => by
      match c with
      | ⟨0, _⟩ => exact absurd rfl hc
      | ⟨1, _⟩ => rfl)

theorem row13 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (13 : Fin 32) q) = r13 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (13 : Fin 32) q) (13 : Fin 32) rfl (ix2 (0 : Fin 1) q)
    (fun c hc => by
      match c with
      | ⟨0, _⟩ => exact absurd rfl hc
      | ⟨1, _⟩ => rfl)

theorem row14 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (14 : Fin 32) q) = r14 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (14 : Fin 32) q) (14 : Fin 32) rfl (ix2 (0 : Fin 1) q)
    (fun c hc => by
      match c with
      | ⟨0, _⟩ => exact absurd rfl hc
      | ⟨1, _⟩ => rfl)

theorem row15 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (15 : Fin 32) q) = r15 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (15 : Fin 32) q) (15 : Fin 32) rfl (ix2 (0 : Fin 1) q)
    (fun c hc => by
      match c with
      | ⟨0, _⟩ => exact absurd rfl hc
      | ⟨1, _⟩ => rfl)

theorem row16 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (16 : Fin 32) q) = r16 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (16 : Fin 32) q) (16 : Fin 32) rfl (ix2 (0 : Fin 1) q)
    (fun c hc => by
      match c with
      | ⟨0, _⟩ => exact absurd rfl hc
      | ⟨1, _⟩ => rfl)

theorem row17 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (17 : Fin 32) q) = r17 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (17 : Fin 32) q) (17 : Fin 32) rfl (ix2 (0 : Fin 1) q)
    (fun c hc => by
      match c with
      | ⟨0, _⟩ => exact absurd rfl hc
      | ⟨1, _⟩ => rfl)

theorem row18 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (18 : Fin 32) q) = r18 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (18 : Fin 32) q) (18 : Fin 32) rfl (ix2 (0 : Fin 1) q)
    (fun c hc => by
      match c with
      | ⟨0, _⟩ => exact absurd rfl hc
      | ⟨1, _⟩ => rfl)

theorem row19 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (19 : Fin 32) q) = r19 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (19 : Fin 32) q) (19 : Fin 32) rfl (ix2 (0 : Fin 1) q)
    (fun c hc => by
      match c with
      | ⟨0, _⟩ => exact absurd rfl hc
      | ⟨1, _⟩ => rfl)

theorem row20 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (20 : Fin 32) q) = r20 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (20 : Fin 32) q) (20 : Fin 32) rfl (ix2 (0 : Fin 1) q)
    (fun c hc => by
      match c with
      | ⟨0, _⟩ => exact absurd rfl hc
      | ⟨1, _⟩ => rfl)

theorem row21 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (21 : Fin 32) q) = r21 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (21 : Fin 32) q) (21 : Fin 32) rfl (ix2 (0 : Fin 1) q)
    (fun c hc => by
      match c with
      | ⟨0, _⟩ => exact absurd rfl hc
      | ⟨1, _⟩ => rfl)

theorem row22 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (22 : Fin 32) q) = r22 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (22 : Fin 32) q) (22 : Fin 32) rfl (ix2 (0 : Fin 1) q)
    (fun c hc => by
      match c with
      | ⟨0, _⟩ => exact absurd rfl hc
      | ⟨1, _⟩ => rfl)

theorem row23 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (23 : Fin 32) q) = r23 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (23 : Fin 32) q) (23 : Fin 32) rfl (ix2 (0 : Fin 1) q)
    (fun c hc => by
      match c with
      | ⟨0, _⟩ => exact absurd rfl hc
      | ⟨1, _⟩ => rfl)

theorem row24 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (24 : Fin 32) q) = r24 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (24 : Fin 32) q) (24 : Fin 32) rfl (ix2 (0 : Fin 1) q)
    (fun c hc => by
      match c with
      | ⟨0, _⟩ => exact absurd rfl hc
      | ⟨1, _⟩ => rfl)

theorem row25 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (25 : Fin 32) q) = r25 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (25 : Fin 32) q) (25 : Fin 32) rfl (ix2 (0 : Fin 1) q)
    (fun c hc => by
      match c with
      | ⟨0, _⟩ => exact absurd rfl hc
      | ⟨1, _⟩ => rfl)

theorem row26 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (26 : Fin 32) q) = r26 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (26 : Fin 32) q) (26 : Fin 32) rfl (ix2 (0 : Fin 1) q)
    (fun c hc => by
      match c with
      | ⟨0, _⟩ => exact absurd rfl hc
      | ⟨1, _⟩ => rfl)

theorem row27 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (27 : Fin 32) q) = r27 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (27 : Fin 32) q) (27 : Fin 32) rfl (ix2 (0 : Fin 1) q)
    (fun c hc => by
      match c with
      | ⟨0, _⟩ => exact absurd rfl hc
      | ⟨1, _⟩ => rfl)

theorem row28 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (28 : Fin 32) q) = r28 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (28 : Fin 32) q) (28 : Fin 32) rfl (ix2 (0 : Fin 1) q)
    (fun c hc => by
      match c with
      | ⟨0, _⟩ => exact absurd rfl hc
      | ⟨1, _⟩ => rfl)

theorem row29 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (29 : Fin 32) q) = r29 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (29 : Fin 32) q) (29 : Fin 32) rfl (ix2 (0 : Fin 1) q)
    (fun c hc => by
      match c with
      | ⟨0, _⟩ => exact absurd rfl hc
      | ⟨1, _⟩ => rfl)

theorem row30 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (30 : Fin 32) q) = r30 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (30 : Fin 32) q) (30 : Fin 32) rfl (ix2 (0 : Fin 1) q)
    (fun c hc => by
      match c with
      | ⟨0, _⟩ => exact absurd rfl hc
      | ⟨1, _⟩ => rfl)

theorem row31 (r0 r1 r2 r3 r4 r5 r6 r7 r8 r9 r10 r11 r12 r13 r14 r15 r16 r17 r18 r19 r20 r21 r22 r23 r24 r25 r26 r27 r28 r29 r30 r31 : (⟨2, ![1, b]⟩ : Shape).Idx → α)
    (h : Shape.Concatenates (([⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] : List ((s : Shape) × (s.Idx → α))).map (·.1)) ⟨2, ![32, b]⟩ (0 : Fin 2)) (q : Fin b) :
    concatenate ⟨2, ![32, b]⟩ (0 : Fin 2) [⟨⟨2, ![1, b]⟩, r0⟩, ⟨⟨2, ![1, b]⟩, r1⟩, ⟨⟨2, ![1, b]⟩, r2⟩, ⟨⟨2, ![1, b]⟩, r3⟩, ⟨⟨2, ![1, b]⟩, r4⟩, ⟨⟨2, ![1, b]⟩, r5⟩, ⟨⟨2, ![1, b]⟩, r6⟩, ⟨⟨2, ![1, b]⟩, r7⟩, ⟨⟨2, ![1, b]⟩, r8⟩, ⟨⟨2, ![1, b]⟩, r9⟩, ⟨⟨2, ![1, b]⟩, r10⟩, ⟨⟨2, ![1, b]⟩, r11⟩, ⟨⟨2, ![1, b]⟩, r12⟩, ⟨⟨2, ![1, b]⟩, r13⟩, ⟨⟨2, ![1, b]⟩, r14⟩, ⟨⟨2, ![1, b]⟩, r15⟩, ⟨⟨2, ![1, b]⟩, r16⟩, ⟨⟨2, ![1, b]⟩, r17⟩, ⟨⟨2, ![1, b]⟩, r18⟩, ⟨⟨2, ![1, b]⟩, r19⟩, ⟨⟨2, ![1, b]⟩, r20⟩, ⟨⟨2, ![1, b]⟩, r21⟩, ⟨⟨2, ![1, b]⟩, r22⟩, ⟨⟨2, ![1, b]⟩, r23⟩, ⟨⟨2, ![1, b]⟩, r24⟩, ⟨⟨2, ![1, b]⟩, r25⟩, ⟨⟨2, ![1, b]⟩, r26⟩, ⟨⟨2, ![1, b]⟩, r27⟩, ⟨⟨2, ![1, b]⟩, r28⟩, ⟨⟨2, ![1, b]⟩, r29⟩, ⟨⟨2, ![1, b]⟩, r30⟩, ⟨⟨2, ![1, b]⟩, r31⟩] h (ix2 (31 : Fin 32) q) = r31 (ix2 (0 : Fin 1) q) :=
  concatenate_ofFn_unit_apply (t := ⟨2, ![32, b]⟩) (s₁ := ⟨2, ![1, b]⟩) (0 : Fin 2) (fun n : Fin 32 => (![r0, r1, r2, r3, r4, r5, r6, r7, r8, r9, r10, r11, r12, r13, r14, r15, r16, r17, r18, r19, r20, r21, r22, r23, r24, r25, r26, r27, r28, r29, r30, r31] : Fin 32 → ((⟨2, ![1, b]⟩ : Shape).Idx → α)) n) h rfl rfl
    (ix2 (31 : Fin 32) q) (31 : Fin 32) rfl (ix2 (0 : Fin 1) q)
    (fun c hc => by
      match c with
      | ⟨0, _⟩ => exact absurd rfl hc
      | ⟨1, _⟩ => rfl)

end Cert.Lib.Concat32

end
-- ==== Proof.KI.PayRows2.lean ====
/-
  The thirty-two rows the body concatenates, one per channel: row h, read at query lane q, is the sum over the
  tile's 512 keys of window · rectified second layer (channel h) · feature (channel h) — the specification's tile sum.
  Rows 16–23.
-/
import proofs.«170118_j14654428414389_2_alg».proof.Proof.KI.PayShared
import proofs.«170118_j14654428414389_2_alg».proof.Proof.KI.TileSum
import proofs.«170118_j14654428414389_2_alg».proof.Proof.LibConcat32
set_option maxRecDepth 16384
noncomputable section
namespace Cert.KernelIdeal.Hand
open Cert.KernelIdeal Cert.KernelIdeal.Gen
open Idealize.ShloMosaic Idealize.ShloMosaic.TcCoe Idealize.ShloMosaic.Tactic Idealize.ShloMosaic.ValueIdx
open Idealize.SL Idealize.SL.Sem
open Cert.Lib.VecIx2 Cert.GeoSpec

private theorem hz : (![0, 0] : Fin 2 → Nat) = fun _ => 0 := funext fun a => by fin_cases a <;> rfl

set_option maxHeartbeats 4000000 in
/-- Row 16 of the tile's sums is the specification's tile sum for channel 16. -/
theorem rowsB_16 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (16 : Fin 32) q) = tileSum x0 x1 x2 x3 x4 x5 x6 x7 x8 16 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (Cert.Lib.Concat32.row16 _ _ _ _ _ _ _ _ _ _ _ _ _ _ _ _ _ _ _ _ _ _ _ _ _ _ _ _ _ _ _ _ _ q) ?_
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 4000000 in
/-- Row 17 of the tile's sums is the specification's tile sum for channel 17. -/
theorem rowsB_17 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (17 : Fin 32) q) = tileSum x0 x1 x2 x3 x4 x5 x6 x7 x8 17 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (Cert.Lib.Concat32.row17 _ _ _ _ _ _ _ _ _ _ _ _ _ _ _ _ _ _ _ _ _ _ _ _ _ _ _ _ _ _ _ _ _ q) ?_
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 4000000 in
/-- Row 18 of the tile's sums is the specification's tile sum for channel 18. -/
theorem rowsB_18 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (18 : Fin 32) q) = tileSum x0 x1 x2 x3 x4 x5 x6 x7 x8 18 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (Cert.Lib.Concat32.row18 _ _ _ _ _ _ _ _ _ _ _ _ _ _ _ _ _ _ _ _ _ _ _ _ _ _ _ _ _ _ _ _ _ q) ?_
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 4000000 in
/-- Row 19 of the tile's sums is the specification's tile sum for channel 19. -/
theorem rowsB_19 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (19 : Fin 32) q) = tileSum x0 x1 x2 x3 x4 x5 x6 x7 x8 19 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (Cert.Lib.Concat32.row19 _ _ _ _ _ _ _ _ _ _ _ _ _ _ _ _ _ _ _ _ _ _ _ _ _ _ _ _ _ _ _ _ _ q) ?_
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 4000000 in
/-- Row 20 of the tile's sums is the specification's tile sum for channel 20. -/
theorem rowsB_20 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (20 : Fin 32) q) = tileSum x0 x1 x2 x3 x4 x5 x6 x7 x8 20 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (Cert.Lib.Concat32.row20 _ _ _ _ _ _ _ _ _ _ _ _ _ _ _ _ _ _ _ _ _ _ _ _ _ _ _ _ _ _ _ _ _ q) ?_
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 4000000 in
/-- Row 21 of the tile's sums is the specification's tile sum for channel 21. -/
theorem rowsB_21 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (21 : Fin 32) q) = tileSum x0 x1 x2 x3 x4 x5 x6 x7 x8 21 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (Cert.Lib.Concat32.row21 _ _ _ _ _ _ _ _ _ _ _ _ _ _ _ _ _ _ _ _ _ _ _ _ _ _ _ _ _ _ _ _ _ q) ?_
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 4000000 in
/-- Row 22 of the tile's sums is the specification's tile sum for channel 22. -/
theorem rowsB_22 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (22 : Fin 32) q) = tileSum x0 x1 x2 x3 x4 x5 x6 x7 x8 22 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (Cert.Lib.Concat32.row22 _ _ _ _ _ _ _ _ _ _ _ _ _ _ _ _ _ _ _ _ _ _ _ _ _ _ _ _ _ _ _ _ _ q) ?_
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 4000000 in
/-- Row 23 of the tile's sums is the specification's tile sum for channel 23. -/
theorem rowsB_23 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (23 : Fin 32) q) = tileSum x0 x1 x2 x3 x4 x5 x6 x7 x8 23 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (Cert.Lib.Concat32.row23 _ _ _ _ _ _ _ _ _ _ _ _ _ _ _ _ _ _ _ _ _ _ _ _ _ _ _ _ _ _ _ _ _ q) ?_
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

end Cert.KernelIdeal.Hand

end
-- ==== Proof.KI.PayRows3.lean ====
/-
  The thirty-two rows the body concatenates, one per channel: row h, read at query lane q, is the sum over the
  tile's 512 keys of window · rectified second layer (channel h) · feature (channel h) — the specification's tile sum.
  Rows 24–31.
-/
import proofs.«170118_j14654428414389_2_alg».proof.Proof.KI.PayShared
import proofs.«170118_j14654428414389_2_alg».proof.Proof.KI.TileSum
import proofs.«170118_j14654428414389_2_alg».proof.Proof.LibConcat32
set_option maxRecDepth 16384
noncomputable section
namespace Cert.KernelIdeal.Hand
open Cert.KernelIdeal Cert.KernelIdeal.Gen
open Idealize.ShloMosaic Idealize.ShloMosaic.TcCoe Idealize.ShloMosaic.Tactic Idealize.ShloMosaic.ValueIdx
open Idealize.SL Idealize.SL.Sem
open Cert.Lib.VecIx2 Cert.GeoSpec

private theorem hz : (![0, 0] : Fin 2 → Nat) = fun _ => 0 := funext fun a => by fin_cases a <;> rfl

set_option maxHeartbeats 4000000 in
/-- Row 24 of the tile's sums is the specification's tile sum for channel 24. -/
theorem rowsB_24 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (24 : Fin 32) q) = tileSum x0 x1 x2 x3 x4 x5 x6 x7 x8 24 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (Cert.Lib.Concat32.row24 _ _ _ _ _ _ _ _ _ _ _ _ _ _ _ _ _ _ _ _ _ _ _ _ _ _ _ _ _ _ _ _ _ q) ?_
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 4000000 in
/-- Row 25 of the tile's sums is the specification's tile sum for channel 25. -/
theorem rowsB_25 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (25 : Fin 32) q) = tileSum x0 x1 x2 x3 x4 x5 x6 x7 x8 25 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (Cert.Lib.Concat32.row25 _ _ _ _ _ _ _ _ _ _ _ _ _ _ _ _ _ _ _ _ _ _ _ _ _ _ _ _ _ _ _ _ _ q) ?_
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 4000000 in
/-- Row 26 of the tile's sums is the specification's tile sum for channel 26. -/
theorem rowsB_26 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (26 : Fin 32) q) = tileSum x0 x1 x2 x3 x4 x5 x6 x7 x8 26 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (Cert.Lib.Concat32.row26 _ _ _ _ _ _ _ _ _ _ _ _ _ _ _ _ _ _ _ _ _ _ _ _ _ _ _ _ _ _ _ _ _ q) ?_
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 4000000 in
/-- Row 27 of the tile's sums is the specification's tile sum for channel 27. -/
theorem rowsB_27 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (27 : Fin 32) q) = tileSum x0 x1 x2 x3 x4 x5 x6 x7 x8 27 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (Cert.Lib.Concat32.row27 _ _ _ _ _ _ _ _ _ _ _ _ _ _ _ _ _ _ _ _ _ _ _ _ _ _ _ _ _ _ _ _ _ q) ?_
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 4000000 in
/-- Row 28 of the tile's sums is the specification's tile sum for channel 28. -/
theorem rowsB_28 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (28 : Fin 32) q) = tileSum x0 x1 x2 x3 x4 x5 x6 x7 x8 28 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (Cert.Lib.Concat32.row28 _ _ _ _ _ _ _ _ _ _ _ _ _ _ _ _ _ _ _ _ _ _ _ _ _ _ _ _ _ _ _ _ _ q) ?_
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 4000000 in
/-- Row 29 of the tile's sums is the specification's tile sum for channel 29. -/
theorem rowsB_29 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (29 : Fin 32) q) = tileSum x0 x1 x2 x3 x4 x5 x6 x7 x8 29 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (Cert.Lib.Concat32.row29 _ _ _ _ _ _ _ _ _ _ _ _ _ _ _ _ _ _ _ _ _ _ _ _ _ _ _ _ _ _ _ _ _ q) ?_
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 4000000 in
/-- Row 30 of the tile's sums is the specification's tile sum for channel 30. -/
theorem rowsB_30 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (30 : Fin 32) q) = tileSum x0 x1 x2 x3 x4 x5 x6 x7 x8 30 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (Cert.Lib.Concat32.row30 _ _ _ _ _ _ _ _ _ _ _ _ _ _ _ _ _ _ _ _ _ _ _ _ _ _ _ _ _ _ _ _ _ q) ?_
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

set_option maxHeartbeats 4000000 in
/-- Row 31 of the tile's sums is the specification's tile sum for channel 31. -/
theorem rowsB_31 (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 (31 : Fin 32) q) = tileSum x0 x1 x2 x3 x4 x5 x6 x7 x8 31 q := by
  unfold kernelRun0_B.sl.v1977
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S3x128) hz, View.ld_unit_zero (S := S9x128) hz, View.ld_unit_zero (S := S512x3) hz, View.ld_unit_zero (S := S512x9) hz, View.ld_unit_zero (S := S512x32) hz, View.ld_unit_zero (S := S8x3) hz, View.ld_unit_zero (S := S1x8) hz, View.ld_unit_zero (S := S32x8) hz, View.ld_unit_zero (S := S1x32) hz]
  simp only [k0_pay116]
  refine Eq.trans (Cert.Lib.Concat32.row31 _ _ _ _ _ _ _ _ _ _ _ _ _ _ _ _ _ _ _ _ _ _ _ _ _ _ _ _ _ _ _ _ _ q) ?_
  simp only [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay7, k0_pay9, shapeCast_a_1a_apply]
  rw [reduce_rows']
  simp only [w_apply, c0_apply, c1_apply, c2_apply, c3_apply, c4_apply, c5_apply, c6_apply, c7_apply, shapeCast_self, mulf_apply, addf_apply, subf_apply, maximumf_apply, broadcast_apply, slice_col, slice_row, slice_11, extractAt_11, bcast_col, broadcastTo_1b_ab_apply, vexp_apply]
  simp only [Ideal.ofBits_def, Ideal.ofBits_zero_f32, zero_add, tileSum, pair, xc2, Fin.sum_univ_eight]
  rfl

end Cert.KernelIdeal.Hand

end
-- ==== Proof.KI.PayRows.lean ====
/-
  All thirty-two rows at once, and the same rows as the other two cases' runs name them (the rows are the same
  function of the loaded blocks in every case).
-/
import proofs.«170118_j14654428414389_2_alg».proof.Proof.KI.PayRows0
import proofs.«170118_j14654428414389_2_alg».proof.Proof.KI.PayRows1
import proofs.«170118_j14654428414389_2_alg».proof.Proof.KI.PayRows2
import proofs.«170118_j14654428414389_2_alg».proof.Proof.KI.PayRows3
set_option maxRecDepth 16384
noncomputable section
namespace Cert.KernelIdeal.Hand
open Cert.KernelIdeal Cert.KernelIdeal.Gen
open Idealize.ShloMosaic Idealize.ShloMosaic.TcCoe Idealize.ShloMosaic.Tactic Idealize.ShloMosaic.ValueIdx
open Idealize.SL Idealize.SL.Sem
open Cert.Lib.VecIx2 Cert.GeoSpec

/-- Row h of the tile's sums, any channel h. -/
theorem rowsB (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (h : Fin 32) (q : Fin 128) :
    kernelRun0_B.sl.v1977 (F := Ideal) c arg2 harg2 arg3 harg3 arg4 harg4 arg5 harg5 arg6 harg6 arg7 harg7 arg8 harg8 arg9 harg9 arg10 harg10 x0 x1 x2 x3 x4 x5 x6 x7 x8 (ix2 h q) = tileSum x0 x1 x2 x3 x4 x5 x6 x7 x8 h q :=
  match h with
  | ⟨0, _⟩ => rowsB_0 c arg2 harg2 arg3 harg3 arg4 harg4 arg5 harg5 arg6 harg6 arg7 harg7 arg8 harg8 arg9 harg9 arg10 harg10 x0 x1 x2 x3 x4 x5 x6 x7 x8 q
  | ⟨1, _⟩ => rowsB_1 c arg2 harg2 arg3 harg3 arg4 harg4 arg5 harg5 arg6 harg6 arg7 harg7 arg8 harg8 arg9 harg9 arg10 harg10 x0 x1 x2 x3 x4 x5 x6 x7 x8 q
  | ⟨2, _⟩ => rowsB_2 c arg2 harg2 arg3 harg3 arg4 harg4 arg5 harg5 arg6 harg6 arg7 harg7 arg8 harg8 arg9 harg9 arg10 harg10 x0 x1 x2 x3 x4 x5 x6 x7 x8 q
  | ⟨3, _⟩ => rowsB_3 c arg2 harg2 arg3 harg3 arg4 harg4 arg5 harg5 arg6 harg6 arg7 harg7 arg8 harg8 arg9 harg9 arg10 harg10 x0 x1 x2 x3 x4 x5 x6 x7 x8 q
  | ⟨4, _⟩ => rowsB_4 c arg2 harg2 arg3 harg3 arg4 harg4 arg5 harg5 arg6 harg6 arg7 harg7 arg8 harg8 arg9 harg9 arg10 harg10 x0 x1 x2 x3 x4 x5 x6 x7 x8 q
  | ⟨5, _⟩ => rowsB_5 c arg2 harg2 arg3 harg3 arg4 harg4 arg5 harg5 arg6 harg6 arg7 harg7 arg8 harg8 arg9 harg9 arg10 harg10 x0 x1 x2 x3 x4 x5 x6 x7 x8 q
  | ⟨6, _⟩ => rowsB_6 c arg2 harg2 arg3 harg3 arg4 harg4 arg5 harg5 arg6 harg6 arg7 harg7 arg8 harg8 arg9 harg9 arg10 harg10 x0 x1 x2 x3 x4 x5 x6 x7 x8 q
  | ⟨7, _⟩ => rowsB_7 c arg2 harg2 arg3 harg3 arg4 harg4 arg5 harg5 arg6 harg6 arg7 harg7 arg8 harg8 arg9 harg9 arg10 harg10 x0 x1 x2 x3 x4 x5 x6 x7 x8 q
  | ⟨8, _⟩ => rowsB_8 c arg2 harg2 arg3 harg3 arg4 harg4 arg5 harg5 arg6 harg6 arg7 harg7 arg8 harg8 arg9 harg9 arg10 harg10 x0 x1 x2 x3 x4 x5 x6 x7 x8 q
  | ⟨9, _⟩ => rowsB_9 c arg2 harg2 arg3 harg3 arg4 harg4 arg5 harg5 arg6 harg6 arg7 harg7 arg8 harg8 arg9 harg9 arg10 harg10 x0 x1 x2 x3 x4 x5 x6 x7 x8 q
  | ⟨10, _⟩ => rowsB_10 c arg2 harg2 arg3 harg3 arg4 harg4 arg5 harg5 arg6 harg6 arg7 harg7 arg8 harg8 arg9 harg9 arg10 harg10 x0 x1 x2 x3 x4 x5 x6 x7 x8 q
  | ⟨11, _⟩ => rowsB_11 c arg2 harg2 arg3 harg3 arg4 harg4 arg5 harg5 arg6 harg6 arg7 harg7 arg8 harg8 arg9 harg9 arg10 harg10 x0 x1 x2 x3 x4 x5 x6 x7 x8 q
  | ⟨12, _⟩ => rowsB_12 c arg2 harg2 arg3 harg3 arg4 harg4 arg5 harg5 arg6 harg6 arg7 harg7 arg8 harg8 arg9 harg9 arg10 harg10 x0 x1 x2 x3 x4 x5 x6 x7 x8 q
  | ⟨13, _⟩ => rowsB_13 c arg2 harg2 arg3 harg3 arg4 harg4 arg5 harg5 arg6 harg6 arg7 harg7 arg8 harg8 arg9 harg9 arg10 harg10 x0 x1 x2 x3 x4 x5 x6 x7 x8 q
  | ⟨14, _⟩ => rowsB_14 c arg2 harg2 arg3 harg3 arg4 harg4 arg5 harg5 arg6 harg6 arg7 harg7 arg8 harg8 arg9 harg9 arg10 harg10 x0 x1 x2 x3 x4 x5 x6 x7 x8 q
  | ⟨15, _⟩ => rowsB_15 c arg2 harg2 arg3 harg3 arg4 harg4 arg5 harg5 arg6 harg6 arg7 harg7 arg8 harg8 arg9 harg9 arg10 harg10 x0 x1 x2 x3 x4 x5 x6 x7 x8 q
  | ⟨16, _⟩ => rowsB_16 c arg2 harg2 arg3 harg3 arg4 harg4 arg5 harg5 arg6 harg6 arg7 harg7 arg8 harg8 arg9 harg9 arg10 harg10 x0 x1 x2 x3 x4 x5 x6 x7 x8 q
  | ⟨17, _⟩ => rowsB_17 c arg2 harg2 arg3 harg3 arg4 harg4 arg5 harg5 arg6 harg6 arg7 harg7 arg8 harg8 arg9 harg9 arg10 harg10 x0 x1 x2 x3 x4 x5 x6 x7 x8 q
  | ⟨18, _⟩ => rowsB_18 c arg2 harg2 arg3 harg3 arg4 harg4 arg5 harg5 arg6 harg6 arg7 harg7 arg8 harg8 arg9 harg9 arg10 harg10 x0 x1 x2 x3 x4 x5 x6 x7 x8 q
  | ⟨19, _⟩ => rowsB_19 c arg2 harg2 arg3 harg3 arg4 harg4 arg5 harg5 arg6 harg6 arg7 harg7 arg8 harg8 arg9 harg9 arg10 harg10 x0 x1 x2 x3 x4 x5 x6 x7 x8 q
  | ⟨20, _⟩ => rowsB_20 c arg2 harg2 arg3 harg3 arg4 harg4 arg5 harg5 arg6 harg6 arg7 harg7 arg8 harg8 arg9 harg9 arg10 harg10 x0 x1 x2 x3 x4 x5 x6 x7 x8 q
  | ⟨21, _⟩ => rowsB_21 c arg2 harg2 arg3 harg3 arg4 harg4 arg5 harg5 arg6 harg6 arg7 harg7 arg8 harg8 arg9 harg9 arg10 harg10 x0 x1 x2 x3 x4 x5 x6 x7 x8 q
  | ⟨22, _⟩ => rowsB_22 c arg2 harg2 arg3 harg3 arg4 harg4 arg5 harg5 arg6 harg6 arg7 harg7 arg8 harg8 arg9 harg9 arg10 harg10 x0 x1 x2 x3 x4 x5 x6 x7 x8 q
  | ⟨23, _⟩ => rowsB_23 c arg2 harg2 arg3 harg3 arg4 harg4 arg5 harg5 arg6 harg6 arg7 harg7 arg8 harg8 arg9 harg9 arg10 harg10 x0 x1 x2 x3 x4 x5 x6 x7 x8 q
  | ⟨24, _⟩ => rowsB_24 c arg2 harg2 arg3 harg3 arg4 harg4 arg5 harg5 arg6 harg6 arg7 harg7 arg8 harg8 arg9 harg9 arg10 harg10 x0 x1 x2 x3 x4 x5 x6 x7 x8 q
  | ⟨25, _⟩ => rowsB_25 c arg2 harg2 arg3 harg3 arg4 harg4 arg5 harg5 arg6 harg6 arg7 harg7 arg8 harg8 arg9 harg9 arg10 harg10 x0 x1 x2 x3 x4 x5 x6 x7 x8 q
  | ⟨26, _⟩ => rowsB_26 c arg2 harg2 arg3 harg3 arg4 harg4 arg5 harg5 arg6 harg6 arg7 harg7 arg8 harg8 arg9 harg9 arg10 harg10 x0 x1 x2 x3 x4 x5 x6 x7 x8 q
  | ⟨27, _⟩ => rowsB_27 c arg2 harg2 arg3 harg3 arg4 harg4 arg5 harg5 arg6 harg6 arg7 harg7 arg8 harg8 arg9 harg9 arg10 harg10 x0 x1 x2 x3 x4 x5 x6 x7 x8 q
  | ⟨28, _⟩ => rowsB_28 c arg2 harg2 arg3 harg3 arg4 harg4 arg5 harg5 arg6 harg6 arg7 harg7 arg8 harg8 arg9 harg9 arg10 harg10 x0 x1 x2 x3 x4 x5 x6 x7 x8 q
  | ⟨29, _⟩ => rowsB_29 c arg2 harg2 arg3 harg3 arg4 harg4 arg5 harg5 arg6 harg6 arg7 harg7 arg8 harg8 arg9 harg9 arg10 harg10 x0 x1 x2 x3 x4 x5 x6 x7 x8 q
  | ⟨30, _⟩ => rowsB_30 c arg2 harg2 arg3 harg3 arg4 harg4 arg5 harg5 arg6 harg6 arg7 harg7 arg8 harg8 arg9 harg9 arg10 harg10 x0 x1 x2 x3 x4 x5 x6 x7 x8 q
  | ⟨31, _⟩ => rowsB_31 c arg2 harg2 arg3 harg3 arg4 harg4 arg5 harg5 arg6 harg6 arg7 harg7 arg8 harg8 arg9 harg9 arg10 harg10 x0 x1 x2 x3 x4 x5 x6 x7 x8 q
  | ⟨k + 32, hk⟩ => absurd hk (by omega)

/-- Case A's run computes the same rows. -/
theorem rowsA_eq (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) :
    kernelRun0_A.sl.v1977 (F := Ideal) c arg2 harg2 arg3 harg3 arg4 harg4 arg5 harg5 arg6 harg6 arg7 harg7 arg8 harg8 arg9 harg9 arg10 harg10 x0 x1 x2 x3 x4 x5 x6 x7 x8 = kernelRun0_B.sl.v1977 (F := Ideal) c arg2 harg2 arg3 harg3 arg4 harg4 arg5 harg5 arg6 harg6 arg7 harg7 arg8 harg8 arg9 harg9 arg10 harg10 x0 x1 x2 x3 x4 x5 x6 x7 x8 := by
  unfold kernelRun0_A.sl.v1977 kernelRun0_B.sl.v1977
  sl_unfold_run_names
  rfl

/-- Case C's run computes the same rows. -/
theorem rowsC_eq (c : Dev nD) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) :
    kernelRun0_C.sl.v1977 (F := Ideal) c arg2 harg2 arg3 harg3 arg4 harg4 arg5 harg5 arg6 harg6 arg7 harg7 arg8 harg8 arg9 harg9 arg10 harg10 x0 x1 x2 x3 x4 x5 x6 x7 x8 = kernelRun0_B.sl.v1977 (F := Ideal) c arg2 harg2 arg3 harg3 arg4 harg4 arg5 harg5 arg6 harg6 arg7 harg7 arg8 harg8 arg9 harg9 arg10 harg10 x0 x1 x2 x3 x4 x5 x6 x7 x8 := by
  unfold kernelRun0_C.sl.v1977 kernelRun0_B.sl.v1977
  sl_unfold_run_names
  rfl

end Cert.KernelIdeal.Hand

end
-- ==== Proof.KI.Pay.lean ====
/-
  What one run of the kernel body leaves in the accumulator, entry by entry: the accumulator it found (zero at the
  first key tile, where the body has just stored the zero block) plus the tile's sum of pair terms; and, at the last
  key tile, the output buffer receives the whole accumulator.
-/
import proofs.«170118_j14654428414389_2_alg».proof.Proof.KI.Frame
import proofs.«170118_j14654428414389_2_alg».proof.Proof.KI.PayRows
set_option maxRecDepth 16384
noncomputable section
namespace Cert.KernelIdeal.Hand
open Cert.KernelIdeal Cert.KernelIdeal.Gen
open Idealize.ShloMosaic Idealize.ShloMosaic.TcCoe Idealize.ShloMosaic.Tactic Idealize.ShloMosaic.ValueIdx
open Idealize.SL Idealize.SL.Sem
open Cert.Lib.VecIx2 Cert.GeoSpec

theorem sout_A (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : cond0_0 i) (hc1 : ¬cond0_1 i)
    (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (h : Fin 32) (q : Fin 128) :
    sout0_A_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 (ix2 h q) = tileSum x0 x1 x2 x3 x4 x5 x6 x7 x8 h q := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  rw [View.canon_cons_unit_zero (S := S32x128) hz]
  unfold kernelRun0_A.sl.r_108 kernelRun0_A.sl.v1976 kernelRun0_A.sl.HS0_1
  rw [View.readCov_unit_zero (S := S32x128) _ hz]
  simp only [k0_pay1, k0_pay117, k0_pay2, shapeCast_self, addf_apply, broadcast_apply, Ideal.ofBits_def, Ideal.ofBits_zero_f32, zero_add]
  rw [rowsA_eq, rowsB]

theorem sout_B (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : ¬cond0_1 i)
    (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (xs0 : Vec Ideal S32x128 .f32) (h : Fin 32) (q : Fin 128) :
    sout0_B_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 (ix2 h q) = xs0 (ix2 h q) + tileSum x0 x1 x2 x3 x4 x5 x6 x7 x8 h q := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_B
  dsimp only
  rw [View.canon_unit_zero hz]
  unfold kernelRun0_B.sl.r_108
  simp only [k0_pay1, k0_pay117, shapeCast_self, addf_apply, View.readAt_eq_ld, harg12.read_unread, View.ld_unit_zero (S := S32x128) hz]
  rw [rowsB]

theorem sout_C (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : cond0_1 i)
    (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (xs0 : Vec Ideal S32x128 .f32) (h : Fin 32) (q : Fin 128) :
    sout0_C_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 (ix2 h q) = xs0 (ix2 h q) + tileSum x0 x1 x2 x3 x4 x5 x6 x7 x8 h q := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  unfold kernelRun0_C.sl.HS0_1
  rw [View.canon_unit_zero hz]
  unfold kernelRun0_C.sl.r_108
  simp only [k0_pay1, k0_pay117, shapeCast_self, addf_apply, View.readAt_eq_ld, harg12.read_unread, View.ld_unit_zero (S := S32x128) hz]
  rw [rowsC_eq, rowsB]

/-- At the last key tile the output buffer receives the whole accumulator. -/
theorem out_C (c : Dev nD) (i : grid0.Coords) (arg2 : Memref sig .tc .vmem S3x128 .f32) (harg2 : arg2.IsWhole) (arg3 : Memref sig .tc .vmem S9x128 .f32) (harg3 : arg3.IsWhole) (arg4 : Memref sig .tc .vmem S512x3 .f32) (harg4 : arg4.IsWhole) (arg5 : Memref sig .tc .vmem S512x9 .f32) (harg5 : arg5.IsWhole) (arg6 : Memref sig .tc .vmem S512x32 .f32) (harg6 : arg6.IsWhole) (arg7 : Memref sig .tc .vmem S8x3 .f32) (harg7 : arg7.IsWhole) (arg8 : Memref sig .tc .vmem S1x8 .f32) (harg8 : arg8.IsWhole) (arg9 : Memref sig .tc .vmem S32x8 .f32) (harg9 : arg9.IsWhole) (arg10 : Memref sig .tc .vmem S1x32 .f32) (harg10 : arg10.IsWhole) (arg11 : Memref sig .tc .vmem S32x128 .f32) (harg11 : arg11.IsWhole) (arg12 : Memref sig .tc .vmem S32x128 .f32) (harg12 : arg12.IsWhole) (hc0 : ¬cond0_0 i) (hc1 : cond0_1 i)
    (x0 : Vec Ideal S3x128 .f32) (x1 : Vec Ideal S9x128 .f32) (x2 : Vec Ideal S512x3 .f32) (x3 : Vec Ideal S512x9 .f32) (x4 : Vec Ideal S512x32 .f32) (x5 : Vec Ideal S8x3 .f32) (x6 : Vec Ideal S1x8 .f32) (x7 : Vec Ideal S32x8 .f32) (x8 : Vec Ideal S1x32 .f32) (xs0 : Vec Ideal S32x128 .f32) :
    out0_C_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = sout0_C_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 := by
  unfold out0_C_9 sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0), View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  rw [View.canon_unit_zero hz]
  unfold kernelRun0_C.sl.v1985 kernelRun0_C.sl.HS0_1
  rw [View.readCov_unit_zero (S := S32x128) _ hz, View.canon_unit_zero hz]

end Cert.KernelIdeal.Hand

end
-- ==== Proof.KI.Final.lean ====
/-
  From the blocks to the array: the value of the output array of the all-pairs geometric convolution.

  The grid is 16 × 4: point t works on query tile t / 4 (128 query points, lanes q) and key tile t % 4 (512 keys). The
  query windows' blocks (the transposed points and frames) sit at column block t / 4 of their arrays, the key windows'
  blocks (points, frames, features) at row block t % 4, the four weight windows' blocks are their whole arrays, and the
  output window's block is column block t / 4 of the 32 × 2048 output (`idx_facts`, decided over the grid; the block
  reads `iblk0_apply` … `iblk8_apply` over explicit coordinates).

  Read through these, one body run's tile sum is the sum of the pair terms of query point 128 · (t / 4) + q over the
  keys 512 · (t % 4) + x, x < 512 (`tile_eq`; the query point's vectors are read off the transposed arrays, which hold
  the points' and frames' arrays transposed: the two hypotheses hT47, hT48). The accumulator is left at the tile sum at
  the first key tile and receives the tile sum on top of what the point before left at the later ones (`acc_A`,
  `acc_B`, `acc_C`), so by induction on the point it holds, after point t, the pair terms summed over the keys
  below 512 · (t % 4 + 1) (`acc_eq`; sums over ranges of natural numbers, `pairN`, so that they split and join). At
  the last key tile that is the sum over all 2048 keys (`accS_last`), the output window's buffer receives the
  accumulator (`out_eq_acc`), and the point writes back its block of the array G9 : (h, n) ↦ Σ_j pair(n, j)
  (`flushed9_eq`). The points that write back, 4 · (n / 128) + 3, cover every column n (`cover9`), so the output
  array ends holding G9 (`final9_all`), which is the specification's aggregate entry by entry (`final9`).
-/
import proofs.«170118_j14654428414389_2_alg».proof.Proof.KI.Pay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

variable (m : (ℓ : Loc nD τ sig) → Buf (Elt Ideal) ℓ)

/-- The printed index maps over the grid: the query windows and the output sit at column block t / 4, the key windows at
    row block t % 4, the weights at their one block. -/
theorem idx_facts : ∀ t : Fin cfg0.N,
    win0_0.index t (0 : Fin 2) = 0 ∧ win0_0.index t (1 : Fin 2) = t.val / 4
    ∧ win0_1.index t (0 : Fin 2) = 0 ∧ win0_1.index t (1 : Fin 2) = t.val / 4
    ∧ win0_2.index t (0 : Fin 2) = t.val % 4 ∧ win0_2.index t (1 : Fin 2) = 0
    ∧ win0_3.index t (0 : Fin 2) = t.val % 4 ∧ win0_3.index t (1 : Fin 2) = 0
    ∧ win0_4.index t (0 : Fin 2) = t.val % 4 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = t.val / 4 :=
  (by decide +kernel : ∀ t : Fin grid0.N, _)

/-! ## The windows' blocks read at an entry -/

/-- Window 0's block at point t read at (a, b): a query window's block sits at column block t / 4 of its array. -/
theorem iblk0_apply (c : Dev nD) (t : Fin cfg0.N) (a : Fin 3) (b : Fin 128) (a' : Fin 3) (b' : Fin 2048)
    (ha : a'.val = a.val) (hb : b'.val = 128 * (t.val / 4) + b.val) :
    (iblk m c 0 t : Vec Ideal S3x128 .f32) (ix2 a b) = V m c main_v47 (ix2 a' b') := by
  obtain ⟨e0_0, e0_1, e1_0, e1_1, e2_0, e2_1, e3_0, e3_1, e4_0, e4_1, e5_0, e5_1, e6_0, e6_1, e7_0, e7_1, e8_0, e8_1, e9_0, e9_1⟩ := idx_facts t
  unfold iblk
  rw [View.read_apply]
  show V m c main_v47 _ = V m c main_v47 _
  congr 1
  funext d
  apply Fin.ext
  match d with
  | ⟨0, _⟩ => show win0_0.index t 0 * 3 + 1 * a.val = a'.val; rw [e0_0, ha]; omega
  | ⟨1, _⟩ => show win0_0.index t 1 * 128 + 1 * b.val = b'.val; rw [e0_1, hb]; omega

/-- Window 1's block at point t read at (a, b): a query window's block sits at column block t / 4 of its array. -/
theorem iblk1_apply (c : Dev nD) (t : Fin cfg0.N) (a : Fin 9) (b : Fin 128) (a' : Fin 9) (b' : Fin 2048)
    (ha : a'.val = a.val) (hb : b'.val = 128 * (t.val / 4) + b.val) :
    (iblk m c 1 t : Vec Ideal S9x128 .f32) (ix2 a b) = V m c main_v48 (ix2 a' b') := by
  obtain ⟨e0_0, e0_1, e1_0, e1_1, e2_0, e2_1, e3_0, e3_1, e4_0, e4_1, e5_0, e5_1, e6_0, e6_1, e7_0, e7_1, e8_0, e8_1, e9_0, e9_1⟩ := idx_facts t
  unfold iblk
  rw [View.read_apply]
  show V m c main_v48 _ = V m c main_v48 _
  congr 1
  funext d
  apply Fin.ext
  match d with
  | ⟨0, _⟩ => show win0_1.index t 0 * 9 + 1 * a.val = a'.val; rw [e1_0, ha]; omega
  | ⟨1, _⟩ => show win0_1.index t 1 * 128 + 1 * b.val = b'.val; rw [e1_1, hb]; omega

/-- Window 2's block at point t read at (a, b): a key window's block sits at row block t % 4 of its array. -/
theorem iblk2_apply (c : Dev nD) (t : Fin cfg0.N) (a : Fin 512) (b : Fin 3) (a' : Fin 2048) (b' : Fin 3)
    (ha : a'.val = 512 * (t.val % 4) + a.val) (hb : b'.val = b.val) :
    (iblk m c 2 t : Vec Ideal S512x3 .f32) (ix2 a b) = V m c main_v43 (ix2 a' b') := by
  obtain ⟨e0_0, e0_1, e1_0, e1_1, e2_0, e2_1, e3_0, e3_1, e4_0, e4_1, e5_0, e5_1, e6_0, e6_1, e7_0, e7_1, e8_0, e8_1, e9_0, e9_1⟩ := idx_facts t
  unfold iblk
  rw [View.read_apply]
  show V m c main_v43 _ = V m c main_v43 _
  congr 1
  funext d
  apply Fin.ext
  match d with
  | ⟨0, _⟩ => show win0_2.index t 0 * 512 + 1 * a.val = a'.val; rw [e2_0, ha]; omega
  | ⟨1, _⟩ => show win0_2.index t 1 * 3 + 1 * b.val = b'.val; rw [e2_1, hb]; omega

/-- Window 3's block at point t read at (a, b): a key window's block sits at row block t % 4 of its array. -/
theorem iblk3_apply (c : Dev nD) (t : Fin cfg0.N) (a : Fin 512) (b : Fin 9) (a' : Fin 2048) (b' : Fin 9)
    (ha : a'.val = 512 * (t.val % 4) + a.val) (hb : b'.val = b.val) :
    (iblk m c 3 t : Vec Ideal S512x9 .f32) (ix2 a b) = V m c main_v44 (ix2 a' b') := by
  obtain ⟨e0_0, e0_1, e1_0, e1_1, e2_0, e2_1, e3_0, e3_1, e4_0, e4_1, e5_0, e5_1, e6_0, e6_1, e7_0, e7_1, e8_0, e8_1, e9_0, e9_1⟩ := idx_facts t
  unfold iblk
  rw [View.read_apply]
  show V m c main_v44 _ = V m c main_v44 _
  congr 1
  funext d
  apply Fin.ext
  match d with
  | ⟨0, _⟩ => show win0_3.index t 0 * 512 + 1 * a.val = a'.val; rw [e3_0, ha]; omega
  | ⟨1, _⟩ => show win0_3.index t 1 * 9 + 1 * b.val = b'.val; rw [e3_1, hb]; omega

/-- Window 4's block at point t read at (a, b): a key window's block sits at row block t % 4 of its array. -/
theorem iblk4_apply (c : Dev nD) (t : Fin cfg0.N) (a : Fin 512) (b : Fin 32) (a' : Fin 2048) (b' : Fin 32)
    (ha : a'.val = 512 * (t.val % 4) + a.val) (hb : b'.val = b.val) :
    (iblk m c 4 t : Vec Ideal S512x32 .f32) (ix2 a b) = V m c main_v41 (ix2 a' b') := by
  obtain ⟨e0_0, e0_1, e1_0, e1_1, e2_0, e2_1, e3_0, e3_1, e4_0, e4_1, e5_0, e5_1, e6_0, e6_1, e7_0, e7_1, e8_0, e8_1, e9_0, e9_1⟩ := idx_facts t
  unfold iblk
  rw [View.read_apply]
  show V m c main_v41 _ = V m c main_v41 _
  congr 1
  funext d
  apply Fin.ext
  match d with
  | ⟨0, _⟩ => show win0_4.index t 0 * 512 + 1 * a.val = a'.val; rw [e4_0, ha]; omega
  | ⟨1, _⟩ => show win0_4.index t 1 * 32 + 1 * b.val = b'.val; rw [e4_1, hb]; omega

/-- Window 5's block at point t read at (a, b): a weight window's one block is its whole array. -/
theorem iblk5_apply (c : Dev nD) (t : Fin cfg0.N) (a : Fin 8) (b : Fin 3) (a' : Fin 8) (b' : Fin 3)
    (ha : a'.val = a.val) (hb : b'.val = b.val) :
    (iblk m c 5 t : Vec Ideal S8x3 .f32) (ix2 a b) = V m c main_arg9 (ix2 a' b') := by
  obtain ⟨e0_0, e0_1, e1_0, e1_1, e2_0, e2_1, e3_0, e3_1, e4_0, e4_1, e5_0, e5_1, e6_0, e6_1, e7_0, e7_1, e8_0, e8_1, e9_0, e9_1⟩ := idx_facts t
  unfold iblk
  rw [View.read_apply]
  show V m c main_arg9 _ = V m c main_arg9 _
  congr 1
  funext d
  apply Fin.ext
  match d with
  | ⟨0, _⟩ => show win0_5.index t 0 * 8 + 1 * a.val = a'.val; rw [e5_0, ha]; omega
  | ⟨1, _⟩ => show win0_5.index t 1 * 3 + 1 * b.val = b'.val; rw [e5_1, hb]; omega

/-- Window 6's block at point t read at (a, b): a weight window's one block is its whole array. -/
theorem iblk6_apply (c : Dev nD) (t : Fin cfg0.N) (a : Fin 1) (b : Fin 8) (a' : Fin 1) (b' : Fin 8)
    (ha : a'.val = a.val) (hb : b'.val = b.val) :
    (iblk m c 6 t : Vec Ideal S1x8 .f32) (ix2 a b) = V m c main_v45 (ix2 a' b') := by
  obtain ⟨e0_0, e0_1, e1_0, e1_1, e2_0, e2_1, e3_0, e3_1, e4_0, e4_1, e5_0, e5_1, e6_0, e6_1, e7_0, e7_1, e8_0, e8_1, e9_0, e9_1⟩ := idx_facts t
  unfold iblk
  rw [View.read_apply]
  show V m c main_v45 _ = V m c main_v45 _
  congr 1
  funext d
  apply Fin.ext
  match d with
  | ⟨0, _⟩ => show win0_6.index t 0 * 1 + 1 * a.val = a'.val; rw [e6_0, ha]; omega
  | ⟨1, _⟩ => show win0_6.index t 1 * 8 + 1 * b.val = b'.val; rw [e6_1, hb]; omega

/-- Window 7's block at point t read at (a, b): a weight window's one block is its whole array. -/
theorem iblk7_apply (c : Dev nD) (t : Fin cfg0.N) (a : Fin 32) (b : Fin 8) (a' : Fin 32) (b' : Fin 8)
    (ha : a'.val = a.val) (hb : b'.val = b.val) :
    (iblk m c 7 t : Vec Ideal S32x8 .f32) (ix2 a b) = V m c main_arg11 (ix2 a' b') := by
  obtain ⟨e0_0, e0_1, e1_0, e1_1, e2_0, e2_1, e3_0, e3_1, e4_0, e4_1, e5_0, e5_1, e6_0, e6_1, e7_0, e7_1, e8_0, e8_1, e9_0, e9_1⟩ := idx_facts t
  unfold iblk
  rw [View.read_apply]
  show V m c main_arg11 _ = V m c main_arg11 _
  congr 1
  funext d
  apply Fin.ext
  match d with
  | ⟨0, _⟩ => show win0_7.index t 0 * 32 + 1 * a.val = a'.val; rw [e7_0, ha]; omega
  | ⟨1, _⟩ => show win0_7.index t 1 * 8 + 1 * b.val = b'.val; rw [e7_1, hb]; omega

/-- Window 8's block at point t read at (a, b): a weight window's one block is its whole array. -/
theorem iblk8_apply (c : Dev nD) (t : Fin cfg0.N) (a : Fin 1) (b : Fin 32) (a' : Fin 1) (b' : Fin 32)
    (ha : a'.val = a.val) (hb : b'.val = b.val) :
    (iblk m c 8 t : Vec Ideal S1x32 .f32) (ix2 a b) = V m c main_v46 (ix2 a' b') := by
  obtain ⟨e0_0, e0_1, e1_0, e1_1, e2_0, e2_1, e3_0, e3_1, e4_0, e4_1, e5_0, e5_1, e6_0, e6_1, e7_0, e7_1, e8_0, e8_1, e9_0, e9_1⟩ := idx_facts t
  unfold iblk
  rw [View.read_apply]
  show V m c main_v46 _ = V m c main_v46 _
  congr 1
  funext d
  apply Fin.ext
  match d with
  | ⟨0, _⟩ => show win0_8.index t 0 * 1 + 1 * a.val = a'.val; rw [e8_0, ha]; omega
  | ⟨1, _⟩ => show win0_8.index t 1 * 32 + 1 * b.val = b'.val; rw [e8_1, hb]; omega

/-! ## The pair term over the arrays -/

/-- The pair term of query point i and key point j at channel h, the points' vectors read off the arrays. -/
def pairV (c : Dev nD) (i j : Fin 2048) (h : Fin 32) : EReal :=
  Cert.GeoSpec.pair (fun c' => V m c main_v43 (ix2 i c')) (fun k => V m c main_v44 (ix2 i k))
    (fun c' => V m c main_v43 (ix2 j c')) (fun k => V m c main_v44 (ix2 j k)) (fun h' => V m c main_v41 (ix2 j h'))
    (fun k a => V m c main_arg9 (ix2 k a)) (fun k => V m c main_v45 (ix2 0 k)) (fun h' k => V m c main_arg11 (ix2 h' k))
    (fun h' => V m c main_v46 (ix2 0 h')) h

/-- The same over natural numbers (zero outside the 2048 points), so that sums over ranges of keys split and join. -/
def pairN (c : Dev nD) (i j : ℕ) (h : Fin 32) : EReal :=
  if hi : i < 2048 then if hj : j < 2048 then pairV m c ⟨i, hi⟩ ⟨j, hj⟩ h else 0 else 0

/-- The pair term depends on its nine vectors only. -/
theorem pair_congr {pI pI' : Fin 3 → EReal} {nI nI' : Fin 9 → EReal} {pJ pJ' : Fin 3 → EReal} {nJ nJ' : Fin 9 → EReal}
    {fJ fJ' : Fin 32 → EReal} {A1 A1' : Fin 8 → Fin 3 → EReal} {B1 B1' : Fin 8 → EReal} {A2 A2' : Fin 32 → Fin 8 → EReal}
    {B2 B2' : Fin 32 → EReal} (h : Fin 32) (e0 : pI = pI') (e1 : nI = nI') (e2 : pJ = pJ') (e3 : nJ = nJ') (e4 : fJ = fJ')
    (e5 : A1 = A1') (e6 : B1 = B1') (e7 : A2 = A2') (e8 : B2 = B2') :
    Cert.GeoSpec.pair pI nI pJ nJ fJ A1 B1 A2 B2 h = Cert.GeoSpec.pair pI' nI' pJ' nJ' fJ' A1' B1' A2' B2' h := by
  subst e0 e1 e2 e3 e4 e5 e6 e7 e8; rfl

/-- The tile sum of the blocks at point t is the sum of the pair terms of query point 128 · (t / 4) + q over the keys
    512 · (t % 4) + x, x < 512. -/
theorem tile_eq (c : Dev nD)
    (hT47 : ∀ (c' : Fin 3) (n : Fin 2048), V m c main_v47 (ix2 c' n) = V m c main_v43 (ix2 n c'))
    (hT48 : ∀ (k : Fin 9) (n : Fin 2048), V m c main_v48 (ix2 k n) = V m c main_v44 (ix2 n k))
    (t : Fin cfg0.N) (h : Fin 32) (q : Fin 128) :
    tileSum (iblk m c 0 t) (iblk m c 1 t) (iblk m c 2 t) (iblk m c 3 t) (iblk m c 4 t) (iblk m c 5 t) (iblk m c 6 t) (iblk m c 7 t) (iblk m c 8 t) h q
      = ∑ x ∈ Finset.range 512, pairN m c (128 * (t.val / 4) + q.val) (512 * (t.val % 4) + x) h := by
  have hN : cfg0.N = 64 := N_0
  have ht : t.val < cfg0.N := t.isLt
  have hq : q.val < 128 := q.isLt
  have hi : 128 * (t.val / 4) + q.val < 2048 := by omega
  rw [Finset.sum_range]
  unfold tileSum
  refine Finset.sum_congr rfl fun jj _ => ?_
  have hjj : jj.val < 512 := jj.isLt
  have hj : 512 * (t.val % 4) + jj.val < 2048 := by omega
  unfold pairN
  rw [dif_pos hi, dif_pos hj]
  unfold pairV
  exact pair_congr h
    (funext fun c' => (iblk0_apply m c t c' q c' ⟨_, hi⟩ rfl rfl).trans (hT47 c' _))
    (funext fun k => (iblk1_apply m c t k q k ⟨_, hi⟩ rfl rfl).trans (hT48 k _))
    (funext fun c' => iblk2_apply m c t jj c' ⟨_, hj⟩ c' rfl rfl)
    (funext fun k => iblk3_apply m c t jj k ⟨_, hj⟩ k rfl rfl)
    (funext fun h' => iblk4_apply m c t jj h' ⟨_, hj⟩ h' rfl rfl)
    (funext fun k => funext fun a => iblk5_apply m c t k a k a rfl rfl)
    (funext fun k => iblk6_apply m c t 0 k 0 k rfl rfl)
    (funext fun h' => funext fun k => iblk7_apply m c t h' k h' k rfl rfl)
    (funext fun h' => iblk8_apply m c t 0 h' 0 h' rfl rfl)

/-! ## The accumulator after each point -/

/-- At the first key tile the accumulator is left at the tile's sums. -/
theorem acc_A (c : Dev nD) (t : Fin cfg0.N) (h0 : t.val % 4 = 0) (h : Fin 32) (q : Fin 128) :
    (outsAt0 m c t.val t.isLt).2 (ix2 h q) = tileSum (iblk m c 0 t) (iblk m c 1 t) (iblk m c 2 t) (iblk m c 3 t) (iblk m c 4 t) (iblk m c 5 t) (iblk m c 6 t) (iblk m c 7 t) (iblk m c 8 t) h q := by
  have h1 : ¬t.val % 4 = 3 := by omega
  refine (congrFun (congrArg Prod.snd (outsAt0_A m c t h0 h1)) (ix2 h q)).trans ?_
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun hh => h1 ((hcond0_1 t).mp hh)) (iblk m c 0 t) (iblk m c 1 t) (iblk m c 2 t) (iblk m c 3 t) (iblk m c 4 t) (iblk m c 5 t) (iblk m c 6 t) (iblk m c 7 t) (iblk m c 8 t) h q

/-- At a middle key tile the tile's sums are added to what the point before left. -/
theorem acc_B (c : Dev nD) (t : Fin cfg0.N) (h0 : ¬t.val % 4 = 0) (h1 : ¬t.val % 4 = 3) (h : Fin 32) (q : Fin 128) :
    (outsAt0 m c t.val t.isLt).2 (ix2 h q)
      = (outsAt0 m c (t.val - 1) (Nat.lt_of_le_of_lt (Nat.sub_le _ _) t.isLt)).2 (ix2 h q) + tileSum (iblk m c 0 t) (iblk m c 1 t) (iblk m c 2 t) (iblk m c 3 t) (iblk m c 4 t) (iblk m c 5 t) (iblk m c 6 t) (iblk m c 7 t) (iblk m c 8 t) h q := by
  refine (congrFun (congrArg Prod.snd (outsAt0_B m c t h0 h1)) (ix2 h q)).trans ?_
  exact sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun hh => h0 ((hcond0_0 t).mp hh)) (fun hh => h1 ((hcond0_1 t).mp hh)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2 h q

/-- At the last key tile likewise. -/
theorem acc_C (c : Dev nD) (t : Fin cfg0.N) (h0 : ¬t.val % 4 = 0) (h1 : t.val % 4 = 3) (h : Fin 32) (q : Fin 128) :
    (outsAt0 m c t.val t.isLt).2 (ix2 h q)
      = (outsAt0 m c (t.val - 1) (Nat.lt_of_le_of_lt (Nat.sub_le _ _) t.isLt)).2 (ix2 h q) + tileSum (iblk m c 0 t) (iblk m c 1 t) (iblk m c 2 t) (iblk m c 3 t) (iblk m c 4 t) (iblk m c 5 t) (iblk m c 6 t) (iblk m c 7 t) (iblk m c 8 t) h q := by
  refine (congrFun (congrArg Prod.snd (outsAt0_C m c t h0 h1)) (ix2 h q)).trans ?_
  exact sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2 h q

/-- And there the output window's buffer receives the accumulator. -/
theorem out_eq_acc (c : Dev nD) (t : Fin cfg0.N) (h0 : ¬t.val % 4 = 0) (h1 : t.val % 4 = 3) :
    (outsAt0 m c t.val t.isLt).1 = (outsAt0 m c t.val t.isLt).2 := by
  have e := outsAt0_C m c t h0 h1
  refine (congrArg Prod.fst e).trans (Eq.trans ?_ (congrArg Prod.snd e).symm)
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2

/-- The sum of the pair terms of query point 128 · (n / 4) + q over the keys of the tiles 0 … n % 4. -/
def accS (c : Dev nD) (n : ℕ) (q : Fin 128) (h : Fin 32) : EReal :=
  ∑ j ∈ Finset.range (512 * (n % 4 + 1)), pairN m c (128 * (n / 4) + q.val) j h

/-- THE INVARIANT: after point t the accumulator holds, at channel h of lane q, the pair terms of query point
    128 · (t / 4) + q summed over the keys below 512 · (t % 4 + 1). By induction on the point. -/
theorem acc_eq (c : Dev nD)
    (hT47 : ∀ (c' : Fin 3) (n : Fin 2048), V m c main_v47 (ix2 c' n) = V m c main_v43 (ix2 n c'))
    (hT48 : ∀ (k : Fin 9) (n : Fin 2048), V m c main_v48 (ix2 k n) = V m c main_v44 (ix2 n k)) :
    ∀ (k : ℕ) (t : Fin cfg0.N), t.val = k → ∀ (h : Fin 32) (q : Fin 128),
      (outsAt0 m c t.val t.isLt).2 (ix2 h q) = accS m c t.val q h := by
  intro k
  induction k using Nat.strong_induction_on with
  | _ k ih =>
    intro t htk h q
    have hN : cfg0.N = 64 := N_0
    have ht : t.val < cfg0.N := t.isLt
    by_cases h0 : t.val % 4 = 0
    · rw [acc_A m c t h0 h q, tile_eq m c hT47 hT48 t h q]
      unfold accS
      rw [h0]
      refine Finset.sum_congr rfl fun x _ => ?_
      rw [show 512 * 0 + x = x from by omega]
    · have ih' := ih (t.val - 1) (by omega) ⟨t.val - 1, by omega⟩ rfl h q
      dsimp only at ih'
      have e1 : 512 * ((t.val - 1) % 4 + 1) = 512 * (t.val % 4) := by omega
      have e2 : 128 * ((t.val - 1) / 4) + q.val = 128 * (t.val / 4) + q.val := by omega
      have e3 : 512 * (t.val % 4 + 1) = 512 * (t.val % 4) + 512 := by omega
      have hstep : (outsAt0 m c t.val t.isLt).2 (ix2 h q)
          = (outsAt0 m c (t.val - 1) (Nat.lt_of_le_of_lt (Nat.sub_le _ _) t.isLt)).2 (ix2 h q) + tileSum (iblk m c 0 t) (iblk m c 1 t) (iblk m c 2 t) (iblk m c 3 t) (iblk m c 4 t) (iblk m c 5 t) (iblk m c 6 t) (iblk m c 7 t) (iblk m c 8 t) h q := by
        by_cases h1 : t.val % 4 = 3
        · exact acc_C m c t h0 h1 h q
        · exact acc_B m c t h0 h1 h q
      rw [hstep, ih', tile_eq m c hT47 hT48 t h q]
      unfold accS
      rw [e1, e2, e3, Finset.sum_range_add]

/-! ## From the last key tile to the array -/

/-- With all four key tiles in, the sum runs over every key. -/
theorem accS_last (c : Dev nD) (n : ℕ) (hn : n % 4 = 3) (q : Fin 128) (h : Fin 32) (i : Fin 2048)
    (hi : i.val = 128 * (n / 4) + q.val) : accS m c n q h = ∑ j : Fin 2048, pairV m c i j h := by
  have hlt : 128 * (n / 4) + q.val < 2048 := hi ▸ i.isLt
  have ei : (⟨128 * (n / 4) + q.val, hlt⟩ : Fin 2048) = i := Fin.ext hi.symm
  unfold accS
  rw [hn, show 512 * (3 + 1) = 2048 from rfl, Finset.sum_range]
  refine Finset.sum_congr rfl fun j _ => ?_
  unfold pairN
  rw [dif_pos hlt, dif_pos j.isLt, ei]

/-- What the output array ends holding: at (h, n) the pair terms of query point n summed over all 2048 keys. -/
def G9 (c : Dev nD) : S32x2048.Idx → EReal := fun i => ∑ j : Fin 2048, pairV m c (i 1) j (i 0)

/-- What a last-key-tile point writes back is its block of that array. -/
theorem flushed9_eq (c : Dev nD)
    (hT47 : ∀ (c' : Fin 3) (n : Fin 2048), V m c main_v47 (ix2 c' n) = V m c main_v43 (ix2 n c'))
    (hT48 : ∀ (k : Fin 9) (n : Fin 2048), V m c main_v48 (ix2 k n) = V m c main_v44 (ix2 n k))
    (t : Fin cfg0.N) (hf : (cfg0.win 9).flush t = true) :
    (dats m 0 c).flushed 9 t = ((cfg0.win 9).blk t).view.read (Elt Ideal) (G9 m c) := by
  have h1 : t.val % 4 = 3 := (flush0_9 t).mp hf
  have h0 : ¬t.val % 4 = 0 := by omega
  have hN : cfg0.N = 64 := N_0
  have ht : t.val < cfg0.N := t.isLt
  obtain ⟨e0_0, e0_1, e1_0, e1_1, e2_0, e2_1, e3_0, e3_1, e4_0, e4_1, e5_0, e5_1, e6_0, e6_1, e7_0, e7_1, e8_0, e8_1, e9_0, e9_1⟩ := idx_facts t
  show (cfg0.win 9).cut (grid0.coords t) ((dats m 0 c).after 9 t) = _
  rw [after0_9, out_eq_acc m c t h0 h1]
  funext j
  have hj0 : (j 0).val < 32 := (j 0).isLt
  have hj1 : (j 1).val < 128 := (j 1).isLt
  have hlt : 128 * (t.val / 4) + (j 1).val < 2048 := by omega
  have ex : (cfg0.win 9).xinj (grid0.coords t) j = ix2 (⟨(j 0).val, hj0⟩ : Fin 32) (⟨(j 1).val, hj1⟩ : Fin 128) := by
    funext d; match d with | ⟨0, _⟩ => rfl | ⟨1, _⟩ => rfl
  have ea : ((cfg0.win 9).blk t).view.emb j 0 = (⟨(j 0).val, hj0⟩ : Fin 32) :=
    Fin.ext (show win0_9.index t 0 * 32 + 1 * (j 0).val = (j 0).val by rw [e9_0]; omega)
  have eb : ((cfg0.win 9).blk t).view.emb j 1 = (⟨128 * (t.val / 4) + (j 1).val, hlt⟩ : Fin 2048) :=
    Fin.ext (show win0_9.index t 1 * 128 + 1 * (j 1).val = 128 * (t.val / 4) + (j 1).val by rw [e9_1]; omega)
  show (outsAt0 m c t.val t.isLt).2 ((cfg0.win 9).xinj (grid0.coords t) j) = G9 m c (((cfg0.win 9).blk t).view.emb j)
  rw [ex, acc_eq m c hT47 hT48 t.val t rfl ⟨(j 0).val, hj0⟩ ⟨(j 1).val, hj1⟩,
    accS_last m c t.val h1 ⟨(j 1).val, hj1⟩ ⟨(j 0).val, hj0⟩ ⟨128 * (t.val / 4) + (j 1).val, hlt⟩ rfl]
  unfold G9
  rw [ea, eb]

/-- An index of the output array is in point t's block iff each coordinate is in the block's range on its axis. -/
theorem mem_blk9 (t : Fin cfg0.N) (i : S32x2048.Idx) :
    i ∈ ((cfg0.win 9).blk t).view.set ↔ ∀ a : Fin 2, win0_9.index t a * S32x128.size a ≤ (i a).val ∧ (i a).val < win0_9.index t a * S32x128.size a + S32x128.size a := by
  show i ∈ ((View.whole main_v49).slice (win0_9.rect t)).set ↔ _
  rw [View.set_slice_whole, Rect.mem_set_unit]
  exact Iff.rfl

/-- Every index of the output array is in the block of a point that writes back: column n is covered at the last key tile
    of query tile n / 128, the point 4 · (n / 128) + 3. -/
theorem cover9 (i : S32x2048.Idx) : ∃ t : Fin cfg0.N, (cfg0.win 9).flush t = true ∧ i ∈ ((cfg0.win 9).blk t).view.set := by
  have hN : cfg0.N = 64 := N_0
  have hi0 : (i 0).val < 32 := (i 0).isLt
  have hi1 : (i 1).val < 2048 := (i 1).isLt
  let t : Fin cfg0.N := ⟨4 * ((i 1).val / 128) + 3, by omega⟩
  have htv : t.val = 4 * ((i 1).val / 128) + 3 := rfl
  obtain ⟨e0_0, e0_1, e1_0, e1_1, e2_0, e2_1, e3_0, e3_1, e4_0, e4_1, e5_0, e5_1, e6_0, e6_1, e7_0, e7_1, e8_0, e8_1, e9_0, e9_1⟩ := idx_facts t
  refine ⟨t, (flush0_9 t).mpr (by omega), ?_⟩
  rw [mem_blk9]
  intro a
  match a with
  | ⟨0, _⟩ => show win0_9.index t 0 * 32 ≤ (i 0).val ∧ (i 0).val < win0_9.index t 0 * 32 + 32; rw [e9_0]; omega
  | ⟨1, _⟩ => show win0_9.index t 1 * 128 ≤ (i 1).val ∧ (i 1).val < win0_9.index t 1 * 128 + 128; rw [e9_1]; omega

/-- The output array after the run, whole. -/
theorem final9_all (c : Dev nD)
    (hT47 : ∀ (c' : Fin 3) (n : Fin 2048), V m c main_v47 (ix2 c' n) = V m c main_v43 (ix2 n c'))
    (hT48 : ∀ (k : Fin 9) (n : Fin 2048), V m c main_v48 (ix2 k n) = V m c main_v44 (ix2 n k)) :
    (dats m 0 c).arrAt 9 cfg0.N = G9 m c :=
  (dats m 0 c).arrAt_eq_of_cover 9 (G9 m c) (fun t ht => flushed9_eq m c hT47 hT48 t ht) cover9

/-- THE VALUE OF THE OUTPUT ARRAY: entry (h, n) is the aggregated feature of query point n at channel h — the pair terms
    summed over all keys — of the arrays as the region finds them. -/
theorem final9 (c : Dev nD)
    (hT47 : ∀ (c' : Fin 3) (n : Fin 2048), V m c main_v47 (ix2 c' n) = V m c main_v43 (ix2 n c'))
    (hT48 : ∀ (k : Fin 9) (n : Fin 2048), V m c main_v48 (ix2 k n) = V m c main_v44 (ix2 n k))
    (h : Fin 32) (n : Fin 2048) :
    (dats m 0 c).arrAt 9 cfg0.N (ix2 h n)
      = Cert.GeoSpec.agg (fun j c' => V m c main_v43 (ix2 j c')) (fun j k => V m c main_v44 (ix2 j k)) (fun j h' => V m c main_v41 (ix2 j h'))
          (fun k a => V m c main_arg9 (ix2 k a)) (fun k => V m c main_v45 (ix2 0 k)) (fun h' k => V m c main_arg11 (ix2 h' k)) (fun h' => V m c main_v46 (ix2 0 h')) n h := by
  rw [final9_all m c hT47 hT48]
  rfl

end Cert.KernelIdeal.Hand

end
-- ==== Proof.AlgebraicFinal.lean ====
import proofs.«170118_j14654428414389_2_alg».proof.Proof.Algebraic
import proofs.«170118_j14654428414389_2_alg».proof.Proof.RefEndsK
import proofs.«170118_j14654428414389_2_alg».proof.Proof.KI.Final

/-!
# The value conjunct

The kernel's output array at an index, the reference's aggregate at an index, and the reference's result, scaled points
and features as functions of its launch contents — the last two ends stated with the kernel side's own composed
functions, so that the two sides' shared chains are one function by definition — put together.
-/

set_option maxRecDepth 16384

noncomputable section

namespace Cert.Proof

open Idealize.ShloMosaic

/-- From launch memories that agree on the nineteen arguments, the two programs' runs end with the same result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  algebraic_of Cert.KernelIdeal.Hand.tailK Cert.KernelIdeal.Hand.preK Cert.ReferenceIdeal.RefMid.nuvOf rfl rfl
    Cert.ReferenceIdeal.RefMid.nuvOf_n9 Cert.KernelIdeal.Hand.final9 Cert.ReferenceIdeal.RefValue.agg_apply
    Cert.ReferenceIdeal.RefEndsK.result_eq Cert.ReferenceIdeal.RefEndsK.pts_eq Cert.ReferenceIdeal.RefEndsK.feat_eq

end Cert.Proof

end
-- ==== Proof.lean ====
/-
  The certificate of the all-pairs geometric convolution kernel against its reference.

  Frames: each of the three programs runs to its end without a fault and leaves its nineteen argument arrays as
  launched. For the two kernel programs (word level and idealized) this is the pipeline's frame run over proof data
  that names what the accumulator and the output window hold after every grid point (Proof/K/Frame.lean,
  Proof/KI/Frame.lean); for the reference it is its host operations run one after the other (Proof/RefRun.lean).
  The idealization rewrote nothing, so it preserves the kernel trivially. Algebraic: at the ideal instance both
  programs compute, for query point i and channel h, the sum over all key points j of
  window(i, j) · Xc2(i, j, h) · f(j, h) (Proof/Spec.lean) — the kernel by accumulating four key tiles of 512 in a
  scratch buffer, the reference by one sum over 2048 — between the same host operations before and after.
-/
import proofs.«170118_j14654428414389_2_alg».proof.Defs
import proofs.«170118_j14654428414389_2_alg».proof.Proof.Gen.Kernel
import proofs.«170118_j14654428414389_2_alg».proof.Proof.Gen.KernelIdeal
import proofs.«170118_j14654428414389_2_alg».proof.Proof.Gen.ReferenceIdeal
import proofs.«170118_j14654428414389_2_alg».proof.Proof.Gen.Pre_finite_inputs
import proofs.«170118_j14654428414389_2_alg».proof.Proof.K.Frame
import proofs.«170118_j14654428414389_2_alg».proof.Proof.KI.Frame
import proofs.«170118_j14654428414389_2_alg».proof.Proof.RefRun
import proofs.«170118_j14654428414389_2_alg».proof.Proof.AlgebraicFinal
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ
theorem frame_ri : Cert.frame_ReferenceIdeal (hReferenceIdeal := Cert.ReferenceIdeal.Gen.facts) (hPre_finite_inputs := Cert.Pre_finite_inputs.Gen.facts) :=
  fun m ρ _ => Cert.ReferenceIdeal.RefRun.frame (F := Ideal) m ρ

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
